-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S64x135264 : Shape := ⟨2, ![64, 135264]⟩
abbrev S64 : Shape := ⟨1, ![64]⟩
abbrev S10x135264 : Shape := ⟨2, ![10, 135264]⟩
abbrev S10 : Shape := ⟨1, ![10]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S64x135264 : S_.BroadcastsInDim S64x135264 (![] : Fin 0 → Fin S64x135264.rank)
  reducesTo_S64x135264_S_d0_1 : S64x135264.ReducesTo [0, 1] S_
  bcast_S_S64 : S_.BroadcastsInDim S64 (![] : Fin 0 → Fin S64.rank)
  reducesTo_S64_S_d0 : S64.ReducesTo [0] S_
  bcast_S_S10x135264 : S_.BroadcastsInDim S10x135264 (![] : Fin 0 → Fin S10x135264.rank)
  reducesTo_S10x135264_S_d0_1 : S10x135264.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S64 .f32) (main_arg5 : FVec F S10x135264 .f32) (main_arg6 : FVec F S10 .f32) (main_v13 : IVec S_ 1) (main_v16 : IVec S64x135264 1) : IVec S_ 1 :=
  let main_c_5 : IVec S_ 1 := constantI S_ 1 1#1
  let main_v17 : IVec S_ 1 := (fun x v => Host.reduce IntOp.andi x v reducesTo_S64x135264_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S10x135264 .f32 := Host.absf main_arg5
  let main_cst_8 : FVec F S_ .f32 := constant S_ .f32 0x7F800000#32
  let main_v25 : FVec F S10x135264 .f32 := broadcastInDim S10x135264 ![] bcast_S_S10x135264 main_cst_8
  let main_v26 : IVec S10x135264 1 := cmpf .olt main_v24 main_v25
  let main_c_9 : IVec S_ 1 := constantI S_ 1 1#1
  let main_v27 : IVec S_ 1 := (fun x v => Host.reduce IntOp.andi x v reducesTo_S10x135264_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S1024x64 .f32) (main_arg1 : FVec F S64x135264 .f32) (main_arg2 : FVec F S64 .f32) (main_arg3 : FVec F S64x135264 .f32) (main_arg4 : FVec F S64 .f32) (main_arg5 : FVec F S10x135264 .f32) (main_arg6 : FVec F S10 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S64x135264 .f32 := Host.absf main_arg1
  let main_cst_0 : FVec F S_ .f32 := constant S_ .f32 0x7F800000#32
  let main_v5 : FVec F S64x135264 .f32 := broadcastInDim S64x135264 ![] bcast_S_S64x135264 main_cst_0
  let main_v6 : IVec S64x135264 1 := cmpf .olt main_v4 main_v5
  let main_c_1 : IVec S_ 1 := constantI S_ 1 1#1
  let main_v7 : IVec S_ 1 := (fun x v => Host.reduce IntOp.andi x v reducesTo_S64x135264_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x135264 .f32 := Host.absf main_arg3
  let main_cst_4 : FVec F S_ .f32 := constant S_ .f32 0x7F800000#32
  let main_v15 : FVec F S64x135264 .f32 := broadcastInDim S64x135264 ![] bcast_S_S64x135264 main_cst_4
  let main_v16 : IVec S64x135264 1 := cmpf .olt main_v14 main_v15
  fn_part1 (F := F) main_arg4 main_arg5 main_arg6 main_v13 main_v16
-- ==== Kernel.lean ====
abbrev S1024x64 : Shape := ⟨2, ![1024, 64]⟩
abbrev S64x135264 : Shape := ⟨2, ![64, 135264]⟩
abbrev S64 : Shape := ⟨1, ![64]⟩
abbrev S10x135264 : Shape := ⟨2, ![10, 135264]⟩
abbrev S10 : Shape := ⟨1, ![10]⟩
abbrev S_ : Shape := ⟨0, ![]⟩
abbrev S64x64 : Shape := ⟨2, ![64, 64]⟩
abbrev S4096 : Shape := ⟨1, ![4096]⟩
abbrev S2080 : Shape := ⟨1, ![2080]⟩
abbrev S4096x1 : Shape := ⟨2, ![4096, 1]⟩
abbrev S2080x1 : Shape := ⟨2, ![2080, 1]⟩
abbrev S1024x2080 : Shape := ⟨2, ![1024, 2080]⟩
abbrev S64x2080 : Shape := ⟨2, ![64, 2080]⟩
abbrev S64x133120 : Shape := ⟨2, ![64, 133120]⟩
abbrev S64x64x2080 : Shape := ⟨3, ![64, 64, 2080]⟩
abbrev S4096x2080 : Shape := ⟨2, ![4096, 2080]⟩
abbrev S1x64 : Shape := ⟨2, ![1, 64]⟩
abbrev S256x64 : Shape := ⟨2, ![256, 64]⟩
abbrev S256x2080 : Shape := ⟨2, ![256, 2080]⟩
abbrev S256x4096 : Shape := ⟨2, ![256, 4096]⟩
abbrev S4096x64 : Shape := ⟨2, ![4096, 64]⟩
abbrev S10x64 : Shape := ⟨2, ![10, 64]⟩
abbrev S10x2080 : Shape := ⟨2, ![10, 2080]⟩
abbrev S10x133120 : Shape := ⟨2, ![10, 133120]⟩
abbrev S10x64x2080 : Shape := ⟨3, ![10, 64, 2080]⟩
abbrev S640x2080 : Shape := ⟨2, ![640, 2080]⟩
abbrev S1x10 : Shape := ⟨2, ![1, 10]⟩
abbrev S1024x10 : Shape := ⟨2, ![1024, 10]⟩
abbrev S256x10 : Shape := ⟨2, ![256, 10]⟩
abbrev S256x640 : Shape := ⟨2, ![256, 640]⟩
abbrev S640x10 : Shape := ⟨2, ![640, 10]⟩

abbrev nBuf : Space → Nat
  | .hbm => 439
  | .vmem => 30
  | .smem => 0
  | _ => 0

abbrev hbmTy0_0 (i : Nat) : BufTy := match i % 128 with
  | 0 => ⟨S1024x64, .f32⟩
  | 1 => ⟨S64x135264, .f32⟩
  | 2 => ⟨S64, .f32⟩
  | 3 => ⟨S64x135264, .f32⟩
  | 4 => ⟨S64, .f32⟩
  | 5 => ⟨S10x135264, .f32⟩
  | 6 => ⟨S10, .f32⟩
  | 7 => ⟨S_, .f32⟩
  | 8 => ⟨S64x64, .f32⟩
  | 9 => ⟨S64x64, .i32⟩
  | 10 => ⟨S_, .i32⟩
  | 11 => ⟨S64x64, .i32⟩
  | 12 => ⟨S64x64, .i32⟩
  | 13 => ⟨S64x64, .i32⟩
  | 14 => ⟨S64x64, .i1⟩
  | 15 => ⟨S_, .f32⟩
  | 16 => ⟨S64x64, .f32⟩
  | 17 => ⟨S64x64, .f32⟩
  | 18 => ⟨S_, .f32⟩
  | 19 => ⟨S64x64, .f32⟩
  | 20 => ⟨S64x64, .i1⟩
  | 21 => ⟨S4096, .i1⟩
  | 22 => ⟨S4096, .i32⟩
  | 23 => ⟨S_, .i32⟩
  | 24 => ⟨S_, .i32⟩
  | 25 => ⟨S4096, .i32⟩
  | 26 => ⟨S_, .i32⟩
  | 27 => ⟨S2080, .i32⟩
  | 28 => ⟨S_, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S_, .i32⟩
  | 41 => ⟨S4096, .i32⟩
  | 42 => ⟨S2080, .i32⟩
  | 43 => ⟨S_, .i32⟩
  | 44 => ⟨S_, .i32⟩
  | 45 => ⟨S2080, .i32⟩
  | 46 => ⟨S_, .i32⟩
  | 47 => ⟨S2080, .i32⟩
  | 48 => ⟨S2080, .i32⟩
  | 49 => ⟨S2080, .i32⟩
  | 50 => ⟨S_, .i32⟩
  | 51 => ⟨S2080, .i32⟩
  | 52 => ⟨S2080, .i1⟩
  | 53 => ⟨S2080, .i32⟩
  | 54 => ⟨S2080, .i32⟩
  | 55 => ⟨S_, .i32⟩
  | 56 => ⟨S2080, .i32⟩
  | 57 => ⟨S2080, .i1⟩
  | 58 => ⟨S2080, .i1⟩
  | 59 => ⟨S_, .i32⟩
  | 60 => ⟨S2080, .i32⟩
  | 61 => ⟨S2080, .i32⟩
  | 62 => ⟨S2080, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S2080, .i32⟩
  | 70 => ⟨S2080, .i32⟩
  | 71 => ⟨S_, .i32⟩
  | 72 => ⟨S2080, .i32⟩
  | 73 => ⟨S2080, .i1⟩
  | 74 => ⟨S_, .i32⟩
  | 75 => ⟨S2080, .i32⟩
  | 76 => ⟨S2080, .i1⟩
  | 77 => ⟨S_, .i32⟩
  | 78 => ⟨S_, .i1⟩
  | 79 => ⟨S2080, .i1⟩
  | 80 => ⟨S2080, .i1⟩
  | 81 => ⟨S2080, .i1⟩
  | 82 => ⟨S2080, .i32⟩
  | 83 => ⟨S2080, .i32⟩
  | 84 => ⟨S2080, .i32⟩
  | 85 => ⟨S_, .i32⟩
  | 86 => ⟨S2080, .i32⟩
  | 87 => ⟨S2080, .i32⟩
  | 88 => ⟨S2080, .i32⟩
  | 89 => ⟨S_, .i32⟩
  | 90 => ⟨S2080, .i32⟩
  | 91 => ⟨S2080, .i1⟩
  | 92 => ⟨S2080, .i32⟩
  | 93 => ⟨S2080, .i32⟩
  | 94 => ⟨S_, .i32⟩
  | 95 => ⟨S2080, .i32⟩
  | 96 => ⟨S2080, .i1⟩
  | 97 => ⟨S2080, .i1⟩
  | 98 => ⟨S_, .i32⟩
  | 99 => ⟨S2080, .i32⟩
  | 100 => ⟨S2080, .i32⟩
  | 101 => ⟨S2080, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S2080, .i32⟩
  | 109 => ⟨S2080, .i32⟩
  | 110 => ⟨S_, .i32⟩
  | 111 => ⟨S2080, .i32⟩
  | 112 => ⟨S2080, .i1⟩
  | 113 => ⟨S_, .i32⟩
  | 114 => ⟨S2080, .i32⟩
  | 115 => ⟨S2080, .i1⟩
  | 116 => ⟨S_, .i32⟩
  | 117 => ⟨S_, .i1⟩
  | 118 => ⟨S2080, .i1⟩
  | 119 => ⟨S2080, .i1⟩
  | 120 => ⟨S2080, .i1⟩
  | 121 => ⟨S2080, .i32⟩
  | 122 => ⟨S2080, .i32⟩
  | 123 => ⟨S2080, .i32⟩
  | 124 => ⟨S_, .i32⟩
  | 125 => ⟨S2080, .i32⟩
  | 126 => ⟨S2080, .i1⟩
  | 127 => ⟨S_, .i32⟩
  | _ => ⟨S1024x64, .f32⟩

abbrev hbmTy0_1 (i : Nat) : BufTy := match i % 128 with
  | 0 => ⟨S2080, .i32⟩
  | 1 => ⟨S2080, .i32⟩
  | 2 => ⟨S2080, .i32⟩
  | 3 => ⟨S2080x1, .i32⟩
  | 4 => ⟨S1024x2080, .f32⟩
  | 5 => ⟨S_, .i32⟩
  | 6 => ⟨S2080, .i32⟩
  | 7 => ⟨S2080, .i1⟩
  | 8 => ⟨S_, .i32⟩
  | 9 => ⟨S2080, .i32⟩
  | 10 => ⟨S2080, .i32⟩
  | 11 => ⟨S2080, .i32⟩
  | 12 => ⟨S2080x1, .i32⟩
  | 13 => ⟨S1024x2080, .f32⟩
  | 14 => ⟨S1024x2080, .f32⟩
  | 15 => ⟨S64x64, .f32⟩
  | 16 => ⟨S64x2080, .f32⟩
  | 17 => ⟨S64x133120, .f32⟩
  | 18 => ⟨S64x64x2080, .f32⟩
  | 19 => ⟨S64x64x2080, .bf16⟩
  | 20 => ⟨S4096x2080, .bf16⟩
  | 21 => ⟨S1x64, .f32⟩
  | 22 => ⟨S1024x64, .f32⟩
  | 23 => ⟨S_, .f32⟩
  | 24 => ⟨S64x64, .f32⟩
  | 25 => ⟨S64x64, .i32⟩
  | 26 => ⟨S_, .i32⟩
  | 27 => ⟨S64x64, .i32⟩
  | 28 => ⟨S64x64, .i32⟩
  | 29 => ⟨S64x64, .i32⟩
  | 30 => ⟨S64x64, .i1⟩
  | 31 => ⟨S_, .f32⟩
  | 32 => ⟨S64x64, .f32⟩
  | 33 => ⟨S64x64, .f32⟩
  | 34 => ⟨S_, .f32⟩
  | 35 => ⟨S64x64, .f32⟩
  | 36 => ⟨S64x64, .i1⟩
  | 37 => ⟨S4096, .i1⟩
  | 38 => ⟨S4096, .i32⟩
  | 39 => ⟨S_, .i32⟩
  | 40 => ⟨S_, .i32⟩
  | 41 => ⟨S4096, .i32⟩
  | 42 => ⟨S_, .i32⟩
  | 43 => ⟨S2080, .i32⟩
  | 44 => ⟨S_, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S4096x1, .i32⟩
  | 56 => ⟨S_, .i32⟩
  | 57 => ⟨S4096, .i32⟩
  | 58 => ⟨S2080, .i32⟩
  | 59 => ⟨S_, .i32⟩
  | 60 => ⟨S_, .i32⟩
  | 61 => ⟨S2080, .i32⟩
  | 62 => ⟨S_, .i32⟩
  | 63 => ⟨S2080, .i32⟩
  | 64 => ⟨S2080, .i32⟩
  | 65 => ⟨S2080, .i32⟩
  | 66 => ⟨S_, .i32⟩
  | 67 => ⟨S2080, .i32⟩
  | 68 => ⟨S2080, .i1⟩
  | 69 => ⟨S2080, .i32⟩
  | 70 => ⟨S2080, .i32⟩
  | 71 => ⟨S_, .i32⟩
  | 72 => ⟨S2080, .i32⟩
  | 73 => ⟨S2080, .i1⟩
  | 74 => ⟨S2080, .i1⟩
  | 75 => ⟨S_, .i32⟩
  | 76 => ⟨S2080, .i32⟩
  | 77 => ⟨S2080, .i32⟩
  | 78 => ⟨S2080, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S2080, .i32⟩
  | 86 => ⟨S2080, .i32⟩
  | 87 => ⟨S_, .i32⟩
  | 88 => ⟨S2080, .i32⟩
  | 89 => ⟨S2080, .i1⟩
  | 90 => ⟨S_, .i32⟩
  | 91 => ⟨S2080, .i32⟩
  | 92 => ⟨S2080, .i1⟩
  | 93 => ⟨S_, .i32⟩
  | 94 => ⟨S_, .i1⟩
  | 95 => ⟨S2080, .i1⟩
  | 96 => ⟨S2080, .i1⟩
  | 97 => ⟨S2080, .i1⟩
  | 98 => ⟨S2080, .i32⟩
  | 99 => ⟨S2080, .i32⟩
  | 100 => ⟨S2080, .i32⟩
  | 101 => ⟨S_, .i32⟩
  | 102 => ⟨S2080, .i32⟩
  | 103 => ⟨S2080, .i32⟩
  | 104 => ⟨S2080, .i32⟩
  | 105 => ⟨S_, .i32⟩
  | 106 => ⟨S2080, .i32⟩
  | 107 => ⟨S2080, .i1⟩
  | 108 => ⟨S2080, .i32⟩
  | 109 => ⟨S2080, .i32⟩
  | 110 => ⟨S_, .i32⟩
  | 111 => ⟨S2080, .i32⟩
  | 112 => ⟨S2080, .i1⟩
  | 113 => ⟨S2080, .i1⟩
  | 114 => ⟨S_, .i32⟩
  | 115 => ⟨S2080, .i32⟩
  | 116 => ⟨S2080, .i32⟩
  | 117 => ⟨S2080, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S2080, .i32⟩
  | 125 => ⟨S2080, .i32⟩
  | 126 => ⟨S_, .i32⟩
  | 127 => ⟨S2080, .i32⟩
  | _ => ⟨S1024x64, .f32⟩

abbrev hbmTy0_2 (i : Nat) : BufTy := match i % 128 with
  | 0 => ⟨S2080, .i1⟩
  | 1 => ⟨S_, .i32⟩
  | 2 => ⟨S2080, .i32⟩
  | 3 => ⟨S2080, .i1⟩
  | 4 => ⟨S_, .i32⟩
  | 5 => ⟨S_, .i1⟩
  | 6 => ⟨S2080, .i1⟩
  | 7 => ⟨S2080, .i1⟩
  | 8 => ⟨S2080, .i1⟩
  | 9 => ⟨S2080, .i32⟩
  | 10 => ⟨S2080, .i32⟩
  | 11 => ⟨S2080, .i32⟩
  | 12 => ⟨S_, .i32⟩
  | 13 => ⟨S2080, .i32⟩
  | 14 => ⟨S2080, .i1⟩
  | 15 => ⟨S_, .i32⟩
  | 16 => ⟨S2080, .i32⟩
  | 17 => ⟨S2080, .i32⟩
  | 18 => ⟨S2080, .i32⟩
  | 19 => ⟨S2080x1, .i32⟩
  | 20 => ⟨S1024x2080, .f32⟩
  | 21 => ⟨S_, .i32⟩
  | 22 => ⟨S2080, .i32⟩
  | 23 => ⟨S2080, .i1⟩
  | 24 => ⟨S_, .i32⟩
  | 25 => ⟨S2080, .i32⟩
  | 26 => ⟨S2080, .i32⟩
  | 27 => ⟨S2080, .i32⟩
  | 28 => ⟨S2080x1, .i32⟩
  | 29 => ⟨S1024x2080, .f32⟩
  | 30 => ⟨S1024x2080, .f32⟩
  | 31 => ⟨S64x64, .f32⟩
  | 32 => ⟨S64x2080, .f32⟩
  | 33 => ⟨S64x133120, .f32⟩
  | 34 => ⟨S64x64x2080, .f32⟩
  | 35 => ⟨S64x64x2080, .bf16⟩
  | 36 => ⟨S4096x2080, .bf16⟩
  | 37 => ⟨S1x64, .f32⟩
  | 38 => ⟨S1024x64, .f32⟩
  | 39 => ⟨S_, .f32⟩
  | 40 => ⟨S64x64, .f32⟩
  | 41 => ⟨S64x64, .i32⟩
  | 42 => ⟨S_, .i32⟩
  | 43 => ⟨S64x64, .i32⟩
  | 44 => ⟨S64x64, .i32⟩
  | 45 => ⟨S64x64, .i32⟩
  | 46 => ⟨S64x64, .i1⟩
  | 47 => ⟨S_, .f32⟩
  | 48 => ⟨S64x64, .f32⟩
  | 49 => ⟨S64x64, .f32⟩
  | 50 => ⟨S_, .f32⟩
  | 51 => ⟨S64x64, .f32⟩
  | 52 => ⟨S64x64, .i1⟩
  | 53 => ⟨S4096, .i1⟩
  | 54 => ⟨S4096, .i32⟩
  | 55 => ⟨S_, .i32⟩
  | 56 => ⟨S_, .i32⟩
  | 57 => ⟨S4096, .i32⟩
  | 58 => ⟨S_, .i32⟩
  | 59 => ⟨S2080, .i32⟩
  | 60 => ⟨S_, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S_, .i32⟩
  | 73 => ⟨S4096, .i32⟩
  | 74 => ⟨S2080, .i32⟩
  | 75 => ⟨S_, .i32⟩
  | 76 => ⟨S_, .i32⟩
  | 77 => ⟨S2080, .i32⟩
  | 78 => ⟨S_, .i32⟩
  | 79 => ⟨S2080, .i32⟩
  | 80 => ⟨S2080, .i32⟩
  | 81 => ⟨S2080, .i32⟩
  | 82 => ⟨S_, .i32⟩
  | 83 => ⟨S2080, .i32⟩
  | 84 => ⟨S2080, .i1⟩
  | 85 => ⟨S2080, .i32⟩
  | 86 => ⟨S2080, .i32⟩
  | 87 => ⟨S_, .i32⟩
  | 88 => ⟨S2080, .i32⟩
  | 89 => ⟨S2080, .i1⟩
  | 90 => ⟨S2080, .i1⟩
  | 91 => ⟨S_, .i32⟩
  | 92 => ⟨S2080, .i32⟩
  | 93 => ⟨S2080, .i32⟩
  | 94 => ⟨S2080, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S2080, .i32⟩
  | 102 => ⟨S2080, .i32⟩
  | 103 => ⟨S_, .i32⟩
  | 104 => ⟨S2080, .i32⟩
  | 105 => ⟨S2080, .i1⟩
  | 106 => ⟨S_, .i32⟩
  | 107 => ⟨S2080, .i32⟩
  | 108 => ⟨S2080, .i1⟩
  | 109 => ⟨S_, .i32⟩
  | 110 => ⟨S_, .i1⟩
  | 111 => ⟨S2080, .i1⟩
  | 112 => ⟨S2080, .i1⟩
  | 113 => ⟨S2080, .i1⟩
  | 114 => ⟨S2080, .i32⟩
  | 115 => ⟨S2080, .i32⟩
  | 116 => ⟨S2080, .i32⟩
  | 117 => ⟨S_, .i32⟩
  | 118 => ⟨S2080, .i32⟩
  | 119 => ⟨S2080, .i32⟩
  | 120 => ⟨S2080, .i32⟩
  | 121 => ⟨S_, .i32⟩
  | 122 => ⟨S2080, .i32⟩
  | 123 => ⟨S2080, .i1⟩
  | 124 => ⟨S2080, .i32⟩
  | 125 => ⟨S2080, .i32⟩
  | 126 => ⟨S_, .i32⟩
  | 127 => ⟨S2080, .i32⟩
  | _ => ⟨S1024x64, .f32⟩

abbrev hbmTy0_3 (i : Nat) : BufTy := match i % 128 with
  | 0 => ⟨S2080, .i1⟩
  | 1 => ⟨S2080, .i1⟩
  | 2 => ⟨S_, .i32⟩
  | 3 => ⟨S2080, .i32⟩
  | 4 => ⟨S2080, .i32⟩
  | 5 => ⟨S2080, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S2080, .i32⟩
  | 13 => ⟨S2080, .i32⟩
  | 14 => ⟨S_, .i32⟩
  | 15 => ⟨S2080, .i32⟩
  | 16 => ⟨S2080, .i1⟩
  | 17 => ⟨S_, .i32⟩
  | 18 => ⟨S2080, .i32⟩
  | 19 => ⟨S2080, .i1⟩
  | 20 => ⟨S_, .i32⟩
  | 21 => ⟨S_, .i1⟩
  | 22 => ⟨S2080, .i1⟩
  | 23 => ⟨S2080, .i1⟩
  | 24 => ⟨S2080, .i1⟩
  | 25 => ⟨S2080, .i32⟩
  | 26 => ⟨S2080, .i32⟩
  | 27 => ⟨S2080, .i32⟩
  | 28 => ⟨S_, .i32⟩
  | 29 => ⟨S2080, .i32⟩
  | 30 => ⟨S2080, .i1⟩
  | 31 => ⟨S_, .i32⟩
  | 32 => ⟨S2080, .i32⟩
  | 33 => ⟨S2080, .i32⟩
  | 34 => ⟨S2080, .i32⟩
  | 35 => ⟨S2080x1, .i32⟩
  | 36 => ⟨S1024x2080, .f32⟩
  | 37 => ⟨S_, .i32⟩
  | 38 => ⟨S2080, .i32⟩
  | 39 => ⟨S2080, .i1⟩
  | 40 => ⟨S_, .i32⟩
  | 41 => ⟨S2080, .i32⟩
  | 42 => ⟨S2080, .i32⟩
  | 43 => ⟨S2080, .i32⟩
  | 44 => ⟨S2080x1, .i32⟩
  | 45 => ⟨S1024x2080, .f32⟩
  | 46 => ⟨S1024x2080, .f32⟩
  | 47 => ⟨S10x64, .f32⟩
  | 48 => ⟨S10x2080, .f32⟩
  | 49 => ⟨S10x133120, .f32⟩
  | 50 => ⟨S10x64x2080, .f32⟩
  | 51 => ⟨S10x64x2080, .bf16⟩
  | 52 => ⟨S640x2080, .bf16⟩
  | 53 => ⟨S1x10, .f32⟩
  | 54 => ⟨S1024x10, .f32⟩
  | _ => ⟨S1024x64, .f32⟩

abbrev hbmTy (i : Nat) : BufTy := match i / 128 with
  | 0 => hbmTy0_0 i
  | 1 => hbmTy0_1 i
  | 2 => hbmTy0_2 i
  | 3 => hbmTy0_3 i
  | _ => ⟨S1024x64, .f32⟩

abbrev bufTy : (tb : Table) → Fin (tcTables nBuf tb) → BufTy
  | .hbm, ⟨i, _⟩ => hbmTy i
  | .local _ .vmem, ⟨0, _⟩ => ⟨S256x64, .f32⟩
  | .local _ .vmem, ⟨1, _⟩ => ⟨S256x64, .f32⟩
  | .local _ .vmem, ⟨2, _⟩ => ⟨S256x2080, .f32⟩
  | .local _ .vmem, ⟨3, _⟩ => ⟨S256x2080, .f32⟩
  | .local _ .vmem, ⟨4, _⟩ => ⟨S64x64, .f32⟩
  | .local _ .vmem, ⟨5, _⟩ => ⟨S64x2080, .f32⟩
  | .local _ .vmem, ⟨6, _⟩ => ⟨S4096x2080, .bf16⟩
  | .local _ .vmem, ⟨7, _⟩ => ⟨S1x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x2080, .f32⟩
  | .local _ .vmem, ⟨13, _⟩ => ⟨S256x2080, .f32⟩
  | .local _ .vmem, ⟨14, _⟩ => ⟨S64x64, .f32⟩
  | .local _ .vmem, ⟨15, _⟩ => ⟨S64x2080, .f32⟩
  | .local _ .vmem, ⟨16, _⟩ => ⟨S4096x2080, .bf16⟩
  | .local _ .vmem, ⟨17, _⟩ => ⟨S1x64, .f32⟩
  | .local _ .vmem, ⟨18, _⟩ => ⟨S256x64, .f32⟩
  | .local _ .vmem, ⟨19, _⟩ => ⟨S256x64, .f32⟩
  | .local _ .vmem, ⟨20, _⟩ => ⟨S256x64, .f32⟩
  | .local _ .vmem, ⟨21, _⟩ => ⟨S256x64, .f32⟩
  | .local _ .vmem, ⟨22, _⟩ => ⟨S256x2080, .f32⟩
  | .local _ .vmem, ⟨23, _⟩ => ⟨S256x2080, .f32⟩
  | .local _ .vmem, ⟨24, _⟩ => ⟨S10x64, .f32⟩
  | .local _ .vmem, ⟨25, _⟩ => ⟨S10x2080, .f32⟩
  | .local _ .vmem, ⟨26, _⟩ => ⟨S640x2080, .bf16⟩
  | .local _ .vmem, ⟨27, _⟩ => ⟨S1x10, .f32⟩
  | .local _ .vmem, ⟨28, _⟩ => ⟨S256x10, .f32⟩
  | .local _ .vmem, ⟨29, _⟩ => ⟨S256x10, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_call1_v0 : Ref sig .tc := ⟨.hbm, 21, rfl⟩
abbrev main_call1_v1 : Ref sig .tc := ⟨.hbm, 22, rfl⟩
abbrev main_call1_call0_c : Ref sig .tc := ⟨.hbm, 23, rfl⟩
abbrev main_call1_call0_v0 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_4 : Ref sig .tc := ⟨.hbm, 40, rfl⟩
abbrev main_v13 : Ref sig .tc := ⟨.hbm, 41, rfl⟩
abbrev main_v14 : Ref sig .tc := ⟨.hbm, 42, rfl⟩
abbrev main_call3_call0_c : Ref sig .tc := ⟨.hbm, 43, rfl⟩
abbrev main_call3_call0_v0 : Ref sig .tc := ⟨.hbm, 44, rfl⟩
abbrev main_v15 : Ref sig .tc := ⟨.hbm, 45, rfl⟩
abbrev main_c_5 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_v6 : Ref sig .tc := ⟨.hbm, 53, rfl⟩
abbrev main_call4_v7 : Ref sig .tc := ⟨.hbm, 54, rfl⟩
abbrev main_call4_c : Ref sig .tc := ⟨.hbm, 55, rfl⟩
abbrev main_call4_v8 : Ref sig .tc := ⟨.hbm, 56, rfl⟩
abbrev main_call4_v9 : Ref sig .tc := ⟨.hbm, 57, rfl⟩
abbrev main_call4_v10 : Ref sig .tc := ⟨.hbm, 58, rfl⟩
abbrev main_call4_c_0 : Ref sig .tc := ⟨.hbm, 59, rfl⟩
abbrev main_call4_v11 : Ref sig .tc := ⟨.hbm, 60, rfl⟩
abbrev main_call4_v12 : Ref sig .tc := ⟨.hbm, 61, rfl⟩
abbrev main_v16 : Ref sig .tc := ⟨.hbm, 62, rfl⟩
abbrev main_c_6 : Ref sig .tc := ⟨.hbm, 63, rfl⟩
abbrev main_call5_v0 : Ref sig .tc := ⟨.hbm, 64, rfl⟩
abbrev main_call5_c : Ref sig .tc := ⟨.hbm, 65, rfl⟩
abbrev main_call5_v1 : Ref sig .tc := ⟨.hbm, 66, rfl⟩
abbrev main_call5_c_0 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_call5_c_1 : Ref sig .tc := ⟨.hbm, 71, rfl⟩
abbrev main_call5_v5 : Ref sig .tc := ⟨.hbm, 72, rfl⟩
abbrev main_call5_v6 : Ref sig .tc := ⟨.hbm, 73, rfl⟩
abbrev main_call5_c_2 : Ref sig .tc := ⟨.hbm, 74, rfl⟩
abbrev main_call5_v7 : Ref sig .tc := ⟨.hbm, 75, rfl⟩
abbrev main_call5_v8 : Ref sig .tc := ⟨.hbm, 76, rfl⟩
abbrev main_call5_c_3 : Ref sig .tc := ⟨.hbm, 77, rfl⟩
abbrev main_call5_v9 : Ref sig .tc := ⟨.hbm, 78, rfl⟩
abbrev main_call5_v10 : Ref sig .tc := ⟨.hbm, 79, rfl⟩
abbrev main_call5_v11 : Ref sig .tc := ⟨.hbm, 80, rfl⟩
abbrev main_call5_v12 : Ref sig .tc := ⟨.hbm, 81, rfl⟩
abbrev main_call5_v13 : Ref sig .tc := ⟨.hbm, 82, rfl⟩
abbrev main_call5_v14 : Ref sig .tc := ⟨.hbm, 83, rfl⟩
abbrev main_v17 : Ref sig .tc := ⟨.hbm, 84, rfl⟩
abbrev main_c_7 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_call6_v5 : Ref sig .tc := ⟨.hbm, 91, rfl⟩
abbrev main_call6_v6 : Ref sig .tc := ⟨.hbm, 92, rfl⟩
abbrev main_call6_v7 : Ref sig .tc := ⟨.hbm, 93, rfl⟩
abbrev main_call6_c : Ref sig .tc := ⟨.hbm, 94, rfl⟩
abbrev main_call6_v8 : Ref sig .tc := ⟨.hbm, 95, rfl⟩
abbrev main_call6_v9 : Ref sig .tc := ⟨.hbm, 96, rfl⟩
abbrev main_call6_v10 : Ref sig .tc := ⟨.hbm, 97, rfl⟩
abbrev main_call6_c_0 : Ref sig .tc := ⟨.hbm, 98, rfl⟩
abbrev main_call6_v11 : Ref sig .tc := ⟨.hbm, 99, rfl⟩
abbrev main_call6_v12 : Ref sig .tc := ⟨.hbm, 100, rfl⟩
abbrev main_v18 : Ref sig .tc := ⟨.hbm, 101, rfl⟩
abbrev main_c_8 : Ref sig .tc := ⟨.hbm, 102, rfl⟩
abbrev main_call7_v0 : Ref sig .tc := ⟨.hbm, 103, rfl⟩
abbrev main_call7_c : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_c_1 : Ref sig .tc := ⟨.hbm, 110, rfl⟩
abbrev main_call7_v5 : Ref sig .tc := ⟨.hbm, 111, rfl⟩
abbrev main_call7_v6 : Ref sig .tc := ⟨.hbm, 112, rfl⟩
abbrev main_call7_c_2 : Ref sig .tc := ⟨.hbm, 113, rfl⟩
abbrev main_call7_v7 : Ref sig .tc := ⟨.hbm, 114, rfl⟩
abbrev main_call7_v8 : Ref sig .tc := ⟨.hbm, 115, rfl⟩
abbrev main_call7_c_3 : Ref sig .tc := ⟨.hbm, 116, rfl⟩
abbrev main_call7_v9 : Ref sig .tc := ⟨.hbm, 117, rfl⟩
abbrev main_call7_v10 : Ref sig .tc := ⟨.hbm, 118, rfl⟩
abbrev main_call7_v11 : Ref sig .tc := ⟨.hbm, 119, rfl⟩
abbrev main_call7_v12 : Ref sig .tc := ⟨.hbm, 120, rfl⟩
abbrev main_call7_v13 : Ref sig .tc := ⟨.hbm, 121, rfl⟩
abbrev main_call7_v14 : Ref sig .tc := ⟨.hbm, 122, rfl⟩
abbrev main_v19 : Ref sig .tc := ⟨.hbm, 123, rfl⟩
abbrev main_c_9 : Ref sig .tc := ⟨.hbm, 124, rfl⟩
abbrev main_v20 : Ref sig .tc := ⟨.hbm, 125, rfl⟩
abbrev main_v21 : Ref sig .tc := ⟨.hbm, 126, rfl⟩
abbrev main_c_10 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_c_11 : Ref sig .tc := ⟨.hbm, 133, rfl⟩
abbrev main_v27 : Ref sig .tc := ⟨.hbm, 134, rfl⟩
abbrev main_v28 : Ref sig .tc := ⟨.hbm, 135, rfl⟩
abbrev main_c_12 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_cst_13 : Ref sig .tc := ⟨.hbm, 151, rfl⟩
abbrev main_v43 : Ref sig .tc := ⟨.hbm, 152, rfl⟩
abbrev main_call8_v0 : Ref sig .tc := ⟨.hbm, 153, rfl⟩
abbrev main_call8_c : Ref sig .tc := ⟨.hbm, 154, rfl⟩
abbrev main_call8_v1 : Ref sig .tc := ⟨.hbm, 155, rfl⟩
abbrev main_call8_v2 : Ref sig .tc := ⟨.hbm, 156, rfl⟩
abbrev main_call8_v3 : Ref sig .tc := ⟨.hbm, 157, rfl⟩
abbrev main_call8_v4 : Ref sig .tc := ⟨.hbm, 158, rfl⟩
abbrev main_call8_cst : Ref sig .tc := ⟨.hbm, 159, rfl⟩
abbrev main_call8_v5 : Ref sig .tc := ⟨.hbm, 160, rfl⟩
abbrev main_v44 : Ref sig .tc := ⟨.hbm, 161, rfl⟩
abbrev main_cst_14 : Ref sig .tc := ⟨.hbm, 162, rfl⟩
abbrev main_v45 : Ref sig .tc := ⟨.hbm, 163, rfl⟩
abbrev main_v46 : Ref sig .tc := ⟨.hbm, 164, rfl⟩
abbrev main_call9_v0 : Ref sig .tc := ⟨.hbm, 165, rfl⟩
abbrev main_call9_v1 : Ref sig .tc := ⟨.hbm, 166, rfl⟩
abbrev main_call9_call0_c : Ref sig .tc := ⟨.hbm, 167, rfl⟩
abbrev main_call9_call0_v0 : Ref sig .tc := ⟨.hbm, 168, rfl⟩
abbrev main_v47 : Ref sig .tc := ⟨.hbm, 169, rfl⟩
abbrev main_c_15 : Ref sig .tc := ⟨.hbm, 170, rfl⟩
abbrev main_v48 : Ref sig .tc := ⟨.hbm, 171, rfl⟩
abbrev main_c_16 : Ref sig .tc := ⟨.hbm, 172, rfl⟩
abbrev main_call10_v0 : Ref sig .tc := ⟨.hbm, 173, rfl⟩
abbrev main_call10_v1 : Ref sig .tc := ⟨.hbm, 174, rfl⟩
abbrev main_v49 : Ref sig .tc := ⟨.hbm, 175, rfl⟩
abbrev main_c_17 : Ref sig .tc := ⟨.hbm, 176, rfl⟩
abbrev main_v50 : Ref sig .tc := ⟨.hbm, 177, rfl⟩
abbrev main_v51 : Ref sig .tc := ⟨.hbm, 178, rfl⟩
abbrev main_c_18 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_c_19 : Ref sig .tc := ⟨.hbm, 184, rfl⟩
abbrev main_v56 : Ref sig .tc := ⟨.hbm, 185, rfl⟩
abbrev main_v57 : Ref sig .tc := ⟨.hbm, 186, rfl⟩
abbrev main_call11_call0_c : Ref sig .tc := ⟨.hbm, 187, rfl⟩
abbrev main_call11_call0_v0 : Ref sig .tc := ⟨.hbm, 188, rfl⟩
abbrev main_v58 : Ref sig .tc := ⟨.hbm, 189, rfl⟩
abbrev main_c_20 : Ref sig .tc := ⟨.hbm, 190, rfl⟩
abbrev main_call12_v0 : Ref sig .tc := ⟨.hbm, 191, rfl⟩
abbrev main_call12_v1 : Ref sig .tc := ⟨.hbm, 192, rfl⟩
abbrev main_call12_v2 : Ref sig .tc := ⟨.hbm, 193, rfl⟩
abbrev main_call12_v3 : Ref sig .tc := ⟨.hbm, 194, rfl⟩
abbrev main_call12_v4 : Ref sig .tc := ⟨.hbm, 195, rfl⟩
abbrev main_call12_v5 : Ref sig .tc := ⟨.hbm, 196, rfl⟩
abbrev main_call12_v6 : Ref sig .tc := ⟨.hbm, 197, rfl⟩
abbrev main_call12_v7 : Ref sig .tc := ⟨.hbm, 198, rfl⟩
abbrev main_call12_c : Ref sig .tc := ⟨.hbm, 199, rfl⟩
abbrev main_call12_v8 : Ref sig .tc := ⟨.hbm, 200, rfl⟩
abbrev main_call12_v9 : Ref sig .tc := ⟨.hbm, 201, rfl⟩
abbrev main_call12_v10 : Ref sig .tc := ⟨.hbm, 202, rfl⟩
abbrev main_call12_c_0 : Ref sig .tc := ⟨.hbm, 203, rfl⟩
abbrev main_call12_v11 : Ref sig .tc := ⟨.hbm, 204, rfl⟩
abbrev main_call12_v12 : Ref sig .tc := ⟨.hbm, 205, rfl⟩
abbrev main_v59 : Ref sig .tc := ⟨.hbm, 206, rfl⟩
abbrev main_c_21 : Ref sig .tc := ⟨.hbm, 207, rfl⟩
abbrev main_call13_v0 : Ref sig .tc := ⟨.hbm, 208, rfl⟩
abbrev main_call13_c : Ref sig .tc := ⟨.hbm, 209, rfl⟩
abbrev main_call13_v1 : Ref sig .tc := ⟨.hbm, 210, rfl⟩
abbrev main_call13_c_0 : Ref sig .tc := ⟨.hbm, 211, rfl⟩
abbrev main_call13_v2 : Ref sig .tc := ⟨.hbm, 212, rfl⟩
abbrev main_call13_v3 : Ref sig .tc := ⟨.hbm, 213, rfl⟩
abbrev main_call13_v4 : Ref sig .tc := ⟨.hbm, 214, rfl⟩
abbrev main_call13_c_1 : Ref sig .tc := ⟨.hbm, 215, rfl⟩
abbrev main_call13_v5 : Ref sig .tc := ⟨.hbm, 216, rfl⟩
abbrev main_call13_v6 : Ref sig .tc := ⟨.hbm, 217, rfl⟩
abbrev main_call13_c_2 : Ref sig .tc := ⟨.hbm, 218, rfl⟩
abbrev main_call13_v7 : Ref sig .tc := ⟨.hbm, 219, rfl⟩
abbrev main_call13_v8 : Ref sig .tc := ⟨.hbm, 220, rfl⟩
abbrev main_call13_c_3 : Ref sig .tc := ⟨.hbm, 221, rfl⟩
abbrev main_call13_v9 : Ref sig .tc := ⟨.hbm, 222, rfl⟩
abbrev main_call13_v10 : Ref sig .tc := ⟨.hbm, 223, rfl⟩
abbrev main_call13_v11 : Ref sig .tc := ⟨.hbm, 224, rfl⟩
abbrev main_call13_v12 : Ref sig .tc := ⟨.hbm, 225, rfl⟩
abbrev main_call13_v13 : Ref sig .tc := ⟨.hbm, 226, rfl⟩
abbrev main_call13_v14 : Ref sig .tc := ⟨.hbm, 227, rfl⟩
abbrev main_v60 : Ref sig .tc := ⟨.hbm, 228, rfl⟩
abbrev main_c_22 : Ref sig .tc := ⟨.hbm, 229, rfl⟩
abbrev main_call14_v0 : Ref sig .tc := ⟨.hbm, 230, rfl⟩
abbrev main_call14_v1 : Ref sig .tc := ⟨.hbm, 231, rfl⟩
abbrev main_call14_v2 : Ref sig .tc := ⟨.hbm, 232, rfl⟩
abbrev main_call14_v3 : Ref sig .tc := ⟨.hbm, 233, rfl⟩
abbrev main_call14_v4 : Ref sig .tc := ⟨.hbm, 234, rfl⟩
abbrev main_call14_v5 : Ref sig .tc := ⟨.hbm, 235, rfl⟩
abbrev main_call14_v6 : Ref sig .tc := ⟨.hbm, 236, rfl⟩
abbrev main_call14_v7 : Ref sig .tc := ⟨.hbm, 237, rfl⟩
abbrev main_call14_c : Ref sig .tc := ⟨.hbm, 238, rfl⟩
abbrev main_call14_v8 : Ref sig .tc := ⟨.hbm, 239, rfl⟩
abbrev main_call14_v9 : Ref sig .tc := ⟨.hbm, 240, rfl⟩
abbrev main_call14_v10 : Ref sig .tc := ⟨.hbm, 241, rfl⟩
abbrev main_call14_c_0 : Ref sig .tc := ⟨.hbm, 242, rfl⟩
abbrev main_call14_v11 : Ref sig .tc := ⟨.hbm, 243, rfl⟩
abbrev main_call14_v12 : Ref sig .tc := ⟨.hbm, 244, rfl⟩
abbrev main_v61 : Ref sig .tc := ⟨.hbm, 245, rfl⟩
abbrev main_c_23 : Ref sig .tc := ⟨.hbm, 246, rfl⟩
abbrev main_call15_v0 : Ref sig .tc := ⟨.hbm, 247, rfl⟩
abbrev main_call15_c : Ref sig .tc := ⟨.hbm, 248, rfl⟩
abbrev main_call15_v1 : Ref sig .tc := ⟨.hbm, 249, rfl⟩
abbrev main_call15_c_0 : Ref sig .tc := ⟨.hbm, 250, rfl⟩
abbrev main_call15_v2 : Ref sig .tc := ⟨.hbm, 251, rfl⟩
abbrev main_call15_v3 : Ref sig .tc := ⟨.hbm, 252, rfl⟩
abbrev main_call15_v4 : Ref sig .tc := ⟨.hbm, 253, rfl⟩
abbrev main_call15_c_1 : Ref sig .tc := ⟨.hbm, 254, rfl⟩
abbrev main_call15_v5 : Ref sig .tc := ⟨.hbm, 255, rfl⟩
abbrev main_call15_v6 : Ref sig .tc := ⟨.hbm, 256, rfl⟩
abbrev main_call15_c_2 : Ref sig .tc := ⟨.hbm, 257, rfl⟩
abbrev main_call15_v7 : Ref sig .tc := ⟨.hbm, 258, rfl⟩
abbrev main_call15_v8 : Ref sig .tc := ⟨.hbm, 259, rfl⟩
abbrev main_call15_c_3 : Ref sig .tc := ⟨.hbm, 260, rfl⟩
abbrev main_call15_v9 : Ref sig .tc := ⟨.hbm, 261, rfl⟩
abbrev main_call15_v10 : Ref sig .tc := ⟨.hbm, 262, rfl⟩
abbrev main_call15_v11 : Ref sig .tc := ⟨.hbm, 263, rfl⟩
abbrev main_call15_v12 : Ref sig .tc := ⟨.hbm, 264, rfl⟩
abbrev main_call15_v13 : Ref sig .tc := ⟨.hbm, 265, rfl⟩
abbrev main_call15_v14 : Ref sig .tc := ⟨.hbm, 266, rfl⟩
abbrev main_v62 : Ref sig .tc := ⟨.hbm, 267, rfl⟩
abbrev main_c_24 : Ref sig .tc := ⟨.hbm, 268, rfl⟩
abbrev main_v63 : Ref sig .tc := ⟨.hbm, 269, rfl⟩
abbrev main_v64 : Ref sig .tc := ⟨.hbm, 270, rfl⟩
abbrev main_c_25 : Ref sig .tc := ⟨.hbm, 271, rfl⟩
abbrev main_v65 : Ref sig .tc := ⟨.hbm, 272, rfl⟩
abbrev main_v66 : Ref sig .tc := ⟨.hbm, 273, rfl⟩
abbrev main_v67 : Ref sig .tc := ⟨.hbm, 274, rfl⟩
abbrev main_v68 : Ref sig .tc := ⟨.hbm, 275, rfl⟩
abbrev main_v69 : Ref sig .tc := ⟨.hbm, 276, rfl⟩
abbrev main_c_26 : Ref sig .tc := ⟨.hbm, 277, rfl⟩
abbrev main_v70 : Ref sig .tc := ⟨.hbm, 278, rfl⟩
abbrev main_v71 : Ref sig .tc := ⟨.hbm, 279, rfl⟩
abbrev main_c_27 : Ref sig .tc := ⟨.hbm, 280, rfl⟩
abbrev main_v72 : Ref sig .tc := ⟨.hbm, 281, rfl⟩
abbrev main_v73 : Ref sig .tc := ⟨.hbm, 282, rfl⟩
abbrev main_v74 : Ref sig .tc := ⟨.hbm, 283, rfl⟩
abbrev main_v75 : Ref sig .tc := ⟨.hbm, 284, rfl⟩
abbrev main_v76 : Ref sig .tc := ⟨.hbm, 285, rfl⟩
abbrev main_v77 : Ref sig .tc := ⟨.hbm, 286, rfl⟩
abbrev main_v78 : Ref sig .tc := ⟨.hbm, 287, rfl⟩
abbrev main_v79 : Ref sig .tc := ⟨.hbm, 288, rfl⟩
abbrev main_v80 : Ref sig .tc := ⟨.hbm, 289, rfl⟩
abbrev main_v81 : Ref sig .tc := ⟨.hbm, 290, rfl⟩
abbrev main_v82 : Ref sig .tc := ⟨.hbm, 291, rfl⟩
abbrev main_v83 : Ref sig .tc := ⟨.hbm, 292, rfl⟩
abbrev main_v84 : Ref sig .tc := ⟨.hbm, 293, rfl⟩
abbrev main_v85 : Ref sig .tc := ⟨.hbm, 294, rfl⟩
abbrev main_cst_28 : Ref sig .tc := ⟨.hbm, 295, rfl⟩
abbrev main_v86 : Ref sig .tc := ⟨.hbm, 296, rfl⟩
abbrev main_call16_v0 : Ref sig .tc := ⟨.hbm, 297, rfl⟩
abbrev main_call16_c : Ref sig .tc := ⟨.hbm, 298, rfl⟩
abbrev main_call16_v1 : Ref sig .tc := ⟨.hbm, 299, rfl⟩
abbrev main_call16_v2 : Ref sig .tc := ⟨.hbm, 300, rfl⟩
abbrev main_call16_v3 : Ref sig .tc := ⟨.hbm, 301, rfl⟩
abbrev main_call16_v4 : Ref sig .tc := ⟨.hbm, 302, rfl⟩
abbrev main_call16_cst : Ref sig .tc := ⟨.hbm, 303, rfl⟩
abbrev main_call16_v5 : Ref sig .tc := ⟨.hbm, 304, rfl⟩
abbrev main_v87 : Ref sig .tc := ⟨.hbm, 305, rfl⟩
abbrev main_cst_29 : Ref sig .tc := ⟨.hbm, 306, rfl⟩
abbrev main_v88 : Ref sig .tc := ⟨.hbm, 307, rfl⟩
abbrev main_v89 : Ref sig .tc := ⟨.hbm, 308, rfl⟩
abbrev main_call17_v0 : Ref sig .tc := ⟨.hbm, 309, rfl⟩
abbrev main_call17_v1 : Ref sig .tc := ⟨.hbm, 310, rfl⟩
abbrev main_call17_call0_c : Ref sig .tc := ⟨.hbm, 311, rfl⟩
abbrev main_call17_call0_v0 : Ref sig .tc := ⟨.hbm, 312, rfl⟩
abbrev main_v90 : Ref sig .tc := ⟨.hbm, 313, rfl⟩
abbrev main_c_30 : Ref sig .tc := ⟨.hbm, 314, rfl⟩
abbrev main_v91 : Ref sig .tc := ⟨.hbm, 315, rfl⟩
abbrev main_c_31 : Ref sig .tc := ⟨.hbm, 316, rfl⟩
abbrev main_call18_v0 : Ref sig .tc := ⟨.hbm, 317, rfl⟩
abbrev main_call18_v1 : Ref sig .tc := ⟨.hbm, 318, rfl⟩
abbrev main_v92 : Ref sig .tc := ⟨.hbm, 319, rfl⟩
abbrev main_c_32 : Ref sig .tc := ⟨.hbm, 320, rfl⟩
abbrev main_v93 : Ref sig .tc := ⟨.hbm, 321, rfl⟩
abbrev main_v94 : Ref sig .tc := ⟨.hbm, 322, rfl⟩
abbrev main_c_33 : Ref sig .tc := ⟨.hbm, 323, rfl⟩
abbrev main_v95 : Ref sig .tc := ⟨.hbm, 324, rfl⟩
abbrev main_v96 : Ref sig .tc := ⟨.hbm, 325, rfl⟩
abbrev main_v97 : Ref sig .tc := ⟨.hbm, 326, rfl⟩
abbrev main_v98 : Ref sig .tc := ⟨.hbm, 327, rfl⟩
abbrev main_c_34 : Ref sig .tc := ⟨.hbm, 328, rfl⟩
abbrev main_v99 : Ref sig .tc := ⟨.hbm, 329, rfl⟩
abbrev main_v100 : Ref sig .tc := ⟨.hbm, 330, rfl⟩
abbrev main_call19_call0_c : Ref sig .tc := ⟨.hbm, 331, rfl⟩
abbrev main_call19_call0_v0 : Ref sig .tc := ⟨.hbm, 332, rfl⟩
abbrev main_v101 : Ref sig .tc := ⟨.hbm, 333, rfl⟩
abbrev main_c_35 : Ref sig .tc := ⟨.hbm, 334, rfl⟩
abbrev main_call20_v0 : Ref sig .tc := ⟨.hbm, 335, rfl⟩
abbrev main_call20_v1 : Ref sig .tc := ⟨.hbm, 336, rfl⟩
abbrev main_call20_v2 : Ref sig .tc := ⟨.hbm, 337, rfl⟩
abbrev main_call20_v3 : Ref sig .tc := ⟨.hbm, 338, rfl⟩
abbrev main_call20_v4 : Ref sig .tc := ⟨.hbm, 339, rfl⟩
abbrev main_call20_v5 : Ref sig .tc := ⟨.hbm, 340, rfl⟩
abbrev main_call20_v6 : Ref sig .tc := ⟨.hbm, 341, rfl⟩
abbrev main_call20_v7 : Ref sig .tc := ⟨.hbm, 342, rfl⟩
abbrev main_call20_c : Ref sig .tc := ⟨.hbm, 343, rfl⟩
abbrev main_call20_v8 : Ref sig .tc := ⟨.hbm, 344, rfl⟩
abbrev main_call20_v9 : Ref sig .tc := ⟨.hbm, 345, rfl⟩
abbrev main_call20_v10 : Ref sig .tc := ⟨.hbm, 346, rfl⟩
abbrev main_call20_c_0 : Ref sig .tc := ⟨.hbm, 347, rfl⟩
abbrev main_call20_v11 : Ref sig .tc := ⟨.hbm, 348, rfl⟩
abbrev main_call20_v12 : Ref sig .tc := ⟨.hbm, 349, rfl⟩
abbrev main_v102 : Ref sig .tc := ⟨.hbm, 350, rfl⟩
abbrev main_c_36 : Ref sig .tc := ⟨.hbm, 351, rfl⟩
abbrev main_call21_v0 : Ref sig .tc := ⟨.hbm, 352, rfl⟩
abbrev main_call21_c : Ref sig .tc := ⟨.hbm, 353, rfl⟩
abbrev main_call21_v1 : Ref sig .tc := ⟨.hbm, 354, rfl⟩
abbrev main_call21_c_0 : Ref sig .tc := ⟨.hbm, 355, rfl⟩
abbrev main_call21_v2 : Ref sig .tc := ⟨.hbm, 356, rfl⟩
abbrev main_call21_v3 : Ref sig .tc := ⟨.hbm, 357, rfl⟩
abbrev main_call21_v4 : Ref sig .tc := ⟨.hbm, 358, rfl⟩
abbrev main_call21_c_1 : Ref sig .tc := ⟨.hbm, 359, rfl⟩
abbrev main_call21_v5 : Ref sig .tc := ⟨.hbm, 360, rfl⟩
abbrev main_call21_v6 : Ref sig .tc := ⟨.hbm, 361, rfl⟩
abbrev main_call21_c_2 : Ref sig .tc := ⟨.hbm, 362, rfl⟩
abbrev main_call21_v7 : Ref sig .tc := ⟨.hbm, 363, rfl⟩
abbrev main_call21_v8 : Ref sig .tc := ⟨.hbm, 364, rfl⟩
abbrev main_call21_c_3 : Ref sig .tc := ⟨.hbm, 365, rfl⟩
abbrev main_call21_v9 : Ref sig .tc := ⟨.hbm, 366, rfl⟩
abbrev main_call21_v10 : Ref sig .tc := ⟨.hbm, 367, rfl⟩
abbrev main_call21_v11 : Ref sig .tc := ⟨.hbm, 368, rfl⟩
abbrev main_call21_v12 : Ref sig .tc := ⟨.hbm, 369, rfl⟩
abbrev main_call21_v13 : Ref sig .tc := ⟨.hbm, 370, rfl⟩
abbrev main_call21_v14 : Ref sig .tc := ⟨.hbm, 371, rfl⟩
abbrev main_v103 : Ref sig .tc := ⟨.hbm, 372, rfl⟩
abbrev main_c_37 : Ref sig .tc := ⟨.hbm, 373, rfl⟩
abbrev main_call22_v0 : Ref sig .tc := ⟨.hbm, 374, rfl⟩
abbrev main_call22_v1 : Ref sig .tc := ⟨.hbm, 375, rfl⟩
abbrev main_call22_v2 : Ref sig .tc := ⟨.hbm, 376, rfl⟩
abbrev main_call22_v3 : Ref sig .tc := ⟨.hbm, 377, rfl⟩
abbrev main_call22_v4 : Ref sig .tc := ⟨.hbm, 378, rfl⟩
abbrev main_call22_v5 : Ref sig .tc := ⟨.hbm, 379, rfl⟩
abbrev main_call22_v6 : Ref sig .tc := ⟨.hbm, 380, rfl⟩
abbrev main_call22_v7 : Ref sig .tc := ⟨.hbm, 381, rfl⟩
abbrev main_call22_c : Ref sig .tc := ⟨.hbm, 382, rfl⟩
abbrev main_call22_v8 : Ref sig .tc := ⟨.hbm, 383, rfl⟩
abbrev main_call22_v9 : Ref sig .tc := ⟨.hbm, 384, rfl⟩
abbrev main_call22_v10 : Ref sig .tc := ⟨.hbm, 385, rfl⟩
abbrev main_call22_c_0 : Ref sig .tc := ⟨.hbm, 386, rfl⟩
abbrev main_call22_v11 : Ref sig .tc := ⟨.hbm, 387, rfl⟩
abbrev main_call22_v12 : Ref sig .tc := ⟨.hbm, 388, rfl⟩
abbrev main_v104 : Ref sig .tc := ⟨.hbm, 389, rfl⟩
abbrev main_c_38 : Ref sig .tc := ⟨.hbm, 390, rfl⟩
abbrev main_call23_v0 : Ref sig .tc := ⟨.hbm, 391, rfl⟩
abbrev main_call23_c : Ref sig .tc := ⟨.hbm, 392, rfl⟩
abbrev main_call23_v1 : Ref sig .tc := ⟨.hbm, 393, rfl⟩
abbrev main_call23_c_0 : Ref sig .tc := ⟨.hbm, 394, rfl⟩
abbrev main_call23_v2 : Ref sig .tc := ⟨.hbm, 395, rfl⟩
abbrev main_call23_v3 : Ref sig .tc := ⟨.hbm, 396, rfl⟩
abbrev main_call23_v4 : Ref sig .tc := ⟨.hbm, 397, rfl⟩
abbrev main_call23_c_1 : Ref sig .tc := ⟨.hbm, 398, rfl⟩
abbrev main_call23_v5 : Ref sig .tc := ⟨.hbm, 399, rfl⟩
abbrev main_call23_v6 : Ref sig .tc := ⟨.hbm, 400, rfl⟩
abbrev main_call23_c_2 : Ref sig .tc := ⟨.hbm, 401, rfl⟩
abbrev main_call23_v7 : Ref sig .tc := ⟨.hbm, 402, rfl⟩
abbrev main_call23_v8 : Ref sig .tc := ⟨.hbm, 403, rfl⟩
abbrev main_call23_c_3 : Ref sig .tc := ⟨.hbm, 404, rfl⟩
abbrev main_call23_v9 : Ref sig .tc := ⟨.hbm, 405, rfl⟩
abbrev main_call23_v10 : Ref sig .tc := ⟨.hbm, 406, rfl⟩
abbrev main_call23_v11 : Ref sig .tc := ⟨.hbm, 407, rfl⟩
abbrev main_call23_v12 : Ref sig .tc := ⟨.hbm, 408, rfl⟩
abbrev main_call23_v13 : Ref sig .tc := ⟨.hbm, 409, rfl⟩
abbrev main_call23_v14 : Ref sig .tc := ⟨.hbm, 410, rfl⟩
abbrev main_v105 : Ref sig .tc := ⟨.hbm, 411, rfl⟩
abbrev main_c_39 : Ref sig .tc := ⟨.hbm, 412, rfl⟩
abbrev main_v106 : Ref sig .tc := ⟨.hbm, 413, rfl⟩
abbrev main_v107 : Ref sig .tc := ⟨.hbm, 414, rfl⟩
abbrev main_c_40 : Ref sig .tc := ⟨.hbm, 415, rfl⟩
abbrev main_v108 : Ref sig .tc := ⟨.hbm, 416, rfl⟩
abbrev main_v109 : Ref sig .tc := ⟨.hbm, 417, rfl⟩
abbrev main_v110 : Ref sig .tc := ⟨.hbm, 418, rfl⟩
abbrev main_v111 : Ref sig .tc := ⟨.hbm, 419, rfl⟩
abbrev main_v112 : Ref sig .tc := ⟨.hbm, 420, rfl⟩
abbrev main_c_41 : Ref sig .tc := ⟨.hbm, 421, rfl⟩
abbrev main_v113 : Ref sig .tc := ⟨.hbm, 422, rfl⟩
abbrev main_v114 : Ref sig .tc := ⟨.hbm, 423, rfl⟩
abbrev main_c_42 : Ref sig .tc := ⟨.hbm, 424, rfl⟩
abbrev main_v115 : Ref sig .tc := ⟨.hbm, 425, rfl⟩
abbrev main_v116 : Ref sig .tc := ⟨.hbm, 426, rfl⟩
abbrev main_v117 : Ref sig .tc := ⟨.hbm, 427, rfl⟩
abbrev main_v118 : Ref sig .tc := ⟨.hbm, 428, rfl⟩
abbrev main_v119 : Ref sig .tc := ⟨.hbm, 429, rfl⟩
abbrev main_v120 : Ref sig .tc := ⟨.hbm, 430, rfl⟩
abbrev main_v121 : Ref sig .tc := ⟨.hbm, 431, rfl⟩
abbrev main_v122 : Ref sig .tc := ⟨.hbm, 432, rfl⟩
abbrev main_v123 : Ref sig .tc := ⟨.hbm, 433, rfl⟩
abbrev main_v124 : Ref sig .tc := ⟨.hbm, 434, rfl⟩
abbrev main_v125 : Ref sig .tc := ⟨.hbm, 435, rfl⟩
abbrev main_v126 : Ref sig .tc := ⟨.hbm, 436, rfl⟩
abbrev main_v127 : Ref sig .tc := ⟨.hbm, 437, rfl⟩
abbrev main_v128 : Ref sig .tc := ⟨.hbm, 438, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2080 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2080 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2080 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2080 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x2080 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x2080 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2080 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x2080 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S640x2080 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x10 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2080 : S_.BroadcastsInDim S2080 (![] : Fin 0 → Fin S2080.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2080_S2080_w2080s1p2079_0 : S2080.ReduceWindows (![2080] : Fin 1 → Nat) ![1] ![2079] ![0] S2080
  bcast_S2080_S2080x1_0 : S2080.BroadcastsInDim S2080x1 (![0] : Fin 1 → Fin S2080x1.rank)
  slices_S64x135264_S64x64_0_0 : S64x135264.Slices ![0, 0] S64x64
  slices_S64x135264_S64x2080_0_64 : S64x135264.Slices ![0, 64] S64x2080
  slices_S64x135264_S64x133120_0_2144 : S64x135264.Slices ![0, 2144] S64x133120
  shapeCasts_S64x133120_S64x64x2080 : S64x133120.ShapeCasts S64x64x2080
  bitsLt_bf16_f32 : FTy.bits .bf16 < FTy.bits .f32
  shapeCasts_S64x64x2080_S4096x2080 : S64x64x2080.ShapeCasts S4096x2080
  shapeCasts_S64_S1x64 : S64.ShapeCasts S1x64
  inb_S256x64_S256x64_0_0 : ∀ a, (![0, 0] : Fin 2 → Nat) a + S256x64.size a ≤ S256x64.size a
  h_S256x64 : 0 < S256x64.numel
  inb_S256x2080_S256x2080_0_0 : ∀ a, (![0, 0] : Fin 2 → Nat) a + S256x2080.size a ≤ S256x2080.size a
  h_S256x2080 : 0 < S256x2080.numel
  shapeCasts_S256x2080_S256x2080 : S256x2080.ShapeCasts S256x2080
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x2080_S64x2080_0_0 : ∀ a, (![0, 0] : Fin 2 → Nat) a + S64x2080.size a ≤ S64x2080.size a
  h_S64x2080 : 0 < S64x2080.numel
  shapeCasts_S64x2080_S64x2080 : S64x2080.ShapeCasts S64x2080
  inb_S4096x2080_S4096x2080_0_0 : ∀ a, (![0, 0] : Fin 2 → Nat) a + S4096x2080.size a ≤ S4096x2080.size a
  h_S4096x2080 : 0 < S4096x2080.numel
  shapeCasts_S4096x2080_S4096x2080 : S4096x2080.ShapeCasts S4096x2080
  inb_S1x64_S1x64_0_0 : ∀ a, (![0, 0] : Fin 2 → Nat) a + S1x64.size a ≤ S1x64.size a
  h_S1x64 : 0 < S1x64.numel
  shapeCasts_S1x64_S1x64 : S1x64.ShapeCasts S1x64
  concatenates_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x4096_d1 : Shape.Concatenates (S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: []) S256x4096 1
  iota_S4096x64_d0_w32 : S4096x64.Iotas .tc 32 [0]
  iota_S4096x64_d1_w32 : S4096x64.Iotas .tc 32 [1]
  broadcasts_S1x64_S256x64 : S1x64.Broadcasts S256x64
  shapeCasts_S256x64_S256x64 : S256x64.ShapeCasts S256x64
  slices_S10x135264_S10x64_0_0 : S10x135264.Slices ![0, 0] S10x64
  slices_S10x135264_S10x2080_0_64 : S10x135264.Slices ![0, 64] S10x2080
  slices_S10x135264_S10x133120_0_2144 : S10x135264.Slices ![0, 2144] S10x133120
  shapeCasts_S10x133120_S10x64x2080 : S10x133120.ShapeCasts S10x64x2080
  shapeCasts_S10x64x2080_S640x2080 : S10x64x2080.ShapeCasts S640x2080
  shapeCasts_S10_S1x10 : S10.ShapeCasts S1x10
  inb_S10x64_S10x64_0_0 : ∀ a, (![0, 0] : Fin 2 → Nat) a + S10x64.size a ≤ S10x64.size a
  h_S10x64 : 0 < S10x64.numel
  shapeCasts_S10x64_S10x64 : S10x64.ShapeCasts S10x64
  inb_S10x2080_S10x2080_0_0 : ∀ a, (![0, 0] : Fin 2 → Nat) a + S10x2080.size a ≤ S10x2080.size a
  h_S10x2080 : 0 < S10x2080.numel
  shapeCasts_S10x2080_S10x2080 : S10x2080.ShapeCasts S10x2080
  inb_S640x2080_S640x2080_0_0 : ∀ a, (![0, 0] : Fin 2 → Nat) a + S640x2080.size a ≤ S640x2080.size a
  h_S640x2080 : 0 < S640x2080.numel
  shapeCasts_S640x2080_S640x2080 : S640x2080.ShapeCasts S640x2080
  inb_S1x10_S1x10_0_0 : ∀ a, (![0, 0] : Fin 2 → Nat) a + S1x10.size a ≤ S1x10.size a
  h_S1x10 : 0 < S1x10.numel
  shapeCasts_S1x10_S1x10 : S1x10.ShapeCasts S1x10
  concatenates_S256x64_S256x64_S256x64_S256x64_S256x64_S256x64_S256x64_S256x64_S256x64_S256x64_S256x640_d1 : Shape.Concatenates [S256x64, S256x64, S256x64, S256x64, S256x64, S256x64, S256x64, S256x64, S256x64, S256x64] S256x640 1
  iota_S640x10_d0_w32 : S640x10.Iotas .tc 32 [0]
  iota_S640x10_d1_w32 : S640x10.Iotas .tc 32 [1]
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S2080_S4096x1_S4096_n_0_0_1_wf : ScatterDims.WF S2080 S4096x1 S4096 [] [0] [0] 1
  gather_S1024x64_S2080x1_S1024x2080_0_1_n_n_1_1_10241_wf : GatherDims.WF S1024x64 S2080x1 S1024x2080 [0] [1] [] [1] [] 1 ![1024, 1]
  dot_S256x64_S64x64_S256x64_1_1_0_0_n_n_wf : DotDims.WF S256x64 S64x64 S256x64 [1] [1] [0] [0] [] []
  dot_S256x2080_S64x2080_S256x64_1_1_0_0_n_n_wf : DotDims.WF S256x2080 S64x2080 S256x64 [1] [1] [0] [0] [] []
  dot_S256x2080_S4096x2080_S256x4096_1_1_0_0_n_n_wf : DotDims.WF S256x2080 S4096x2080 S256x4096 [1] [1] [0] [0] [] []
  dot_S256x4096_S4096x64_S256x64_1_0_0_1_n_n_wf : DotDims.WF S256x4096 S4096x64 S256x64 [1] [0] [0] [1] [] []
  dot_S256x64_S10x64_S256x10_1_1_0_0_n_n_wf : DotDims.WF S256x64 S10x64 S256x10 [1] [1] [0] [0] [] []
  dot_S256x2080_S10x2080_S256x10_1_1_0_0_n_n_wf : DotDims.WF S256x2080 S10x2080 S256x10 [1] [1] [0] [0] [] []
  dot_S256x2080_S640x2080_S256x640_1_1_0_0_n_n_wf : DotDims.WF S256x2080 S640x2080 S256x640 [1] [1] [0] [0] [] []
  dot_S256x640_S640x10_S256x10_1_0_0_1_n_n_wf : DotDims.WF S256x640 S640x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S1024x64.size a
  hwx0_0 : ∀ i : grid0.Coords, EltTy.bits .f32 = 32 ∨ (Rect.block (s := S1024x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2080.size a ≤ S1024x2080.size a
  hwx0_1 : ∀ i : grid0.Coords, EltTy.bits .f32 = 32 ∨ (Rect.block (s := S1024x2080) S256x2080.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2080.size a ≤ S64x2080.size a
  hwx0_3 : ∀ i : grid0.Coords, EltTy.bits .f32 = 32 ∨ (Rect.block (s := S64x2080) S64x2080.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x2080.size a ≤ S4096x2080.size a
  hwx0_4 : ∀ i : grid0.Coords, EltTy.bits .bf16 = 32 ∨ (Rect.block (s := S4096x2080) S4096x2080.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S1024x64.size a
  hwx0_6 : ∀ i : grid0.Coords, EltTy.bits .f32 = 32 ∨ (Rect.block (s := S1024x64) S256x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S1024x64.size a
  hwx1_0 : ∀ i : grid1.Coords, EltTy.bits .f32 = 32 ∨ (Rect.block (s := S1024x64) S256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2080.size a ≤ S1024x2080.size a
  hwx1_1 : ∀ i : grid1.Coords, EltTy.bits .f32 = 32 ∨ (Rect.block (s := S1024x2080) S256x2080.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x2080.size a ≤ S64x2080.size a
  hwx1_3 : ∀ i : grid1.Coords, EltTy.bits .f32 = 32 ∨ (Rect.block (s := S64x2080) S64x2080.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x2080.size a ≤ S4096x2080.size a
  hwx1_4 : ∀ i : grid1.Coords, EltTy.bits .bf16 = 32 ∨ (Rect.block (s := S4096x2080) S4096x2080.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S1024x64.size a
  hwx1_6 : ∀ i : grid1.Coords, EltTy.bits .f32 = 32 ∨ (Rect.block (s := S1024x64) S256x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S1024x64.size a
  hwx2_0 : ∀ i : grid2.Coords, EltTy.bits .f32 = 32 ∨ (Rect.block (s := S1024x64) S256x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2080.size a ≤ S1024x2080.size a
  hwx2_1 : ∀ i : grid2.Coords, EltTy.bits .f32 = 32 ∨ (Rect.block (s := S1024x2080) S256x2080.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10x64.size a ≤ S10x64.size a
  hwx2_2 : ∀ i : grid2.Coords, EltTy.bits .f32 = 32 ∨ (Rect.block (s := S10x64) S10x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10x2080.size a ≤ S10x2080.size a
  hwx2_3 : ∀ i : grid2.Coords, EltTy.bits .f32 = 32 ∨ (Rect.block (s := S10x2080) S10x2080.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S640x2080.size a ≤ S640x2080.size a
  hwx2_4 : ∀ i : grid2.Coords, EltTy.bits .bf16 = 32 ∨ (Rect.block (s := S640x2080) S640x2080.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x10.size a ≤ S1024x10.size a
  hwx2_6 : ∀ i : grid2.Coords, EltTy.bits .f32 = 32 ∨ (Rect.block (s := S1024x10) S256x10.size (cc2_transform_6 i) (hinb2_6 i)).WholeWords (EltTy.packing .f32)

variable [Facts₀]

def scatter_S2080_S4096x1_S4096_n_0_0_1 : ScatterDims S2080 S4096x1 S4096 where
  updateWindowDims := []
  insertedWindowDims := [0]
  scatterDimsToOperandDims := [0]
  indexVectorDim := 1
  wf := scatter_S2080_S4096x1_S4096_n_0_0_1_wf
def gather_S1024x64_S2080x1_S1024x2080_0_1_n_n_1_1_10241 : GatherDims S1024x64 S2080x1 S1024x2080 where
  offsetDims := [0]
  collapsedSliceDims := [1]
  operandBatchingDims := []
  startIndicesBatchingDims := []
  startIndexMap := [1]
  indexVectorDim := 1
  sliceSizes := ![1024, 1]
  wf := gather_S1024x64_S2080x1_S1024x2080_0_1_n_n_1_1_10241_wf
def dot_S256x64_S64x64_S256x64_1_1_0_0_n_n : DotDims S256x64 S64x64 S256x64 where
  lhsContracting := [1]
  rhsContracting := [1]
  lhsNonContracting := [0]
  rhsNonContracting := [0]
  lhsBatch := []
  rhsBatch := []
  wf := dot_S256x64_S64x64_S256x64_1_1_0_0_n_n_wf
def dot_S256x2080_S64x2080_S256x64_1_1_0_0_n_n : DotDims S256x2080 S64x2080 S256x64 where
  lhsContracting := [1]
  rhsContracting := [1]
  lhsNonContracting := [0]
  rhsNonContracting := [0]
  lhsBatch := []
  rhsBatch := []
  wf := dot_S256x2080_S64x2080_S256x64_1_1_0_0_n_n_wf
def dot_S256x2080_S4096x2080_S256x4096_1_1_0_0_n_n : DotDims S256x2080 S4096x2080 S256x4096 where
  lhsContracting := [1]
  rhsContracting := [1]
  lhsNonContracting := [0]
  rhsNonContracting := [0]
  lhsBatch := []
  rhsBatch := []
  wf := dot_S256x2080_S4096x2080_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S10x64_S256x10_1_1_0_0_n_n : DotDims S256x64 S10x64 S256x10 where
  lhsContracting := [1]
  rhsContracting := [1]
  lhsNonContracting := [0]
  rhsNonContracting := [0]
  lhsBatch := []
  rhsBatch := []
  wf := dot_S256x64_S10x64_S256x10_1_1_0_0_n_n_wf
def dot_S256x2080_S10x2080_S256x10_1_1_0_0_n_n : DotDims S256x2080 S10x2080 S256x10 where
  lhsContracting := [1]
  rhsContracting := [1]
  lhsNonContracting := [0]
  rhsNonContracting := [0]
  lhsBatch := []
  rhsBatch := []
  wf := dot_S256x2080_S10x2080_S256x10_1_1_0_0_n_n_wf
def dot_S256x2080_S640x2080_S256x640_1_1_0_0_n_n : DotDims S256x2080 S640x2080 S256x640 where
  lhsContracting := [1]
  rhsContracting := [1]
  lhsNonContracting := [0]
  rhsNonContracting := [0]
  lhsBatch := []
  rhsBatch := []
  wf := dot_S256x2080_S640x2080_S256x640_1_1_0_0_n_n_wf
def dot_S256x640_S640x10_S256x10_1_0_0_1_n_n : DotDims S256x640 S640x10 S256x10 where
  lhsContracting := [1]
  rhsContracting := [0]
  lhsNonContracting := [0]
  rhsNonContracting := [1]
  lhsBatch := []
  rhsBatch := []
  wf := dot_S256x640_S640x10_S256x10_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S256x2080.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S64x2080.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S4096x2080.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S256x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S256x2080.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v78) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S64x2080.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v83) S4096x2080.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v84) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v85) S256x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v85) S256x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v120) S256x2080.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v121) S10x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v122) S10x2080.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v126) S640x2080.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v127) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v128) S256x10.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1024x64 : Shape := ⟨2, ![1024, 64]⟩
abbrev S64x135264 : Shape := ⟨2, ![64, 135264]⟩
abbrev S64 : Shape := ⟨1, ![64]⟩
abbrev S10x135264 : Shape := ⟨2, ![10, 135264]⟩
abbrev S10 : Shape := ⟨1, ![10]⟩
abbrev S_ : Shape := ⟨0, ![]⟩
abbrev S64x64 : Shape := ⟨2, ![64, 64]⟩
abbrev S4096 : Shape := ⟨1, ![4096]⟩
abbrev S2080 : Shape := ⟨1, ![2080]⟩
abbrev S4096x1 : Shape := ⟨2, ![4096, 1]⟩
abbrev S2080x1 : Shape := ⟨2, ![2080, 1]⟩
abbrev S1024x2080 : Shape := ⟨2, ![1024, 2080]⟩
abbrev S1024x64x1 : Shape := ⟨3, ![1024, 64, 1]⟩
abbrev S1024x1x2080 : Shape := ⟨3, ![1024, 1, 2080]⟩
abbrev S1024x64x2080 : Shape := ⟨3, ![1024, 64, 2080]⟩
abbrev S1024x133120 : Shape := ⟨2, ![1024, 133120]⟩
abbrev S1024x135264 : Shape := ⟨2, ![1024, 135264]⟩
abbrev S135264x64 : Shape := ⟨2, ![135264, 64]⟩
abbrev S1x64 : Shape := ⟨2, ![1, 64]⟩
abbrev S135264x10 : Shape := ⟨2, ![135264, 10]⟩
abbrev S1024x10 : Shape := ⟨2, ![1024, 10]⟩
abbrev S1x10 : Shape := ⟨2, ![1, 10]⟩

abbrev nBuf : Space → Nat
  | .hbm => 451
  | .vmem => 0
  | .smem => 0
  | _ => 0

abbrev hbmTy0_0 (i : Nat) : BufTy := match i % 128 with
  | 0 => ⟨S1024x64, .f32⟩
  | 1 => ⟨S64x135264, .f32⟩
  | 2 => ⟨S64, .f32⟩
  | 3 => ⟨S64x135264, .f32⟩
  | 4 => ⟨S64, .f32⟩
  | 5 => ⟨S10x135264, .f32⟩
  | 6 => ⟨S10, .f32⟩
  | 7 => ⟨S_, .f32⟩
  | 8 => ⟨S64x64, .f32⟩
  | 9 => ⟨S64x64, .i32⟩
  | 10 => ⟨S_, .i32⟩
  | 11 => ⟨S64x64, .i32⟩
  | 12 => ⟨S64x64, .i32⟩
  | 13 => ⟨S64x64, .i32⟩
  | 14 => ⟨S64x64, .i1⟩
  | 15 => ⟨S_, .f32⟩
  | 16 => ⟨S64x64, .f32⟩
  | 17 => ⟨S64x64, .f32⟩
  | 18 => ⟨S_, .f32⟩
  | 19 => ⟨S64x64, .f32⟩
  | 20 => ⟨S64x64, .i1⟩
  | 21 => ⟨S4096, .i1⟩
  | 22 => ⟨S4096, .i32⟩
  | 23 => ⟨S_, .i32⟩
  | 24 => ⟨S_, .i32⟩
  | 25 => ⟨S4096, .i32⟩
  | 26 => ⟨S_, .i32⟩
  | 27 => ⟨S2080, .i32⟩
  | 28 => ⟨S_, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S_, .i32⟩
  | 41 => ⟨S4096, .i32⟩
  | 42 => ⟨S2080, .i32⟩
  | 43 => ⟨S_, .i32⟩
  | 44 => ⟨S_, .i32⟩
  | 45 => ⟨S2080, .i32⟩
  | 46 => ⟨S_, .i32⟩
  | 47 => ⟨S2080, .i32⟩
  | 48 => ⟨S2080, .i32⟩
  | 49 => ⟨S2080, .i32⟩
  | 50 => ⟨S_, .i32⟩
  | 51 => ⟨S2080, .i32⟩
  | 52 => ⟨S2080, .i1⟩
  | 53 => ⟨S2080, .i32⟩
  | 54 => ⟨S2080, .i32⟩
  | 55 => ⟨S_, .i32⟩
  | 56 => ⟨S2080, .i32⟩
  | 57 => ⟨S2080, .i1⟩
  | 58 => ⟨S2080, .i1⟩
  | 59 => ⟨S_, .i32⟩
  | 60 => ⟨S2080, .i32⟩
  | 61 => ⟨S2080, .i32⟩
  | 62 => ⟨S2080, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S2080, .i32⟩
  | 70 => ⟨S2080, .i32⟩
  | 71 => ⟨S_, .i32⟩
  | 72 => ⟨S2080, .i32⟩
  | 73 => ⟨S2080, .i1⟩
  | 74 => ⟨S_, .i32⟩
  | 75 => ⟨S2080, .i32⟩
  | 76 => ⟨S2080, .i1⟩
  | 77 => ⟨S_, .i32⟩
  | 78 => ⟨S_, .i1⟩
  | 79 => ⟨S2080, .i1⟩
  | 80 => ⟨S2080, .i1⟩
  | 81 => ⟨S2080, .i1⟩
  | 82 => ⟨S2080, .i32⟩
  | 83 => ⟨S2080, .i32⟩
  | 84 => ⟨S2080, .i32⟩
  | 85 => ⟨S_, .i32⟩
  | 86 => ⟨S2080, .i32⟩
  | 87 => ⟨S2080, .i32⟩
  | 88 => ⟨S2080, .i32⟩
  | 89 => ⟨S_, .i32⟩
  | 90 => ⟨S2080, .i32⟩
  | 91 => ⟨S2080, .i1⟩
  | 92 => ⟨S2080, .i32⟩
  | 93 => ⟨S2080, .i32⟩
  | 94 => ⟨S_, .i32⟩
  | 95 => ⟨S2080, .i32⟩
  | 96 => ⟨S2080, .i1⟩
  | 97 => ⟨S2080, .i1⟩
  | 98 => ⟨S_, .i32⟩
  | 99 => ⟨S2080, .i32⟩
  | 100 => ⟨S2080, .i32⟩
  | 101 => ⟨S2080, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S2080, .i32⟩
  | 109 => ⟨S2080, .i32⟩
  | 110 => ⟨S_, .i32⟩
  | 111 => ⟨S2080, .i32⟩
  | 112 => ⟨S2080, .i1⟩
  | 113 => ⟨S_, .i32⟩
  | 114 => ⟨S2080, .i32⟩
  | 115 => ⟨S2080, .i1⟩
  | 116 => ⟨S_, .i32⟩
  | 117 => ⟨S_, .i1⟩
  | 118 => ⟨S2080, .i1⟩
  | 119 => ⟨S2080, .i1⟩
  | 120 => ⟨S2080, .i1⟩
  | 121 => ⟨S2080, .i32⟩
  | 122 => ⟨S2080, .i32⟩
  | 123 => ⟨S2080, .i32⟩
  | 124 => ⟨S_, .i32⟩
  | 125 => ⟨S2080, .i32⟩
  | 126 => ⟨S2080, .i1⟩
  | 127 => ⟨S_, .i32⟩
  | _ => ⟨S1024x64, .f32⟩

abbrev hbmTy0_1 (i : Nat) : BufTy := match i % 128 with
  | 0 => ⟨S2080, .i32⟩
  | 1 => ⟨S2080, .i32⟩
  | 2 => ⟨S2080, .i32⟩
  | 3 => ⟨S2080x1, .i32⟩
  | 4 => ⟨S1024x2080, .f32⟩
  | 5 => ⟨S_, .i32⟩
  | 6 => ⟨S2080, .i32⟩
  | 7 => ⟨S2080, .i1⟩
  | 8 => ⟨S_, .i32⟩
  | 9 => ⟨S2080, .i32⟩
  | 10 => ⟨S2080, .i32⟩
  | 11 => ⟨S2080, .i32⟩
  | 12 => ⟨S2080x1, .i32⟩
  | 13 => ⟨S1024x2080, .f32⟩
  | 14 => ⟨S1024x2080, .f32⟩
  | 15 => ⟨S1024x64x1, .f32⟩
  | 16 => ⟨S1024x1x2080, .f32⟩
  | 17 => ⟨S1024x64x2080, .f32⟩
  | 18 => ⟨S1024x64x2080, .f32⟩
  | 19 => ⟨S1024x64x2080, .f32⟩
  | 20 => ⟨S1024x133120, .f32⟩
  | 21 => ⟨S1024x135264, .f32⟩
  | 22 => ⟨S135264x64, .f32⟩
  | 23 => ⟨S1024x64, .f32⟩
  | 24 => ⟨S1x64, .f32⟩
  | 25 => ⟨S1024x64, .f32⟩
  | 26 => ⟨S1024x64, .f32⟩
  | 27 => ⟨S_, .f32⟩
  | 28 => ⟨S64x64, .f32⟩
  | 29 => ⟨S64x64, .i32⟩
  | 30 => ⟨S_, .i32⟩
  | 31 => ⟨S64x64, .i32⟩
  | 32 => ⟨S64x64, .i32⟩
  | 33 => ⟨S64x64, .i32⟩
  | 34 => ⟨S64x64, .i1⟩
  | 35 => ⟨S_, .f32⟩
  | 36 => ⟨S64x64, .f32⟩
  | 37 => ⟨S64x64, .f32⟩
  | 38 => ⟨S_, .f32⟩
  | 39 => ⟨S64x64, .f32⟩
  | 40 => ⟨S64x64, .i1⟩
  | 41 => ⟨S4096, .i1⟩
  | 42 => ⟨S4096, .i32⟩
  | 43 => ⟨S_, .i32⟩
  | 44 => ⟨S_, .i32⟩
  | 45 => ⟨S4096, .i32⟩
  | 46 => ⟨S_, .i32⟩
  | 47 => ⟨S2080, .i32⟩
  | 48 => ⟨S_, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S_, .i32⟩
  | 61 => ⟨S4096, .i32⟩
  | 62 => ⟨S2080, .i32⟩
  | 63 => ⟨S_, .i32⟩
  | 64 => ⟨S_, .i32⟩
  | 65 => ⟨S2080, .i32⟩
  | 66 => ⟨S_, .i32⟩
  | 67 => ⟨S2080, .i32⟩
  | 68 => ⟨S2080, .i32⟩
  | 69 => ⟨S2080, .i32⟩
  | 70 => ⟨S_, .i32⟩
  | 71 => ⟨S2080, .i32⟩
  | 72 => ⟨S2080, .i1⟩
  | 73 => ⟨S2080, .i32⟩
  | 74 => ⟨S2080, .i32⟩
  | 75 => ⟨S_, .i32⟩
  | 76 => ⟨S2080, .i32⟩
  | 77 => ⟨S2080, .i1⟩
  | 78 => ⟨S2080, .i1⟩
  | 79 => ⟨S_, .i32⟩
  | 80 => ⟨S2080, .i32⟩
  | 81 => ⟨S2080, .i32⟩
  | 82 => ⟨S2080, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S2080, .i32⟩
  | 90 => ⟨S2080, .i32⟩
  | 91 => ⟨S_, .i32⟩
  | 92 => ⟨S2080, .i32⟩
  | 93 => ⟨S2080, .i1⟩
  | 94 => ⟨S_, .i32⟩
  | 95 => ⟨S2080, .i32⟩
  | 96 => ⟨S2080, .i1⟩
  | 97 => ⟨S_, .i32⟩
  | 98 => ⟨S_, .i1⟩
  | 99 => ⟨S2080, .i1⟩
  | 100 => ⟨S2080, .i1⟩
  | 101 => ⟨S2080, .i1⟩
  | 102 => ⟨S2080, .i32⟩
  | 103 => ⟨S2080, .i32⟩
  | 104 => ⟨S2080, .i32⟩
  | 105 => ⟨S_, .i32⟩
  | 106 => ⟨S2080, .i32⟩
  | 107 => ⟨S2080, .i32⟩
  | 108 => ⟨S2080, .i32⟩
  | 109 => ⟨S_, .i32⟩
  | 110 => ⟨S2080, .i32⟩
  | 111 => ⟨S2080, .i1⟩
  | 112 => ⟨S2080, .i32⟩
  | 113 => ⟨S2080, .i32⟩
  | 114 => ⟨S_, .i32⟩
  | 115 => ⟨S2080, .i32⟩
  | 116 => ⟨S2080, .i1⟩
  | 117 => ⟨S2080, .i1⟩
  | 118 => ⟨S_, .i32⟩
  | 119 => ⟨S2080, .i32⟩
  | 120 => ⟨S2080, .i32⟩
  | 121 => ⟨S2080, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S1024x64, .f32⟩

abbrev hbmTy0_2 (i : Nat) : BufTy := match i % 128 with
  | 0 => ⟨S2080, .i32⟩
  | 1 => ⟨S2080, .i32⟩
  | 2 => ⟨S_, .i32⟩
  | 3 => ⟨S2080, .i32⟩
  | 4 => ⟨S2080, .i1⟩
  | 5 => ⟨S_, .i32⟩
  | 6 => ⟨S2080, .i32⟩
  | 7 => ⟨S2080, .i1⟩
  | 8 => ⟨S_, .i32⟩
  | 9 => ⟨S_, .i1⟩
  | 10 => ⟨S2080, .i1⟩
  | 11 => ⟨S2080, .i1⟩
  | 12 => ⟨S2080, .i1⟩
  | 13 => ⟨S2080, .i32⟩
  | 14 => ⟨S2080, .i32⟩
  | 15 => ⟨S2080, .i32⟩
  | 16 => ⟨S_, .i32⟩
  | 17 => ⟨S2080, .i32⟩
  | 18 => ⟨S2080, .i1⟩
  | 19 => ⟨S_, .i32⟩
  | 20 => ⟨S2080, .i32⟩
  | 21 => ⟨S2080, .i32⟩
  | 22 => ⟨S2080, .i32⟩
  | 23 => ⟨S2080x1, .i32⟩
  | 24 => ⟨S1024x2080, .f32⟩
  | 25 => ⟨S_, .i32⟩
  | 26 => ⟨S2080, .i32⟩
  | 27 => ⟨S2080, .i1⟩
  | 28 => ⟨S_, .i32⟩
  | 29 => ⟨S2080, .i32⟩
  | 30 => ⟨S2080, .i32⟩
  | 31 => ⟨S2080, .i32⟩
  | 32 => ⟨S2080x1, .i32⟩
  | 33 => ⟨S1024x2080, .f32⟩
  | 34 => ⟨S1024x2080, .f32⟩
  | 35 => ⟨S1024x64x1, .f32⟩
  | 36 => ⟨S1024x1x2080, .f32⟩
  | 37 => ⟨S1024x64x2080, .f32⟩
  | 38 => ⟨S1024x64x2080, .f32⟩
  | 39 => ⟨S1024x64x2080, .f32⟩
  | 40 => ⟨S1024x133120, .f32⟩
  | 41 => ⟨S1024x135264, .f32⟩
  | 42 => ⟨S135264x64, .f32⟩
  | 43 => ⟨S1024x64, .f32⟩
  | 44 => ⟨S1x64, .f32⟩
  | 45 => ⟨S1024x64, .f32⟩
  | 46 => ⟨S1024x64, .f32⟩
  | 47 => ⟨S_, .f32⟩
  | 48 => ⟨S64x64, .f32⟩
  | 49 => ⟨S64x64, .i32⟩
  | 50 => ⟨S_, .i32⟩
  | 51 => ⟨S64x64, .i32⟩
  | 52 => ⟨S64x64, .i32⟩
  | 53 => ⟨S64x64, .i32⟩
  | 54 => ⟨S64x64, .i1⟩
  | 55 => ⟨S_, .f32⟩
  | 56 => ⟨S64x64, .f32⟩
  | 57 => ⟨S64x64, .f32⟩
  | 58 => ⟨S_, .f32⟩
  | 59 => ⟨S64x64, .f32⟩
  | 60 => ⟨S64x64, .i1⟩
  | 61 => ⟨S4096, .i1⟩
  | 62 => ⟨S4096, .i32⟩
  | 63 => ⟨S_, .i32⟩
  | 64 => ⟨S_, .i32⟩
  | 65 => ⟨S4096, .i32⟩
  | 66 => ⟨S_, .i32⟩
  | 67 => ⟨S2080, .i32⟩
  | 68 => ⟨S_, .i32⟩
  | 69 => ⟨S_, .i32⟩
  | 70 => ⟨S4096, .i32⟩
  | 71 => ⟨S4096, .i32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S_, .i32⟩
  | 81 => ⟨S4096, .i32⟩
  | 82 => ⟨S2080, .i32⟩
  | 83 => ⟨S_, .i32⟩
  | 84 => ⟨S_, .i32⟩
  | 85 => ⟨S2080, .i32⟩
  | 86 => ⟨S_, .i32⟩
  | 87 => ⟨S2080, .i32⟩
  | 88 => ⟨S2080, .i32⟩
  | 89 => ⟨S2080, .i32⟩
  | 90 => ⟨S_, .i32⟩
  | 91 => ⟨S2080, .i32⟩
  | 92 => ⟨S2080, .i1⟩
  | 93 => ⟨S2080, .i32⟩
  | 94 => ⟨S2080, .i32⟩
  | 95 => ⟨S_, .i32⟩
  | 96 => ⟨S2080, .i32⟩
  | 97 => ⟨S2080, .i1⟩
  | 98 => ⟨S2080, .i1⟩
  | 99 => ⟨S_, .i32⟩
  | 100 => ⟨S2080, .i32⟩
  | 101 => ⟨S2080, .i32⟩
  | 102 => ⟨S2080, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S2080, .i32⟩
  | 110 => ⟨S2080, .i32⟩
  | 111 => ⟨S_, .i32⟩
  | 112 => ⟨S2080, .i32⟩
  | 113 => ⟨S2080, .i1⟩
  | 114 => ⟨S_, .i32⟩
  | 115 => ⟨S2080, .i32⟩
  | 116 => ⟨S2080, .i1⟩
  | 117 => ⟨S_, .i32⟩
  | 118 => ⟨S_, .i1⟩
  | 119 => ⟨S2080, .i1⟩
  | 120 => ⟨S2080, .i1⟩
  | 121 => ⟨S2080, .i1⟩
  | 122 => ⟨S2080, .i32⟩
  | 123 => ⟨S2080, .i32⟩
  | 124 => ⟨S2080, .i32⟩
  | 125 => ⟨S_, .i32⟩
  | 126 => ⟨S2080, .i32⟩
  | 127 => ⟨S2080, .i32⟩
  | _ => ⟨S1024x64, .f32⟩

abbrev hbmTy0_3 (i : Nat) : BufTy := match i % 128 with
  | 0 => ⟨S2080, .i32⟩
  | 1 => ⟨S_, .i32⟩
  | 2 => ⟨S2080, .i32⟩
  | 3 => ⟨S2080, .i1⟩
  | 4 => ⟨S2080, .i32⟩
  | 5 => ⟨S2080, .i32⟩
  | 6 => ⟨S_, .i32⟩
  | 7 => ⟨S2080, .i32⟩
  | 8 => ⟨S2080, .i1⟩
  | 9 => ⟨S2080, .i1⟩
  | 10 => ⟨S_, .i32⟩
  | 11 => ⟨S2080, .i32⟩
  | 12 => ⟨S2080, .i32⟩
  | 13 => ⟨S2080, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S2080, .i32⟩
  | 21 => ⟨S2080, .i32⟩
  | 22 => ⟨S_, .i32⟩
  | 23 => ⟨S2080, .i32⟩
  | 24 => ⟨S2080, .i1⟩
  | 25 => ⟨S_, .i32⟩
  | 26 => ⟨S2080, .i32⟩
  | 27 => ⟨S2080, .i1⟩
  | 28 => ⟨S_, .i32⟩
  | 29 => ⟨S_, .i1⟩
  | 30 => ⟨S2080, .i1⟩
  | 31 => ⟨S2080, .i1⟩
  | 32 => ⟨S2080, .i1⟩
  | 33 => ⟨S2080, .i32⟩
  | 34 => ⟨S2080, .i32⟩
  | 35 => ⟨S2080, .i32⟩
  | 36 => ⟨S_, .i32⟩
  | 37 => ⟨S2080, .i32⟩
  | 38 => ⟨S2080, .i1⟩
  | 39 => ⟨S_, .i32⟩
  | 40 => ⟨S2080, .i32⟩
  | 41 => ⟨S2080, .i32⟩
  | 42 => ⟨S2080, .i32⟩
  | 43 => ⟨S2080x1, .i32⟩
  | 44 => ⟨S1024x2080, .f32⟩
  | 45 => ⟨S_, .i32⟩
  | 46 => ⟨S2080, .i32⟩
  | 47 => ⟨S2080, .i1⟩
  | 48 => ⟨S_, .i32⟩
  | 49 => ⟨S2080, .i32⟩
  | 50 => ⟨S2080, .i32⟩
  | 51 => ⟨S2080, .i32⟩
  | 52 => ⟨S2080x1, .i32⟩
  | 53 => ⟨S1024x2080, .f32⟩
  | 54 => ⟨S1024x2080, .f32⟩
  | 55 => ⟨S1024x64x1, .f32⟩
  | 56 => ⟨S1024x1x2080, .f32⟩
  | 57 => ⟨S1024x64x2080, .f32⟩
  | 58 => ⟨S1024x64x2080, .f32⟩
  | 59 => ⟨S1024x64x2080, .f32⟩
  | 60 => ⟨S1024x133120, .f32⟩
  | 61 => ⟨S1024x135264, .f32⟩
  | 62 => ⟨S135264x10, .f32⟩
  | 63 => ⟨S1024x10, .f32⟩
  | 64 => ⟨S1x10, .f32⟩
  | 65 => ⟨S1024x10, .f32⟩
  | 66 => ⟨S1024x10, .f32⟩
  | _ => ⟨S1024x64, .f32⟩

abbrev hbmTy (i : Nat) : BufTy := match i / 128 with
  | 0 => hbmTy0_0 i
  | 1 => hbmTy0_1 i
  | 2 => hbmTy0_2 i
  | 3 => hbmTy0_3 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_call1_v0 : Ref sig .tc := ⟨.hbm, 21, rfl⟩
abbrev main_call1_v1 : Ref sig .tc := ⟨.hbm, 22, rfl⟩
abbrev main_call1_call0_c : Ref sig .tc := ⟨.hbm, 23, rfl⟩
abbrev main_call1_call0_v0 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_4 : Ref sig .tc := ⟨.hbm, 40, rfl⟩
abbrev main_v13 : Ref sig .tc := ⟨.hbm, 41, rfl⟩
abbrev main_v14 : Ref sig .tc := ⟨.hbm, 42, rfl⟩
abbrev main_call3_call0_c : Ref sig .tc := ⟨.hbm, 43, rfl⟩
abbrev main_call3_call0_v0 : Ref sig .tc := ⟨.hbm, 44, rfl⟩
abbrev main_v15 : Ref sig .tc := ⟨.hbm, 45, rfl⟩
abbrev main_c_5 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_v6 : Ref sig .tc := ⟨.hbm, 53, rfl⟩
abbrev main_call4_v7 : Ref sig .tc := ⟨.hbm, 54, rfl⟩
abbrev main_call4_c : Ref sig .tc := ⟨.hbm, 55, rfl⟩
abbrev main_call4_v8 : Ref sig .tc := ⟨.hbm, 56, rfl⟩
abbrev main_call4_v9 : Ref sig .tc := ⟨.hbm, 57, rfl⟩
abbrev main_call4_v10 : Ref sig .tc := ⟨.hbm, 58, rfl⟩
abbrev main_call4_c_0 : Ref sig .tc := ⟨.hbm, 59, rfl⟩
abbrev main_call4_v11 : Ref sig .tc := ⟨.hbm, 60, rfl⟩
abbrev main_call4_v12 : Ref sig .tc := ⟨.hbm, 61, rfl⟩
abbrev main_v16 : Ref sig .tc := ⟨.hbm, 62, rfl⟩
abbrev main_c_6 : Ref sig .tc := ⟨.hbm, 63, rfl⟩
abbrev main_call5_v0 : Ref sig .tc := ⟨.hbm, 64, rfl⟩
abbrev main_call5_c : Ref sig .tc := ⟨.hbm, 65, rfl⟩
abbrev main_call5_v1 : Ref sig .tc := ⟨.hbm, 66, rfl⟩
abbrev main_call5_c_0 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_call5_c_1 : Ref sig .tc := ⟨.hbm, 71, rfl⟩
abbrev main_call5_v5 : Ref sig .tc := ⟨.hbm, 72, rfl⟩
abbrev main_call5_v6 : Ref sig .tc := ⟨.hbm, 73, rfl⟩
abbrev main_call5_c_2 : Ref sig .tc := ⟨.hbm, 74, rfl⟩
abbrev main_call5_v7 : Ref sig .tc := ⟨.hbm, 75, rfl⟩
abbrev main_call5_v8 : Ref sig .tc := ⟨.hbm, 76, rfl⟩
abbrev main_call5_c_3 : Ref sig .tc := ⟨.hbm, 77, rfl⟩
abbrev main_call5_v9 : Ref sig .tc := ⟨.hbm, 78, rfl⟩
abbrev main_call5_v10 : Ref sig .tc := ⟨.hbm, 79, rfl⟩
abbrev main_call5_v11 : Ref sig .tc := ⟨.hbm, 80, rfl⟩
abbrev main_call5_v12 : Ref sig .tc := ⟨.hbm, 81, rfl⟩
abbrev main_call5_v13 : Ref sig .tc := ⟨.hbm, 82, rfl⟩
abbrev main_call5_v14 : Ref sig .tc := ⟨.hbm, 83, rfl⟩
abbrev main_v17 : Ref sig .tc := ⟨.hbm, 84, rfl⟩
abbrev main_c_7 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_call6_v5 : Ref sig .tc := ⟨.hbm, 91, rfl⟩
abbrev main_call6_v6 : Ref sig .tc := ⟨.hbm, 92, rfl⟩
abbrev main_call6_v7 : Ref sig .tc := ⟨.hbm, 93, rfl⟩
abbrev main_call6_c : Ref sig .tc := ⟨.hbm, 94, rfl⟩
abbrev main_call6_v8 : Ref sig .tc := ⟨.hbm, 95, rfl⟩
abbrev main_call6_v9 : Ref sig .tc := ⟨.hbm, 96, rfl⟩
abbrev main_call6_v10 : Ref sig .tc := ⟨.hbm, 97, rfl⟩
abbrev main_call6_c_0 : Ref sig .tc := ⟨.hbm, 98, rfl⟩
abbrev main_call6_v11 : Ref sig .tc := ⟨.hbm, 99, rfl⟩
abbrev main_call6_v12 : Ref sig .tc := ⟨.hbm, 100, rfl⟩
abbrev main_v18 : Ref sig .tc := ⟨.hbm, 101, rfl⟩
abbrev main_c_8 : Ref sig .tc := ⟨.hbm, 102, rfl⟩
abbrev main_call7_v0 : Ref sig .tc := ⟨.hbm, 103, rfl⟩
abbrev main_call7_c : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_c_1 : Ref sig .tc := ⟨.hbm, 110, rfl⟩
abbrev main_call7_v5 : Ref sig .tc := ⟨.hbm, 111, rfl⟩
abbrev main_call7_v6 : Ref sig .tc := ⟨.hbm, 112, rfl⟩
abbrev main_call7_c_2 : Ref sig .tc := ⟨.hbm, 113, rfl⟩
abbrev main_call7_v7 : Ref sig .tc := ⟨.hbm, 114, rfl⟩
abbrev main_call7_v8 : Ref sig .tc := ⟨.hbm, 115, rfl⟩
abbrev main_call7_c_3 : Ref sig .tc := ⟨.hbm, 116, rfl⟩
abbrev main_call7_v9 : Ref sig .tc := ⟨.hbm, 117, rfl⟩
abbrev main_call7_v10 : Ref sig .tc := ⟨.hbm, 118, rfl⟩
abbrev main_call7_v11 : Ref sig .tc := ⟨.hbm, 119, rfl⟩
abbrev main_call7_v12 : Ref sig .tc := ⟨.hbm, 120, rfl⟩
abbrev main_call7_v13 : Ref sig .tc := ⟨.hbm, 121, rfl⟩
abbrev main_call7_v14 : Ref sig .tc := ⟨.hbm, 122, rfl⟩
abbrev main_v19 : Ref sig .tc := ⟨.hbm, 123, rfl⟩
abbrev main_c_9 : Ref sig .tc := ⟨.hbm, 124, rfl⟩
abbrev main_v20 : Ref sig .tc := ⟨.hbm, 125, rfl⟩
abbrev main_v21 : Ref sig .tc := ⟨.hbm, 126, rfl⟩
abbrev main_c_10 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_c_11 : Ref sig .tc := ⟨.hbm, 133, rfl⟩
abbrev main_v27 : Ref sig .tc := ⟨.hbm, 134, rfl⟩
abbrev main_v28 : Ref sig .tc := ⟨.hbm, 135, rfl⟩
abbrev main_c_12 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_cst_13 : Ref sig .tc := ⟨.hbm, 155, rfl⟩
abbrev main_v47 : Ref sig .tc := ⟨.hbm, 156, rfl⟩
abbrev main_call8_v0 : Ref sig .tc := ⟨.hbm, 157, rfl⟩
abbrev main_call8_c : Ref sig .tc := ⟨.hbm, 158, rfl⟩
abbrev main_call8_v1 : Ref sig .tc := ⟨.hbm, 159, rfl⟩
abbrev main_call8_v2 : Ref sig .tc := ⟨.hbm, 160, rfl⟩
abbrev main_call8_v3 : Ref sig .tc := ⟨.hbm, 161, rfl⟩
abbrev main_call8_v4 : Ref sig .tc := ⟨.hbm, 162, rfl⟩
abbrev main_call8_cst : Ref sig .tc := ⟨.hbm, 163, rfl⟩
abbrev main_call8_v5 : Ref sig .tc := ⟨.hbm, 164, rfl⟩
abbrev main_v48 : Ref sig .tc := ⟨.hbm, 165, rfl⟩
abbrev main_cst_14 : Ref sig .tc := ⟨.hbm, 166, rfl⟩
abbrev main_v49 : Ref sig .tc := ⟨.hbm, 167, rfl⟩
abbrev main_v50 : Ref sig .tc := ⟨.hbm, 168, rfl⟩
abbrev main_call9_v0 : Ref sig .tc := ⟨.hbm, 169, rfl⟩
abbrev main_call9_v1 : Ref sig .tc := ⟨.hbm, 170, rfl⟩
abbrev main_call9_call0_c : Ref sig .tc := ⟨.hbm, 171, rfl⟩
abbrev main_call9_call0_v0 : Ref sig .tc := ⟨.hbm, 172, rfl⟩
abbrev main_v51 : Ref sig .tc := ⟨.hbm, 173, rfl⟩
abbrev main_c_15 : Ref sig .tc := ⟨.hbm, 174, rfl⟩
abbrev main_v52 : Ref sig .tc := ⟨.hbm, 175, rfl⟩
abbrev main_c_16 : Ref sig .tc := ⟨.hbm, 176, rfl⟩
abbrev main_call10_v0 : Ref sig .tc := ⟨.hbm, 177, rfl⟩
abbrev main_call10_v1 : Ref sig .tc := ⟨.hbm, 178, rfl⟩
abbrev main_v53 : Ref sig .tc := ⟨.hbm, 179, rfl⟩
abbrev main_c_17 : Ref sig .tc := ⟨.hbm, 180, rfl⟩
abbrev main_v54 : Ref sig .tc := ⟨.hbm, 181, rfl⟩
abbrev main_v55 : Ref sig .tc := ⟨.hbm, 182, rfl⟩
abbrev main_c_18 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_c_19 : Ref sig .tc := ⟨.hbm, 188, rfl⟩
abbrev main_v60 : Ref sig .tc := ⟨.hbm, 189, rfl⟩
abbrev main_v61 : Ref sig .tc := ⟨.hbm, 190, rfl⟩
abbrev main_call11_call0_c : Ref sig .tc := ⟨.hbm, 191, rfl⟩
abbrev main_call11_call0_v0 : Ref sig .tc := ⟨.hbm, 192, rfl⟩
abbrev main_v62 : Ref sig .tc := ⟨.hbm, 193, rfl⟩
abbrev main_c_20 : Ref sig .tc := ⟨.hbm, 194, rfl⟩
abbrev main_call12_v0 : Ref sig .tc := ⟨.hbm, 195, rfl⟩
abbrev main_call12_v1 : Ref sig .tc := ⟨.hbm, 196, rfl⟩
abbrev main_call12_v2 : Ref sig .tc := ⟨.hbm, 197, rfl⟩
abbrev main_call12_v3 : Ref sig .tc := ⟨.hbm, 198, rfl⟩
abbrev main_call12_v4 : Ref sig .tc := ⟨.hbm, 199, rfl⟩
abbrev main_call12_v5 : Ref sig .tc := ⟨.hbm, 200, rfl⟩
abbrev main_call12_v6 : Ref sig .tc := ⟨.hbm, 201, rfl⟩
abbrev main_call12_v7 : Ref sig .tc := ⟨.hbm, 202, rfl⟩
abbrev main_call12_c : Ref sig .tc := ⟨.hbm, 203, rfl⟩
abbrev main_call12_v8 : Ref sig .tc := ⟨.hbm, 204, rfl⟩
abbrev main_call12_v9 : Ref sig .tc := ⟨.hbm, 205, rfl⟩
abbrev main_call12_v10 : Ref sig .tc := ⟨.hbm, 206, rfl⟩
abbrev main_call12_c_0 : Ref sig .tc := ⟨.hbm, 207, rfl⟩
abbrev main_call12_v11 : Ref sig .tc := ⟨.hbm, 208, rfl⟩
abbrev main_call12_v12 : Ref sig .tc := ⟨.hbm, 209, rfl⟩
abbrev main_v63 : Ref sig .tc := ⟨.hbm, 210, rfl⟩
abbrev main_c_21 : Ref sig .tc := ⟨.hbm, 211, rfl⟩
abbrev main_call13_v0 : Ref sig .tc := ⟨.hbm, 212, rfl⟩
abbrev main_call13_c : Ref sig .tc := ⟨.hbm, 213, rfl⟩
abbrev main_call13_v1 : Ref sig .tc := ⟨.hbm, 214, rfl⟩
abbrev main_call13_c_0 : Ref sig .tc := ⟨.hbm, 215, rfl⟩
abbrev main_call13_v2 : Ref sig .tc := ⟨.hbm, 216, rfl⟩
abbrev main_call13_v3 : Ref sig .tc := ⟨.hbm, 217, rfl⟩
abbrev main_call13_v4 : Ref sig .tc := ⟨.hbm, 218, rfl⟩
abbrev main_call13_c_1 : Ref sig .tc := ⟨.hbm, 219, rfl⟩
abbrev main_call13_v5 : Ref sig .tc := ⟨.hbm, 220, rfl⟩
abbrev main_call13_v6 : Ref sig .tc := ⟨.hbm, 221, rfl⟩
abbrev main_call13_c_2 : Ref sig .tc := ⟨.hbm, 222, rfl⟩
abbrev main_call13_v7 : Ref sig .tc := ⟨.hbm, 223, rfl⟩
abbrev main_call13_v8 : Ref sig .tc := ⟨.hbm, 224, rfl⟩
abbrev main_call13_c_3 : Ref sig .tc := ⟨.hbm, 225, rfl⟩
abbrev main_call13_v9 : Ref sig .tc := ⟨.hbm, 226, rfl⟩
abbrev main_call13_v10 : Ref sig .tc := ⟨.hbm, 227, rfl⟩
abbrev main_call13_v11 : Ref sig .tc := ⟨.hbm, 228, rfl⟩
abbrev main_call13_v12 : Ref sig .tc := ⟨.hbm, 229, rfl⟩
abbrev main_call13_v13 : Ref sig .tc := ⟨.hbm, 230, rfl⟩
abbrev main_call13_v14 : Ref sig .tc := ⟨.hbm, 231, rfl⟩
abbrev main_v64 : Ref sig .tc := ⟨.hbm, 232, rfl⟩
abbrev main_c_22 : Ref sig .tc := ⟨.hbm, 233, rfl⟩
abbrev main_call14_v0 : Ref sig .tc := ⟨.hbm, 234, rfl⟩
abbrev main_call14_v1 : Ref sig .tc := ⟨.hbm, 235, rfl⟩
abbrev main_call14_v2 : Ref sig .tc := ⟨.hbm, 236, rfl⟩
abbrev main_call14_v3 : Ref sig .tc := ⟨.hbm, 237, rfl⟩
abbrev main_call14_v4 : Ref sig .tc := ⟨.hbm, 238, rfl⟩
abbrev main_call14_v5 : Ref sig .tc := ⟨.hbm, 239, rfl⟩
abbrev main_call14_v6 : Ref sig .tc := ⟨.hbm, 240, rfl⟩
abbrev main_call14_v7 : Ref sig .tc := ⟨.hbm, 241, rfl⟩
abbrev main_call14_c : Ref sig .tc := ⟨.hbm, 242, rfl⟩
abbrev main_call14_v8 : Ref sig .tc := ⟨.hbm, 243, rfl⟩
abbrev main_call14_v9 : Ref sig .tc := ⟨.hbm, 244, rfl⟩
abbrev main_call14_v10 : Ref sig .tc := ⟨.hbm, 245, rfl⟩
abbrev main_call14_c_0 : Ref sig .tc := ⟨.hbm, 246, rfl⟩
abbrev main_call14_v11 : Ref sig .tc := ⟨.hbm, 247, rfl⟩
abbrev main_call14_v12 : Ref sig .tc := ⟨.hbm, 248, rfl⟩
abbrev main_v65 : Ref sig .tc := ⟨.hbm, 249, rfl⟩
abbrev main_c_23 : Ref sig .tc := ⟨.hbm, 250, rfl⟩
abbrev main_call15_v0 : Ref sig .tc := ⟨.hbm, 251, rfl⟩
abbrev main_call15_c : Ref sig .tc := ⟨.hbm, 252, rfl⟩
abbrev main_call15_v1 : Ref sig .tc := ⟨.hbm, 253, rfl⟩
abbrev main_call15_c_0 : Ref sig .tc := ⟨.hbm, 254, rfl⟩
abbrev main_call15_v2 : Ref sig .tc := ⟨.hbm, 255, rfl⟩
abbrev main_call15_v3 : Ref sig .tc := ⟨.hbm, 256, rfl⟩
abbrev main_call15_v4 : Ref sig .tc := ⟨.hbm, 257, rfl⟩
abbrev main_call15_c_1 : Ref sig .tc := ⟨.hbm, 258, rfl⟩
abbrev main_call15_v5 : Ref sig .tc := ⟨.hbm, 259, rfl⟩
abbrev main_call15_v6 : Ref sig .tc := ⟨.hbm, 260, rfl⟩
abbrev main_call15_c_2 : Ref sig .tc := ⟨.hbm, 261, rfl⟩
abbrev main_call15_v7 : Ref sig .tc := ⟨.hbm, 262, rfl⟩
abbrev main_call15_v8 : Ref sig .tc := ⟨.hbm, 263, rfl⟩
abbrev main_call15_c_3 : Ref sig .tc := ⟨.hbm, 264, rfl⟩
abbrev main_call15_v9 : Ref sig .tc := ⟨.hbm, 265, rfl⟩
abbrev main_call15_v10 : Ref sig .tc := ⟨.hbm, 266, rfl⟩
abbrev main_call15_v11 : Ref sig .tc := ⟨.hbm, 267, rfl⟩
abbrev main_call15_v12 : Ref sig .tc := ⟨.hbm, 268, rfl⟩
abbrev main_call15_v13 : Ref sig .tc := ⟨.hbm, 269, rfl⟩
abbrev main_call15_v14 : Ref sig .tc := ⟨.hbm, 270, rfl⟩
abbrev main_v66 : Ref sig .tc := ⟨.hbm, 271, rfl⟩
abbrev main_c_24 : Ref sig .tc := ⟨.hbm, 272, rfl⟩
abbrev main_v67 : Ref sig .tc := ⟨.hbm, 273, rfl⟩
abbrev main_v68 : Ref sig .tc := ⟨.hbm, 274, rfl⟩
abbrev main_c_25 : Ref sig .tc := ⟨.hbm, 275, rfl⟩
abbrev main_v69 : Ref sig .tc := ⟨.hbm, 276, rfl⟩
abbrev main_v70 : Ref sig .tc := ⟨.hbm, 277, rfl⟩
abbrev main_v71 : Ref sig .tc := ⟨.hbm, 278, rfl⟩
abbrev main_v72 : Ref sig .tc := ⟨.hbm, 279, rfl⟩
abbrev main_v73 : Ref sig .tc := ⟨.hbm, 280, rfl⟩
abbrev main_c_26 : Ref sig .tc := ⟨.hbm, 281, rfl⟩
abbrev main_v74 : Ref sig .tc := ⟨.hbm, 282, rfl⟩
abbrev main_v75 : Ref sig .tc := ⟨.hbm, 283, rfl⟩
abbrev main_c_27 : Ref sig .tc := ⟨.hbm, 284, rfl⟩
abbrev main_v76 : Ref sig .tc := ⟨.hbm, 285, rfl⟩
abbrev main_v77 : Ref sig .tc := ⟨.hbm, 286, rfl⟩
abbrev main_v78 : Ref sig .tc := ⟨.hbm, 287, rfl⟩
abbrev main_v79 : Ref sig .tc := ⟨.hbm, 288, rfl⟩
abbrev main_v80 : Ref sig .tc := ⟨.hbm, 289, rfl⟩
abbrev main_v81 : Ref sig .tc := ⟨.hbm, 290, rfl⟩
abbrev main_v82 : Ref sig .tc := ⟨.hbm, 291, rfl⟩
abbrev main_v83 : Ref sig .tc := ⟨.hbm, 292, rfl⟩
abbrev main_v84 : Ref sig .tc := ⟨.hbm, 293, rfl⟩
abbrev main_v85 : Ref sig .tc := ⟨.hbm, 294, rfl⟩
abbrev main_v86 : Ref sig .tc := ⟨.hbm, 295, rfl⟩
abbrev main_v87 : Ref sig .tc := ⟨.hbm, 296, rfl⟩
abbrev main_v88 : Ref sig .tc := ⟨.hbm, 297, rfl⟩
abbrev main_v89 : Ref sig .tc := ⟨.hbm, 298, rfl⟩
abbrev main_v90 : Ref sig .tc := ⟨.hbm, 299, rfl⟩
abbrev main_v91 : Ref sig .tc := ⟨.hbm, 300, rfl⟩
abbrev main_v92 : Ref sig .tc := ⟨.hbm, 301, rfl⟩
abbrev main_v93 : Ref sig .tc := ⟨.hbm, 302, rfl⟩
abbrev main_cst_28 : Ref sig .tc := ⟨.hbm, 303, rfl⟩
abbrev main_v94 : Ref sig .tc := ⟨.hbm, 304, rfl⟩
abbrev main_call16_v0 : Ref sig .tc := ⟨.hbm, 305, rfl⟩
abbrev main_call16_c : Ref sig .tc := ⟨.hbm, 306, rfl⟩
abbrev main_call16_v1 : Ref sig .tc := ⟨.hbm, 307, rfl⟩
abbrev main_call16_v2 : Ref sig .tc := ⟨.hbm, 308, rfl⟩
abbrev main_call16_v3 : Ref sig .tc := ⟨.hbm, 309, rfl⟩
abbrev main_call16_v4 : Ref sig .tc := ⟨.hbm, 310, rfl⟩
abbrev main_call16_cst : Ref sig .tc := ⟨.hbm, 311, rfl⟩
abbrev main_call16_v5 : Ref sig .tc := ⟨.hbm, 312, rfl⟩
abbrev main_v95 : Ref sig .tc := ⟨.hbm, 313, rfl⟩
abbrev main_cst_29 : Ref sig .tc := ⟨.hbm, 314, rfl⟩
abbrev main_v96 : Ref sig .tc := ⟨.hbm, 315, rfl⟩
abbrev main_v97 : Ref sig .tc := ⟨.hbm, 316, rfl⟩
abbrev main_call17_v0 : Ref sig .tc := ⟨.hbm, 317, rfl⟩
abbrev main_call17_v1 : Ref sig .tc := ⟨.hbm, 318, rfl⟩
abbrev main_call17_call0_c : Ref sig .tc := ⟨.hbm, 319, rfl⟩
abbrev main_call17_call0_v0 : Ref sig .tc := ⟨.hbm, 320, rfl⟩
abbrev main_v98 : Ref sig .tc := ⟨.hbm, 321, rfl⟩
abbrev main_c_30 : Ref sig .tc := ⟨.hbm, 322, rfl⟩
abbrev main_v99 : Ref sig .tc := ⟨.hbm, 323, rfl⟩
abbrev main_c_31 : Ref sig .tc := ⟨.hbm, 324, rfl⟩
abbrev main_call18_v0 : Ref sig .tc := ⟨.hbm, 325, rfl⟩
abbrev main_call18_v1 : Ref sig .tc := ⟨.hbm, 326, rfl⟩
abbrev main_v100 : Ref sig .tc := ⟨.hbm, 327, rfl⟩
abbrev main_c_32 : Ref sig .tc := ⟨.hbm, 328, rfl⟩
abbrev main_v101 : Ref sig .tc := ⟨.hbm, 329, rfl⟩
abbrev main_v102 : Ref sig .tc := ⟨.hbm, 330, rfl⟩
abbrev main_c_33 : Ref sig .tc := ⟨.hbm, 331, rfl⟩
abbrev main_v103 : Ref sig .tc := ⟨.hbm, 332, rfl⟩
abbrev main_v104 : Ref sig .tc := ⟨.hbm, 333, rfl⟩
abbrev main_v105 : Ref sig .tc := ⟨.hbm, 334, rfl⟩
abbrev main_v106 : Ref sig .tc := ⟨.hbm, 335, rfl⟩
abbrev main_c_34 : Ref sig .tc := ⟨.hbm, 336, rfl⟩
abbrev main_v107 : Ref sig .tc := ⟨.hbm, 337, rfl⟩
abbrev main_v108 : Ref sig .tc := ⟨.hbm, 338, rfl⟩
abbrev main_call19_call0_c : Ref sig .tc := ⟨.hbm, 339, rfl⟩
abbrev main_call19_call0_v0 : Ref sig .tc := ⟨.hbm, 340, rfl⟩
abbrev main_v109 : Ref sig .tc := ⟨.hbm, 341, rfl⟩
abbrev main_c_35 : Ref sig .tc := ⟨.hbm, 342, rfl⟩
abbrev main_call20_v0 : Ref sig .tc := ⟨.hbm, 343, rfl⟩
abbrev main_call20_v1 : Ref sig .tc := ⟨.hbm, 344, rfl⟩
abbrev main_call20_v2 : Ref sig .tc := ⟨.hbm, 345, rfl⟩
abbrev main_call20_v3 : Ref sig .tc := ⟨.hbm, 346, rfl⟩
abbrev main_call20_v4 : Ref sig .tc := ⟨.hbm, 347, rfl⟩
abbrev main_call20_v5 : Ref sig .tc := ⟨.hbm, 348, rfl⟩
abbrev main_call20_v6 : Ref sig .tc := ⟨.hbm, 349, rfl⟩
abbrev main_call20_v7 : Ref sig .tc := ⟨.hbm, 350, rfl⟩
abbrev main_call20_c : Ref sig .tc := ⟨.hbm, 351, rfl⟩
abbrev main_call20_v8 : Ref sig .tc := ⟨.hbm, 352, rfl⟩
abbrev main_call20_v9 : Ref sig .tc := ⟨.hbm, 353, rfl⟩
abbrev main_call20_v10 : Ref sig .tc := ⟨.hbm, 354, rfl⟩
abbrev main_call20_c_0 : Ref sig .tc := ⟨.hbm, 355, rfl⟩
abbrev main_call20_v11 : Ref sig .tc := ⟨.hbm, 356, rfl⟩
abbrev main_call20_v12 : Ref sig .tc := ⟨.hbm, 357, rfl⟩
abbrev main_v110 : Ref sig .tc := ⟨.hbm, 358, rfl⟩
abbrev main_c_36 : Ref sig .tc := ⟨.hbm, 359, rfl⟩
abbrev main_call21_v0 : Ref sig .tc := ⟨.hbm, 360, rfl⟩
abbrev main_call21_c : Ref sig .tc := ⟨.hbm, 361, rfl⟩
abbrev main_call21_v1 : Ref sig .tc := ⟨.hbm, 362, rfl⟩
abbrev main_call21_c_0 : Ref sig .tc := ⟨.hbm, 363, rfl⟩
abbrev main_call21_v2 : Ref sig .tc := ⟨.hbm, 364, rfl⟩
abbrev main_call21_v3 : Ref sig .tc := ⟨.hbm, 365, rfl⟩
abbrev main_call21_v4 : Ref sig .tc := ⟨.hbm, 366, rfl⟩
abbrev main_call21_c_1 : Ref sig .tc := ⟨.hbm, 367, rfl⟩
abbrev main_call21_v5 : Ref sig .tc := ⟨.hbm, 368, rfl⟩
abbrev main_call21_v6 : Ref sig .tc := ⟨.hbm, 369, rfl⟩
abbrev main_call21_c_2 : Ref sig .tc := ⟨.hbm, 370, rfl⟩
abbrev main_call21_v7 : Ref sig .tc := ⟨.hbm, 371, rfl⟩
abbrev main_call21_v8 : Ref sig .tc := ⟨.hbm, 372, rfl⟩
abbrev main_call21_c_3 : Ref sig .tc := ⟨.hbm, 373, rfl⟩
abbrev main_call21_v9 : Ref sig .tc := ⟨.hbm, 374, rfl⟩
abbrev main_call21_v10 : Ref sig .tc := ⟨.hbm, 375, rfl⟩
abbrev main_call21_v11 : Ref sig .tc := ⟨.hbm, 376, rfl⟩
abbrev main_call21_v12 : Ref sig .tc := ⟨.hbm, 377, rfl⟩
abbrev main_call21_v13 : Ref sig .tc := ⟨.hbm, 378, rfl⟩
abbrev main_call21_v14 : Ref sig .tc := ⟨.hbm, 379, rfl⟩
abbrev main_v111 : Ref sig .tc := ⟨.hbm, 380, rfl⟩
abbrev main_c_37 : Ref sig .tc := ⟨.hbm, 381, rfl⟩
abbrev main_call22_v0 : Ref sig .tc := ⟨.hbm, 382, rfl⟩
abbrev main_call22_v1 : Ref sig .tc := ⟨.hbm, 383, rfl⟩
abbrev main_call22_v2 : Ref sig .tc := ⟨.hbm, 384, rfl⟩
abbrev main_call22_v3 : Ref sig .tc := ⟨.hbm, 385, rfl⟩
abbrev main_call22_v4 : Ref sig .tc := ⟨.hbm, 386, rfl⟩
abbrev main_call22_v5 : Ref sig .tc := ⟨.hbm, 387, rfl⟩
abbrev main_call22_v6 : Ref sig .tc := ⟨.hbm, 388, rfl⟩
abbrev main_call22_v7 : Ref sig .tc := ⟨.hbm, 389, rfl⟩
abbrev main_call22_c : Ref sig .tc := ⟨.hbm, 390, rfl⟩
abbrev main_call22_v8 : Ref sig .tc := ⟨.hbm, 391, rfl⟩
abbrev main_call22_v9 : Ref sig .tc := ⟨.hbm, 392, rfl⟩
abbrev main_call22_v10 : Ref sig .tc := ⟨.hbm, 393, rfl⟩
abbrev main_call22_c_0 : Ref sig .tc := ⟨.hbm, 394, rfl⟩
abbrev main_call22_v11 : Ref sig .tc := ⟨.hbm, 395, rfl⟩
abbrev main_call22_v12 : Ref sig .tc := ⟨.hbm, 396, rfl⟩
abbrev main_v112 : Ref sig .tc := ⟨.hbm, 397, rfl⟩
abbrev main_c_38 : Ref sig .tc := ⟨.hbm, 398, rfl⟩
abbrev main_call23_v0 : Ref sig .tc := ⟨.hbm, 399, rfl⟩
abbrev main_call23_c : Ref sig .tc := ⟨.hbm, 400, rfl⟩
abbrev main_call23_v1 : Ref sig .tc := ⟨.hbm, 401, rfl⟩
abbrev main_call23_c_0 : Ref sig .tc := ⟨.hbm, 402, rfl⟩
abbrev main_call23_v2 : Ref sig .tc := ⟨.hbm, 403, rfl⟩
abbrev main_call23_v3 : Ref sig .tc := ⟨.hbm, 404, rfl⟩
abbrev main_call23_v4 : Ref sig .tc := ⟨.hbm, 405, rfl⟩
abbrev main_call23_c_1 : Ref sig .tc := ⟨.hbm, 406, rfl⟩
abbrev main_call23_v5 : Ref sig .tc := ⟨.hbm, 407, rfl⟩
abbrev main_call23_v6 : Ref sig .tc := ⟨.hbm, 408, rfl⟩
abbrev main_call23_c_2 : Ref sig .tc := ⟨.hbm, 409, rfl⟩
abbrev main_call23_v7 : Ref sig .tc := ⟨.hbm, 410, rfl⟩
abbrev main_call23_v8 : Ref sig .tc := ⟨.hbm, 411, rfl⟩
abbrev main_call23_c_3 : Ref sig .tc := ⟨.hbm, 412, rfl⟩
abbrev main_call23_v9 : Ref sig .tc := ⟨.hbm, 413, rfl⟩
abbrev main_call23_v10 : Ref sig .tc := ⟨.hbm, 414, rfl⟩
abbrev main_call23_v11 : Ref sig .tc := ⟨.hbm, 415, rfl⟩
abbrev main_call23_v12 : Ref sig .tc := ⟨.hbm, 416, rfl⟩
abbrev main_call23_v13 : Ref sig .tc := ⟨.hbm, 417, rfl⟩
abbrev main_call23_v14 : Ref sig .tc := ⟨.hbm, 418, rfl⟩
abbrev main_v113 : Ref sig .tc := ⟨.hbm, 419, rfl⟩
abbrev main_c_39 : Ref sig .tc := ⟨.hbm, 420, rfl⟩
abbrev main_v114 : Ref sig .tc := ⟨.hbm, 421, rfl⟩
abbrev main_v115 : Ref sig .tc := ⟨.hbm, 422, rfl⟩
abbrev main_c_40 : Ref sig .tc := ⟨.hbm, 423, rfl⟩
abbrev main_v116 : Ref sig .tc := ⟨.hbm, 424, rfl⟩
abbrev main_v117 : Ref sig .tc := ⟨.hbm, 425, rfl⟩
abbrev main_v118 : Ref sig .tc := ⟨.hbm, 426, rfl⟩
abbrev main_v119 : Ref sig .tc := ⟨.hbm, 427, rfl⟩
abbrev main_v120 : Ref sig .tc := ⟨.hbm, 428, rfl⟩
abbrev main_c_41 : Ref sig .tc := ⟨.hbm, 429, rfl⟩
abbrev main_v121 : Ref sig .tc := ⟨.hbm, 430, rfl⟩
abbrev main_v122 : Ref sig .tc := ⟨.hbm, 431, rfl⟩
abbrev main_c_42 : Ref sig .tc := ⟨.hbm, 432, rfl⟩
abbrev main_v123 : Ref sig .tc := ⟨.hbm, 433, rfl⟩
abbrev main_v124 : Ref sig .tc := ⟨.hbm, 434, rfl⟩
abbrev main_v125 : Ref sig .tc := ⟨.hbm, 435, rfl⟩
abbrev main_v126 : Ref sig .tc := ⟨.hbm, 436, rfl⟩
abbrev main_v127 : Ref sig .tc := ⟨.hbm, 437, rfl⟩
abbrev main_v128 : Ref sig .tc := ⟨.hbm, 438, rfl⟩
abbrev main_v129 : Ref sig .tc := ⟨.hbm, 439, rfl⟩
abbrev main_v130 : Ref sig .tc := ⟨.hbm, 440, rfl⟩
abbrev main_v131 : Ref sig .tc := ⟨.hbm, 441, rfl⟩
abbrev main_v132 : Ref sig .tc := ⟨.hbm, 442, rfl⟩
abbrev main_v133 : Ref sig .tc := ⟨.hbm, 443, rfl⟩
abbrev main_v134 : Ref sig .tc := ⟨.hbm, 444, rfl⟩
abbrev main_v135 : Ref sig .tc := ⟨.hbm, 445, rfl⟩
abbrev main_v136 : Ref sig .tc := ⟨.hbm, 446, rfl⟩
abbrev main_v137 : Ref sig .tc := ⟨.hbm, 447, rfl⟩
abbrev main_v138 : Ref sig .tc := ⟨.hbm, 448, rfl⟩
abbrev main_v139 : Ref sig .tc := ⟨.hbm, 449, rfl⟩
abbrev main_v140 : Ref sig .tc := ⟨.hbm, 450, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2080 : S_.BroadcastsInDim S2080 (![] : Fin 0 → Fin S2080.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2080_S2080_w2080s1p2079_0 : S2080.ReduceWindows (![2080] : Fin 1 → Nat) ![1] ![2079] ![0] S2080
  bcast_S2080_S2080x1_0 : S2080.BroadcastsInDim S2080x1 (![0] : Fin 1 → Fin S2080x1.rank)
  bcast_S1024x64_S1024x64x1_0_1 : S1024x64.BroadcastsInDim S1024x64x1 (![0, 1] : Fin 2 → Fin S1024x64x1.rank)
  bcast_S1024x2080_S1024x1x2080_0_2 : S1024x2080.BroadcastsInDim S1024x1x2080 (![0, 2] : Fin 2 → Fin S1024x1x2080.rank)
  bcast_S1024x64x1_S1024x64x2080_0_1_2 : S1024x64x1.BroadcastsInDim S1024x64x2080 (![0, 1, 2] : Fin 3 → Fin S1024x64x2080.rank)
  bcast_S1024x1x2080_S1024x64x2080_0_1_2 : S1024x1x2080.BroadcastsInDim S1024x64x2080 (![0, 1, 2] : Fin 3 → Fin S1024x64x2080.rank)
  shapeCasts_S1024x64x2080_S1024x133120 : S1024x64x2080.ShapeCasts S1024x133120
  concatenates_S1024x64_S1024x2080_S1024x133120_S1024x135264_d1 : Shape.Concatenates [S1024x64, S1024x2080, S1024x133120] S1024x135264 1
  transposes_S64x135264_S135264x64_1_0 : S64x135264.Transposes [1, 0] S135264x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  transposes_S10x135264_S135264x10_1_0 : S10x135264.Transposes [1, 0] S135264x10
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  scatter_S2080_S4096x1_S4096_n_0_0_1_wf : ScatterDims.WF S2080 S4096x1 S4096 [] [0] [0] 1
  gather_S1024x64_S2080x1_S1024x2080_0_1_n_n_1_1_10241_wf : GatherDims.WF S1024x64 S2080x1 S1024x2080 [0] [1] [] [1] [] 1 ![1024, 1]
  dot_S1024x135264_S135264x64_S1024x64_1_0_0_1_n_n_wf : DotDims.WF S1024x135264 S135264x64 S1024x64 [1] [0] [0] [1] [] []
  dot_S1024x135264_S135264x10_S1024x10_1_0_0_1_n_n_wf : DotDims.WF S1024x135264 S135264x10 S1024x10 [1] [0] [0] [1] [] []

variable [Facts₀]

def scatter_S2080_S4096x1_S4096_n_0_0_1 : ScatterDims S2080 S4096x1 S4096 where
  updateWindowDims := []
  insertedWindowDims := [0]
  scatterDimsToOperandDims := [0]
  indexVectorDim := 1
  wf := scatter_S2080_S4096x1_S4096_n_0_0_1_wf
def gather_S1024x64_S2080x1_S1024x2080_0_1_n_n_1_1_10241 : GatherDims S1024x64 S2080x1 S1024x2080 where
  offsetDims := [0]
  collapsedSliceDims := [1]
  operandBatchingDims := []
  startIndicesBatchingDims := []
  startIndexMap := [1]
  indexVectorDim := 1
  sliceSizes := ![1024, 1]
  wf := gather_S1024x64_S2080x1_S1024x2080_0_1_n_n_1_1_10241_wf
def dot_S1024x135264_S135264x64_S1024x64_1_0_0_1_n_n : DotDims S1024x135264 S135264x64 S1024x64 where
  lhsContracting := [1]
  rhsContracting := [0]
  lhsNonContracting := [0]
  rhsNonContracting := [1]
  lhsBatch := []
  rhsBatch := []
  wf := dot_S1024x135264_S135264x64_S1024x64_1_0_0_1_n_n_wf
def dot_S1024x135264_S135264x10_S1024x10_1_0_0_1_n_n : DotDims S1024x135264 S135264x10 S1024x10 where
  lhsContracting := [1]
  rhsContracting := [0]
  lhsNonContracting := [0]
  rhsNonContracting := [1]
  lhsBatch := []
  rhsBatch := []
  wf := dot_S1024x135264_S135264x10_S1024x10_1_0_0_1_n_n_wf

class Facts : Prop extends Facts₀ where

variable [Facts]
-- ==== Proof.KernelRun.lean ====
/-
  The idealized kernel program's run with its result named: every weakly fair execution of @main terminates,
  nothing faulting, with the result array at what the last region's write-backs leave and the argument arrays
  as launched. The buffer contents at each boundary are the fold through @main's host stretches and regions.
-/
import proofs.«120368_j16587163697192_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over @main's segments, the last thread state read against the final state: the result buffer at the
    last boundary's contents, each argument at its launch contents. -/
theorem run_main : θ_run defs (onTc (τ := τ) (main (F := F))) ⟨m, fun _ => 0, ρ⟩ (fun r => ∀ c : Dev nD,
      r.2.mem ((c.tc : Thread nD τ).loc main_v128) = W54 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W54 m ρ c b)
    (hfin := fun c s' => by
      iintro ⟨⟨Hh, -⟩, HSI⟩
      unfold StableHlo.held
      imodintro
      iapply (pointsTo_read_all (Pipeline.ucRefs τ sig) (fun b => (((c : Thread nD τ)).1, b)) (W54 m ρ c) s')
      isplitl [Hh] <;> iassumption)
    (hQ := fun s h c =>
      ⟨h c _ (mem_uc main_v128 (by decide)),
       (h c _ (mem_uc main_arg0 (by decide))).trans (W54_main_arg0 m ρ c),
       (h c _ (mem_uc main_arg1 (by decide))).trans (W54_main_arg1 m ρ c),
       (h c _ (mem_uc main_arg2 (by decide))).trans (W54_main_arg2 m ρ c),
       (h c _ (mem_uc main_arg3 (by decide))).trans (W54_main_arg3 m ρ c),
       (h c _ (mem_uc main_arg4 (by decide))).trans (W54_main_arg4 m ρ c),
       (h c _ (mem_uc main_arg5 (by decide))).trans (W54_main_arg5 m ρ c),
       (h c _ (mem_uc main_arg6 (by decide))).trans (W54_main_arg6 m ρ c)⟩)

end Cert.KernelIdeal.Run

end
-- ==== Proof.CubicSpec.lean ====
/-
  One cubic-feature layer, row by row, over the extended reals.

  A row `x : Fin 64 → EReal` of activations and its row `s : Fin 2080 → EReal` of pairwise products
  are expanded to the 135264 features  [ x | s | x ⊗ s ]  (`feat`), and an output unit with weight row
  `w : Fin 135264 → EReal` and bias `b` is the inner product plus the bias (`refRow`).

  The tiled arrangement (`kerRow`) never forms the expansion: the weight row is cut into its linear
  piece `wl`, its quadratic piece `wq` and, for all output units at once, a matrix `wc` with one row
  per pair (unit, i) — row `q` holds the weights of the features `x_i · s_j` of unit `q / 64`,
  `i = q % 64` —; the cubic term is  Σ_q (Σ_j s_j · wc q j) · x_{q % 64} · [q / 64 = o].
-/
import Idealize.ShloMosaic.PureOps.Ideal
import Mathlib.Data.EReal.Operations

noncomputable section

namespace Cert.Cubic

/-- The expanded features of one row: the 64 activations, the 2080 products, then the 64 × 2080
    products of an activation with a product, activation-major. -/
def feat (x : Fin 64 → EReal) (s : Fin 2080 → EReal) (k : Fin 135264) : EReal :=
  if h : k.val < 64 then x ⟨k.val, h⟩
  else if h2 : k.val < 2144 then s ⟨k.val - 64, by omega⟩
  else x ⟨(k.val - 2144) / 2080, by have := k.isLt; omega⟩ * s ⟨(k.val - 2144) % 2080, Nat.mod_lt _ (by norm_num)⟩

/-- One output unit of the dense layer over the expanded features. -/
def refRow (x : Fin 64 → EReal) (s : Fin 2080 → EReal) (w : Fin 135264 → EReal) (b : EReal) : EReal :=
  (∑ k : Fin 135264, feat x s k * w k) + b

/-- 1 when row `q` of the cubic weight matrix belongs to output unit `o`, else 0. -/
def ind (q o : ℕ) : EReal := if q / 64 = o then 1 else 0

/-- The same output unit in the tiled arrangement: linear term, quadratic term, and the cubic term as a
    product with the whole cubic weight matrix followed by a 0/1 selection of the unit's 64 rows. -/
def kerRow {M2 : ℕ} (x : Fin 64 → EReal) (s : Fin 2080 → EReal) (wl : Fin 64 → EReal) (wq : Fin 2080 → EReal)
    (wc : Fin M2 → Fin 2080 → EReal) (o : ℕ) (b : EReal) : EReal :=
  ((∑ i : Fin 64, x i * wl i) + (∑ j : Fin 2080, s j * wq j)
    + ∑ q : Fin M2, ((∑ j : Fin 2080, s j * wc q j) * x ⟨q.val % 64, Nat.mod_lt _ (by norm_num)⟩) * ind q.val o) + b

end Cert.Cubic

end
-- ==== Proof.KernelBlocks0.lean ====
/-
  Region 0 of the idealized kernel program, from blocks to the array: the region's grid has four points, point t
  reading rows 256·t … 256·t + 255 of the activations and of their pairwise products and all of the three weight
  pieces and the bias row, and writing rows 256·t … 256·t + 255 of the output; the four output blocks tile the
  output array, so it ends at one function of the arrays the region finds, row by row.
-/
import proofs.«120368_j16587163697192_2_alg».proof.Proof.Gen.KernelIdeal.Frame
import proofs.«120368_j16587163697192_2_alg».proof.Proof.CubicSpec
import Idealize.ShloMosaic.Lib.Pipeline.Value
import Idealize.ShloMosaic.Lib.ValueIdx

set_option maxRecDepth 16384

noncomputable section

namespace Cert.KernelIdeal.Blocks0

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The output array as one function of the region's six input arrays: entry (r, o) is the tiled arrangement of the
    layer on row r of the activations and of the products, with unit o's weight pieces and bias. -/
def G (x : FVec Ideal S1024x64 .f32) (s : FVec Ideal S1024x2080 .f32) (wl : FVec Ideal S64x64 .f32) (wq : FVec Ideal S64x2080 .f32)
    (wc : FVec Ideal S4096x2080 .bf16) (b : FVec Ideal S1x64 .f32) : FVec Ideal S1024x64 .f32 :=
  fun i => Cert.Cubic.kerRow (M2 := 4096) (fun a => x (ix2 (i 0) a)) (fun a => s (ix2 (i 0) a))
    (fun a => wl (ix2 (i 1) a)) (fun a => wq (ix2 (i 1) a)) (fun q a => wc (ix2 q a)) (i 1).val (b (ix2 (0 : Fin 1) (i 1)))

/-- The printed index maps over the four grid points: the row-blocked windows move together, the others stay. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (hpay : ∀ (x0 : Vec Ideal S256x64 .f32) (x1 : Vec Ideal S256x2080 .f32) (x2 : Vec Ideal S64x64 .f32) (x3 : Vec Ideal S64x2080 .f32)
    (x4 : Vec Ideal S4096x2080 .bf16) (x5 : Vec Ideal S1x64 .f32) (p : Fin 256) (o : Fin 64),
    out0_6 (F := Ideal) x0 x1 x2 x3 x4 x5 (ix2 p o)
      = Cert.Cubic.kerRow (M2 := 4096) (fun i => x0 (ix2 p i)) (fun j => x1 (ix2 p j))
          (fun i => x2 (ix2 o i)) (fun j => x3 (ix2 o j)) (fun q j => x4 (ix2 q j)) o.val (x5 (ix2 (0 : Fin 1) o)))

set_option maxHeartbeats 3200000 in
include hpay in
/-- What point t writes back is block t of `G` of the arrays as the region finds them. -/
theorem flushed_eq (c : Dev nD) (t : Fin cfg0.N) :
    (dat0 V c).flushed 6 t = ((cfg0.win 6).blk t).view.read (Elt Ideal)
      (G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  funext j
  obtain ⟨p, o, rfl⟩ : ∃ (p : Fin 256) (o : Fin 64), j = ix2 p o := ⟨j 0, j 1, eq_ix2 j⟩
  show out0_6 (iblk0 V c 0 t) (iblk0 V c 1 t) (iblk0 V c 2 t) (iblk0 V c 3 t) (iblk0 V c 4 t) (iblk0 V c 5 t) (ix2 p o)
    = G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (((cfg0.win 6).blk t).view.emb (ix2 p o))
  refine (hpay _ _ _ _ _ _ p o).trans ?_
  obtain ⟨e00, e01, e10, e11, e20, e21, e30, e31, e40, e41, e50, e51, e60, e61⟩ := idx_facts t
  have hE0 : ((((cfg0.win 6).blk t).view.emb (ix2 p o)) 0).val = t.val * 256 + p.val := by
    show win0_6.index t (0 : Fin 2) * 256 + 1 * p.val = _; omega
  have hE1 : ((((cfg0.win 6).blk t).view.emb (ix2 p o)) 1).val = o.val := by
    show win0_6.index t (1 : Fin 2) * 64 + 1 * o.val = _; omega
  generalize ((cfg0.win 6).blk t).view.emb (ix2 p o) = E at hE0 hE1
  obtain ⟨r, o', rfl⟩ : ∃ (r : Fin 1024) (o' : Fin 64), E = ix2 r o' := ⟨E 0, E 1, eq_ix2 E⟩
  have ho : o' = o := Fin.ext hE1
  subst ho
  have hr : r.val = t.val * 256 + p.val := hE0
  have r0 : ∀ (i : Fin 64), iblk0 V c 0 t (ix2 p i) = V c (Pipeline.arrRef spec0 0) (ix2 r i) := by
    intro i
    show V c (Pipeline.arrRef spec0 0) (((cfg0.win 0).blk t).view.emb (ix2 p i)) = _
    refine congrArg _ (funext fun a => Fin.ext ?_)
    match a with
    | ⟨0, _⟩ => show win0_0.index t (0 : Fin 2) * 256 + 1 * p.val = r.val; omega
    | ⟨1, _⟩ => show win0_0.index t (1 : Fin 2) * 64 + 1 * i.val = i.val; omega
  have r1 : ∀ (j : Fin 2080), iblk0 V c 1 t (ix2 p j) = V c (Pipeline.arrRef spec0 1) (ix2 r j) := by
    intro j
    show V c (Pipeline.arrRef spec0 1) (((cfg0.win 1).blk t).view.emb (ix2 p j)) = _
    refine congrArg _ (funext fun a => Fin.ext ?_)
    match a with
    | ⟨0, _⟩ => show win0_1.index t (0 : Fin 2) * 256 + 1 * p.val = r.val; omega
    | ⟨1, _⟩ => show win0_1.index t (1 : Fin 2) * 2080 + 1 * j.val = j.val; omega
  have r2 : ∀ (i : Fin 64), iblk0 V c 2 t (ix2 o' i) = V c (Pipeline.arrRef spec0 2) (ix2 o' i) := by
    intro i
    show V c (Pipeline.arrRef spec0 2) (((cfg0.win 2).blk t).view.emb (ix2 o' i)) = _
    refine congrArg _ (funext fun a => Fin.ext ?_)
    match a with
    | ⟨0, _⟩ => show win0_2.index t (0 : Fin 2) * 64 + 1 * o'.val = o'.val; omega
    | ⟨1, _⟩ => show win0_2.index t (1 : Fin 2) * 64 + 1 * i.val = i.val; omega
  have r3 : ∀ (j : Fin 2080), iblk0 V c 3 t (ix2 o' j) = V c (Pipeline.arrRef spec0 3) (ix2 o' j) := by
    intro j
    show V c (Pipeline.arrRef spec0 3) (((cfg0.win 3).blk t).view.emb (ix2 o' j)) = _
    refine congrArg _ (funext fun a => Fin.ext ?_)
    match a with
    | ⟨0, _⟩ => show win0_3.index t (0 : Fin 2) * 64 + 1 * o'.val = o'.val; omega
    | ⟨1, _⟩ => show win0_3.index t (1 : Fin 2) * 2080 + 1 * j.val = j.val; omega
  have r4 : ∀ (q : Fin 4096) (j : Fin 2080), iblk0 V c 4 t (ix2 q j) = V c (Pipeline.arrRef spec0 4) (ix2 q j) := by
    intro q j
    show V c (Pipeline.arrRef spec0 4) (((cfg0.win 4).blk t).view.emb (ix2 q j)) = _
    refine congrArg _ (funext fun a => Fin.ext ?_)
    match a with
    | ⟨0, _⟩ => show win0_4.index t (0 : Fin 2) * 4096 + 1 * q.val = q.val; omega
    | ⟨1, _⟩ => show win0_4.index t (1 : Fin 2) * 2080 + 1 * j.val = j.val; omega
  have r5 : iblk0 V c 5 t (ix2 (0 : Fin 1) o') = V c (Pipeline.arrRef spec0 5) (ix2 (0 : Fin 1) o') := by
    show V c (Pipeline.arrRef spec0 5) (((cfg0.win 5).blk t).view.emb (ix2 (0 : Fin 1) o')) = _
    refine congrArg _ (funext fun a => Fin.ext ?_)
    match a with
    | ⟨0, _⟩ => show win0_5.index t (0 : Fin 2) * 1 + 1 * (0 : Fin 1).val = (0 : Fin 1).val; omega
    | ⟨1, _⟩ => show win0_5.index t (1 : Fin 2) * 64 + 1 * o'.val = o'.val; omega
  simp only [r0, r1, r2, r3, r4, r5]
  rfl

/-- An index of the output array is in point t's block iff each coordinate is in the block's range on its axis. -/
theorem mem_blk (t : Fin cfg0.N) (i : S1024x64.Idx) :
    i ∈ ((cfg0.win 6).blk t).view.set ↔ ∀ a : Fin 2, win0_6.index t a * S256x64.size a ≤ (i a).val ∧ (i a).val < win0_6.index t a * S256x64.size a + S256x64.size a := by
  show i ∈ ((View.whole main_v42).slice (win0_6.rect t)).set ↔ _
  rw [View.set_slice_whole, Rect.mem_set_unit]
  exact Iff.rfl

/-- Every index of the output array is in the block of the point its row falls in: row r belongs to point r / 256. -/
theorem cover (i : S1024x64.Idx) : ∃ t : Fin cfg0.N, (cfg0.win 6).flush t = true ∧ i ∈ ((cfg0.win 6).blk t).view.set := by
  have hi0 : (i 0).val < 1024 := (i 0).isLt
  have hi1 : (i 1).val < 64 := (i 1).isLt
  have hN : grid0.N = 4 := N_0
  have hlt : (i 0).val / 256 < cfg0.N := by show (i 0).val / 256 < grid0.N; rw [hN]; omega
  refine ⟨⟨(i 0).val / 256, hlt⟩, flush0_6 _, ?_⟩
  rw [mem_blk]
  obtain ⟨e00, e01, e10, e11, e20, e21, e30, e31, e40, e41, e50, e51, e60, e61⟩ := idx_facts ⟨(i 0).val / 256, hlt⟩
  have e60' : win0_6.index ⟨(i 0).val / 256, hlt⟩ (0 : Fin 2) = (i 0).val / 256 := e60
  intro a
  match a with
  | ⟨0, _⟩ => show win0_6.index ⟨(i 0).val / 256, hlt⟩ (0 : Fin 2) * 256 ≤ (i 0).val ∧ (i 0).val < win0_6.index ⟨(i 0).val / 256, hlt⟩ (0 : Fin 2) * 256 + 256; omega
  | ⟨1, _⟩ => show win0_6.index ⟨(i 0).val / 256, hlt⟩ (1 : Fin 2) * 64 ≤ (i 1).val ∧ (i 1).val < win0_6.index ⟨(i 0).val / 256, hlt⟩ (1 : Fin 2) * 64 + 64; omega

include hpay in
/-- The output array after the region: `G` of the arrays the region finds. -/
theorem final (c : Dev nD) : (dat0 V c).arrAt 6 cfg0.N
    = G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (dat0 V c).arrAt_eq_of_cover 6 _ (fun t _ => flushed_eq V hpay c t) cover

end Cert.KernelIdeal.Blocks0

end
-- ==== Proof.KernelBlocks1.lean ====
/-
  Region 1 of the idealized kernel program, from blocks to the array: the region's grid has four points, point t
  reading rows 256·t … 256·t + 255 of the activations and of their pairwise products and all of the three weight
  pieces and the bias row, and writing rows 256·t … 256·t + 255 of the output; the four output blocks tile the
  output array, so it ends at one function of the arrays the region finds, row by row.
-/
import proofs.«120368_j16587163697192_2_alg».proof.Proof.Gen.KernelIdeal.Frame
import proofs.«120368_j16587163697192_2_alg».proof.Proof.CubicSpec
import Idealize.ShloMosaic.Lib.Pipeline.Value
import Idealize.ShloMosaic.Lib.ValueIdx

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The output array as one function of the region's six input arrays: entry (r, o) is the tiled arrangement of the
    layer on row r of the activations and of the products, with unit o's weight pieces and bias. -/
def G (x : FVec Ideal S1024x64 .f32) (s : FVec Ideal S1024x2080 .f32) (wl : FVec Ideal S64x64 .f32) (wq : FVec Ideal S64x2080 .f32)
    (wc : FVec Ideal S4096x2080 .bf16) (b : FVec Ideal S1x64 .f32) : FVec Ideal S1024x64 .f32 :=
  fun i => Cert.Cubic.kerRow (M2 := 4096) (fun a => x (ix2 (i 0) a)) (fun a => s (ix2 (i 0) a))
    (fun a => wl (ix2 (i 1) a)) (fun a => wq (ix2 (i 1) a)) (fun q a => wc (ix2 q a)) (i 1).val (b (ix2 (0 : Fin 1) (i 1)))

/-- The printed index maps over the four grid points: the row-blocked windows move together, the others stay. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (hpay : ∀ (x0 : Vec Ideal S256x64 .f32) (x1 : Vec Ideal S256x2080 .f32) (x2 : Vec Ideal S64x64 .f32) (x3 : Vec Ideal S64x2080 .f32)
    (x4 : Vec Ideal S4096x2080 .bf16) (x5 : Vec Ideal S1x64 .f32) (p : Fin 256) (o : Fin 64),
    out1_6 (F := Ideal) x0 x1 x2 x3 x4 x5 (ix2 p o)
      = Cert.Cubic.kerRow (M2 := 4096) (fun i => x0 (ix2 p i)) (fun j => x1 (ix2 p j))
          (fun i => x2 (ix2 o i)) (fun j => x3 (ix2 o j)) (fun q j => x4 (ix2 q j)) o.val (x5 (ix2 (0 : Fin 1) o)))

set_option maxHeartbeats 3200000 in
include hpay in
/-- What point t writes back is block t of `G` of the arrays as the region finds them. -/
theorem flushed_eq (c : Dev nD) (t : Fin cfg1.N) :
    (dat1 V c).flushed 6 t = ((cfg1.win 6).blk t).view.read (Elt Ideal)
      (G (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  funext j
  obtain ⟨p, o, rfl⟩ : ∃ (p : Fin 256) (o : Fin 64), j = ix2 p o := ⟨j 0, j 1, eq_ix2 j⟩
  show out1_6 (iblk1 V c 0 t) (iblk1 V c 1 t) (iblk1 V c 2 t) (iblk1 V c 3 t) (iblk1 V c 4 t) (iblk1 V c 5 t) (ix2 p o)
    = G (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (((cfg1.win 6).blk t).view.emb (ix2 p o))
  refine (hpay _ _ _ _ _ _ p o).trans ?_
  obtain ⟨e00, e01, e10, e11, e20, e21, e30, e31, e40, e41, e50, e51, e60, e61⟩ := idx_facts t
  have hE0 : ((((cfg1.win 6).blk t).view.emb (ix2 p o)) 0).val = t.val * 256 + p.val := by
    show win1_6.index t (0 : Fin 2) * 256 + 1 * p.val = _; omega
  have hE1 : ((((cfg1.win 6).blk t).view.emb (ix2 p o)) 1).val = o.val := by
    show win1_6.index t (1 : Fin 2) * 64 + 1 * o.val = _; omega
  generalize ((cfg1.win 6).blk t).view.emb (ix2 p o) = E at hE0 hE1
  obtain ⟨r, o', rfl⟩ : ∃ (r : Fin 1024) (o' : Fin 64), E = ix2 r o' := ⟨E 0, E 1, eq_ix2 E⟩
  have ho : o' = o := Fin.ext hE1
  subst ho
  have hr : r.val = t.val * 256 + p.val := hE0
  have r0 : ∀ (i : Fin 64), iblk1 V c 0 t (ix2 p i) = V c (Pipeline.arrRef spec1 0) (ix2 r i) := by
    intro i
    show V c (Pipeline.arrRef spec1 0) (((cfg1.win 0).blk t).view.emb (ix2 p i)) = _
    refine congrArg _ (funext fun a => Fin.ext ?_)
    match a with
    | ⟨0, _⟩ => show win1_0.index t (0 : Fin 2) * 256 + 1 * p.val = r.val; omega
    | ⟨1, _⟩ => show win1_0.index t (1 : Fin 2) * 64 + 1 * i.val = i.val; omega
  have r1 : ∀ (j : Fin 2080), iblk1 V c 1 t (ix2 p j) = V c (Pipeline.arrRef spec1 1) (ix2 r j) := by
    intro j
    show V c (Pipeline.arrRef spec1 1) (((cfg1.win 1).blk t).view.emb (ix2 p j)) = _
    refine congrArg _ (funext fun a => Fin.ext ?_)
    match a with
    | ⟨0, _⟩ => show win1_1.index t (0 : Fin 2) * 256 + 1 * p.val = r.val; omega
    | ⟨1, _⟩ => show win1_1.index t (1 : Fin 2) * 2080 + 1 * j.val = j.val; omega
  have r2 : ∀ (i : Fin 64), iblk1 V c 2 t (ix2 o' i) = V c (Pipeline.arrRef spec1 2) (ix2 o' i) := by
    intro i
    show V c (Pipeline.arrRef spec1 2) (((cfg1.win 2).blk t).view.emb (ix2 o' i)) = _
    refine congrArg _ (funext fun a => Fin.ext ?_)
    match a with
    | ⟨0, _⟩ => show win1_2.index t (0 : Fin 2) * 64 + 1 * o'.val = o'.val; omega
    | ⟨1, _⟩ => show win1_2.index t (1 : Fin 2) * 64 + 1 * i.val = i.val; omega
  have r3 : ∀ (j : Fin 2080), iblk1 V c 3 t (ix2 o' j) = V c (Pipeline.arrRef spec1 3) (ix2 o' j) := by
    intro j
    show V c (Pipeline.arrRef spec1 3) (((cfg1.win 3).blk t).view.emb (ix2 o' j)) = _
    refine congrArg _ (funext fun a => Fin.ext ?_)
    match a with
    | ⟨0, _⟩ => show win1_3.index t (0 : Fin 2) * 64 + 1 * o'.val = o'.val; omega
    | ⟨1, _⟩ => show win1_3.index t (1 : Fin 2) * 2080 + 1 * j.val = j.val; omega
  have r4 : ∀ (q : Fin 4096) (j : Fin 2080), iblk1 V c 4 t (ix2 q j) = V c (Pipeline.arrRef spec1 4) (ix2 q j) := by
    intro q j
    show V c (Pipeline.arrRef spec1 4) (((cfg1.win 4).blk t).view.emb (ix2 q j)) = _
    refine congrArg _ (funext fun a => Fin.ext ?_)
    match a with
    | ⟨0, _⟩ => show win1_4.index t (0 : Fin 2) * 4096 + 1 * q.val = q.val; omega
    | ⟨1, _⟩ => show win1_4.index t (1 : Fin 2) * 2080 + 1 * j.val = j.val; omega
  have r5 : iblk1 V c 5 t (ix2 (0 : Fin 1) o') = V c (Pipeline.arrRef spec1 5) (ix2 (0 : Fin 1) o') := by
    show V c (Pipeline.arrRef spec1 5) (((cfg1.win 5).blk t).view.emb (ix2 (0 : Fin 1) o')) = _
    refine congrArg _ (funext fun a => Fin.ext ?_)
    match a with
    | ⟨0, _⟩ => show win1_5.index t (0 : Fin 2) * 1 + 1 * (0 : Fin 1).val = (0 : Fin 1).val; omega
    | ⟨1, _⟩ => show win1_5.index t (1 : Fin 2) * 64 + 1 * o'.val = o'.val; omega
  simp only [r0, r1, r2, r3, r4, r5]
  rfl

/-- An index of the output array is in point t's block iff each coordinate is in the block's range on its axis. -/
theorem mem_blk (t : Fin cfg1.N) (i : S1024x64.Idx) :
    i ∈ ((cfg1.win 6).blk t).view.set ↔ ∀ a : Fin 2, win1_6.index t a * S256x64.size a ≤ (i a).val ∧ (i a).val < win1_6.index t a * S256x64.size a + S256x64.size a := by
  show i ∈ ((View.whole main_v85).slice (win1_6.rect t)).set ↔ _
  rw [View.set_slice_whole, Rect.mem_set_unit]
  exact Iff.rfl

/-- Every index of the output array is in the block of the point its row falls in: row r belongs to point r / 256. -/
theorem cover (i : S1024x64.Idx) : ∃ t : Fin cfg1.N, (cfg1.win 6).flush t = true ∧ i ∈ ((cfg1.win 6).blk t).view.set := by
  have hi0 : (i 0).val < 1024 := (i 0).isLt
  have hi1 : (i 1).val < 64 := (i 1).isLt
  have hN : grid1.N = 4 := N_1
  have hlt : (i 0).val / 256 < cfg1.N := by show (i 0).val / 256 < grid1.N; rw [hN]; omega
  refine ⟨⟨(i 0).val / 256, hlt⟩, flush1_6 _, ?_⟩
  rw [mem_blk]
  obtain ⟨e00, e01, e10, e11, e20, e21, e30, e31, e40, e41, e50, e51, e60, e61⟩ := idx_facts ⟨(i 0).val / 256, hlt⟩
  have e60' : win1_6.index ⟨(i 0).val / 256, hlt⟩ (0 : Fin 2) = (i 0).val / 256 := e60
  intro a
  match a with
  | ⟨0, _⟩ => show win1_6.index ⟨(i 0).val / 256, hlt⟩ (0 : Fin 2) * 256 ≤ (i 0).val ∧ (i 0).val < win1_6.index ⟨(i 0).val / 256, hlt⟩ (0 : Fin 2) * 256 + 256; omega
  | ⟨1, _⟩ => show win1_6.index ⟨(i 0).val / 256, hlt⟩ (1 : Fin 2) * 64 ≤ (i 1).val ∧ (i 1).val < win1_6.index ⟨(i 0).val / 256, hlt⟩ (1 : Fin 2) * 64 + 64; omega

include hpay in
/-- The output array after the region: `G` of the arrays the region finds. -/
theorem final (c : Dev nD) : (dat1 V c).arrAt 6 cfg1.N
    = G (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (dat1 V c).arrAt_eq_of_cover 6 _ (fun t _ => flushed_eq V hpay c t) cover

end Cert.KernelIdeal.Blocks1

end
-- ==== Proof.KernelBlocks2.lean ====
/-
  Region 2 of the idealized kernel program, from blocks to the array: the region's grid has four points, point t
  reading rows 256·t … 256·t + 255 of the activations and of their pairwise products and all of the three weight
  pieces and the bias row, and writing rows 256·t … 256·t + 255 of the output; the four output blocks tile the
  output array, so it ends at one function of the arrays the region finds, row by row.
-/
import proofs.«120368_j16587163697192_2_alg».proof.Proof.Gen.KernelIdeal.Frame
import proofs.«120368_j16587163697192_2_alg».proof.Proof.CubicSpec
import Idealize.ShloMosaic.Lib.Pipeline.Value
import Idealize.ShloMosaic.Lib.ValueIdx

set_option maxRecDepth 16384

noncomputable section

namespace Cert.KernelIdeal.Blocks2

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The output array as one function of the region's six input arrays: entry (r, o) is the tiled arrangement of the
    layer on row r of the activations and of the products, with unit o's weight pieces and bias. -/
def G (x : FVec Ideal S1024x64 .f32) (s : FVec Ideal S1024x2080 .f32) (wl : FVec Ideal S10x64 .f32) (wq : FVec Ideal S10x2080 .f32)
    (wc : FVec Ideal S640x2080 .bf16) (b : FVec Ideal S1x10 .f32) : FVec Ideal S1024x10 .f32 :=
  fun i => Cert.Cubic.kerRow (M2 := 640) (fun a => x (ix2 (i 0) a)) (fun a => s (ix2 (i 0) a))
    (fun a => wl (ix2 (i 1) a)) (fun a => wq (ix2 (i 1) a)) (fun q a => wc (ix2 q a)) (i 1).val (b (ix2 (0 : Fin 1) (i 1)))

/-- The printed index maps over the four grid points: the row-blocked windows move together, the others stay. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (hpay : ∀ (x0 : Vec Ideal S256x64 .f32) (x1 : Vec Ideal S256x2080 .f32) (x2 : Vec Ideal S10x64 .f32) (x3 : Vec Ideal S10x2080 .f32)
    (x4 : Vec Ideal S640x2080 .bf16) (x5 : Vec Ideal S1x10 .f32) (p : Fin 256) (o : Fin 10),
    out2_6 (F := Ideal) x0 x1 x2 x3 x4 x5 (ix2 p o)
      = Cert.Cubic.kerRow (M2 := 640) (fun i => x0 (ix2 p i)) (fun j => x1 (ix2 p j))
          (fun i => x2 (ix2 o i)) (fun j => x3 (ix2 o j)) (fun q j => x4 (ix2 q j)) o.val (x5 (ix2 (0 : Fin 1) o)))

set_option maxHeartbeats 3200000 in
include hpay in
/-- What point t writes back is block t of `G` of the arrays as the region finds them. -/
theorem flushed_eq (c : Dev nD) (t : Fin cfg2.N) :
    (dat2 V c).flushed 6 t = ((cfg2.win 6).blk t).view.read (Elt Ideal)
      (G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  funext j
  obtain ⟨p, o, rfl⟩ : ∃ (p : Fin 256) (o : Fin 10), j = ix2 p o := ⟨j 0, j 1, eq_ix2 j⟩
  show out2_6 (iblk2 V c 0 t) (iblk2 V c 1 t) (iblk2 V c 2 t) (iblk2 V c 3 t) (iblk2 V c 4 t) (iblk2 V c 5 t) (ix2 p o)
    = G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (((cfg2.win 6).blk t).view.emb (ix2 p o))
  refine (hpay _ _ _ _ _ _ p o).trans ?_
  obtain ⟨e00, e01, e10, e11, e20, e21, e30, e31, e40, e41, e50, e51, e60, e61⟩ := idx_facts t
  have hE0 : ((((cfg2.win 6).blk t).view.emb (ix2 p o)) 0).val = t.val * 256 + p.val := by
    show win2_6.index t (0 : Fin 2) * 256 + 1 * p.val = _; omega
  have hE1 : ((((cfg2.win 6).blk t).view.emb (ix2 p o)) 1).val = o.val := by
    show win2_6.index t (1 : Fin 2) * 10 + 1 * o.val = _; omega
  generalize ((cfg2.win 6).blk t).view.emb (ix2 p o) = E at hE0 hE1
  obtain ⟨r, o', rfl⟩ : ∃ (r : Fin 1024) (o' : Fin 10), E = ix2 r o' := ⟨E 0, E 1, eq_ix2 E⟩
  have ho : o' = o := Fin.ext hE1
  subst ho
  have hr : r.val = t.val * 256 + p.val := hE0
  have r0 : ∀ (i : Fin 64), iblk2 V c 0 t (ix2 p i) = V c (Pipeline.arrRef spec2 0) (ix2 r i) := by
    intro i
    show V c (Pipeline.arrRef spec2 0) (((cfg2.win 0).blk t).view.emb (ix2 p i)) = _
    refine congrArg _ (funext fun a => Fin.ext ?_)
    match a with
    | ⟨0, _⟩ => show win2_0.index t (0 : Fin 2) * 256 + 1 * p.val = r.val; omega
    | ⟨1, _⟩ => show win2_0.index t (1 : Fin 2) * 64 + 1 * i.val = i.val; omega
  have r1 : ∀ (j : Fin 2080), iblk2 V c 1 t (ix2 p j) = V c (Pipeline.arrRef spec2 1) (ix2 r j) := by
    intro j
    show V c (Pipeline.arrRef spec2 1) (((cfg2.win 1).blk t).view.emb (ix2 p j)) = _
    refine congrArg _ (funext fun a => Fin.ext ?_)
    match a with
    | ⟨0, _⟩ => show win2_1.index t (0 : Fin 2) * 256 + 1 * p.val = r.val; omega
    | ⟨1, _⟩ => show win2_1.index t (1 : Fin 2) * 2080 + 1 * j.val = j.val; omega
  have r2 : ∀ (i : Fin 64), iblk2 V c 2 t (ix2 o' i) = V c (Pipeline.arrRef spec2 2) (ix2 o' i) := by
    intro i
    show V c (Pipeline.arrRef spec2 2) (((cfg2.win 2).blk t).view.emb (ix2 o' i)) = _
    refine congrArg _ (funext fun a => Fin.ext ?_)
    match a with
    | ⟨0, _⟩ => show win2_2.index t (0 : Fin 2) * 10 + 1 * o'.val = o'.val; omega
    | ⟨1, _⟩ => show win2_2.index t (1 : Fin 2) * 64 + 1 * i.val = i.val; omega
  have r3 : ∀ (j : Fin 2080), iblk2 V c 3 t (ix2 o' j) = V c (Pipeline.arrRef spec2 3) (ix2 o' j) := by
    intro j
    show V c (Pipeline.arrRef spec2 3) (((cfg2.win 3).blk t).view.emb (ix2 o' j)) = _
    refine congrArg _ (funext fun a => Fin.ext ?_)
    match a with
    | ⟨0, _⟩ => show win2_3.index t (0 : Fin 2) * 10 + 1 * o'.val = o'.val; omega
    | ⟨1, _⟩ => show win2_3.index t (1 : Fin 2) * 2080 + 1 * j.val = j.val; omega
  have r4 : ∀ (q : Fin 640) (j : Fin 2080), iblk2 V c 4 t (ix2 q j) = V c (Pipeline.arrRef spec2 4) (ix2 q j) := by
    intro q j
    show V c (Pipeline.arrRef spec2 4) (((cfg2.win 4).blk t).view.emb (ix2 q j)) = _
    refine congrArg _ (funext fun a => Fin.ext ?_)
    match a with
    | ⟨0, _⟩ => show win2_4.index t (0 : Fin 2) * 640 + 1 * q.val = q.val; omega
    | ⟨1, _⟩ => show win2_4.index t (1 : Fin 2) * 2080 + 1 * j.val = j.val; omega
  have r5 : iblk2 V c 5 t (ix2 (0 : Fin 1) o') = V c (Pipeline.arrRef spec2 5) (ix2 (0 : Fin 1) o') := by
    show V c (Pipeline.arrRef spec2 5) (((cfg2.win 5).blk t).view.emb (ix2 (0 : Fin 1) o')) = _
    refine congrArg _ (funext fun a => Fin.ext ?_)
    match a with
    | ⟨0, _⟩ => show win2_5.index t (0 : Fin 2) * 1 + 1 * (0 : Fin 1).val = (0 : Fin 1).val; omega
    | ⟨1, _⟩ => show win2_5.index t (1 : Fin 2) * 10 + 1 * o'.val = o'.val; omega
  simp only [r0, r1, r2, r3, r4, r5]
  rfl

/-- An index of the output array is in point t's block iff each coordinate is in the block's range on its axis. -/
theorem mem_blk (t : Fin cfg2.N) (i : S1024x10.Idx) :
    i ∈ ((cfg2.win 6).blk t).view.set ↔ ∀ a : Fin 2, win2_6.index t a * S256x10.size a ≤ (i a).val ∧ (i a).val < win2_6.index t a * S256x10.size a + S256x10.size a := by
  show i ∈ ((View.whole main_v128).slice (win2_6.rect t)).set ↔ _
  rw [View.set_slice_whole, Rect.mem_set_unit]
  exact Iff.rfl

/-- Every index of the output array is in the block of the point its row falls in: row r belongs to point r / 256. -/
theorem cover (i : S1024x10.Idx) : ∃ t : Fin cfg2.N, (cfg2.win 6).flush t = true ∧ i ∈ ((cfg2.win 6).blk t).view.set := by
  have hi0 : (i 0).val < 1024 := (i 0).isLt
  have hi1 : (i 1).val < 10 := (i 1).isLt
  have hN : grid2.N = 4 := N_2
  have hlt : (i 0).val / 256 < cfg2.N := by show (i 0).val / 256 < grid2.N; rw [hN]; omega
  refine ⟨⟨(i 0).val / 256, hlt⟩, flush2_6 _, ?_⟩
  rw [mem_blk]
  obtain ⟨e00, e01, e10, e11, e20, e21, e30, e31, e40, e41, e50, e51, e60, e61⟩ := idx_facts ⟨(i 0).val / 256, hlt⟩
  have e60' : win2_6.index ⟨(i 0).val / 256, hlt⟩ (0 : Fin 2) = (i 0).val / 256 := e60
  intro a
  match a with
  | ⟨0, _⟩ => show win2_6.index ⟨(i 0).val / 256, hlt⟩ (0 : Fin 2) * 256 ≤ (i 0).val ∧ (i 0).val < win2_6.index ⟨(i 0).val / 256, hlt⟩ (0 : Fin 2) * 256 + 256; omega
  | ⟨1, _⟩ => show win2_6.index ⟨(i 0).val / 256, hlt⟩ (1 : Fin 2) * 10 ≤ (i 1).val ∧ (i 1).val < win2_6.index ⟨(i 0).val / 256, hlt⟩ (1 : Fin 2) * 10 + 10; omega

include hpay in
/-- The output array after the region: `G` of the arrays the region finds. -/
theorem final (c : Dev nD) : (dat2 V c).arrAt 6 cfg2.N
    = G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 V c).arrAt_eq_of_cover 6 _ (fun t _ => flushed_eq V hpay c t) cover

end Cert.KernelIdeal.Blocks2

end
-- ==== Proof.KernelHost.lean ====
/-
  The host lines right before each region of the idealized kernel program, read as functions: the array of pairwise
  products of an activation array (two gathers of columns by the two vectors of column numbers, negative numbers
  wrapped by 64, multiplied), the three pieces of a weight matrix (columns 0..63, columns 64..2143, and columns
  2144.. regrouped as one row per pair (unit, activation)), and a bias vector as a one-row matrix.
-/
import proofs.«120368_j16587163697192_2_alg».proof.Proof.Gen.KernelIdeal.Frame
import Idealize.ShloMosaic.PureOps.Ideal
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

/-- A vector of column numbers with the negative ones wrapped by 64, as a one-column matrix. -/
def wrap (u : IVec S2080 32) : IVec S2080x1 32 :=
  broadcastInDim S2080x1 ![0] bcast_S2080_S2080x1_0
    (select (cmpi .slt u (broadcastInDim S2080 ![] bcast_S_S2080 (constantI S_ 32 0#32)))
      (addi u (broadcastInDim S2080 ![] bcast_S_S2080 (constantI S_ 32 64#32))) u)

/-- The pairwise products of the columns of `x` picked by the two vectors of column numbers. -/
def pairs (x : FVec Ideal S1024x64 .f32) (u v : IVec S2080 32) : FVec Ideal S1024x2080 .f32 :=
  mulf (Host.gather gather_S1024x64_S2080x1_S1024x2080_0_1_n_n_1_1_10241 x (wrap u))
    (Host.gather gather_S1024x64_S2080x1_S1024x2080_0_1_n_n_1_1_10241 x (wrap v))

/-- Columns 0 … 63 of a weight matrix with 64 rows. -/
def wlin64 (W : FVec Ideal S64x135264 .f32) : FVec Ideal S64x64 .f32 :=
  extractStridedSlice S64x64 ![0, 0] W slices_S64x135264_S64x64_0_0
/-- Columns 64 … 2143. -/
def wquad64 (W : FVec Ideal S64x135264 .f32) : FVec Ideal S64x2080 .f32 :=
  extractStridedSlice S64x2080 ![0, 64] W slices_S64x135264_S64x2080_0_64
/-- Columns 2144 … regrouped: row `u·64 + i` holds the 2080 weights of unit `u` for activation `i`. -/
def wcub64 (W : FVec Ideal S64x135264 .f32) : FVec Ideal S4096x2080 .bf16 :=
  shapeCast S4096x2080 (truncf .bf16 (shapeCast S64x64x2080
    (extractStridedSlice S64x133120 ![0, 2144] W slices_S64x135264_S64x133120_0_2144) shapeCasts_S64x133120_S64x64x2080) bitsLt_bf16_f32)
    shapeCasts_S64x64x2080_S4096x2080
/-- A bias vector as a one-row matrix. -/
def brow64 (b : FVec Ideal S64 .f32) : FVec Ideal S1x64 .f32 := shapeCast S1x64 b shapeCasts_S64_S1x64

def wlin10 (W : FVec Ideal S10x135264 .f32) : FVec Ideal S10x64 .f32 :=
  extractStridedSlice S10x64 ![0, 0] W slices_S10x135264_S10x64_0_0
def wquad10 (W : FVec Ideal S10x135264 .f32) : FVec Ideal S10x2080 .f32 :=
  extractStridedSlice S10x2080 ![0, 64] W slices_S10x135264_S10x2080_0_64
def wcub10 (W : FVec Ideal S10x135264 .f32) : FVec Ideal S640x2080 .bf16 :=
  shapeCast S640x2080 (truncf .bf16 (shapeCast S10x64x2080
    (extractStridedSlice S10x133120 ![0, 2144] W slices_S10x135264_S10x133120_0_2144) shapeCasts_S10x133120_S10x64x2080) bitsLt_bf16_f32)
    shapeCasts_S10x64x2080_S640x2080
def brow10 (b : FVec Ideal S10 .f32) : FVec Ideal S1x10 .f32 := shapeCast S1x10 b shapeCasts_S10_S1x10

variable (U : Valuation τ sig (Elt Ideal))

/-! ### The stretch before region 0 -/
theorem s0_pairs : after (hostOps0_16 (F := Ideal)) U (main_v34 : DevRef τ sig) = pairs (U (main_arg0 : DevRef τ sig)) (U (main_v17 : DevRef τ sig)) (U (main_v19 : DevRef τ sig)) := by
  unfold pairs wrap; after_results_simp
theorem s0_wlin : after (hostOps0_16 (F := Ideal)) U (main_v35 : DevRef τ sig) = wlin64 (U (main_arg1 : DevRef τ sig)) := by
  unfold wlin64; after_results_simp
theorem s0_wquad : after (hostOps0_16 (F := Ideal)) U (main_v36 : DevRef τ sig) = wquad64 (U (main_arg1 : DevRef τ sig)) := by
  unfold wquad64; after_results_simp
theorem s0_wcub : after (hostOps0_16 (F := Ideal)) U (main_v40 : DevRef τ sig) = wcub64 (U (main_arg1 : DevRef τ sig)) := by
  unfold wcub64; after_results_simp; rfl
theorem s0_brow : after (hostOps0_16 (F := Ideal)) U (main_v41 : DevRef τ sig) = brow64 (U (main_arg2 : DevRef τ sig)) := by
  unfold brow64; after_results_simp; rfl
theorem s0_x : after (hostOps0_16 (F := Ideal)) U (main_arg0 : DevRef τ sig) = U (main_arg0 : DevRef τ sig) := by
  after_results_simp

/-! ### The stretch before region 1 -/
theorem s1_pairs : after (hostOps1_16 (F := Ideal)) U (main_v77 : DevRef τ sig) = pairs (U (main_v42 : DevRef τ sig)) (U (main_v60 : DevRef τ sig)) (U (main_v62 : DevRef τ sig)) := by
  unfold pairs wrap; after_results_simp
theorem s1_wlin : after (hostOps1_16 (F := Ideal)) U (main_v78 : DevRef τ sig) = wlin64 (U (main_arg3 : DevRef τ sig)) := by
  unfold wlin64; after_results_simp
theorem s1_wquad : after (hostOps1_16 (F := Ideal)) U (main_v79 : DevRef τ sig) = wquad64 (U (main_arg3 : DevRef τ sig)) := by
  unfold wquad64; after_results_simp
theorem s1_wcub : after (hostOps1_16 (F := Ideal)) U (main_v83 : DevRef τ sig) = wcub64 (U (main_arg3 : DevRef τ sig)) := by
  unfold wcub64; after_results_simp; rfl
theorem s1_brow : after (hostOps1_16 (F := Ideal)) U (main_v84 : DevRef τ sig) = brow64 (U (main_arg4 : DevRef τ sig)) := by
  unfold brow64; after_results_simp; rfl
theorem s1_x : after (hostOps1_16 (F := Ideal)) U (main_v42 : DevRef τ sig) = U (main_v42 : DevRef τ sig) := by
  after_results_simp

/-! ### The stretch before region 2 -/
theorem s2_pairs : after (hostOps2_16 (F := Ideal)) U (main_v120 : DevRef τ sig) = pairs (U (main_v85 : DevRef τ sig)) (U (main_v103 : DevRef τ sig)) (U (main_v105 : DevRef τ sig)) := by
  unfold pairs wrap; after_results_simp
theorem s2_wlin : after (hostOps2_16 (F := Ideal)) U (main_v121 : DevRef τ sig) = wlin10 (U (main_arg5 : DevRef τ sig)) := by
  unfold wlin10; after_results_simp
theorem s2_wquad : after (hostOps2_16 (F := Ideal)) U (main_v122 : DevRef τ sig) = wquad10 (U (main_arg5 : DevRef τ sig)) := by
  unfold wquad10; after_results_simp
theorem s2_wcub : after (hostOps2_16 (F := Ideal)) U (main_v126 : DevRef τ sig) = wcub10 (U (main_arg5 : DevRef τ sig)) := by
  unfold wcub10; after_results_simp; rfl
theorem s2_brow : after (hostOps2_16 (F := Ideal)) U (main_v127 : DevRef τ sig) = brow10 (U (main_arg6 : DevRef τ sig)) := by
  unfold brow10; after_results_simp; rfl
theorem s2_x : after (hostOps2_16 (F := Ideal)) U (main_v85 : DevRef τ sig) = U (main_v85 : DevRef τ sig) := by
  after_results_simp

end Cert.KernelIdeal.Host

end
-- ==== Proof.KernelChain0.lean ====
/-
  The contents region 0 of the idealized kernel program is entered with: no host line before it writes an argument
  array, so each is as launched; the array of pairwise products, the three weight pieces and the bias row are the
  last stretch's functions of them and of the two vectors of column numbers the earlier stretches leave.
-/
import proofs.«120368_j16587163697192_2_alg».proof.Proof.KernelHost

set_option maxRecDepth 65536
set_option maxHeartbeats 4000000

noncomputable section

namespace Cert.KernelIdeal.Chain

open Cert.KernelIdeal Cert.KernelIdeal.Gen Cert.KernelIdeal.Host Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem W16_arg0 : W16 m ρ c (Proc.devRef .tc main_arg0) = m ((c : Thread nD τ).loc main_arg0) := by
  dsimp only [W16, W15, W14, W13, W12, W11, W10, W9, W8, W7, W6, W5, W4, W3, W2, W1]
  after_results_simp
theorem W16_arg1 : W16 m ρ c (Proc.devRef .tc main_arg1) = m ((c : Thread nD τ).loc main_arg1) := by
  dsimp only [W16, W15, W14, W13, W12, W11, W10, W9, W8, W7, W6, W5, W4, W3, W2, W1]
  after_results_simp
theorem W16_arg2 : W16 m ρ c (Proc.devRef .tc main_arg2) = m ((c : Thread nD τ).loc main_arg2) := by
  dsimp only [W16, W15, W14, W13, W12, W11, W10, W9, W8, W7, W6, W5, W4, W3, W2, W1]
  after_results_simp

theorem V17_x : V17 m ρ c (Pipeline.arrRef spec0 0) = m ((c : Thread nD τ).loc main_arg0) := by
  show after hostOps0_16 (W16 m ρ c) (Proc.devRef .tc main_arg0) = _
  rw [s0_x, W16_arg0]
theorem V17_pairs : V17 m ρ c (Pipeline.arrRef spec0 1)
    = pairs (m ((c : Thread nD τ).loc main_arg0)) (W16 m ρ c (Proc.devRef .tc main_v17)) (W16 m ρ c (Proc.devRef .tc main_v19)) := by
  show after hostOps0_16 (W16 m ρ c) (Proc.devRef .tc main_v34) = _
  rw [s0_pairs, W16_arg0]
theorem V17_wlin : V17 m ρ c (Pipeline.arrRef spec0 2) = wlin64 (m ((c : Thread nD τ).loc main_arg1)) := by
  show after hostOps0_16 (W16 m ρ c) (Proc.devRef .tc main_v35) = _
  rw [s0_wlin, W16_arg1]
theorem V17_wquad : V17 m ρ c (Pipeline.arrRef spec0 3) = wquad64 (m ((c : Thread nD τ).loc main_arg1)) := by
  show after hostOps0_16 (W16 m ρ c) (Proc.devRef .tc main_v36) = _
  rw [s0_wquad, W16_arg1]
theorem V17_wcub : V17 m ρ c (Pipeline.arrRef spec0 4) = wcub64 (m ((c : Thread nD τ).loc main_arg1)) := by
  show after hostOps0_16 (W16 m ρ c) (Proc.devRef .tc main_v40) = _
  rw [s0_wcub, W16_arg1]
theorem V17_brow : V17 m ρ c (Pipeline.arrRef spec0 5) = brow64 (m ((c : Thread nD τ).loc main_arg2)) := by
  show after hostOps0_16 (W16 m ρ c) (Proc.devRef .tc main_v41) = _
  rw [s0_brow, W16_arg2]

end Cert.KernelIdeal.Chain

end
-- ==== Proof.KernelChain1.lean ====
/-
  The contents region 1 of the idealized kernel program is entered with: the host lines between the regions write
  neither region 0's output array nor an argument array, and region 0 writes only its own output.
-/
import proofs.«120368_j16587163697192_2_alg».proof.Proof.KernelHost

set_option maxRecDepth 65536
set_option maxHeartbeats 4000000

noncomputable section

namespace Cert.KernelIdeal.Chain

open Cert.KernelIdeal Cert.KernelIdeal.Gen Cert.KernelIdeal.Host Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)
theorem W17_arg3 : W17 m ρ c (Proc.devRef .tc main_arg3) = m ((c : Thread nD τ).loc main_arg3) := by
  dsimp only [W17, W16, W15, W14, W13, W12, W11, W10, W9, W8, W7, W6, W5, W4, W3, W2, W1]
  after_results_simp
theorem W17_arg4 : W17 m ρ c (Proc.devRef .tc main_arg4) = m ((c : Thread nD τ).loc main_arg4) := by
  dsimp only [W17, W16, W15, W14, W13, W12, W11, W10, W9, W8, W7, W6, W5, W4, W3, W2, W1]
  after_results_simp
theorem W34_x : W34 m ρ c (Proc.devRef .tc main_v42) = W18 m ρ c (Proc.devRef .tc main_v42) := by
  dsimp only [W34, W33, W32, W31, W30, W29, W28, W27, W26, W25, W24, W23, W22, W21, W20, W19]
  after_results_simp
theorem W34_arg3 : W34 m ρ c (Proc.devRef .tc main_arg3) = m ((c : Thread nD τ).loc main_arg3) := by
  dsimp only [W34, W33, W32, W31, W30, W29, W28, W27, W26, W25, W24, W23, W22, W21, W20, W19]
  after_results_simp
  rw [W18_of_ne m ρ c main_arg3 (by decide)]
  exact W17_arg3 m ρ c
theorem W34_arg4 : W34 m ρ c (Proc.devRef .tc main_arg4) = m ((c : Thread nD τ).loc main_arg4) := by
  dsimp only [W34, W33, W32, W31, W30, W29, W28, W27, W26, W25, W24, W23, W22, W21, W20, W19]
  after_results_simp
  rw [W18_of_ne m ρ c main_arg4 (by decide)]
  exact W17_arg4 m ρ c

theorem V35_x : V35 m ρ c (Pipeline.arrRef spec1 0) = W18 m ρ c (Proc.devRef .tc main_v42) := by
  show after hostOps1_16 (W34 m ρ c) (Proc.devRef .tc main_v42) = _
  rw [s1_x, W34_x]
theorem V35_pairs : V35 m ρ c (Pipeline.arrRef spec1 1)
    = pairs (W18 m ρ c (Proc.devRef .tc main_v42)) (W34 m ρ c (Proc.devRef .tc main_v60)) (W34 m ρ c (Proc.devRef .tc main_v62)) := by
  show after hostOps1_16 (W34 m ρ c) (Proc.devRef .tc main_v77) = _
  rw [s1_pairs, W34_x]
theorem V35_wlin : V35 m ρ c (Pipeline.arrRef spec1 2) = wlin64 (m ((c : Thread nD τ).loc main_arg3)) := by
  show after hostOps1_16 (W34 m ρ c) (Proc.devRef .tc main_v78) = _
  rw [s1_wlin, W34_arg3]
theorem V35_wquad : V35 m ρ c (Pipeline.arrRef spec1 3) = wquad64 (m ((c : Thread nD τ).loc main_arg3)) := by
  show after hostOps1_16 (W34 m ρ c) (Proc.devRef .tc main_v79) = _
  rw [s1_wquad, W34_arg3]
theorem V35_wcub : V35 m ρ c (Pipeline.arrRef spec1 4) = wcub64 (m ((c : Thread nD τ).loc main_arg3)) := by
  show after hostOps1_16 (W34 m ρ c) (Proc.devRef .tc main_v83) = _
  rw [s1_wcub, W34_arg3]
theorem V35_brow : V35 m ρ c (Pipeline.arrRef spec1 5) = brow64 (m ((c : Thread nD τ).loc main_arg4)) := by
  show after hostOps1_16 (W34 m ρ c) (Proc.devRef .tc main_v84) = _
  rw [s1_brow, W34_arg4]

end Cert.KernelIdeal.Chain

end
-- ==== Proof.KernelChain2.lean ====
/-
  The contents region 2 of the idealized kernel program is entered with: as for region 1, one region further on.
-/
import proofs.«120368_j16587163697192_2_alg».proof.Proof.KernelHost

set_option maxRecDepth 65536
set_option maxHeartbeats 4000000

noncomputable section

namespace Cert.KernelIdeal.Chain

open Cert.KernelIdeal Cert.KernelIdeal.Gen Cert.KernelIdeal.Host Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)
theorem W17_arg5 : W17 m ρ c (Proc.devRef .tc main_arg5) = m ((c : Thread nD τ).loc main_arg5) := by
  dsimp only [W17, W16, W15, W14, W13, W12, W11, W10, W9, W8, W7, W6, W5, W4, W3, W2, W1]
  after_results_simp
theorem W17_arg6 : W17 m ρ c (Proc.devRef .tc main_arg6) = m ((c : Thread nD τ).loc main_arg6) := by
  dsimp only [W17, W16, W15, W14, W13, W12, W11, W10, W9, W8, W7, W6, W5, W4, W3, W2, W1]
  after_results_simp
theorem W35_arg5 : W35 m ρ c (Proc.devRef .tc main_arg5) = m ((c : Thread nD τ).loc main_arg5) := by
  dsimp only [W35, W34, W33, W32, W31, W30, W29, W28, W27, W26, W25, W24, W23, W22, W21, W20, W19]
  after_results_simp
  rw [W18_of_ne m ρ c main_arg5 (by decide)]
  exact W17_arg5 m ρ c
theorem W35_arg6 : W35 m ρ c (Proc.devRef .tc main_arg6) = m ((c : Thread nD τ).loc main_arg6) := by
  dsimp only [W35, W34, W33, W32, W31, W30, W29, W28, W27, W26, W25, W24, W23, W22, W21, W20, W19]
  after_results_simp
  rw [W18_of_ne m ρ c main_arg6 (by decide)]
  exact W17_arg6 m ρ c
theorem W52_x : W52 m ρ c (Proc.devRef .tc main_v85) = W36 m ρ c (Proc.devRef .tc main_v85) := by
  dsimp only [W52, W51, W50, W49, W48, W47, W46, W45, W44, W43, W42, W41, W40, W39, W38, W37]
  after_results_simp
theorem W52_arg5 : W52 m ρ c (Proc.devRef .tc main_arg5) = m ((c : Thread nD τ).loc main_arg5) := by
  dsimp only [W52, W51, W50, W49, W48, W47, W46, W45, W44, W43, W42, W41, W40, W39, W38, W37]
  after_results_simp
  rw [W36_of_ne m ρ c main_arg5 (by decide)]
  exact W35_arg5 m ρ c
theorem W52_arg6 : W52 m ρ c (Proc.devRef .tc main_arg6) = m ((c : Thread nD τ).loc main_arg6) := by
  dsimp only [W52, W51, W50, W49, W48, W47, W46, W45, W44, W43, W42, W41, W40, W39, W38, W37]
  after_results_simp
  rw [W36_of_ne m ρ c main_arg6 (by decide)]
  exact W35_arg6 m ρ c

theorem V53_x : V53 m ρ c (Pipeline.arrRef spec2 0) = W36 m ρ c (Proc.devRef .tc main_v85) := by
  show after hostOps2_16 (W52 m ρ c) (Proc.devRef .tc main_v85) = _
  rw [s2_x, W52_x]
theorem V53_pairs : V53 m ρ c (Pipeline.arrRef spec2 1)
    = pairs (W36 m ρ c (Proc.devRef .tc main_v85)) (W52 m ρ c (Proc.devRef .tc main_v103)) (W52 m ρ c (Proc.devRef .tc main_v105)) := by
  show after hostOps2_16 (W52 m ρ c) (Proc.devRef .tc main_v120) = _
  rw [s2_pairs, W52_x]
theorem V53_wlin : V53 m ρ c (Pipeline.arrRef spec2 2) = wlin10 (m ((c : Thread nD τ).loc main_arg5)) := by
  show after hostOps2_16 (W52 m ρ c) (Proc.devRef .tc main_v121) = _
  rw [s2_wlin, W52_arg5]
theorem V53_wquad : V53 m ρ c (Pipeline.arrRef spec2 3) = wquad10 (m ((c : Thread nD τ).loc main_arg5)) := by
  show after hostOps2_16 (W52 m ρ c) (Proc.devRef .tc main_v122) = _
  rw [s2_wquad, W52_arg5]
theorem V53_wcub : V53 m ρ c (Pipeline.arrRef spec2 4) = wcub10 (m ((c : Thread nD τ).loc main_arg5)) := by
  show after hostOps2_16 (W52 m ρ c) (Proc.devRef .tc main_v126) = _
  rw [s2_wcub, W52_arg5]
theorem V53_brow : V53 m ρ c (Pipeline.arrRef spec2 5) = brow10 (m ((c : Thread nD τ).loc main_arg6)) := by
  show after hostOps2_16 (W52 m ρ c) (Proc.devRef .tc main_v127) = _
  rw [s2_brow, W52_arg6]

end Cert.KernelIdeal.Chain

end
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibGate.lean ====
/-
  A routing gate: the number 1 where a row's expert number equals e, the number 0 elsewhere, in its two machine forms.

  A kernel compares a [R, 1] column of numbers with e, widens the resulting bit to 32 bits, converts it signed, and
  repeats the column along the rows' entries; a host program compares an [M] vector with e, converts the bit unsigned,
  and repeats it along a new trailing axis. A single bit widened with zeros is the same integer read signed or unsigned,
  so both are the same 0-or-1 factor per row.
-/
import Idealize.ShloMosaic.Lib.Pipeline.Value
import Idealize.ShloMosaic.Lib.ValueIdx
import Idealize.ShloMosaic.Lib.ValueLayout
import Idealize.ShloMosaic.PureOps.Ideal
import proofs.«120368_j16587163697192_2_alg».proof.Proof.LibColumnBroadcast

noncomputable section

namespace Cert.Route

open Idealize.ShloMosaic Idealize.ShloMosaic.ValueIdx

/-- The factor of a row whose expert number is `v`, for expert `e`: 1 if they are equal, 0 if not. -/
def gate (v e : BitVec 32) : EReal := FloatOps.uitofp (F := Ideal) .f32 (IntOp.cmpi .eq v e)

/-- One bit, widened with zeros to 32 bits and read signed, is the bit read unsigned. -/
theorem sitofp_extui_bit (c : BitVec 1) :
    FloatOps.sitofp (F := Ideal) .f32 (c.setWidth 32) = FloatOps.uitofp (F := Ideal) .f32 c := by
  show (((c.setWidth 32).toInt : ℝ) : EReal) = ((c.toNat : ℝ) : EReal)
  have h : ∀ c : BitVec 1, (c.setWidth 32).toInt = (c.toNat : ℤ) := by decide
  rw [h c]
  norm_cast

/-- The kernel's gate: a column of expert numbers compared with `e`, the bit widened, converted signed, repeated along
    the columns. -/
theorem gate_block {R Q : ℕ} (sel : IVec ⟨2, ![R, 1]⟩ 32) (e : BitVec 32) (h : 1 < 32)
    (hb : (⟨2, ![R, 1]⟩ : Shape).Broadcasts ⟨2, ![R, Q]⟩) :
    broadcastTo ⟨2, ![R, Q]⟩ (sitofp (F := Ideal) .f32 (extui 32 (cmpi .eq sel (broadcast ⟨2, ![R, 1]⟩ e)) h)) hb
      = fun j => gate (sel (ix2 (j 0) (0 : Fin 1))) e := by
  funext j
  obtain ⟨p, q, rfl⟩ : ∃ (p : Fin R) (q : Fin Q), j = ix2 p q := ⟨j 0, j 1, eq_ix2 j⟩
  rw [broadcastTo_a1_ab_apply]
  exact sitofp_extui_bit _

/-- The host's gate: a vector of expert numbers compared with `e`, the bit converted unsigned, laid out as a column,
    repeated along the columns. -/
theorem gate_host {M Q : ℕ} (idx : IVec ⟨1, ![M]⟩ 32) (e : BitVec 32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, Q]⟩ (![0, 1] : Fin 2 → Fin 2)) :
    broadcastInDim ⟨2, ![M, Q]⟩ (![0, 1] : Fin 2 → Fin 2) h2
        (broadcastInDim ⟨2, ![M, 1]⟩ (![0] : Fin 1 → Fin 2) h1
          (uitofp (F := Ideal) .f32 (cmpi .eq idx (broadcastInDim ⟨1, ![M]⟩ (![] : Fin 0 → Fin 1) h0 (constantI ⟨0, ![]⟩ 32 e)))))
      = fun j => gate (idx (ix1 (j 0))) e := by
  funext j
  obtain ⟨r, q, rfl⟩ : ∃ (r : Fin M) (q : Fin Q), j = ix2 r q := ⟨j 0, j 1, eq_ix2 j⟩
  rw [broadcastInDim_apply _ h2 _ (ix2 r q) (ix2 r (0 : Fin 1)) (fun ax => by
    match ax with
    | ⟨0, _⟩ =>
      show r.val = if M = 1 then 0 else r.val
      split
      · have := r.isLt; omega
      · rfl
    | ⟨1, _⟩ => show 0 = if (1 : ℕ) = 1 then 0 else q.val; rw [if_pos rfl])]
  rw [broadcastInDim_apply _ h1 _ (ix2 r (0 : Fin 1)) (ix1 r) (fun ax => by
    match ax with
    | ⟨0, _⟩ =>
      show r.val = if M = 1 then 0 else r.val
      split
      · have := r.isLt; omega
      · rfl)]
  rfl

end Cert.Route

end
-- ==== Proof.PayloadWords.lean ====
/-
  The 0/1 selection matrix, word by word.

  Row number q and column number o of a [M, N] matrix are held as 32-bit words. The entry is computed as
  "the floor of q / 64 equals o", where the floor division is spelt with the truncating signed division: divide,
  and subtract 1 when the operands' signs differ and the remainder is not 0. For 0 ≤ q < 2³¹ and the divisor 64 the
  signs never differ, so the correction never fires and the quotient is the natural-number quotient q / 64. The
  comparison bit, widened to 32 bits and converted to a number, is 1 when q / 64 = o and 0 otherwise.
-/
import proofs.«120368_j16587163697192_2_alg».proof.Proof.CubicSpec
import proofs.«120368_j16587163697192_2_alg».proof.Proof.LibGate
import Idealize.ShloMosaic.Lib.ValueIdx
import Idealize.ShloMosaic.Lib.Pipeline.Value

noncomputable section

namespace Cert.KernelIdeal.Payload

open Idealize.ShloMosaic Idealize.ShloMosaic.ValueIdx

/-! ## Words -/

/-- A natural number below 2³¹, as a 32-bit word, has its sign bit clear. -/
theorem msb_ofNat (q : ℕ) (hq : q < 2147483648) : (BitVec.ofNat 32 q).msb = false := by
  rw [BitVec.msb_eq_false_iff_two_mul_lt, BitVec.toNat_ofNat]; omega

/-- Read signed, it is the number itself. -/
theorem toInt_ofNat_small (q : ℕ) (hq : q < 2147483648) : (BitVec.ofNat 32 q).toInt = (q : ℤ) := by
  rw [BitVec.toInt_eq_toNat_of_msb (msb_ofNat q hq), BitVec.toNat_ofNat]
  congr 1; omega

/-- Division by 64 is never at the signed division's corner (divisor 0, or the least integer by −1). -/
theorem not_corner (x : BitVec 32) : ¬ IntOp.SDivCorner x 64#32 := by
  intro h
  rcases h with h | ⟨_, h⟩
  · exact absurd h (by decide)
  · exact absurd h (by decide)

/-- The signed quotient of a non-negative word by 64 is the natural quotient. -/
theorem divsi_ofNat (q : ℕ) (hq : q < 2147483648) :
    IntOp.divsi .vector (BitVec.ofNat 32 q) 64#32 = BitVec.ofNat 32 (q / 64) := by
  unfold IntOp.divsi
  rw [if_neg (not_corner _), BitVec.sdiv_eq, msb_ofNat q hq, show (64#32 : BitVec 32).msb = false from by decide]
  apply BitVec.eq_of_toNat_eq
  show ((BitVec.ofNat 32 q) / 64#32).toNat = _
  rw [BitVec.toNat_udiv, BitVec.toNat_ofNat, BitVec.toNat_ofNat, BitVec.toNat_ofNat]
  simp only [show (2 : ℕ) ^ 32 = 4294967296 from by norm_num]
  rw [Nat.mod_eq_of_lt (show q < 4294967296 by omega), Nat.mod_eq_of_lt (show 64 < 4294967296 by omega),
    Nat.mod_eq_of_lt (show q / 64 < 4294967296 by omega)]

/-- A positive word below 2³¹ is greater than 0, read signed. -/
theorem sgt_ofNat (q : ℕ) (hq : q < 2147483648) (h0 : 0 < q) : IntOp.cmpi .sgt (BitVec.ofNat 32 q) 0#32 = 1#1 := by
  show BitVec.ofBool ((0#32 : BitVec 32).slt (BitVec.ofNat 32 q)) = 1#1
  rw [BitVec.slt_eq_decide, toInt_ofNat_small q hq, show (0#32 : BitVec 32).toInt = 0 from by decide]
  rw [decide_eq_true (by omega)]; rfl

/-- A word below 2³¹ is not less than 0, read signed. -/
theorem slt_ofNat (q : ℕ) (hq : q < 2147483648) : IntOp.cmpi .slt (BitVec.ofNat 32 q) 0#32 = 0#1 := by
  show BitVec.ofBool ((BitVec.ofNat 32 q).slt (0#32 : BitVec 32)) = 0#1
  rw [BitVec.slt_eq_decide, toInt_ofNat_small q hq, show (0#32 : BitVec 32).toInt = 0 from by decide]
  rw [decide_eq_false (by omega)]; rfl

/-- The floor-division idiom on a non-negative word and the divisor 64: the sign of q is 0 or 1 and the sign of 64 is 1;
    they differ only at q = 0, where the remainder is 0; so the quotient is kept, and it is q / 64. -/
theorem floordiv_word (q : ℕ) (hq : q < 2147483648) :
    Scalar.select
      (IntOp.andi
        (IntOp.cmpi .ne
          (IntOp.subi ((IntOp.cmpi .sgt (BitVec.ofNat 32 q) 0#32).setWidth 32) ((IntOp.cmpi .slt (BitVec.ofNat 32 q) 0#32).setWidth 32))
          (Scalar.subi (Scalar.extui (Scalar.cmpi .sgt 64#32 0#32)) (Scalar.extui (Scalar.cmpi .slt 64#32 0#32))))
        (IntOp.cmpi .ne (IntOp.remsi .vector (BitVec.ofNat 32 q) 64#32) 0#32))
      (IntOp.subi (IntOp.divsi .vector (BitVec.ofNat 32 q) 64#32) 1#32)
      (IntOp.divsi .vector (BitVec.ofNat 32 q) 64#32)
    = BitVec.ofNat 32 (q / 64) := by
  rw [show (Scalar.subi (Scalar.extui (Scalar.cmpi .sgt 64#32 0#32)) (Scalar.extui (Scalar.cmpi .slt 64#32 0#32))) = 1#32 from by decide]
  rcases Nat.eq_zero_or_pos q with rfl | h0
  · decide
  · rw [sgt_ofNat q hq h0, slt_ofNat q hq,
      show IntOp.cmpi .ne (IntOp.subi ((1#1 : BitVec 1).setWidth 32) ((0#1 : BitVec 1).setWidth 32)) 1#32 = 0#1 from by decide,
      show ∀ b : BitVec 1, IntOp.andi 0#1 b = 0#1 from by decide, select_zero, divsi_ofNat q hq]

/-- The entry as a number: the quotient compared with the column number, the bit widened and converted, is 1 when
    q / 64 = o and 0 otherwise. -/
theorem ind_word (q o : ℕ) (hq : q < 2147483648) (ho : o < 4294967296) :
    FloatOps.sitofp (F := Ideal) .f32 ((IntOp.cmpi .eq (BitVec.ofNat 32 (q / 64)) (BitVec.ofNat 32 o)).setWidth 32)
      = Cert.Cubic.ind q o := by
  rw [Cert.Route.sitofp_extui_bit]
  unfold Cert.Cubic.ind
  by_cases h : q / 64 = o
  · rw [if_pos h, h]
    show (((BitVec.ofBool (BitVec.ofNat 32 o == BitVec.ofNat 32 o)).toNat : ℝ) : EReal) = 1
    simp
  · rw [if_neg h]
    have hne : (BitVec.ofNat 32 (q / 64) == BitVec.ofNat 32 o) = false := by
      apply beq_false_of_ne
      intro e
      have := congrArg BitVec.toNat e
      rw [BitVec.toNat_ofNat, BitVec.toNat_ofNat] at this
      simp only [show (2 : ℕ) ^ 32 = 4294967296 from by norm_num] at this
      omega
    show (((BitVec.ofBool (BitVec.ofNat 32 (q / 64) == BitVec.ofNat 32 o)).toNat : ℝ) : EReal) = 0
    rw [hne]
    simp

/-! ## The integer vector operations read at an index (each is its word operation on the elements) -/

section AtIndex
variable {s : Shape} {w : ℕ}

theorem cmpi_apply (p : CmpIPredicate) (a b : IVec s w) (i : s.Idx) : cmpi p a b i = IntOp.cmpi p (a i) (b i) := rfl
theorem andi_apply (a b : IVec s w) (i : s.Idx) : andi a b i = IntOp.andi (a i) (b i) := rfl
theorem subi_apply (a b : IVec s w) (i : s.Idx) : subi a b i = IntOp.subi (a i) (b i) := rfl
theorem divsi_apply (a b : IVec s w) (i : s.Idx) : divsi a b i = IntOp.divsi .vector (a i) (b i) := rfl
theorem remsi_apply (a b : IVec s w) (i : s.Idx) : remsi a b i = IntOp.remsi .vector (a i) (b i) := rfl

end AtIndex

/-! ## The matrix -/

/-- The [M, N] selection matrix read at (q, o): 1 when q / 64 = o, else 0. -/
theorem mask_apply {M N : ℕ} (hM : M ≤ 2147483648) (hN : N ≤ 4294967296)
    (h0 : (⟨2, ![M, N]⟩ : Shape).Iotas .tc 32 [0]) (h1 : (⟨2, ![M, N]⟩ : Shape).Iotas .tc 32 [1]) (h32 : 1 < 32)
    (q : Fin M) (o : Fin N) :
    (sitofp (F := Ideal) .f32 (extui 32 (cmpi .eq
        (select (andi
            (cmpi .ne (subi (extui 32 (cmpi .sgt (iota .tc ⟨2, ![M, N]⟩ 32 [0] h0) (broadcast ⟨2, ![M, N]⟩ 0#32)) h32)
                            (extui 32 (cmpi .slt (iota .tc ⟨2, ![M, N]⟩ 32 [0] h0) (broadcast ⟨2, ![M, N]⟩ 0#32)) h32))
                      (broadcast ⟨2, ![M, N]⟩ (Scalar.subi (Scalar.extui (Scalar.cmpi .sgt 64#32 0#32)) (Scalar.extui (Scalar.cmpi .slt 64#32 0#32)))))
            (cmpi .ne (remsi (iota .tc ⟨2, ![M, N]⟩ 32 [0] h0) (broadcast ⟨2, ![M, N]⟩ 64#32)) (broadcast ⟨2, ![M, N]⟩ 0#32)))
          (subi (divsi (iota .tc ⟨2, ![M, N]⟩ 32 [0] h0) (broadcast ⟨2, ![M, N]⟩ 64#32)) (broadcast ⟨2, ![M, N]⟩ 1#32))
          (divsi (iota .tc ⟨2, ![M, N]⟩ 32 [0] h0) (broadcast ⟨2, ![M, N]⟩ 64#32)))
        (iota .tc ⟨2, ![M, N]⟩ 32 [1] h1)) h32) : FVec Ideal ⟨2, ![M, N]⟩ .f32) (ix2 q o)
      = Cert.Cubic.ind q.val o.val := by
  have e0 : iota .tc ⟨2, ![M, N]⟩ 32 [0] h0 (ix2 q o) = BitVec.ofNat 32 q.val := iota_single_apply _ _ _ _ _ _
  have e1 : iota .tc ⟨2, ![M, N]⟩ 32 [1] h1 (ix2 q o) = BitVec.ofNat 32 o.val := iota_single_apply _ _ _ _ _ _
  simp only [sitofp_apply, extui_apply, cmpi_apply, select_apply, andi_apply, subi_apply, divsi_apply, remsi_apply,
    broadcast_apply, e0, e1]
  rw [floordiv_word q.val (by have := q.isLt; omega)]
  exact ind_word q.val o.val (by have := q.isLt; omega) (by have := o.isLt; omega)

end Cert.KernelIdeal.Payload

end
-- ==== Proof.KernelPayload.lean ====
/-
  What the cubic layer's body leaves in its output block, entry by entry.

  The body computes, for a block of 256 rows: a linear term (activations x by the linear weight rows), a quadratic term
  (pairwise products s by the quadratic weight rows), and a cubic term: s by every row of the cubic weight matrix gives
  t(p, q) = Σ_j s(p, j) · wc(q, j); this is multiplied entrywise by the activations repeated along the columns,
  x(p, q mod 64); and the result is multiplied by the 0/1 matrix [q / 64 = o], which sums, for output unit o, its own 64
  rows. The bias row is added to every row. Read at (p, o), that is the tiled row formula `Cert.Cubic.kerRow` of the
  row p of the block. The three regions run this body at 64, 64 and 10 output units.
-/
import proofs.«120368_j16587163697192_2_alg».proof.Proof.Gen.KernelIdeal.Frame
import proofs.«120368_j16587163697192_2_alg».proof.Proof.CubicSpec
import proofs.«120368_j16587163697192_2_alg».proof.Proof.LibMatmulRowsByRows
import proofs.«120368_j16587163697192_2_alg».proof.Proof.LibPlainMatmul
import proofs.«120368_j16587163697192_2_alg».proof.Proof.PayloadWords
import Idealize.ShloMosaic.Lib.ValueIdx
import Idealize.ShloMosaic.Lib.Pipeline.Value
import Idealize.ShloMosaic.Lib.ValueLayout

noncomputable section

namespace Cert.KernelIdeal.Payload

open Idealize.ShloMosaic Idealize.ShloMosaic.ValueIdx Cert.KernelIdeal

/-- The offsets of a whole-block access, however spelt, are zero on both axes. -/
theorem hz2 : (![0, 0] : Fin 2 → Nat) = fun _ => 0 := funext fun a => by fin_cases a <;> rfl

/-! ## Region 0: 64 output units, a cubic weight matrix of 4096 rows -/

/-- The one store covers the block and every load is whole: the block after the body is the stored value. -/
theorem out0_6_unfold (x0 : Vec Ideal S256x64 .f32) (x1 : Vec Ideal S256x2080 .f32) (x2 : Vec Ideal S64x64 .f32) (x3 : Vec Ideal S64x2080 .f32) (x4 : Vec Ideal S4096x2080 .bf16) (x5 : Vec Ideal S1x64 .f32) :
    Gen.out0_6 (F := Ideal) x0 x1 x2 x3 x4 x5
      = Gen.k0_pay1 (Gen.k0_pay3 x5) (Gen.k0_pay4 x0 x2) (Gen.k0_pay5 x1 x3) (Gen.k0_pay6 x0 x1 x4)
          (iota .tc S4096x64 32 [1] Facts₀.iota_S4096x64_d1_w32) Gen.k0_pay7 Gen.k0_pay8 Gen.k0_pay9 Gen.k0_pay10 := by
  unfold Gen.out0_6
  rw [View.canon_unit_zero hz2]
  simp only [View.ld_unit_zero (S := S256x64) hz2, View.ld_unit_zero (S := S256x2080) hz2, View.ld_unit_zero (S := S64x64) hz2, View.ld_unit_zero (S := S64x2080) hz2, View.ld_unit_zero (S := S4096x2080) hz2, View.ld_unit_zero (S := S1x64) hz2]

/-- The linear term: activations by the linear weight rows. -/
theorem lin0 (x0 : Vec Ideal S256x64 .f32) (x2 : Vec Ideal S64x64 .f32) (p : Fin 256) (o : Fin 64) :
    Gen.k0_pay4 (F := Ideal) x0 x2 (ix2 p o) = ∑ i : Fin 64, x0 (ix2 p i) * x2 (ix2 o i) := by
  unfold Gen.k0_pay4
  simp only [shapeCast_self]
  exact matmul_rows_rows_apply _ _ x0 x2 p o

/-- The quadratic term: pairwise products by the quadratic weight rows. -/
theorem quad0 (x1 : Vec Ideal S256x2080 .f32) (x3 : Vec Ideal S64x2080 .f32) (p : Fin 256) (o : Fin 64) :
    Gen.k0_pay5 (F := Ideal) x1 x3 (ix2 p o) = ∑ j : Fin 2080, x1 (ix2 p j) * x3 (ix2 o j) := by
  unfold Gen.k0_pay5 Gen.k0_pay2
  simp only [shapeCast_self]
  exact matmul_rows_rows_apply _ _ x1 x3 p o

/-- The pairwise products by every row of the cubic weight matrix, times the activations repeated 64 times along
    the columns: entry (p, q) is (Σ_j s_j · wc(q, j)) · x_{q mod 64}. The change of float format before the product is
    the identity on extended reals. -/
theorem rep0 (x0 : Vec Ideal S256x64 .f32) (x1 : Vec Ideal S256x2080 .f32) (x4 : Vec Ideal S4096x2080 .bf16) (p : Fin 256) (q : Fin 4096) :
    Gen.k0_pay6 (F := Ideal) x0 x1 x4 (ix2 p q)
      = (∑ j : Fin 2080, x1 (ix2 p j) * x4 (ix2 q j)) * x0 (ix2 p ⟨q.val % 64, Nat.mod_lt _ (by norm_num)⟩) := by
  unfold Gen.k0_pay6 Gen.k0_pay2
  simp only [shapeCast_self]
  rw [mulf_apply]
  refine congrArg₂ (· * ·) ?_ ?_
  · exact matmul_rows_rows_apply _ _ (truncf .bf16 x1 Facts₀.bitsLt_bf16_f32) x4 p q
  · exact concatenate_replicate_apply (t := S256x4096) (s₁ := S256x64) 1 64 x0 _ rfl (ix2 p q)
      (ix2 p ⟨q.val % 64, Nat.mod_lt _ (by norm_num)⟩) rfl
      (fun b hb => by
        match b, hb with
        | ⟨0, _⟩, _ => rfl
        | ⟨1, _⟩, hb => exact absurd rfl hb)

/-- The block after the body, read at (p, o): linear + quadratic + cubic (through the 0/1 selection) + bias. -/
theorem out0_6_apply (x0 : Vec Ideal S256x64 .f32) (x1 : Vec Ideal S256x2080 .f32) (x2 : Vec Ideal S64x64 .f32) (x3 : Vec Ideal S64x2080 .f32) (x4 : Vec Ideal S4096x2080 .bf16) (x5 : Vec Ideal S1x64 .f32) (p : Fin 256) (o : Fin 64) :
    Gen.out0_6 (F := Ideal) x0 x1 x2 x3 x4 x5 (ValueIdx.ix2 p o)
      = Cert.Cubic.kerRow (M2 := 4096) (fun i => x0 (ValueIdx.ix2 p i)) (fun j => x1 (ValueIdx.ix2 p j))
          (fun i => x2 (ValueIdx.ix2 o i)) (fun j => x3 (ValueIdx.ix2 o j)) (fun q j => x4 (ValueIdx.ix2 q j)) o.val
          (x5 (ValueIdx.ix2 (0 : Fin 1) o)) := by
  rw [out0_6_unfold]
  unfold Gen.k0_pay1
  rw [addf_apply, addf_apply, addf_apply]
  unfold Cert.Cubic.kerRow
  refine congrArg₂ (· + ·) (congrArg₂ (· + ·) (congrArg₂ (· + ·) (lin0 x0 x2 p o) (quad0 x1 x3 p o)) ?cub) ?bias
  · refine (matmul_plain_zero_apply _ _ _ _ p o).trans ?_
    refine Finset.sum_congr rfl fun q _ => ?_
    exact congrArg₂ (· * ·) (rep0 x0 x1 x4 p q) (mask_apply (by norm_num) (by norm_num) _ _ _ q o)
  · unfold Gen.k0_pay3
    rw [shapeCast_self]
    exact broadcastTo_1b_ab_apply x5 _ p o

/-! ## Region 1: 64 output units, a cubic weight matrix of 4096 rows -/

/-- The one store covers the block and every load is whole: the block after the body is the stored value. -/
theorem out1_6_unfold (x0 : Vec Ideal S256x64 .f32) (x1 : Vec Ideal S256x2080 .f32) (x2 : Vec Ideal S64x64 .f32) (x3 : Vec Ideal S64x2080 .f32) (x4 : Vec Ideal S4096x2080 .bf16) (x5 : Vec Ideal S1x64 .f32) :
    Gen.out1_6 (F := Ideal) x0 x1 x2 x3 x4 x5
      = Gen.k1_pay1 (Gen.k1_pay4 x5) (Gen.k1_pay5 x0 x2) (Gen.k1_pay6 x1 x3) (Gen.k1_pay7 x0 x1 x4)
          (iota .tc S4096x64 32 [1] Facts₀.iota_S4096x64_d1_w32) Gen.k1_pay8 Gen.k1_pay9 Gen.k1_pay10 0#32 := by
  unfold Gen.out1_6
  rw [View.canon_unit_zero hz2]
  simp only [View.ld_unit_zero (S := S256x64) hz2, View.ld_unit_zero (S := S256x2080) hz2, View.ld_unit_zero (S := S64x64) hz2, View.ld_unit_zero (S := S64x2080) hz2, View.ld_unit_zero (S := S4096x2080) hz2, View.ld_unit_zero (S := S1x64) hz2]

/-- The linear term: activations by the linear weight rows. -/
theorem lin1 (x0 : Vec Ideal S256x64 .f32) (x2 : Vec Ideal S64x64 .f32) (p : Fin 256) (o : Fin 64) :
    Gen.k1_pay5 (F := Ideal) x0 x2 (ix2 p o) = ∑ i : Fin 64, x0 (ix2 p i) * x2 (ix2 o i) := by
  unfold Gen.k1_pay5 Gen.k1_pay2
  simp only [shapeCast_self]
  exact matmul_rows_rows_apply _ _ x0 x2 p o

/-- The quadratic term: pairwise products by the quadratic weight rows. -/
theorem quad1 (x1 : Vec Ideal S256x2080 .f32) (x3 : Vec Ideal S64x2080 .f32) (p : Fin 256) (o : Fin 64) :
    Gen.k1_pay6 (F := Ideal) x1 x3 (ix2 p o) = ∑ j : Fin 2080, x1 (ix2 p j) * x3 (ix2 o j) := by
  unfold Gen.k1_pay6 Gen.k1_pay3
  simp only [shapeCast_self]
  exact matmul_rows_rows_apply _ _ x1 x3 p o

/-- The pairwise products by every row of the cubic weight matrix, times the activations repeated 64 times along
    the columns: entry (p, q) is (Σ_j s_j · wc(q, j)) · x_{q mod 64}. The change of float format before the product is
    the identity on extended reals. -/
theorem rep1 (x0 : Vec Ideal S256x64 .f32) (x1 : Vec Ideal S256x2080 .f32) (x4 : Vec Ideal S4096x2080 .bf16) (p : Fin 256) (q : Fin 4096) :
    Gen.k1_pay7 (F := Ideal) x0 x1 x4 (ix2 p q)
      = (∑ j : Fin 2080, x1 (ix2 p j) * x4 (ix2 q j)) * x0 (ix2 p ⟨q.val % 64, Nat.mod_lt _ (by norm_num)⟩) := by
  unfold Gen.k1_pay7 Gen.k1_pay3 Gen.k1_pay2
  simp only [shapeCast_self]
  rw [mulf_apply]
  refine congrArg₂ (· * ·) ?_ ?_
  · exact matmul_rows_rows_apply _ _ (truncf .bf16 x1 Facts₀.bitsLt_bf16_f32) x4 p q
  · refine (concatenate_replicate_apply (t := S256x4096) (s₁ := S256x64) 1 64 (shapeCast S256x64 x0 _) _ rfl (ix2 p q)
      (ix2 p ⟨q.val % 64, Nat.mod_lt _ (by norm_num)⟩) rfl
      (fun b hb => by
        match b, hb with
        | ⟨0, _⟩, _ => rfl
        | ⟨1, _⟩, hb => exact absurd rfl hb)).trans ?_
    rw [shapeCast_self]

/-- The block after the body, read at (p, o): linear + quadratic + cubic (through the 0/1 selection) + bias. -/
theorem out1_6_apply (x0 : Vec Ideal S256x64 .f32) (x1 : Vec Ideal S256x2080 .f32) (x2 : Vec Ideal S64x64 .f32) (x3 : Vec Ideal S64x2080 .f32) (x4 : Vec Ideal S4096x2080 .bf16) (x5 : Vec Ideal S1x64 .f32) (p : Fin 256) (o : Fin 64) :
    Gen.out1_6 (F := Ideal) x0 x1 x2 x3 x4 x5 (ValueIdx.ix2 p o)
      = Cert.Cubic.kerRow (M2 := 4096) (fun i => x0 (ValueIdx.ix2 p i)) (fun j => x1 (ValueIdx.ix2 p j))
          (fun i => x2 (ValueIdx.ix2 o i)) (fun j => x3 (ValueIdx.ix2 o j)) (fun q j => x4 (ValueIdx.ix2 q j)) o.val
          (x5 (ValueIdx.ix2 (0 : Fin 1) o)) := by
  rw [out1_6_unfold]
  unfold Gen.k1_pay1
  rw [addf_apply, addf_apply, addf_apply]
  unfold Cert.Cubic.kerRow
  refine congrArg₂ (· + ·) (congrArg₂ (· + ·) (congrArg₂ (· + ·) (lin1 x0 x2 p o) (quad1 x1 x3 p o)) ?cub) ?bias
  · refine (matmul_plain_zero_apply _ _ _ _ p o).trans ?_
    refine Finset.sum_congr rfl fun q _ => ?_
    exact congrArg₂ (· * ·) (rep1 x0 x1 x4 p q) (mask_apply (by norm_num) (by norm_num) _ _ _ q o)
  · unfold Gen.k1_pay4
    rw [shapeCast_self]
    exact broadcastTo_1b_ab_apply x5 _ p o

/-! ## Region 2: 10 output units, a cubic weight matrix of 640 rows -/

/-- The one store covers the block and every load is whole: the block after the body is the stored value. -/
theorem out2_6_unfold (x0 : Vec Ideal S256x64 .f32) (x1 : Vec Ideal S256x2080 .f32) (x2 : Vec Ideal S10x64 .f32) (x3 : Vec Ideal S10x2080 .f32) (x4 : Vec Ideal S640x2080 .bf16) (x5 : Vec Ideal S1x10 .f32) :
    Gen.out2_6 (F := Ideal) x0 x1 x2 x3 x4 x5
      = Gen.k2_pay1 (Gen.k2_pay4 x5) (Gen.k2_pay5 x0 x2) (Gen.k2_pay6 x1 x3) (Gen.k2_pay7 x0 x1 x4)
          (iota .tc S640x10 32 [1] Facts₀.iota_S640x10_d1_w32) Gen.k2_pay8 Gen.k2_pay9 Gen.k2_pay10 0#32 := by
  unfold Gen.out2_6
  rw [View.canon_unit_zero hz2]
  simp only [View.ld_unit_zero (S := S256x64) hz2, View.ld_unit_zero (S := S256x2080) hz2, View.ld_unit_zero (S := S10x64) hz2, View.ld_unit_zero (S := S10x2080) hz2, View.ld_unit_zero (S := S640x2080) hz2, View.ld_unit_zero (S := S1x10) hz2, View.ld_unit_zero (S := S256x10) hz2]

/-- The linear term: activations by the linear weight rows. -/
theorem lin2 (x0 : Vec Ideal S256x64 .f32) (x2 : Vec Ideal S10x64 .f32) (p : Fin 256) (o : Fin 10) :
    Gen.k2_pay5 (F := Ideal) x0 x2 (ix2 p o) = ∑ i : Fin 64, x0 (ix2 p i) * x2 (ix2 o i) := by
  unfold Gen.k2_pay5 Gen.k2_pay2
  simp only [shapeCast_self]
  exact matmul_rows_rows_apply _ _ x0 x2 p o

/-- The quadratic term: pairwise products by the quadratic weight rows. -/
theorem quad2 (x1 : Vec Ideal S256x2080 .f32) (x3 : Vec Ideal S10x2080 .f32) (p : Fin 256) (o : Fin 10) :
    Gen.k2_pay6 (F := Ideal) x1 x3 (ix2 p o) = ∑ j : Fin 2080, x1 (ix2 p j) * x3 (ix2 o j) := by
  unfold Gen.k2_pay6 Gen.k2_pay3
  simp only [shapeCast_self]
  exact matmul_rows_rows_apply _ _ x1 x3 p o

/-- The pairwise products by every row of the cubic weight matrix, times the activations repeated 10 times along
    the columns: entry (p, q) is (Σ_j s_j · wc(q, j)) · x_{q mod 64}. The change of float format before the product is
    the identity on extended reals. -/
theorem rep2 (x0 : Vec Ideal S256x64 .f32) (x1 : Vec Ideal S256x2080 .f32) (x4 : Vec Ideal S640x2080 .bf16) (p : Fin 256) (q : Fin 640) :
    Gen.k2_pay7 (F := Ideal) x0 x1 x4 (ix2 p q)
      = (∑ j : Fin 2080, x1 (ix2 p j) * x4 (ix2 q j)) * x0 (ix2 p ⟨q.val % 64, Nat.mod_lt _ (by norm_num)⟩) := by
  unfold Gen.k2_pay7 Gen.k2_pay3 Gen.k2_pay2
  simp only [shapeCast_self]
  rw [mulf_apply]
  refine congrArg₂ (· * ·) ?_ ?_
  · exact matmul_rows_rows_apply _ _ (truncf .bf16 x1 Facts₀.bitsLt_bf16_f32) x4 p q
  · refine (concatenate_replicate_apply (t := S256x640) (s₁ := S256x64) 1 10 (shapeCast S256x64 x0 _) _ rfl (ix2 p q)
      (ix2 p ⟨q.val % 64, Nat.mod_lt _ (by norm_num)⟩) rfl
      (fun b hb => by
        match b, hb with
        | ⟨0, _⟩, _ => rfl
        | ⟨1, _⟩, hb => exact absurd rfl hb)).trans ?_
    rw [shapeCast_self]

/-- The block after the body, read at (p, o): linear + quadratic + cubic (through the 0/1 selection) + bias. -/
theorem out2_6_apply (x0 : Vec Ideal S256x64 .f32) (x1 : Vec Ideal S256x2080 .f32) (x2 : Vec Ideal S10x64 .f32) (x3 : Vec Ideal S10x2080 .f32) (x4 : Vec Ideal S640x2080 .bf16) (x5 : Vec Ideal S1x10 .f32) (p : Fin 256) (o : Fin 10) :
    Gen.out2_6 (F := Ideal) x0 x1 x2 x3 x4 x5 (ValueIdx.ix2 p o)
      = Cert.Cubic.kerRow (M2 := 640) (fun i => x0 (ValueIdx.ix2 p i)) (fun j => x1 (ValueIdx.ix2 p j))
          (fun i => x2 (ValueIdx.ix2 o i)) (fun j => x3 (ValueIdx.ix2 o j)) (fun q j => x4 (ValueIdx.ix2 q j)) o.val
          (x5 (ValueIdx.ix2 (0 : Fin 1) o)) := by
  rw [out2_6_unfold]
  unfold Gen.k2_pay1
  rw [addf_apply, addf_apply, addf_apply]
  unfold Cert.Cubic.kerRow
  refine congrArg₂ (· + ·) (congrArg₂ (· + ·) (congrArg₂ (· + ·) (lin2 x0 x2 p o) (quad2 x1 x3 p o)) ?cub) ?bias
  · refine (matmul_plain_zero_apply _ _ _ _ p o).trans ?_
    refine Finset.sum_congr rfl fun q _ => ?_
    exact congrArg₂ (· * ·) (rep2 x0 x1 x4 p q) (mask_apply (by norm_num) (by norm_num) _ _ _ q o)
  · unfold Gen.k2_pay4
    rw [shapeCast_self]
    exact broadcastTo_1b_ab_apply x5 _ p o

end Cert.KernelIdeal.Payload

end
-- ==== Proof.KernelResult.lean ====
/-
  The idealized kernel program's result as three layers: each region's output array is its output function of the
  arrays it is entered with — the previous region's output (the activations as launched for the first), their
  pairwise products by the two vectors of column numbers the host lines leave, and the weight pieces and bias row cut
  from the arguments as launched.
-/
import proofs.«120368_j16587163697192_2_alg».proof.Proof.KernelBlocks0
import proofs.«120368_j16587163697192_2_alg».proof.Proof.KernelBlocks1
import proofs.«120368_j16587163697192_2_alg».proof.Proof.KernelBlocks2
import proofs.«120368_j16587163697192_2_alg».proof.Proof.KernelChain0
import proofs.«120368_j16587163697192_2_alg».proof.Proof.KernelChain1
import proofs.«120368_j16587163697192_2_alg».proof.Proof.KernelChain2
import proofs.«120368_j16587163697192_2_alg».proof.Proof.KernelPayload

set_option maxRecDepth 65536

noncomputable section

namespace Cert.KernelIdeal.Result

open Cert.KernelIdeal Cert.KernelIdeal.Gen Cert.KernelIdeal.Host Cert.KernelIdeal.Chain
open Idealize.ShloMosaic Idealize.ShloMosaic.TcCoe Idealize.SL.Sem

variable (m : (ℓ : Loc nD τ sig) → Buf (Elt Ideal) ℓ) (ρ : Dev nD → PrngReg) (c : Dev nD)

/-- The first region's output. -/
def h1 : FVec Ideal S1024x64 .f32 :=
  Cert.KernelIdeal.Blocks0.G (m ((c : Thread nD τ).loc main_arg0)) (pairs (m ((c : Thread nD τ).loc main_arg0)) (W16 m ρ c (Proc.devRef .tc main_v17)) (W16 m ρ c (Proc.devRef .tc main_v19)))
    (wlin64 (m ((c : Thread nD τ).loc main_arg1))) (wquad64 (m ((c : Thread nD τ).loc main_arg1))) (wcub64 (m ((c : Thread nD τ).loc main_arg1))) (brow64 (m ((c : Thread nD τ).loc main_arg2)))
/-- The second region's output. -/
def h2 : FVec Ideal S1024x64 .f32 :=
  Cert.KernelIdeal.Blocks1.G (h1 m ρ c) (pairs (h1 m ρ c) (W34 m ρ c (Proc.devRef .tc main_v60)) (W34 m ρ c (Proc.devRef .tc main_v62)))
    (wlin64 (m ((c : Thread nD τ).loc main_arg3))) (wquad64 (m ((c : Thread nD τ).loc main_arg3))) (wcub64 (m ((c : Thread nD τ).loc main_arg3))) (brow64 (m ((c : Thread nD τ).loc main_arg4)))
/-- The third region's output. -/
def h3 : FVec Ideal S1024x10 .f32 :=
  Cert.KernelIdeal.Blocks2.G (h2 m ρ c) (pairs (h2 m ρ c) (W52 m ρ c (Proc.devRef .tc main_v103)) (W52 m ρ c (Proc.devRef .tc main_v105)))
    (wlin10 (m ((c : Thread nD τ).loc main_arg5))) (wquad10 (m ((c : Thread nD τ).loc main_arg5))) (wcub10 (m ((c : Thread nD τ).loc main_arg5))) (brow10 (m ((c : Thread nD τ).loc main_arg6)))

theorem W18_out : W18 m ρ c (Proc.devRef .tc main_v42) = h1 m ρ c := by
  refine (W18_arr m ρ c 6).trans ((Cert.KernelIdeal.Blocks0.final (V17 m ρ) Cert.KernelIdeal.Payload.out0_6_apply c).trans ?_)
  rw [V17_x, V17_pairs, V17_wlin, V17_wquad, V17_wcub, V17_brow]; rfl

theorem W36_out : W36 m ρ c (Proc.devRef .tc main_v85) = h2 m ρ c := by
  refine (W36_arr m ρ c 6).trans ((Cert.KernelIdeal.Blocks1.final (V35 m ρ) Cert.KernelIdeal.Payload.out1_6_apply c).trans ?_)
  rw [V35_x, V35_pairs, V35_wlin, V35_wquad, V35_wcub, V35_brow, W18_out]; rfl

theorem W54_out : W54 m ρ c (Proc.devRef .tc main_v128) = h3 m ρ c := by
  refine (W54_arr m ρ c 6).trans ((Cert.KernelIdeal.Blocks2.final (V53 m ρ) Cert.KernelIdeal.Payload.out2_6_apply c).trans ?_)
  rw [V53_x, V53_pairs, V53_wlin, V53_wquad, V53_wcub, V53_brow, W36_out]; rfl

end Cert.KernelIdeal.Result

end
-- ==== Proof.RefOps.lean ====
/- The reference program's host operations in order, every called function's lines listed at its call over that
   call's buffers: once window by window as @main states them (opsP0 … opsP3), once cut per layer into the stretch
   that computes the two columns of index pairs (opsI) and the stretch that computes the layer from them (opsF). -/
import proofs.«120368_j16587163697192_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- @main's window 0: 146 operations. -/
abbrev opsP0 : List (HloOp τ sig (Elt F)) :=
  [ StableHlo.nullary main_cst (constant S_ .f32 0x3F800000#32),
    StableHlo.unary main_cst main_v0 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 4294967295#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 main_call0.v5 ((.of main_v0) : StableHlo.TRef sig ⟨S64x64, .f32⟩) main_call0.v6 select,
    StableHlo.nullary main_cst_0 (constant S_ .f32 0x00000000#32),
    StableHlo.unary main_cst_0 main_v2 (broadcastInDim S64x64 ![] bcast_S_S64x64 : (⟨S_, .f32⟩ : BufTy).Contents (Elt F) → (⟨S64x64, .f32⟩ : BufTy).Contents (Elt F)),
    StableHlo.binary main_v1 main_v2 main_v3 (cmpf .une : (⟨S64x64, .f32⟩ : BufTy).Contents (Elt F) → (⟨S64x64, .f32⟩ : BufTy).Contents (Elt F) → (⟨S64x64, .i1⟩ : BufTy).Contents (Elt F)),
    StableHlo.TRef.reshape ((.of main_v3) : StableHlo.TRef sig ⟨S64x64, .i1⟩) main_call1.v0 rfl shapeCasts_S64x64_S4096,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (main_call1.v1 : StableHlo.TRef sig ⟨S4096, .i32⟩) main_call1.call0.v0 main_call1.call0.v1 (fun x v => Host.reduceWindow IntOp.addi ![4096] ![1] ![4095] ![0] x v reduceWindows_S4096_S4096_w4096s1p4095_0 h_S_),
    StableHlo.nullary main_c (constantI S_ 32 0#32),
    StableHlo.unary main_c main_v5 (broadcastInDim S2080 ![] bcast_S_S2080 : (⟨S_, .i32⟩ : BufTy).Contents (Elt F) → (⟨S2080, .i32⟩ : BufTy).Contents (Elt F)),
    StableHlo.nullary main_c_1 (constantI S_ 32 0#32),
    StableHlo.TRef.unary ((.of main_c_1) : StableHlo.TRef sig ⟨S_, .i32⟩) main_call2.v0 id,
    StableHlo.TRef.unary main_call2.v0 main_call2.v1 (broadcastInDim S4096 ![] bcast_S_S4096),
    StableHlo.TRef.binary main_call2.v1 ((.of main_v4) : StableHlo.TRef sig ⟨S4096, .i32⟩) main_call2.v2 maxsi,
    StableHlo.nullary main_c_2 (constantI S_ 32 0#32),
    StableHlo.unary main_c_2 main_v7 (broadcastInDim S4096 ![] bcast_S_S4096 : (⟨S_, .i32⟩ : BufTy).Contents (Elt F) → (⟨S4096, .i32⟩ : BufTy).Contents (Elt F)),
    StableHlo.binary main_v6 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2080#32),
    StableHlo.unary main_c_3 main_v9 (broadcastInDim S4096 ![] bcast_S_S4096 : (⟨S_, .i32⟩ : BufTy).Contents (Elt F) → (⟨S4096, .i32⟩ : BufTy).Contents (Elt F)),
    StableHlo.binary main_v6 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_v6 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v13 (broadcastInDim S4096 ![] bcast_S_S4096 : (⟨S_, .i32⟩ : BufTy).Contents (Elt F) → (⟨S4096, .i32⟩ : BufTy).Contents (Elt F)),
    StableHlo.ternary main_v5 main_v12 main_v13 main_v14 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (((.of main_v14) : StableHlo.TRef sig ⟨S2080, .i32⟩) : StableHlo.TRef sig ⟨S2080, .i32⟩) main_call3.call0.v0 main_call3.call0.v1 (fun x v => Host.reduceWindow IntOp.addi ![2080] ![1] ![2079] ![0] x v reduceWindows_S2080_S2080_w2080s1p2079_0 h_S_),
    StableHlo.nullary main_c_5 (constantI S_ 32 64#32),
    StableHlo.TRef.unary ((.of main_c_5) : StableHlo.TRef sig ⟨S_, .i32⟩) main_call4.v0 (broadcastInDim S2080 ![] bcast_S_S2080),
    StableHlo.TRef.binary ((.of main_v15) : StableHlo.TRef sig ⟨S2080, .i32⟩) main_call4.v0 main_call4.v1 Host.divsi,
    StableHlo.TRef.unary ((.of main_v15) : StableHlo.TRef sig ⟨S2080, .i32⟩) main_call4.v2 signi,
    StableHlo.TRef.unary ((.of main_c_5) : StableHlo.TRef sig ⟨S_, .i32⟩) main_call4.v3 signi,
    StableHlo.TRef.unary main_call4.v3 main_call4.v4 (broadcastInDim S2080 ![] bcast_S_S2080),
    StableHlo.TRef.binary main_call4.v2 main_call4.v4 main_call4.v5 (cmpi .ne),
    StableHlo.TRef.unary ((.of main_c_5) : StableHlo.TRef sig ⟨S_, .i32⟩) main_call4.v6 (broadcastInDim S2080 ![] bcast_S_S2080),
    StableHlo.TRef.binary ((.of main_v15) : StableHlo.TRef sig ⟨S2080, .i32⟩) main_call4.v6 main_call4.v7 Host.remsi,
    StableHlo.TRef.nullary main_call4.c (constantI S_ 32 0#32),
    StableHlo.TRef.unary main_call4.c main_call4.v8 (broadcastInDim S2080 ![] bcast_S_S2080),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2080 ![] bcast_S_S2080),
    StableHlo.TRef.binary main_call4.v1 main_call4.v11 main_call4.v12 subi,
    StableHlo.TRef.ternary (main_call4.v10 : StableHlo.TRef sig ⟨S2080, .i1⟩) (main_call4.v12 : StableHlo.TRef sig ⟨S2080, .i32⟩) (main_call4.v1 : StableHlo.TRef sig ⟨S2080, .i32⟩) main_call4.call0.v0 select,
    StableHlo.nullary main_c_6 (constantI S_ 32 64#32),
    StableHlo.TRef.unary ((.of main_c_6) : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary (main_call5.v1 : StableHlo.TRef sig ⟨S_, .i1⟩) (main_call5.c_0 : StableHlo.TRef sig ⟨S_, .i32⟩) (main_call5.v0 : StableHlo.TRef sig ⟨S_, .i32⟩) main_call5.call0.v0 select,
    StableHlo.TRef.unary main_call5.call0.v0 main_call5.v3 (broadcastInDim S2080 ![] bcast_S_S2080),
    StableHlo.TRef.binary ((.of main_v16) : StableHlo.TRef sig ⟨S2080, .i32⟩) main_call5.v3 main_call5.v4 Host.remsi,
    StableHlo.TRef.nullary main_call5.c_1 (constantI S_ 32 0#32),
    StableHlo.TRef.unary main_call5.c_1 main_call5.v5 (broadcastInDim S2080 ![] bcast_S_S2080),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2080 ![] bcast_S_S2080),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2080 ![] bcast_S_S2080),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2080 ![] bcast_S_S2080),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary ((.of main_c_7) : StableHlo.TRef sig ⟨S_, .i32⟩) main_call6.v0 (broadcastInDim S2080 ![] bcast_S_S2080),
    StableHlo.TRef.binary ((.of main_v15) : StableHlo.TRef sig ⟨S2080, .i32⟩) main_call6.v0 main_call6.v1 Host.divsi,
    StableHlo.TRef.unary ((.of main_v15) : StableHlo.TRef sig ⟨S2080, .i32⟩) main_call6.v2 signi,
    StableHlo.TRef.unary ((.of main_c_7) : StableHlo.TRef sig ⟨S_, .i32⟩) main_call6.v3 signi,
    StableHlo.TRef.unary main_call6.v3 main_call6.v4 (broadcastInDim S2080 ![] bcast_S_S2080),
    StableHlo.TRef.binary main_call6.v2 main_call6.v4 main_call6.v5 (cmpi .ne),
    StableHlo.TRef.unary ((.of main_c_7) : StableHlo.TRef sig ⟨S_, .i32⟩) main_call6.v6 (broadcastInDim S2080 ![] bcast_S_S2080),
    StableHlo.TRef.binary ((.of main_v15) : StableHlo.TRef sig ⟨S2080, .i32⟩) main_call6.v6 main_call6.v7 Host.remsi,
    StableHlo.TRef.nullary main_call6.c (constantI S_ 32 0#32),
    StableHlo.TRef.unary main_call6.c main_call6.v8 (broadcastInDim S2080 ![] bcast_S_S2080),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2080 ![] bcast_S_S2080),
    StableHlo.TRef.binary main_call6.v1 main_call6.v11 main_call6.v12 subi,
    StableHlo.TRef.ternary (main_call6.v10 : StableHlo.TRef sig ⟨S2080, .i1⟩) (main_call6.v12 : StableHlo.TRef sig ⟨S2080, .i32⟩) (main_call6.v1 : StableHlo.TRef sig ⟨S2080, .i32⟩) main_call6.call0.v0 select,
    StableHlo.nullary main_c_8 (constantI S_ 32 64#32),
    StableHlo.TRef.unary ((.of main_c_8) : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary (main_call7.v1 : StableHlo.TRef sig ⟨S_, .i1⟩) (main_call7.c_0 : StableHlo.TRef sig ⟨S_, .i32⟩) (main_call7.v0 : StableHlo.TRef sig ⟨S_, .i32⟩) main_call7.call0.v0 select,
    StableHlo.TRef.unary main_call7.call0.v0 main_call7.v3 (broadcastInDim S2080 ![] bcast_S_S2080),
    StableHlo.TRef.binary ((.of main_v18) : StableHlo.TRef sig ⟨S2080, .i32⟩) main_call7.v3 main_call7.v4 Host.remsi,
    StableHlo.TRef.nullary main_call7.c_1 (constantI S_ 32 0#32),
    StableHlo.TRef.unary main_call7.c_1 main_call7.v5 (broadcastInDim S2080 ![] bcast_S_S2080),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2080 ![] bcast_S_S2080),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2080 ![] bcast_S_S2080),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2080 ![] bcast_S_S2080),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v20 (broadcastInDim S2080 ![] bcast_S_S2080 : (⟨S_, .i32⟩ : BufTy).Contents (Elt F) → (⟨S2080, .i32⟩ : BufTy).Contents (Elt F)),
    StableHlo.binary main_v17 main_v20 main_v21 (cmpi .slt : (⟨S2080, .i32⟩ : BufTy).Contents (Elt F) → (⟨S2080, .i32⟩ : BufTy).Contents (Elt F) → (⟨S2080, .i1⟩ : BufTy).Contents (Elt F)),
    StableHlo.nullary main_c_10 (constantI S_ 32 64#32),
    StableHlo.unary main_c_10 main_v22 (broadcastInDim S2080 ![] bcast_S_S2080 : (⟨S_, .i32⟩ : BufTy).Contents (Elt F) → (⟨S2080, .i32⟩ : BufTy).Contents (Elt F)),
    StableHlo.binary main_v17 main_v22 main_v23 (addi : (⟨S2080, .i32⟩ : BufTy).Contents (Elt F) → (⟨S2080, .i32⟩ : BufTy).Contents (Elt F) → (⟨S2080, .i32⟩ : BufTy).Contents (Elt F)),
    StableHlo.ternary main_v21 main_v23 main_v17 main_v24 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v24 main_v25 (broadcastInDim S2080x1 ![0] bcast_S2080_S2080x1_0 : (⟨S2080, .i32⟩ : BufTy).Contents (Elt F) → (⟨S2080x1, .i32⟩ : BufTy).Contents (Elt F)),
    StableHlo.binary main_arg0 main_v25 main_v26 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.nullary main_c_11 (constantI S_ 32 0#32),
    StableHlo.unary main_c_11 main_v27 (broadcastInDim S2080 ![] bcast_S_S2080 : (⟨S_, .i32⟩ : BufTy).Contents (Elt F) → (⟨S2080, .i32⟩ : BufTy).Contents (Elt F)),
    StableHlo.binary main_v19 main_v27 main_v28 (cmpi .slt : (⟨S2080, .i32⟩ : BufTy).Contents (Elt F) → (⟨S2080, .i32⟩ : BufTy).Contents (Elt F) → (⟨S2080, .i1⟩ : BufTy).Contents (Elt F)),
    StableHlo.nullary main_c_12 (constantI S_ 32 64#32),
    StableHlo.unary main_c_12 main_v29 (broadcastInDim S2080 ![] bcast_S_S2080 : (⟨S_, .i32⟩ : BufTy).Contents (Elt F) → (⟨S2080, .i32⟩ : BufTy).Contents (Elt F)),
    StableHlo.binary main_v19 main_v29 main_v30 (addi : (⟨S2080, .i32⟩ : BufTy).Contents (Elt F) → (⟨S2080, .i32⟩ : BufTy).Contents (Elt F) → (⟨S2080, .i32⟩ : BufTy).Contents (Elt F)),
    StableHlo.ternary main_v28 main_v30 main_v19 main_v31 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v31 main_v32 (broadcastInDim S2080x1 ![0] bcast_S2080_S2080x1_0 : (⟨S2080, .i32⟩ : BufTy).Contents (Elt F) → (⟨S2080x1, .i32⟩ : BufTy).Contents (Elt F)),
    StableHlo.binary main_arg0 main_v32 main_v33 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.binary main_v26 main_v33 main_v34 (mulf : (⟨S1024x2080, .f32⟩ : BufTy).Contents (Elt F) → (⟨S1024x2080, .f32⟩ : BufTy).Contents (Elt F) → (⟨S1024x2080, .f32⟩ : BufTy).Contents (Elt F)),
    StableHlo.unary main_arg0 main_v35 (broadcastInDim S1024x64x1 ![0, 1] bcast_S1024x64_S1024x64x1_0_1 : (⟨S1024x64, .f32⟩ : BufTy).Contents (Elt F) → (⟨S1024x64x1, .f32⟩ : BufTy).Contents (Elt F)),
    StableHlo.unary main_v34 main_v36 (broadcastInDim S1024x1x2080 ![0, 2] bcast_S1024x2080_S1024x1x2080_0_2 : (⟨S1024x2080, .f32⟩ : BufTy).Contents (Elt F) → (⟨S1024x1x2080, .f32⟩ : BufTy).Contents (Elt F)),
    StableHlo.unary main_v35 main_v37 (broadcastInDim S1024x64x2080 ![0, 1, 2] bcast_S1024x64x1_S1024x64x2080_0_1_2 : (⟨S1024x64x1, .f32⟩ : BufTy).Contents (Elt F) → (⟨S1024x64x2080, .f32⟩ : BufTy).Contents (Elt F)),
    StableHlo.unary main_v36 main_v38 (broadcastInDim S1024x64x2080 ![0, 1, 2] bcast_S1024x1x2080_S1024x64x2080_0_1_2 : (⟨S1024x1x2080, .f32⟩ : BufTy).Contents (Elt F) → (⟨S1024x64x2080, .f32⟩ : BufTy).Contents (Elt F)),
    StableHlo.binary main_v37 main_v38 main_v39 (mulf : (⟨S1024x64x2080, .f32⟩ : BufTy).Contents (Elt F) → (⟨S1024x64x2080, .f32⟩ : BufTy).Contents (Elt F) → (⟨S1024x64x2080, .f32⟩ : BufTy).Contents (Elt F)),
    StableHlo.reshape main_v39 main_v40 rfl shapeCasts_S1024x64x2080_S1024x133120,
    StableHlo.nary ![main_arg0, main_v34, main_v40] main_v41 (fun u => concatenate S1024x135264 1 [⟨S1024x64, u 0⟩, ⟨S1024x2080, u 1⟩, ⟨S1024x133120, u 2⟩] concatenates_S1024x64_S1024x2080_S1024x133120_S1024x135264_d1),
    StableHlo.unary main_arg1 main_v42 ((transpose S135264x64 [1, 0] · transposes_S64x135264_S135264x64_1_0) : (⟨S64x135264, .f32⟩ : BufTy).Contents (Elt F) → (⟨S135264x64, .f32⟩ : BufTy).Contents (Elt F)),
    StableHlo.binary main_v41 main_v42 main_v43 ((fun l r => Host.dotGeneral dot_S1024x135264_S135264x64_S1024x64_1_0_0_1_n_n none l r) : (⟨S1024x135264, .f32⟩ : BufTy).Contents (Elt F) → (⟨S135264x64, .f32⟩ : BufTy).Contents (Elt F) → (⟨S1024x64, .f32⟩ : BufTy).Contents (Elt F)),
    StableHlo.unary main_arg2 main_v44 (broadcastInDim S1x64 ![1] bcast_S64_S1x64_1 : (⟨S64, .f32⟩ : BufTy).Contents (Elt F) → (⟨S1x64, .f32⟩ : BufTy).Contents (Elt F)) ]
theorem opsP0_sub : (opsP0 : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.nary_bufs_sub .., StableHlo.unary_bufs_sub .., StableHlo.binary_bufs_sub .., StableHlo.unary_bufs_sub ..⟩

/-- @main's window 1: 146 operations. -/
abbrev opsP1 : List (HloOp τ sig (Elt F)) :=
  [ StableHlo.unary main_v44 main_v45 (broadcastInDim S1024x64 ![0, 1] bcast_S1x64_S1024x64_0_1 : (⟨S1x64, .f32⟩ : BufTy).Contents (Elt F) → (⟨S1024x64, .f32⟩ : BufTy).Contents (Elt F)),
    StableHlo.binary main_v43 main_v45 main_v46 (addf : (⟨S1024x64, .f32⟩ : BufTy).Contents (Elt F) → (⟨S1024x64, .f32⟩ : BufTy).Contents (Elt F) → (⟨S1024x64, .f32⟩ : BufTy).Contents (Elt F)),
    StableHlo.nullary main_cst_13 (constant S_ .f32 0x3F800000#32),
    StableHlo.unary main_cst_13 main_v47 (broadcastInDim S64x64 ![] bcast_S_S64x64 : (⟨S_, .f32⟩ : BufTy).Contents (Elt F) → (⟨S64x64, .f32⟩ : BufTy).Contents (Elt F)),
    StableHlo.TRef.nullary main_call8.v0 (iotaInDim S64x64 32 0),
    StableHlo.TRef.nullary main_call8.c (constantI S_ 32 4294967295#32),
    StableHlo.TRef.unary main_call8.c main_call8.v1 (broadcastInDim S64x64 ![] bcast_S_S64x64),
    StableHlo.TRef.binary main_call8.v0 main_call8.v1 main_call8.v2 addi,
    StableHlo.TRef.nullary main_call8.v3 (iotaInDim S64x64 32 1),
    StableHlo.TRef.binary main_call8.v2 main_call8.v3 main_call8.v4 (cmpi .sge),
    StableHlo.TRef.nullary main_call8.cst (constant S_ .f32 0x00000000#32),
    StableHlo.TRef.unary main_call8.cst main_call8.v5 (broadcastInDim S64x64 ![] bcast_S_S64x64),
    StableHlo.TRef.ternary main_call8.v4 main_call8.v5 ((.of main_v47) : StableHlo.TRef sig ⟨S64x64, .f32⟩) main_call8.v6 select,
    StableHlo.nullary main_cst_14 (constant S_ .f32 0x00000000#32),
    StableHlo.unary main_cst_14 main_v49 (broadcastInDim S64x64 ![] bcast_S_S64x64 : (⟨S_, .f32⟩ : BufTy).Contents (Elt F) → (⟨S64x64, .f32⟩ : BufTy).Contents (Elt F)),
    StableHlo.binary main_v48 main_v49 main_v50 (cmpf .une : (⟨S64x64, .f32⟩ : BufTy).Contents (Elt F) → (⟨S64x64, .f32⟩ : BufTy).Contents (Elt F) → (⟨S64x64, .i1⟩ : BufTy).Contents (Elt F)),
    StableHlo.TRef.reshape ((.of main_v50) : StableHlo.TRef sig ⟨S64x64, .i1⟩) main_call9.v0 rfl shapeCasts_S64x64_S4096,
    StableHlo.TRef.unary main_call9.v0 main_call9.v1 (extui 32 · natLt_1_32),
    StableHlo.TRef.nullary main_call9.call0.c (constantI S_ 32 0#32),
    StableHlo.TRef.unary main_call9.call0.c main_call9.call0.v0 (broadcastInDim S_ ![] bcast_S_S_),
    StableHlo.TRef.binary (main_call9.v1 : StableHlo.TRef sig ⟨S4096, .i32⟩) main_call9.call0.v0 main_call9.call0.v1 (fun x v => Host.reduceWindow IntOp.addi ![4096] ![1] ![4095] ![0] x v reduceWindows_S4096_S4096_w4096s1p4095_0 h_S_),
    StableHlo.nullary main_c_15 (constantI S_ 32 0#32),
    StableHlo.unary main_c_15 main_v52 (broadcastInDim S2080 ![] bcast_S_S2080 : (⟨S_, .i32⟩ : BufTy).Contents (Elt F) → (⟨S2080, .i32⟩ : BufTy).Contents (Elt F)),
    StableHlo.nullary main_c_16 (constantI S_ 32 0#32),
    StableHlo.TRef.unary ((.of main_c_16) : StableHlo.TRef sig ⟨S_, .i32⟩) main_call10.v0 id,
    StableHlo.TRef.unary main_call10.v0 main_call10.v1 (broadcastInDim S4096 ![] bcast_S_S4096),
    StableHlo.TRef.binary main_call10.v1 ((.of main_v51) : StableHlo.TRef sig ⟨S4096, .i32⟩) main_call10.v2 maxsi,
    StableHlo.nullary main_c_17 (constantI S_ 32 0#32),
    StableHlo.unary main_c_17 main_v54 (broadcastInDim S4096 ![] bcast_S_S4096 : (⟨S_, .i32⟩ : BufTy).Contents (Elt F) → (⟨S4096, .i32⟩ : BufTy).Contents (Elt F)),
    StableHlo.binary main_v53 main_v54 main_v55 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 2080#32),
    StableHlo.unary main_c_18 main_v56 (broadcastInDim S4096 ![] bcast_S_S4096 : (⟨S_, .i32⟩ : BufTy).Contents (Elt F) → (⟨S4096, .i32⟩ : BufTy).Contents (Elt F)),
    StableHlo.binary main_v53 main_v56 main_v57 (addi : (⟨S4096, .i32⟩ : BufTy).Contents (Elt F) → (⟨S4096, .i32⟩ : BufTy).Contents (Elt F) → (⟨S4096, .i32⟩ : BufTy).Contents (Elt F)),
    StableHlo.ternary main_v55 main_v57 main_v53 main_v58 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v58 main_v59 (broadcastInDim S4096x1 ![0] bcast_S4096_S4096x1_0 : (⟨S4096, .i32⟩ : BufTy).Contents (Elt F) → (⟨S4096x1, .i32⟩ : BufTy).Contents (Elt F)),
    StableHlo.nullary main_c_19 (constantI S_ 32 1#32),
    StableHlo.unary main_c_19 main_v60 (broadcastInDim S4096 ![] bcast_S_S4096 : (⟨S_, .i32⟩ : BufTy).Contents (Elt F) → (⟨S4096, .i32⟩ : BufTy).Contents (Elt F)),
    StableHlo.ternary main_v52 main_v59 main_v60 main_v61 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    StableHlo.TRef.nullary main_call11.call0.c (constantI S_ 32 0#32),
    StableHlo.TRef.unary main_call11.call0.c main_call11.call0.v0 (broadcastInDim S_ ![] bcast_S_S_),
    StableHlo.TRef.binary (((.of main_v61) : StableHlo.TRef sig ⟨S2080, .i32⟩) : StableHlo.TRef sig ⟨S2080, .i32⟩) main_call11.call0.v0 main_call11.call0.v1 (fun x v => Host.reduceWindow IntOp.addi ![2080] ![1] ![2079] ![0] x v reduceWindows_S2080_S2080_w2080s1p2079_0 h_S_),
    StableHlo.nullary main_c_20 (constantI S_ 32 64#32),
    StableHlo.TRef.unary ((.of main_c_20) : StableHlo.TRef sig ⟨S_, .i32⟩) main_call12.v0 (broadcastInDim S2080 ![] bcast_S_S2080),
    StableHlo.TRef.binary ((.of main_v62) : StableHlo.TRef sig ⟨S2080, .i32⟩) main_call12.v0 main_call12.v1 Host.divsi,
    StableHlo.TRef.unary ((.of main_v62) : StableHlo.TRef sig ⟨S2080, .i32⟩) main_call12.v2 signi,
    StableHlo.TRef.unary ((.of main_c_20) : StableHlo.TRef sig ⟨S_, .i32⟩) main_call12.v3 signi,
    StableHlo.TRef.unary main_call12.v3 main_call12.v4 (broadcastInDim S2080 ![] bcast_S_S2080),
    StableHlo.TRef.binary main_call12.v2 main_call12.v4 main_call12.v5 (cmpi .ne),
    StableHlo.TRef.unary ((.of main_c_20) : StableHlo.TRef sig ⟨S_, .i32⟩) main_call12.v6 (broadcastInDim S2080 ![] bcast_S_S2080),
    StableHlo.TRef.binary ((.of main_v62) : StableHlo.TRef sig ⟨S2080, .i32⟩) main_call12.v6 main_call12.v7 Host.remsi,
    StableHlo.TRef.nullary main_call12.c (constantI S_ 32 0#32),
    StableHlo.TRef.unary main_call12.c main_call12.v8 (broadcastInDim S2080 ![] bcast_S_S2080),
    StableHlo.TRef.binary main_call12.v7 main_call12.v8 main_call12.v9 (cmpi .ne),
    StableHlo.TRef.binary main_call12.v5 main_call12.v9 main_call12.v10 andi,
    StableHlo.TRef.nullary main_call12.c_0 (constantI S_ 32 1#32),
    StableHlo.TRef.unary main_call12.c_0 main_call12.v11 (broadcastInDim S2080 ![] bcast_S_S2080),
    StableHlo.TRef.binary main_call12.v1 main_call12.v11 main_call12.v12 subi,
    StableHlo.TRef.ternary (main_call12.v10 : StableHlo.TRef sig ⟨S2080, .i1⟩) (main_call12.v12 : StableHlo.TRef sig ⟨S2080, .i32⟩) (main_call12.v1 : StableHlo.TRef sig ⟨S2080, .i32⟩) main_call12.call0.v0 select,
    StableHlo.nullary main_c_21 (constantI S_ 32 64#32),
    StableHlo.TRef.unary ((.of main_c_21) : StableHlo.TRef sig ⟨S_, .i32⟩) main_call13.v0 id,
    StableHlo.TRef.nullary main_call13.c (constantI S_ 32 0#32),
    StableHlo.TRef.binary main_call13.v0 main_call13.c main_call13.v1 (cmpi .eq),
    StableHlo.TRef.nullary main_call13.c_0 (constantI S_ 32 1#32),
    StableHlo.TRef.ternary (main_call13.v1 : StableHlo.TRef sig ⟨S_, .i1⟩) (main_call13.c_0 : StableHlo.TRef sig ⟨S_, .i32⟩) (main_call13.v0 : StableHlo.TRef sig ⟨S_, .i32⟩) main_call13.call0.v0 select,
    StableHlo.TRef.unary main_call13.call0.v0 main_call13.v3 (broadcastInDim S2080 ![] bcast_S_S2080),
    StableHlo.TRef.binary ((.of main_v63) : StableHlo.TRef sig ⟨S2080, .i32⟩) main_call13.v3 main_call13.v4 Host.remsi,
    StableHlo.TRef.nullary main_call13.c_1 (constantI S_ 32 0#32),
    StableHlo.TRef.unary main_call13.c_1 main_call13.v5 (broadcastInDim S2080 ![] bcast_S_S2080),
    StableHlo.TRef.binary main_call13.v4 main_call13.v5 main_call13.v6 (cmpi .ne),
    StableHlo.TRef.nullary main_call13.c_2 (constantI S_ 32 0#32),
    StableHlo.TRef.unary main_call13.c_2 main_call13.v7 (broadcastInDim S2080 ![] bcast_S_S2080),
    StableHlo.TRef.binary main_call13.v4 main_call13.v7 main_call13.v8 (cmpi .slt),
    StableHlo.TRef.nullary main_call13.c_3 (constantI S_ 32 0#32),
    StableHlo.TRef.binary main_call13.call0.v0 main_call13.c_3 main_call13.v9 (cmpi .slt),
    StableHlo.TRef.unary main_call13.v9 main_call13.v10 (broadcastInDim S2080 ![] bcast_S_S2080),
    StableHlo.TRef.binary main_call13.v8 main_call13.v10 main_call13.v11 (cmpi .ne),
    StableHlo.TRef.binary main_call13.v11 main_call13.v6 main_call13.v12 andi,
    StableHlo.TRef.unary main_call13.call0.v0 main_call13.v13 (broadcastInDim S2080 ![] bcast_S_S2080),
    StableHlo.TRef.binary main_call13.v4 main_call13.v13 main_call13.v14 addi,
    StableHlo.TRef.ternary main_call13.v12 main_call13.v14 main_call13.v4 main_call13.v15 select,
    StableHlo.nullary main_c_22 (constantI S_ 32 1#32),
    StableHlo.TRef.unary ((.of main_c_22) : StableHlo.TRef sig ⟨S_, .i32⟩) main_call14.v0 (broadcastInDim S2080 ![] bcast_S_S2080),
    StableHlo.TRef.binary ((.of main_v62) : StableHlo.TRef sig ⟨S2080, .i32⟩) main_call14.v0 main_call14.v1 Host.divsi,
    StableHlo.TRef.unary ((.of main_v62) : StableHlo.TRef sig ⟨S2080, .i32⟩) main_call14.v2 signi,
    StableHlo.TRef.unary ((.of main_c_22) : StableHlo.TRef sig ⟨S_, .i32⟩) main_call14.v3 signi,
    StableHlo.TRef.unary main_call14.v3 main_call14.v4 (broadcastInDim S2080 ![] bcast_S_S2080),
    StableHlo.TRef.binary main_call14.v2 main_call14.v4 main_call14.v5 (cmpi .ne),
    StableHlo.TRef.unary ((.of main_c_22) : StableHlo.TRef sig ⟨S_, .i32⟩) main_call14.v6 (broadcastInDim S2080 ![] bcast_S_S2080),
    StableHlo.TRef.binary ((.of main_v62) : StableHlo.TRef sig ⟨S2080, .i32⟩) main_call14.v6 main_call14.v7 Host.remsi,
    StableHlo.TRef.nullary main_call14.c (constantI S_ 32 0#32),
    StableHlo.TRef.unary main_call14.c main_call14.v8 (broadcastInDim S2080 ![] bcast_S_S2080),
    StableHlo.TRef.binary main_call14.v7 main_call14.v8 main_call14.v9 (cmpi .ne),
    StableHlo.TRef.binary main_call14.v5 main_call14.v9 main_call14.v10 andi,
    StableHlo.TRef.nullary main_call14.c_0 (constantI S_ 32 1#32),
    StableHlo.TRef.unary main_call14.c_0 main_call14.v11 (broadcastInDim S2080 ![] bcast_S_S2080),
    StableHlo.TRef.binary main_call14.v1 main_call14.v11 main_call14.v12 subi,
    StableHlo.TRef.ternary (main_call14.v10 : StableHlo.TRef sig ⟨S2080, .i1⟩) (main_call14.v12 : StableHlo.TRef sig ⟨S2080, .i32⟩) (main_call14.v1 : StableHlo.TRef sig ⟨S2080, .i32⟩) main_call14.call0.v0 select,
    StableHlo.nullary main_c_23 (constantI S_ 32 64#32),
    StableHlo.TRef.unary ((.of main_c_23) : StableHlo.TRef sig ⟨S_, .i32⟩) main_call15.v0 id,
    StableHlo.TRef.nullary main_call15.c (constantI S_ 32 0#32),
    StableHlo.TRef.binary main_call15.v0 main_call15.c main_call15.v1 (cmpi .eq),
    StableHlo.TRef.nullary main_call15.c_0 (constantI S_ 32 1#32),
    StableHlo.TRef.ternary (main_call15.v1 : StableHlo.TRef sig ⟨S_, .i1⟩) (main_call15.c_0 : StableHlo.TRef sig ⟨S_, .i32⟩) (main_call15.v0 : StableHlo.TRef sig ⟨S_, .i32⟩) main_call15.call0.v0 select,
    StableHlo.TRef.unary main_call15.call0.v0 main_call15.v3 (broadcastInDim S2080 ![] bcast_S_S2080),
    StableHlo.TRef.binary ((.of main_v65) : StableHlo.TRef sig ⟨S2080, .i32⟩) main_call15.v3 main_call15.v4 Host.remsi,
    StableHlo.TRef.nullary main_call15.c_1 (constantI S_ 32 0#32),
    StableHlo.TRef.unary main_call15.c_1 main_call15.v5 (broadcastInDim S2080 ![] bcast_S_S2080),
    StableHlo.TRef.binary main_call15.v4 main_call15.v5 main_call15.v6 (cmpi .ne),
    StableHlo.TRef.nullary main_call15.c_2 (constantI S_ 32 0#32),
    StableHlo.TRef.unary main_call15.c_2 main_call15.v7 (broadcastInDim S2080 ![] bcast_S_S2080),
    StableHlo.TRef.binary main_call15.v4 main_call15.v7 main_call15.v8 (cmpi .slt),
    StableHlo.TRef.nullary main_call15.c_3 (constantI S_ 32 0#32),
    StableHlo.TRef.binary main_call15.call0.v0 main_call15.c_3 main_call15.v9 (cmpi .slt),
    StableHlo.TRef.unary main_call15.v9 main_call15.v10 (broadcastInDim S2080 ![] bcast_S_S2080),
    StableHlo.TRef.binary main_call15.v8 main_call15.v10 main_call15.v11 (cmpi .ne),
    StableHlo.TRef.binary main_call15.v11 main_call15.v6 main_call15.v12 andi,
    StableHlo.TRef.unary main_call15.call0.v0 main_call15.v13 (broadcastInDim S2080 ![] bcast_S_S2080),
    StableHlo.TRef.binary main_call15.v4 main_call15.v13 main_call15.v14 addi,
    StableHlo.TRef.ternary main_call15.v12 main_call15.v14 main_call15.v4 main_call15.v15 select,
    StableHlo.nullary main_c_24 (constantI S_ 32 0#32),
    StableHlo.unary main_c_24 main_v67 (broadcastInDim S2080 ![] bcast_S_S2080 : (⟨S_, .i32⟩ : BufTy).Contents (Elt F) → (⟨S2080, .i32⟩ : BufTy).Contents (Elt F)),
    StableHlo.binary main_v64 main_v67 main_v68 (cmpi .slt : (⟨S2080, .i32⟩ : BufTy).Contents (Elt F) → (⟨S2080, .i32⟩ : BufTy).Contents (Elt F) → (⟨S2080, .i1⟩ : BufTy).Contents (Elt F)),
    StableHlo.nullary main_c_25 (constantI S_ 32 64#32),
    StableHlo.unary main_c_25 main_v69 (broadcastInDim S2080 ![] bcast_S_S2080 : (⟨S_, .i32⟩ : BufTy).Contents (Elt F) → (⟨S2080, .i32⟩ : BufTy).Contents (Elt F)),
    StableHlo.binary main_v64 main_v69 main_v70 (addi : (⟨S2080, .i32⟩ : BufTy).Contents (Elt F) → (⟨S2080, .i32⟩ : BufTy).Contents (Elt F) → (⟨S2080, .i32⟩ : BufTy).Contents (Elt F)),
    StableHlo.ternary main_v68 main_v70 main_v64 main_v71 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v71 main_v72 (broadcastInDim S2080x1 ![0] bcast_S2080_S2080x1_0 : (⟨S2080, .i32⟩ : BufTy).Contents (Elt F) → (⟨S2080x1, .i32⟩ : BufTy).Contents (Elt F)),
    StableHlo.binary main_v46 main_v72 main_v73 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.nullary main_c_26 (constantI S_ 32 0#32),
    StableHlo.unary main_c_26 main_v74 (broadcastInDim S2080 ![] bcast_S_S2080 : (⟨S_, .i32⟩ : BufTy).Contents (Elt F) → (⟨S2080, .i32⟩ : BufTy).Contents (Elt F)),
    StableHlo.binary main_v66 main_v74 main_v75 (cmpi .slt : (⟨S2080, .i32⟩ : BufTy).Contents (Elt F) → (⟨S2080, .i32⟩ : BufTy).Contents (Elt F) → (⟨S2080, .i1⟩ : BufTy).Contents (Elt F)),
    StableHlo.nullary main_c_27 (constantI S_ 32 64#32),
    StableHlo.unary main_c_27 main_v76 (broadcastInDim S2080 ![] bcast_S_S2080 : (⟨S_, .i32⟩ : BufTy).Contents (Elt F) → (⟨S2080, .i32⟩ : BufTy).Contents (Elt F)),
    StableHlo.binary main_v66 main_v76 main_v77 (addi : (⟨S2080, .i32⟩ : BufTy).Contents (Elt F) → (⟨S2080, .i32⟩ : BufTy).Contents (Elt F) → (⟨S2080, .i32⟩ : BufTy).Contents (Elt F)),
    StableHlo.ternary main_v75 main_v77 main_v66 main_v78 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v78 main_v79 (broadcastInDim S2080x1 ![0] bcast_S2080_S2080x1_0 : (⟨S2080, .i32⟩ : BufTy).Contents (Elt F) → (⟨S2080x1, .i32⟩ : BufTy).Contents (Elt F)),
    StableHlo.binary main_v46 main_v79 main_v80 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.binary main_v73 main_v80 main_v81 (mulf : (⟨S1024x2080, .f32⟩ : BufTy).Contents (Elt F) → (⟨S1024x2080, .f32⟩ : BufTy).Contents (Elt F) → (⟨S1024x2080, .f32⟩ : BufTy).Contents (Elt F)),
    StableHlo.unary main_v46 main_v82 (broadcastInDim S1024x64x1 ![0, 1] bcast_S1024x64_S1024x64x1_0_1 : (⟨S1024x64, .f32⟩ : BufTy).Contents (Elt F) → (⟨S1024x64x1, .f32⟩ : BufTy).Contents (Elt F)),
    StableHlo.unary main_v81 main_v83 (broadcastInDim S1024x1x2080 ![0, 2] bcast_S1024x2080_S1024x1x2080_0_2 : (⟨S1024x2080, .f32⟩ : BufTy).Contents (Elt F) → (⟨S1024x1x2080, .f32⟩ : BufTy).Contents (Elt F)),
    StableHlo.unary main_v82 main_v84 (broadcastInDim S1024x64x2080 ![0, 1, 2] bcast_S1024x64x1_S1024x64x2080_0_1_2 : (⟨S1024x64x1, .f32⟩ : BufTy).Contents (Elt F) → (⟨S1024x64x2080, .f32⟩ : BufTy).Contents (Elt F)),
    StableHlo.unary main_v83 main_v85 (broadcastInDim S1024x64x2080 ![0, 1, 2] bcast_S1024x1x2080_S1024x64x2080_0_1_2 : (⟨S1024x1x2080, .f32⟩ : BufTy).Contents (Elt F) → (⟨S1024x64x2080, .f32⟩ : BufTy).Contents (Elt F)),
    StableHlo.binary main_v84 main_v85 main_v86 (mulf : (⟨S1024x64x2080, .f32⟩ : BufTy).Contents (Elt F) → (⟨S1024x64x2080, .f32⟩ : BufTy).Contents (Elt F) → (⟨S1024x64x2080, .f32⟩ : BufTy).Contents (Elt F)),
    StableHlo.reshape main_v86 main_v87 rfl shapeCasts_S1024x64x2080_S1024x133120,
    StableHlo.nary ![main_v46, main_v81, main_v87] main_v88 (fun u => concatenate S1024x135264 1 [⟨S1024x64, u 0⟩, ⟨S1024x2080, u 1⟩, ⟨S1024x133120, u 2⟩] concatenates_S1024x64_S1024x2080_S1024x133120_S1024x135264_d1),
    StableHlo.unary main_arg3 main_v89 ((transpose S135264x64 [1, 0] · transposes_S64x135264_S135264x64_1_0) : (⟨S64x135264, .f32⟩ : BufTy).Contents (Elt F) → (⟨S135264x64, .f32⟩ : BufTy).Contents (Elt F)) ]
theorem opsP1_sub : (opsP1 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.nary_bufs_sub .., StableHlo.unary_bufs_sub ..⟩

/-- @main's window 2: 146 operations. -/
abbrev opsP2 : List (HloOp τ sig (Elt F)) :=
  [ StableHlo.binary main_v88 main_v89 main_v90 ((fun l r => Host.dotGeneral dot_S1024x135264_S135264x64_S1024x64_1_0_0_1_n_n none l r) : (⟨S1024x135264, .f32⟩ : BufTy).Contents (Elt F) → (⟨S135264x64, .f32⟩ : BufTy).Contents (Elt F) → (⟨S1024x64, .f32⟩ : BufTy).Contents (Elt F)),
    StableHlo.unary main_arg4 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S1024x64 ![0, 1] bcast_S1x64_S1024x64_0_1 : (⟨S1x64, .f32⟩ : BufTy).Contents (Elt F) → (⟨S1024x64, .f32⟩ : BufTy).Contents (Elt F)),
    StableHlo.binary main_v90 main_v92 main_v93 (addf : (⟨S1024x64, .f32⟩ : BufTy).Contents (Elt F) → (⟨S1024x64, .f32⟩ : BufTy).Contents (Elt F) → (⟨S1024x64, .f32⟩ : BufTy).Contents (Elt F)),
    StableHlo.nullary main_cst_28 (constant S_ .f32 0x3F800000#32),
    StableHlo.unary main_cst_28 main_v94 (broadcastInDim S64x64 ![] bcast_S_S64x64 : (⟨S_, .f32⟩ : BufTy).Contents (Elt F) → (⟨S64x64, .f32⟩ : BufTy).Contents (Elt F)),
    StableHlo.TRef.nullary main_call16.v0 (iotaInDim S64x64 32 0),
    StableHlo.TRef.nullary main_call16.c (constantI S_ 32 4294967295#32),
    StableHlo.TRef.unary main_call16.c main_call16.v1 (broadcastInDim S64x64 ![] bcast_S_S64x64),
    StableHlo.TRef.binary main_call16.v0 main_call16.v1 main_call16.v2 addi,
    StableHlo.TRef.nullary main_call16.v3 (iotaInDim S64x64 32 1),
    StableHlo.TRef.binary main_call16.v2 main_call16.v3 main_call16.v4 (cmpi .sge),
    StableHlo.TRef.nullary main_call16.cst (constant S_ .f32 0x00000000#32),
    StableHlo.TRef.unary main_call16.cst main_call16.v5 (broadcastInDim S64x64 ![] bcast_S_S64x64),
    StableHlo.TRef.ternary main_call16.v4 main_call16.v5 ((.of main_v94) : StableHlo.TRef sig ⟨S64x64, .f32⟩) main_call16.v6 select,
    StableHlo.nullary main_cst_29 (constant S_ .f32 0x00000000#32),
    StableHlo.unary main_cst_29 main_v96 (broadcastInDim S64x64 ![] bcast_S_S64x64 : (⟨S_, .f32⟩ : BufTy).Contents (Elt F) → (⟨S64x64, .f32⟩ : BufTy).Contents (Elt F)),
    StableHlo.binary main_v95 main_v96 main_v97 (cmpf .une : (⟨S64x64, .f32⟩ : BufTy).Contents (Elt F) → (⟨S64x64, .f32⟩ : BufTy).Contents (Elt F) → (⟨S64x64, .i1⟩ : BufTy).Contents (Elt F)),
    StableHlo.TRef.reshape ((.of main_v97) : StableHlo.TRef sig ⟨S64x64, .i1⟩) main_call17.v0 rfl shapeCasts_S64x64_S4096,
    StableHlo.TRef.unary main_call17.v0 main_call17.v1 (extui 32 · natLt_1_32),
    StableHlo.TRef.nullary main_call17.call0.c (constantI S_ 32 0#32),
    StableHlo.TRef.unary main_call17.call0.c main_call17.call0.v0 (broadcastInDim S_ ![] bcast_S_S_),
    StableHlo.TRef.binary (main_call17.v1 : StableHlo.TRef sig ⟨S4096, .i32⟩) main_call17.call0.v0 main_call17.call0.v1 (fun x v => Host.reduceWindow IntOp.addi ![4096] ![1] ![4095] ![0] x v reduceWindows_S4096_S4096_w4096s1p4095_0 h_S_),
    StableHlo.nullary main_c_30 (constantI S_ 32 0#32),
    StableHlo.unary main_c_30 main_v99 (broadcastInDim S2080 ![] bcast_S_S2080 : (⟨S_, .i32⟩ : BufTy).Contents (Elt F) → (⟨S2080, .i32⟩ : BufTy).Contents (Elt F)),
    StableHlo.nullary main_c_31 (constantI S_ 32 0#32),
    StableHlo.TRef.unary ((.of main_c_31) : StableHlo.TRef sig ⟨S_, .i32⟩) main_call18.v0 id,
    StableHlo.TRef.unary main_call18.v0 main_call18.v1 (broadcastInDim S4096 ![] bcast_S_S4096),
    StableHlo.TRef.binary main_call18.v1 ((.of main_v98) : StableHlo.TRef sig ⟨S4096, .i32⟩) main_call18.v2 maxsi,
    StableHlo.nullary main_c_32 (constantI S_ 32 0#32),
    StableHlo.unary main_c_32 main_v101 (broadcastInDim S4096 ![] bcast_S_S4096 : (⟨S_, .i32⟩ : BufTy).Contents (Elt F) → (⟨S4096, .i32⟩ : BufTy).Contents (Elt F)),
    StableHlo.binary main_v100 main_v101 main_v102 (cmpi .slt : (⟨S4096, .i32⟩ : BufTy).Contents (Elt F) → (⟨S4096, .i32⟩ : BufTy).Contents (Elt F) → (⟨S4096, .i1⟩ : BufTy).Contents (Elt F)),
    StableHlo.nullary main_c_33 (constantI S_ 32 2080#32),
    StableHlo.unary main_c_33 main_v103 (broadcastInDim S4096 ![] bcast_S_S4096 : (⟨S_, .i32⟩ : BufTy).Contents (Elt F) → (⟨S4096, .i32⟩ : BufTy).Contents (Elt F)),
    StableHlo.binary main_v100 main_v103 main_v104 (addi : (⟨S4096, .i32⟩ : BufTy).Contents (Elt F) → (⟨S4096, .i32⟩ : BufTy).Contents (Elt F) → (⟨S4096, .i32⟩ : BufTy).Contents (Elt F)),
    StableHlo.ternary main_v102 main_v104 main_v100 main_v105 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v105 main_v106 (broadcastInDim S4096x1 ![0] bcast_S4096_S4096x1_0 : (⟨S4096, .i32⟩ : BufTy).Contents (Elt F) → (⟨S4096x1, .i32⟩ : BufTy).Contents (Elt F)),
    StableHlo.nullary main_c_34 (constantI S_ 32 1#32),
    StableHlo.unary main_c_34 main_v107 (broadcastInDim S4096 ![] bcast_S_S4096 : (⟨S_, .i32⟩ : BufTy).Contents (Elt F) → (⟨S4096, .i32⟩ : BufTy).Contents (Elt F)),
    StableHlo.ternary main_v99 main_v106 main_v107 main_v108 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    StableHlo.TRef.nullary main_call19.call0.c (constantI S_ 32 0#32),
    StableHlo.TRef.unary main_call19.call0.c main_call19.call0.v0 (broadcastInDim S_ ![] bcast_S_S_),
    StableHlo.TRef.binary (((.of main_v108) : StableHlo.TRef sig ⟨S2080, .i32⟩) : StableHlo.TRef sig ⟨S2080, .i32⟩) main_call19.call0.v0 main_call19.call0.v1 (fun x v => Host.reduceWindow IntOp.addi ![2080] ![1] ![2079] ![0] x v reduceWindows_S2080_S2080_w2080s1p2079_0 h_S_),
    StableHlo.nullary main_c_35 (constantI S_ 32 64#32),
    StableHlo.TRef.unary ((.of main_c_35) : StableHlo.TRef sig ⟨S_, .i32⟩) main_call20.v0 (broadcastInDim S2080 ![] bcast_S_S2080),
    StableHlo.TRef.binary ((.of main_v109) : StableHlo.TRef sig ⟨S2080, .i32⟩) main_call20.v0 main_call20.v1 Host.divsi,
    StableHlo.TRef.unary ((.of main_v109) : StableHlo.TRef sig ⟨S2080, .i32⟩) main_call20.v2 signi,
    StableHlo.TRef.unary ((.of main_c_35) : StableHlo.TRef sig ⟨S_, .i32⟩) main_call20.v3 signi,
    StableHlo.TRef.unary main_call20.v3 main_call20.v4 (broadcastInDim S2080 ![] bcast_S_S2080),
    StableHlo.TRef.binary main_call20.v2 main_call20.v4 main_call20.v5 (cmpi .ne),
    StableHlo.TRef.unary ((.of main_c_35) : StableHlo.TRef sig ⟨S_, .i32⟩) main_call20.v6 (broadcastInDim S2080 ![] bcast_S_S2080),
    StableHlo.TRef.binary ((.of main_v109) : StableHlo.TRef sig ⟨S2080, .i32⟩) main_call20.v6 main_call20.v7 Host.remsi,
    StableHlo.TRef.nullary main_call20.c (constantI S_ 32 0#32),
    StableHlo.TRef.unary main_call20.c main_call20.v8 (broadcastInDim S2080 ![] bcast_S_S2080),
    StableHlo.TRef.binary main_call20.v7 main_call20.v8 main_call20.v9 (cmpi .ne),
    StableHlo.TRef.binary main_call20.v5 main_call20.v9 main_call20.v10 andi,
    StableHlo.TRef.nullary main_call20.c_0 (constantI S_ 32 1#32),
    StableHlo.TRef.unary main_call20.c_0 main_call20.v11 (broadcastInDim S2080 ![] bcast_S_S2080),
    StableHlo.TRef.binary main_call20.v1 main_call20.v11 main_call20.v12 subi,
    StableHlo.TRef.ternary (main_call20.v10 : StableHlo.TRef sig ⟨S2080, .i1⟩) (main_call20.v12 : StableHlo.TRef sig ⟨S2080, .i32⟩) (main_call20.v1 : StableHlo.TRef sig ⟨S2080, .i32⟩) main_call20.call0.v0 select,
    StableHlo.nullary main_c_36 (constantI S_ 32 64#32),
    StableHlo.TRef.unary ((.of main_c_36) : StableHlo.TRef sig ⟨S_, .i32⟩) main_call21.v0 id,
    StableHlo.TRef.nullary main_call21.c (constantI S_ 32 0#32),
    StableHlo.TRef.binary main_call21.v0 main_call21.c main_call21.v1 (cmpi .eq),
    StableHlo.TRef.nullary main_call21.c_0 (constantI S_ 32 1#32),
    StableHlo.TRef.ternary (main_call21.v1 : StableHlo.TRef sig ⟨S_, .i1⟩) (main_call21.c_0 : StableHlo.TRef sig ⟨S_, .i32⟩) (main_call21.v0 : StableHlo.TRef sig ⟨S_, .i32⟩) main_call21.call0.v0 select,
    StableHlo.TRef.unary main_call21.call0.v0 main_call21.v3 (broadcastInDim S2080 ![] bcast_S_S2080),
    StableHlo.TRef.binary ((.of main_v110) : StableHlo.TRef sig ⟨S2080, .i32⟩) main_call21.v3 main_call21.v4 Host.remsi,
    StableHlo.TRef.nullary main_call21.c_1 (constantI S_ 32 0#32),
    StableHlo.TRef.unary main_call21.c_1 main_call21.v5 (broadcastInDim S2080 ![] bcast_S_S2080),
    StableHlo.TRef.binary main_call21.v4 main_call21.v5 main_call21.v6 (cmpi .ne),
    StableHlo.TRef.nullary main_call21.c_2 (constantI S_ 32 0#32),
    StableHlo.TRef.unary main_call21.c_2 main_call21.v7 (broadcastInDim S2080 ![] bcast_S_S2080),
    StableHlo.TRef.binary main_call21.v4 main_call21.v7 main_call21.v8 (cmpi .slt),
    StableHlo.TRef.nullary main_call21.c_3 (constantI S_ 32 0#32),
    StableHlo.TRef.binary main_call21.call0.v0 main_call21.c_3 main_call21.v9 (cmpi .slt),
    StableHlo.TRef.unary main_call21.v9 main_call21.v10 (broadcastInDim S2080 ![] bcast_S_S2080),
    StableHlo.TRef.binary main_call21.v8 main_call21.v10 main_call21.v11 (cmpi .ne),
    StableHlo.TRef.binary main_call21.v11 main_call21.v6 main_call21.v12 andi,
    StableHlo.TRef.unary main_call21.call0.v0 main_call21.v13 (broadcastInDim S2080 ![] bcast_S_S2080),
    StableHlo.TRef.binary main_call21.v4 main_call21.v13 main_call21.v14 addi,
    StableHlo.TRef.ternary main_call21.v12 main_call21.v14 main_call21.v4 main_call21.v15 select,
    StableHlo.nullary main_c_37 (constantI S_ 32 1#32),
    StableHlo.TRef.unary ((.of main_c_37) : StableHlo.TRef sig ⟨S_, .i32⟩) main_call22.v0 (broadcastInDim S2080 ![] bcast_S_S2080),
    StableHlo.TRef.binary ((.of main_v109) : StableHlo.TRef sig ⟨S2080, .i32⟩) main_call22.v0 main_call22.v1 Host.divsi,
    StableHlo.TRef.unary ((.of main_v109) : StableHlo.TRef sig ⟨S2080, .i32⟩) main_call22.v2 signi,
    StableHlo.TRef.unary ((.of main_c_37) : StableHlo.TRef sig ⟨S_, .i32⟩) main_call22.v3 signi,
    StableHlo.TRef.unary main_call22.v3 main_call22.v4 (broadcastInDim S2080 ![] bcast_S_S2080),
    StableHlo.TRef.binary main_call22.v2 main_call22.v4 main_call22.v5 (cmpi .ne),
    StableHlo.TRef.unary ((.of main_c_37) : StableHlo.TRef sig ⟨S_, .i32⟩) main_call22.v6 (broadcastInDim S2080 ![] bcast_S_S2080),
    StableHlo.TRef.binary ((.of main_v109) : StableHlo.TRef sig ⟨S2080, .i32⟩) main_call22.v6 main_call22.v7 Host.remsi,
    StableHlo.TRef.nullary main_call22.c (constantI S_ 32 0#32),
    StableHlo.TRef.unary main_call22.c main_call22.v8 (broadcastInDim S2080 ![] bcast_S_S2080),
    StableHlo.TRef.binary main_call22.v7 main_call22.v8 main_call22.v9 (cmpi .ne),
    StableHlo.TRef.binary main_call22.v5 main_call22.v9 main_call22.v10 andi,
    StableHlo.TRef.nullary main_call22.c_0 (constantI S_ 32 1#32),
    StableHlo.TRef.unary main_call22.c_0 main_call22.v11 (broadcastInDim S2080 ![] bcast_S_S2080),
    StableHlo.TRef.binary main_call22.v1 main_call22.v11 main_call22.v12 subi,
    StableHlo.TRef.ternary (main_call22.v10 : StableHlo.TRef sig ⟨S2080, .i1⟩) (main_call22.v12 : StableHlo.TRef sig ⟨S2080, .i32⟩) (main_call22.v1 : StableHlo.TRef sig ⟨S2080, .i32⟩) main_call22.call0.v0 select,
    StableHlo.nullary main_c_38 (constantI S_ 32 64#32),
    StableHlo.TRef.unary ((.of main_c_38) : StableHlo.TRef sig ⟨S_, .i32⟩) main_call23.v0 id,
    StableHlo.TRef.nullary main_call23.c (constantI S_ 32 0#32),
    StableHlo.TRef.binary main_call23.v0 main_call23.c main_call23.v1 (cmpi .eq),
    StableHlo.TRef.nullary main_call23.c_0 (constantI S_ 32 1#32),
    StableHlo.TRef.ternary (main_call23.v1 : StableHlo.TRef sig ⟨S_, .i1⟩) (main_call23.c_0 : StableHlo.TRef sig ⟨S_, .i32⟩) (main_call23.v0 : StableHlo.TRef sig ⟨S_, .i32⟩) main_call23.call0.v0 select,
    StableHlo.TRef.unary main_call23.call0.v0 main_call23.v3 (broadcastInDim S2080 ![] bcast_S_S2080),
    StableHlo.TRef.binary ((.of main_v112) : StableHlo.TRef sig ⟨S2080, .i32⟩) main_call23.v3 main_call23.v4 Host.remsi,
    StableHlo.TRef.nullary main_call23.c_1 (constantI S_ 32 0#32),
    StableHlo.TRef.unary main_call23.c_1 main_call23.v5 (broadcastInDim S2080 ![] bcast_S_S2080),
    StableHlo.TRef.binary main_call23.v4 main_call23.v5 main_call23.v6 (cmpi .ne),
    StableHlo.TRef.nullary main_call23.c_2 (constantI S_ 32 0#32),
    StableHlo.TRef.unary main_call23.c_2 main_call23.v7 (broadcastInDim S2080 ![] bcast_S_S2080),
    StableHlo.TRef.binary main_call23.v4 main_call23.v7 main_call23.v8 (cmpi .slt),
    StableHlo.TRef.nullary main_call23.c_3 (constantI S_ 32 0#32),
    StableHlo.TRef.binary main_call23.call0.v0 main_call23.c_3 main_call23.v9 (cmpi .slt),
    StableHlo.TRef.unary main_call23.v9 main_call23.v10 (broadcastInDim S2080 ![] bcast_S_S2080),
    StableHlo.TRef.binary main_call23.v8 main_call23.v10 main_call23.v11 (cmpi .ne),
    StableHlo.TRef.binary main_call23.v11 main_call23.v6 main_call23.v12 andi,
    StableHlo.TRef.unary main_call23.call0.v0 main_call23.v13 (broadcastInDim S2080 ![] bcast_S_S2080),
    StableHlo.TRef.binary main_call23.v4 main_call23.v13 main_call23.v14 addi,
    StableHlo.TRef.ternary main_call23.v12 main_call23.v14 main_call23.v4 main_call23.v15 select,
    StableHlo.nullary main_c_39 (constantI S_ 32 0#32),
    StableHlo.unary main_c_39 main_v114 (broadcastInDim S2080 ![] bcast_S_S2080 : (⟨S_, .i32⟩ : BufTy).Contents (Elt F) → (⟨S2080, .i32⟩ : BufTy).Contents (Elt F)),
    StableHlo.binary main_v111 main_v114 main_v115 (cmpi .slt : (⟨S2080, .i32⟩ : BufTy).Contents (Elt F) → (⟨S2080, .i32⟩ : BufTy).Contents (Elt F) → (⟨S2080, .i1⟩ : BufTy).Contents (Elt F)),
    StableHlo.nullary main_c_40 (constantI S_ 32 64#32),
    StableHlo.unary main_c_40 main_v116 (broadcastInDim S2080 ![] bcast_S_S2080 : (⟨S_, .i32⟩ : BufTy).Contents (Elt F) → (⟨S2080, .i32⟩ : BufTy).Contents (Elt F)),
    StableHlo.binary main_v111 main_v116 main_v117 (addi : (⟨S2080, .i32⟩ : BufTy).Contents (Elt F) → (⟨S2080, .i32⟩ : BufTy).Contents (Elt F) → (⟨S2080, .i32⟩ : BufTy).Contents (Elt F)),
    StableHlo.ternary main_v115 main_v117 main_v111 main_v118 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v118 main_v119 (broadcastInDim S2080x1 ![0] bcast_S2080_S2080x1_0 : (⟨S2080, .i32⟩ : BufTy).Contents (Elt F) → (⟨S2080x1, .i32⟩ : BufTy).Contents (Elt F)),
    StableHlo.binary main_v93 main_v119 main_v120 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.nullary main_c_41 (constantI S_ 32 0#32),
    StableHlo.unary main_c_41 main_v121 (broadcastInDim S2080 ![] bcast_S_S2080 : (⟨S_, .i32⟩ : BufTy).Contents (Elt F) → (⟨S2080, .i32⟩ : BufTy).Contents (Elt F)),
    StableHlo.binary main_v113 main_v121 main_v122 (cmpi .slt : (⟨S2080, .i32⟩ : BufTy).Contents (Elt F) → (⟨S2080, .i32⟩ : BufTy).Contents (Elt F) → (⟨S2080, .i1⟩ : BufTy).Contents (Elt F)),
    StableHlo.nullary main_c_42 (constantI S_ 32 64#32),
    StableHlo.unary main_c_42 main_v123 (broadcastInDim S2080 ![] bcast_S_S2080 : (⟨S_, .i32⟩ : BufTy).Contents (Elt F) → (⟨S2080, .i32⟩ : BufTy).Contents (Elt F)),
    StableHlo.binary main_v113 main_v123 main_v124 (addi : (⟨S2080, .i32⟩ : BufTy).Contents (Elt F) → (⟨S2080, .i32⟩ : BufTy).Contents (Elt F) → (⟨S2080, .i32⟩ : BufTy).Contents (Elt F)),
    StableHlo.ternary main_v122 main_v124 main_v113 main_v125 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v125 main_v126 (broadcastInDim S2080x1 ![0] bcast_S2080_S2080x1_0 : (⟨S2080, .i32⟩ : BufTy).Contents (Elt F) → (⟨S2080x1, .i32⟩ : BufTy).Contents (Elt F)),
    StableHlo.binary main_v93 main_v126 main_v127 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.binary main_v120 main_v127 main_v128 (mulf : (⟨S1024x2080, .f32⟩ : BufTy).Contents (Elt F) → (⟨S1024x2080, .f32⟩ : BufTy).Contents (Elt F) → (⟨S1024x2080, .f32⟩ : BufTy).Contents (Elt F)),
    StableHlo.unary main_v93 main_v129 (broadcastInDim S1024x64x1 ![0, 1] bcast_S1024x64_S1024x64x1_0_1 : (⟨S1024x64, .f32⟩ : BufTy).Contents (Elt F) → (⟨S1024x64x1, .f32⟩ : BufTy).Contents (Elt F)),
    StableHlo.unary main_v128 main_v130 (broadcastInDim S1024x1x2080 ![0, 2] bcast_S1024x2080_S1024x1x2080_0_2 : (⟨S1024x2080, .f32⟩ : BufTy).Contents (Elt F) → (⟨S1024x1x2080, .f32⟩ : BufTy).Contents (Elt F)),
    StableHlo.unary main_v129 main_v131 (broadcastInDim S1024x64x2080 ![0, 1, 2] bcast_S1024x64x1_S1024x64x2080_0_1_2 : (⟨S1024x64x1, .f32⟩ : BufTy).Contents (Elt F) → (⟨S1024x64x2080, .f32⟩ : BufTy).Contents (Elt F)),
    StableHlo.unary main_v130 main_v132 (broadcastInDim S1024x64x2080 ![0, 1, 2] bcast_S1024x1x2080_S1024x64x2080_0_1_2 : (⟨S1024x1x2080, .f32⟩ : BufTy).Contents (Elt F) → (⟨S1024x64x2080, .f32⟩ : BufTy).Contents (Elt F)),
    StableHlo.binary main_v131 main_v132 main_v133 (mulf : (⟨S1024x64x2080, .f32⟩ : BufTy).Contents (Elt F) → (⟨S1024x64x2080, .f32⟩ : BufTy).Contents (Elt F) → (⟨S1024x64x2080, .f32⟩ : BufTy).Contents (Elt F)),
    StableHlo.reshape main_v133 main_v134 rfl shapeCasts_S1024x64x2080_S1024x133120 ]
theorem opsP2_sub : (opsP2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub ..⟩

/-- @main's window 3: 6 operations. -/
abbrev opsP3 : List (HloOp τ sig (Elt F)) :=
  [ StableHlo.nary ![main_v93, main_v128, main_v134] main_v135 (fun u => concatenate S1024x135264 1 [⟨S1024x64, u 0⟩, ⟨S1024x2080, u 1⟩, ⟨S1024x133120, u 2⟩] concatenates_S1024x64_S1024x2080_S1024x133120_S1024x135264_d1),
    StableHlo.unary main_arg5 main_v136 ((transpose S135264x10 [1, 0] · transposes_S10x135264_S135264x10_1_0) : (⟨S10x135264, .f32⟩ : BufTy).Contents (Elt F) → (⟨S135264x10, .f32⟩ : BufTy).Contents (Elt F)),
    StableHlo.binary main_v135 main_v136 main_v137 ((fun l r => Host.dotGeneral dot_S1024x135264_S135264x10_S1024x10_1_0_0_1_n_n none l r) : (⟨S1024x135264, .f32⟩ : BufTy).Contents (Elt F) → (⟨S135264x10, .f32⟩ : BufTy).Contents (Elt F) → (⟨S1024x10, .f32⟩ : BufTy).Contents (Elt F)),
    StableHlo.unary main_arg6 main_v138 (broadcastInDim S1x10 ![1] bcast_S10_S1x10_1 : (⟨S10, .f32⟩ : BufTy).Contents (Elt F) → (⟨S1x10, .f32⟩ : BufTy).Contents (Elt F)),
    StableHlo.unary main_v138 main_v139 (broadcastInDim S1024x10 ![0, 1] bcast_S1x10_S1024x10_0_1 : (⟨S1x10, .f32⟩ : BufTy).Contents (Elt F) → (⟨S1024x10, .f32⟩ : BufTy).Contents (Elt F)),
    StableHlo.binary main_v137 main_v139 main_v140 (addf : (⟨S1024x10, .f32⟩ : BufTy).Contents (Elt F) → (⟨S1024x10, .f32⟩ : BufTy).Contents (Elt F) → (⟨S1024x10, .f32⟩ : BufTy).Contents (Elt F)) ]
theorem opsP3_sub : (opsP3 : List (HloOp τ sig (Elt F))).Forall fun op => op.bufs ⊆ StableHlo.tcRefs τ sig :=
  ⟨StableHlo.nary_bufs_sub .., StableHlo.unary_bufs_sub .., StableHlo.binary_bufs_sub .., StableHlo.unary_bufs_sub .., StableHlo.unary_bufs_sub .., StableHlo.binary_bufs_sub ..⟩

/-- 117 operations. -/
abbrev opsI0 : List (HloOp τ sig (Elt F)) :=
  [ StableHlo.nullary main_cst (constant S_ .f32 0x3F800000#32),
    StableHlo.unary main_cst main_v0 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 4294967295#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 main_call0.v5 ((.of main_v0) : StableHlo.TRef sig ⟨S64x64, .f32⟩) main_call0.v6 select,
    StableHlo.nullary main_cst_0 (constant S_ .f32 0x00000000#32),
    StableHlo.unary main_cst_0 main_v2 (broadcastInDim S64x64 ![] bcast_S_S64x64 : (⟨S_, .f32⟩ : BufTy).Contents (Elt F) → (⟨S64x64, .f32⟩ : BufTy).Contents (Elt F)),
    StableHlo.binary main_v1 main_v2 main_v3 (cmpf .une : (⟨S64x64, .f32⟩ : BufTy).Contents (Elt F) → (⟨S64x64, .f32⟩ : BufTy).Contents (Elt F) → (⟨S64x64, .i1⟩ : BufTy).Contents (Elt F)),
    StableHlo.TRef.reshape ((.of main_v3) : StableHlo.TRef sig ⟨S64x64, .i1⟩) main_call1.v0 rfl shapeCasts_S64x64_S4096,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (main_call1.v1 : StableHlo.TRef sig ⟨S4096, .i32⟩) main_call1.call0.v0 main_call1.call0.v1 (fun x v => Host.reduceWindow IntOp.addi ![4096] ![1] ![4095] ![0] x v reduceWindows_S4096_S4096_w4096s1p4095_0 h_S_),
    StableHlo.nullary main_c (constantI S_ 32 0#32),
    StableHlo.unary main_c main_v5 (broadcastInDim S2080 ![] bcast_S_S2080 : (⟨S_, .i32⟩ : BufTy).Contents (Elt F) → (⟨S2080, .i32⟩ : BufTy).Contents (Elt F)),
    StableHlo.nullary main_c_1 (constantI S_ 32 0#32),
    StableHlo.TRef.unary ((.of main_c_1) : StableHlo.TRef sig ⟨S_, .i32⟩) main_call2.v0 id,
    StableHlo.TRef.unary main_call2.v0 main_call2.v1 (broadcastInDim S4096 ![] bcast_S_S4096),
    StableHlo.TRef.binary main_call2.v1 ((.of main_v4) : StableHlo.TRef sig ⟨S4096, .i32⟩) main_call2.v2 maxsi,
    StableHlo.nullary main_c_2 (constantI S_ 32 0#32),
    StableHlo.unary main_c_2 main_v7 (broadcastInDim S4096 ![] bcast_S_S4096 : (⟨S_, .i32⟩ : BufTy).Contents (Elt F) → (⟨S4096, .i32⟩ : BufTy).Contents (Elt F)),
    StableHlo.binary main_v6 main_v7 main_v8 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2080#32),
    StableHlo.unary main_c_3 main_v9 (broadcastInDim S4096 ![] bcast_S_S4096 : (⟨S_, .i32⟩ : BufTy).Contents (Elt F) → (⟨S4096, .i32⟩ : BufTy).Contents (Elt F)),
    StableHlo.binary main_v6 main_v9 main_v10 (addi : (⟨S4096, .i32⟩ : BufTy).Contents (Elt F) → (⟨S4096, .i32⟩ : BufTy).Contents (Elt F) → (⟨S4096, .i32⟩ : BufTy).Contents (Elt F)),
    StableHlo.ternary main_v8 main_v10 main_v6 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v11 main_v12 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v13 (broadcastInDim S4096 ![] bcast_S_S4096 : (⟨S_, .i32⟩ : BufTy).Contents (Elt F) → (⟨S4096, .i32⟩ : BufTy).Contents (Elt F)),
    StableHlo.ternary main_v5 main_v12 main_v13 main_v14 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (((.of main_v14) : StableHlo.TRef sig ⟨S2080, .i32⟩) : StableHlo.TRef sig ⟨S2080, .i32⟩) main_call3.call0.v0 main_call3.call0.v1 (fun x v => Host.reduceWindow IntOp.addi ![2080] ![1] ![2079] ![0] x v reduceWindows_S2080_S2080_w2080s1p2079_0 h_S_),
    StableHlo.nullary main_c_5 (constantI S_ 32 64#32),
    StableHlo.TRef.unary ((.of main_c_5) : StableHlo.TRef sig ⟨S_, .i32⟩) main_call4.v0 (broadcastInDim S2080 ![] bcast_S_S2080),
    StableHlo.TRef.binary ((.of main_v15) : StableHlo.TRef sig ⟨S2080, .i32⟩) main_call4.v0 main_call4.v1 Host.divsi,
    StableHlo.TRef.unary ((.of main_v15) : StableHlo.TRef sig ⟨S2080, .i32⟩) main_call4.v2 signi,
    StableHlo.TRef.unary ((.of main_c_5) : StableHlo.TRef sig ⟨S_, .i32⟩) main_call4.v3 signi,
    StableHlo.TRef.unary main_call4.v3 main_call4.v4 (broadcastInDim S2080 ![] bcast_S_S2080),
    StableHlo.TRef.binary main_call4.v2 main_call4.v4 main_call4.v5 (cmpi .ne),
    StableHlo.TRef.unary ((.of main_c_5) : StableHlo.TRef sig ⟨S_, .i32⟩) main_call4.v6 (broadcastInDim S2080 ![] bcast_S_S2080),
    StableHlo.TRef.binary ((.of main_v15) : StableHlo.TRef sig ⟨S2080, .i32⟩) main_call4.v6 main_call4.v7 Host.remsi,
    StableHlo.TRef.nullary main_call4.c (constantI S_ 32 0#32),
    StableHlo.TRef.unary main_call4.c main_call4.v8 (broadcastInDim S2080 ![] bcast_S_S2080),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2080 ![] bcast_S_S2080),
    StableHlo.TRef.binary main_call4.v1 main_call4.v11 main_call4.v12 subi,
    StableHlo.TRef.ternary (main_call4.v10 : StableHlo.TRef sig ⟨S2080, .i1⟩) (main_call4.v12 : StableHlo.TRef sig ⟨S2080, .i32⟩) (main_call4.v1 : StableHlo.TRef sig ⟨S2080, .i32⟩) main_call4.call0.v0 select,
    StableHlo.nullary main_c_6 (constantI S_ 32 64#32),
    StableHlo.TRef.unary ((.of main_c_6) : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary (main_call5.v1 : StableHlo.TRef sig ⟨S_, .i1⟩) (main_call5.c_0 : StableHlo.TRef sig ⟨S_, .i32⟩) (main_call5.v0 : StableHlo.TRef sig ⟨S_, .i32⟩) main_call5.call0.v0 select,
    StableHlo.TRef.unary main_call5.call0.v0 main_call5.v3 (broadcastInDim S2080 ![] bcast_S_S2080),
    StableHlo.TRef.binary ((.of main_v16) : StableHlo.TRef sig ⟨S2080, .i32⟩) main_call5.v3 main_call5.v4 Host.remsi,
    StableHlo.TRef.nullary main_call5.c_1 (constantI S_ 32 0#32),
    StableHlo.TRef.unary main_call5.c_1 main_call5.v5 (broadcastInDim S2080 ![] bcast_S_S2080),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2080 ![] bcast_S_S2080),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2080 ![] bcast_S_S2080),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2080 ![] bcast_S_S2080),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary ((.of main_c_7) : StableHlo.TRef sig ⟨S_, .i32⟩) main_call6.v0 (broadcastInDim S2080 ![] bcast_S_S2080),
    StableHlo.TRef.binary ((.of main_v15) : StableHlo.TRef sig ⟨S2080, .i32⟩) main_call6.v0 main_call6.v1 Host.divsi,
    StableHlo.TRef.unary ((.of main_v15) : StableHlo.TRef sig ⟨S2080, .i32⟩) main_call6.v2 signi,
    StableHlo.TRef.unary ((.of main_c_7) : StableHlo.TRef sig ⟨S_, .i32⟩) main_call6.v3 signi,
    StableHlo.TRef.unary main_call6.v3 main_call6.v4 (broadcastInDim S2080 ![] bcast_S_S2080),
    StableHlo.TRef.binary main_call6.v2 main_call6.v4 main_call6.v5 (cmpi .ne),
    StableHlo.TRef.unary ((.of main_c_7) : StableHlo.TRef sig ⟨S_, .i32⟩) main_call6.v6 (broadcastInDim S2080 ![] bcast_S_S2080),
    StableHlo.TRef.binary ((.of main_v15) : StableHlo.TRef sig ⟨S2080, .i32⟩) main_call6.v6 main_call6.v7 Host.remsi,
    StableHlo.TRef.nullary main_call6.c (constantI S_ 32 0#32),
    StableHlo.TRef.unary main_call6.c main_call6.v8 (broadcastInDim S2080 ![] bcast_S_S2080),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2080 ![] bcast_S_S2080),
    StableHlo.TRef.binary main_call6.v1 main_call6.v11 main_call6.v12 subi,
    StableHlo.TRef.ternary (main_call6.v10 : StableHlo.TRef sig ⟨S2080, .i1⟩) (main_call6.v12 : StableHlo.TRef sig ⟨S2080, .i32⟩) (main_call6.v1 : StableHlo.TRef sig ⟨S2080, .i32⟩) main_call6.call0.v0 select,
    StableHlo.nullary main_c_8 (constantI S_ 32 64#32),
    StableHlo.TRef.unary ((.of main_c_8) : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary (main_call7.v1 : StableHlo.TRef sig ⟨S_, .i1⟩) (main_call7.c_0 : StableHlo.TRef sig ⟨S_, .i32⟩) (main_call7.v0 : StableHlo.TRef sig ⟨S_, .i32⟩) main_call7.call0.v0 select,
    StableHlo.TRef.unary main_call7.call0.v0 main_call7.v3 (broadcastInDim S2080 ![] bcast_S_S2080),
    StableHlo.TRef.binary ((.of main_v18) : StableHlo.TRef sig ⟨S2080, .i32⟩) main_call7.v3 main_call7.v4 Host.remsi,
    StableHlo.TRef.nullary main_call7.c_1 (constantI S_ 32 0#32),
    StableHlo.TRef.unary main_call7.c_1 main_call7.v5 (broadcastInDim S2080 ![] bcast_S_S2080),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2080 ![] bcast_S_S2080),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2080 ![] bcast_S_S2080),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2080 ![] bcast_S_S2080),
    StableHlo.TRef.binary main_call7.v4 main_call7.v13 main_call7.v14 addi,
    StableHlo.TRef.ternary main_call7.v12 main_call7.v14 main_call7.v4 main_call7.v15 select ]
theorem opsI0_sub : (opsI0 : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- 31 operations. -/
abbrev opsF0 : List (HloOp τ sig (Elt F)) :=
  [ StableHlo.nullary main_c_9 (constantI S_ 32 0#32),
    StableHlo.unary main_c_9 main_v20 (broadcastInDim S2080 ![] bcast_S_S2080 : (⟨S_, .i32⟩ : BufTy).Contents (Elt F) → (⟨S2080, .i32⟩ : BufTy).Contents (Elt F)),
    StableHlo.binary main_v17 main_v20 main_v21 (cmpi .slt : (⟨S2080, .i32⟩ : BufTy).Contents (Elt F) → (⟨S2080, .i32⟩ : BufTy).Contents (Elt F) → (⟨S2080, .i1⟩ : BufTy).Contents (Elt F)),
    StableHlo.nullary main_c_10 (constantI S_ 32 64#32),
    StableHlo.unary main_c_10 main_v22 (broadcastInDim S2080 ![] bcast_S_S2080 : (⟨S_, .i32⟩ : BufTy).Contents (Elt F) → (⟨S2080, .i32⟩ : BufTy).Contents (Elt F)),
    StableHlo.binary main_v17 main_v22 main_v23 (addi : (⟨S2080, .i32⟩ : BufTy).Contents (Elt F) → (⟨S2080, .i32⟩ : BufTy).Contents (Elt F) → (⟨S2080, .i32⟩ : BufTy).Contents (Elt F)),
    StableHlo.ternary main_v21 main_v23 main_v17 main_v24 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v24 main_v25 (broadcastInDim S2080x1 ![0] bcast_S2080_S2080x1_0 : (⟨S2080, .i32⟩ : BufTy).Contents (Elt F) → (⟨S2080x1, .i32⟩ : BufTy).Contents (Elt F)),
    StableHlo.binary main_arg0 main_v25 main_v26 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.nullary main_c_11 (constantI S_ 32 0#32),
    StableHlo.unary main_c_11 main_v27 (broadcastInDim S2080 ![] bcast_S_S2080 : (⟨S_, .i32⟩ : BufTy).Contents (Elt F) → (⟨S2080, .i32⟩ : BufTy).Contents (Elt F)),
    StableHlo.binary main_v19 main_v27 main_v28 (cmpi .slt : (⟨S2080, .i32⟩ : BufTy).Contents (Elt F) → (⟨S2080, .i32⟩ : BufTy).Contents (Elt F) → (⟨S2080, .i1⟩ : BufTy).Contents (Elt F)),
    StableHlo.nullary main_c_12 (constantI S_ 32 64#32),
    StableHlo.unary main_c_12 main_v29 (broadcastInDim S2080 ![] bcast_S_S2080 : (⟨S_, .i32⟩ : BufTy).Contents (Elt F) → (⟨S2080, .i32⟩ : BufTy).Contents (Elt F)),
    StableHlo.binary main_v19 main_v29 main_v30 (addi : (⟨S2080, .i32⟩ : BufTy).Contents (Elt F) → (⟨S2080, .i32⟩ : BufTy).Contents (Elt F) → (⟨S2080, .i32⟩ : BufTy).Contents (Elt F)),
    StableHlo.ternary main_v28 main_v30 main_v19 main_v31 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v31 main_v32 (broadcastInDim S2080x1 ![0] bcast_S2080_S2080x1_0 : (⟨S2080, .i32⟩ : BufTy).Contents (Elt F) → (⟨S2080x1, .i32⟩ : BufTy).Contents (Elt F)),
    StableHlo.binary main_arg0 main_v32 main_v33 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.binary main_v26 main_v33 main_v34 (mulf : (⟨S1024x2080, .f32⟩ : BufTy).Contents (Elt F) → (⟨S1024x2080, .f32⟩ : BufTy).Contents (Elt F) → (⟨S1024x2080, .f32⟩ : BufTy).Contents (Elt F)),
    StableHlo.unary main_arg0 main_v35 (broadcastInDim S1024x64x1 ![0, 1] bcast_S1024x64_S1024x64x1_0_1 : (⟨S1024x64, .f32⟩ : BufTy).Contents (Elt F) → (⟨S1024x64x1, .f32⟩ : BufTy).Contents (Elt F)),
    StableHlo.unary main_v34 main_v36 (broadcastInDim S1024x1x2080 ![0, 2] bcast_S1024x2080_S1024x1x2080_0_2 : (⟨S1024x2080, .f32⟩ : BufTy).Contents (Elt F) → (⟨S1024x1x2080, .f32⟩ : BufTy).Contents (Elt F)),
    StableHlo.unary main_v35 main_v37 (broadcastInDim S1024x64x2080 ![0, 1, 2] bcast_S1024x64x1_S1024x64x2080_0_1_2 : (⟨S1024x64x1, .f32⟩ : BufTy).Contents (Elt F) → (⟨S1024x64x2080, .f32⟩ : BufTy).Contents (Elt F)),
    StableHlo.unary main_v36 main_v38 (broadcastInDim S1024x64x2080 ![0, 1, 2] bcast_S1024x1x2080_S1024x64x2080_0_1_2 : (⟨S1024x1x2080, .f32⟩ : BufTy).Contents (Elt F) → (⟨S1024x64x2080, .f32⟩ : BufTy).Contents (Elt F)),
    StableHlo.binary main_v37 main_v38 main_v39 (mulf : (⟨S1024x64x2080, .f32⟩ : BufTy).Contents (Elt F) → (⟨S1024x64x2080, .f32⟩ : BufTy).Contents (Elt F) → (⟨S1024x64x2080, .f32⟩ : BufTy).Contents (Elt F)),
    StableHlo.reshape main_v39 main_v40 rfl shapeCasts_S1024x64x2080_S1024x133120,
    StableHlo.nary ![main_arg0, main_v34, main_v40] main_v41 (fun u => concatenate S1024x135264 1 [⟨S1024x64, u 0⟩, ⟨S1024x2080, u 1⟩, ⟨S1024x133120, u 2⟩] concatenates_S1024x64_S1024x2080_S1024x133120_S1024x135264_d1),
    StableHlo.unary main_arg1 main_v42 ((transpose S135264x64 [1, 0] · transposes_S64x135264_S135264x64_1_0) : (⟨S64x135264, .f32⟩ : BufTy).Contents (Elt F) → (⟨S135264x64, .f32⟩ : BufTy).Contents (Elt F)),
    StableHlo.binary main_v41 main_v42 main_v43 ((fun l r => Host.dotGeneral dot_S1024x135264_S135264x64_S1024x64_1_0_0_1_n_n none l r) : (⟨S1024x135264, .f32⟩ : BufTy).Contents (Elt F) → (⟨S135264x64, .f32⟩ : BufTy).Contents (Elt F) → (⟨S1024x64, .f32⟩ : BufTy).Contents (Elt F)),
    StableHlo.unary main_arg2 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S1024x64 ![0, 1] bcast_S1x64_S1024x64_0_1 : (⟨S1x64, .f32⟩ : BufTy).Contents (Elt F) → (⟨S1024x64, .f32⟩ : BufTy).Contents (Elt F)),
    StableHlo.binary main_v43 main_v45 main_v46 (addf : (⟨S1024x64, .f32⟩ : BufTy).Contents (Elt F) → (⟨S1024x64, .f32⟩ : BufTy).Contents (Elt F) → (⟨S1024x64, .f32⟩ : BufTy).Contents (Elt F)) ]
theorem opsF0_sub : (opsF0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.nary_bufs_sub .., StableHlo.unary_bufs_sub .., StableHlo.binary_bufs_sub .., StableHlo.unary_bufs_sub .., StableHlo.unary_bufs_sub .., StableHlo.binary_bufs_sub ..⟩

/-- 117 operations. -/
abbrev opsI1 : List (HloOp τ sig (Elt F)) :=
  [ StableHlo.nullary main_cst_13 (constant S_ .f32 0x3F800000#32),
    StableHlo.unary main_cst_13 main_v47 (broadcastInDim S64x64 ![] bcast_S_S64x64 : (⟨S_, .f32⟩ : BufTy).Contents (Elt F) → (⟨S64x64, .f32⟩ : BufTy).Contents (Elt F)),
    StableHlo.TRef.nullary main_call8.v0 (iotaInDim S64x64 32 0),
    StableHlo.TRef.nullary main_call8.c (constantI S_ 32 4294967295#32),
    StableHlo.TRef.unary main_call8.c main_call8.v1 (broadcastInDim S64x64 ![] bcast_S_S64x64),
    StableHlo.TRef.binary main_call8.v0 main_call8.v1 main_call8.v2 addi,
    StableHlo.TRef.nullary main_call8.v3 (iotaInDim S64x64 32 1),
    StableHlo.TRef.binary main_call8.v2 main_call8.v3 main_call8.v4 (cmpi .sge),
    StableHlo.TRef.nullary main_call8.cst (constant S_ .f32 0x00000000#32),
    StableHlo.TRef.unary main_call8.cst main_call8.v5 (broadcastInDim S64x64 ![] bcast_S_S64x64),
    StableHlo.TRef.ternary main_call8.v4 main_call8.v5 ((.of main_v47) : StableHlo.TRef sig ⟨S64x64, .f32⟩) main_call8.v6 select,
    StableHlo.nullary main_cst_14 (constant S_ .f32 0x00000000#32),
    StableHlo.unary main_cst_14 main_v49 (broadcastInDim S64x64 ![] bcast_S_S64x64 : (⟨S_, .f32⟩ : BufTy).Contents (Elt F) → (⟨S64x64, .f32⟩ : BufTy).Contents (Elt F)),
    StableHlo.binary main_v48 main_v49 main_v50 (cmpf .une : (⟨S64x64, .f32⟩ : BufTy).Contents (Elt F) → (⟨S64x64, .f32⟩ : BufTy).Contents (Elt F) → (⟨S64x64, .i1⟩ : BufTy).Contents (Elt F)),
    StableHlo.TRef.reshape ((.of main_v50) : StableHlo.TRef sig ⟨S64x64, .i1⟩) main_call9.v0 rfl shapeCasts_S64x64_S4096,
    StableHlo.TRef.unary main_call9.v0 main_call9.v1 (extui 32 · natLt_1_32),
    StableHlo.TRef.nullary main_call9.call0.c (constantI S_ 32 0#32),
    StableHlo.TRef.unary main_call9.call0.c main_call9.call0.v0 (broadcastInDim S_ ![] bcast_S_S_),
    StableHlo.TRef.binary (main_call9.v1 : StableHlo.TRef sig ⟨S4096, .i32⟩) main_call9.call0.v0 main_call9.call0.v1 (fun x v => Host.reduceWindow IntOp.addi ![4096] ![1] ![4095] ![0] x v reduceWindows_S4096_S4096_w4096s1p4095_0 h_S_),
    StableHlo.nullary main_c_15 (constantI S_ 32 0#32),
    StableHlo.unary main_c_15 main_v52 (broadcastInDim S2080 ![] bcast_S_S2080 : (⟨S_, .i32⟩ : BufTy).Contents (Elt F) → (⟨S2080, .i32⟩ : BufTy).Contents (Elt F)),
    StableHlo.nullary main_c_16 (constantI S_ 32 0#32),
    StableHlo.TRef.unary ((.of main_c_16) : StableHlo.TRef sig ⟨S_, .i32⟩) main_call10.v0 id,
    StableHlo.TRef.unary main_call10.v0 main_call10.v1 (broadcastInDim S4096 ![] bcast_S_S4096),
    StableHlo.TRef.binary main_call10.v1 ((.of main_v51) : StableHlo.TRef sig ⟨S4096, .i32⟩) main_call10.v2 maxsi,
    StableHlo.nullary main_c_17 (constantI S_ 32 0#32),
    StableHlo.unary main_c_17 main_v54 (broadcastInDim S4096 ![] bcast_S_S4096 : (⟨S_, .i32⟩ : BufTy).Contents (Elt F) → (⟨S4096, .i32⟩ : BufTy).Contents (Elt F)),
    StableHlo.binary main_v53 main_v54 main_v55 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 2080#32),
    StableHlo.unary main_c_18 main_v56 (broadcastInDim S4096 ![] bcast_S_S4096 : (⟨S_, .i32⟩ : BufTy).Contents (Elt F) → (⟨S4096, .i32⟩ : BufTy).Contents (Elt F)),
    StableHlo.binary main_v53 main_v56 main_v57 (addi : (⟨S4096, .i32⟩ : BufTy).Contents (Elt F) → (⟨S4096, .i32⟩ : BufTy).Contents (Elt F) → (⟨S4096, .i32⟩ : BufTy).Contents (Elt F)),
    StableHlo.ternary main_v55 main_v57 main_v53 main_v58 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v58 main_v59 (broadcastInDim S4096x1 ![0] bcast_S4096_S4096x1_0 : (⟨S4096, .i32⟩ : BufTy).Contents (Elt F) → (⟨S4096x1, .i32⟩ : BufTy).Contents (Elt F)),
    StableHlo.nullary main_c_19 (constantI S_ 32 1#32),
    StableHlo.unary main_c_19 main_v60 (broadcastInDim S4096 ![] bcast_S_S4096 : (⟨S_, .i32⟩ : BufTy).Contents (Elt F) → (⟨S4096, .i32⟩ : BufTy).Contents (Elt F)),
    StableHlo.ternary main_v52 main_v59 main_v60 main_v61 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    StableHlo.TRef.nullary main_call11.call0.c (constantI S_ 32 0#32),
    StableHlo.TRef.unary main_call11.call0.c main_call11.call0.v0 (broadcastInDim S_ ![] bcast_S_S_),
    StableHlo.TRef.binary (((.of main_v61) : StableHlo.TRef sig ⟨S2080, .i32⟩) : StableHlo.TRef sig ⟨S2080, .i32⟩) main_call11.call0.v0 main_call11.call0.v1 (fun x v => Host.reduceWindow IntOp.addi ![2080] ![1] ![2079] ![0] x v reduceWindows_S2080_S2080_w2080s1p2079_0 h_S_),
    StableHlo.nullary main_c_20 (constantI S_ 32 64#32),
    StableHlo.TRef.unary ((.of main_c_20) : StableHlo.TRef sig ⟨S_, .i32⟩) main_call12.v0 (broadcastInDim S2080 ![] bcast_S_S2080),
    StableHlo.TRef.binary ((.of main_v62) : StableHlo.TRef sig ⟨S2080, .i32⟩) main_call12.v0 main_call12.v1 Host.divsi,
    StableHlo.TRef.unary ((.of main_v62) : StableHlo.TRef sig ⟨S2080, .i32⟩) main_call12.v2 signi,
    StableHlo.TRef.unary ((.of main_c_20) : StableHlo.TRef sig ⟨S_, .i32⟩) main_call12.v3 signi,
    StableHlo.TRef.unary main_call12.v3 main_call12.v4 (broadcastInDim S2080 ![] bcast_S_S2080),
    StableHlo.TRef.binary main_call12.v2 main_call12.v4 main_call12.v5 (cmpi .ne),
    StableHlo.TRef.unary ((.of main_c_20) : StableHlo.TRef sig ⟨S_, .i32⟩) main_call12.v6 (broadcastInDim S2080 ![] bcast_S_S2080),
    StableHlo.TRef.binary ((.of main_v62) : StableHlo.TRef sig ⟨S2080, .i32⟩) main_call12.v6 main_call12.v7 Host.remsi,
    StableHlo.TRef.nullary main_call12.c (constantI S_ 32 0#32),
    StableHlo.TRef.unary main_call12.c main_call12.v8 (broadcastInDim S2080 ![] bcast_S_S2080),
    StableHlo.TRef.binary main_call12.v7 main_call12.v8 main_call12.v9 (cmpi .ne),
    StableHlo.TRef.binary main_call12.v5 main_call12.v9 main_call12.v10 andi,
    StableHlo.TRef.nullary main_call12.c_0 (constantI S_ 32 1#32),
    StableHlo.TRef.unary main_call12.c_0 main_call12.v11 (broadcastInDim S2080 ![] bcast_S_S2080),
    StableHlo.TRef.binary main_call12.v1 main_call12.v11 main_call12.v12 subi,
    StableHlo.TRef.ternary (main_call12.v10 : StableHlo.TRef sig ⟨S2080, .i1⟩) (main_call12.v12 : StableHlo.TRef sig ⟨S2080, .i32⟩) (main_call12.v1 : StableHlo.TRef sig ⟨S2080, .i32⟩) main_call12.call0.v0 select,
    StableHlo.nullary main_c_21 (constantI S_ 32 64#32),
    StableHlo.TRef.unary ((.of main_c_21) : StableHlo.TRef sig ⟨S_, .i32⟩) main_call13.v0 id,
    StableHlo.TRef.nullary main_call13.c (constantI S_ 32 0#32),
    StableHlo.TRef.binary main_call13.v0 main_call13.c main_call13.v1 (cmpi .eq),
    StableHlo.TRef.nullary main_call13.c_0 (constantI S_ 32 1#32),
    StableHlo.TRef.ternary (main_call13.v1 : StableHlo.TRef sig ⟨S_, .i1⟩) (main_call13.c_0 : StableHlo.TRef sig ⟨S_, .i32⟩) (main_call13.v0 : StableHlo.TRef sig ⟨S_, .i32⟩) main_call13.call0.v0 select,
    StableHlo.TRef.unary main_call13.call0.v0 main_call13.v3 (broadcastInDim S2080 ![] bcast_S_S2080),
    StableHlo.TRef.binary ((.of main_v63) : StableHlo.TRef sig ⟨S2080, .i32⟩) main_call13.v3 main_call13.v4 Host.remsi,
    StableHlo.TRef.nullary main_call13.c_1 (constantI S_ 32 0#32),
    StableHlo.TRef.unary main_call13.c_1 main_call13.v5 (broadcastInDim S2080 ![] bcast_S_S2080),
    StableHlo.TRef.binary main_call13.v4 main_call13.v5 main_call13.v6 (cmpi .ne),
    StableHlo.TRef.nullary main_call13.c_2 (constantI S_ 32 0#32),
    StableHlo.TRef.unary main_call13.c_2 main_call13.v7 (broadcastInDim S2080 ![] bcast_S_S2080),
    StableHlo.TRef.binary main_call13.v4 main_call13.v7 main_call13.v8 (cmpi .slt),
    StableHlo.TRef.nullary main_call13.c_3 (constantI S_ 32 0#32),
    StableHlo.TRef.binary main_call13.call0.v0 main_call13.c_3 main_call13.v9 (cmpi .slt),
    StableHlo.TRef.unary main_call13.v9 main_call13.v10 (broadcastInDim S2080 ![] bcast_S_S2080),
    StableHlo.TRef.binary main_call13.v8 main_call13.v10 main_call13.v11 (cmpi .ne),
    StableHlo.TRef.binary main_call13.v11 main_call13.v6 main_call13.v12 andi,
    StableHlo.TRef.unary main_call13.call0.v0 main_call13.v13 (broadcastInDim S2080 ![] bcast_S_S2080),
    StableHlo.TRef.binary main_call13.v4 main_call13.v13 main_call13.v14 addi,
    StableHlo.TRef.ternary main_call13.v12 main_call13.v14 main_call13.v4 main_call13.v15 select,
    StableHlo.nullary main_c_22 (constantI S_ 32 1#32),
    StableHlo.TRef.unary ((.of main_c_22) : StableHlo.TRef sig ⟨S_, .i32⟩) main_call14.v0 (broadcastInDim S2080 ![] bcast_S_S2080),
    StableHlo.TRef.binary ((.of main_v62) : StableHlo.TRef sig ⟨S2080, .i32⟩) main_call14.v0 main_call14.v1 Host.divsi,
    StableHlo.TRef.unary ((.of main_v62) : StableHlo.TRef sig ⟨S2080, .i32⟩) main_call14.v2 signi,
    StableHlo.TRef.unary ((.of main_c_22) : StableHlo.TRef sig ⟨S_, .i32⟩) main_call14.v3 signi,
    StableHlo.TRef.unary main_call14.v3 main_call14.v4 (broadcastInDim S2080 ![] bcast_S_S2080),
    StableHlo.TRef.binary main_call14.v2 main_call14.v4 main_call14.v5 (cmpi .ne),
    StableHlo.TRef.unary ((.of main_c_22) : StableHlo.TRef sig ⟨S_, .i32⟩) main_call14.v6 (broadcastInDim S2080 ![] bcast_S_S2080),
    StableHlo.TRef.binary ((.of main_v62) : StableHlo.TRef sig ⟨S2080, .i32⟩) main_call14.v6 main_call14.v7 Host.remsi,
    StableHlo.TRef.nullary main_call14.c (constantI S_ 32 0#32),
    StableHlo.TRef.unary main_call14.c main_call14.v8 (broadcastInDim S2080 ![] bcast_S_S2080),
    StableHlo.TRef.binary main_call14.v7 main_call14.v8 main_call14.v9 (cmpi .ne),
    StableHlo.TRef.binary main_call14.v5 main_call14.v9 main_call14.v10 andi,
    StableHlo.TRef.nullary main_call14.c_0 (constantI S_ 32 1#32),
    StableHlo.TRef.unary main_call14.c_0 main_call14.v11 (broadcastInDim S2080 ![] bcast_S_S2080),
    StableHlo.TRef.binary main_call14.v1 main_call14.v11 main_call14.v12 subi,
    StableHlo.TRef.ternary (main_call14.v10 : StableHlo.TRef sig ⟨S2080, .i1⟩) (main_call14.v12 : StableHlo.TRef sig ⟨S2080, .i32⟩) (main_call14.v1 : StableHlo.TRef sig ⟨S2080, .i32⟩) main_call14.call0.v0 select,
    StableHlo.nullary main_c_23 (constantI S_ 32 64#32),
    StableHlo.TRef.unary ((.of main_c_23) : StableHlo.TRef sig ⟨S_, .i32⟩) main_call15.v0 id,
    StableHlo.TRef.nullary main_call15.c (constantI S_ 32 0#32),
    StableHlo.TRef.binary main_call15.v0 main_call15.c main_call15.v1 (cmpi .eq),
    StableHlo.TRef.nullary main_call15.c_0 (constantI S_ 32 1#32),
    StableHlo.TRef.ternary (main_call15.v1 : StableHlo.TRef sig ⟨S_, .i1⟩) (main_call15.c_0 : StableHlo.TRef sig ⟨S_, .i32⟩) (main_call15.v0 : StableHlo.TRef sig ⟨S_, .i32⟩) main_call15.call0.v0 select,
    StableHlo.TRef.unary main_call15.call0.v0 main_call15.v3 (broadcastInDim S2080 ![] bcast_S_S2080),
    StableHlo.TRef.binary ((.of main_v65) : StableHlo.TRef sig ⟨S2080, .i32⟩) main_call15.v3 main_call15.v4 Host.remsi,
    StableHlo.TRef.nullary main_call15.c_1 (constantI S_ 32 0#32),
    StableHlo.TRef.unary main_call15.c_1 main_call15.v5 (broadcastInDim S2080 ![] bcast_S_S2080),
    StableHlo.TRef.binary main_call15.v4 main_call15.v5 main_call15.v6 (cmpi .ne),
    StableHlo.TRef.nullary main_call15.c_2 (constantI S_ 32 0#32),
    StableHlo.TRef.unary main_call15.c_2 main_call15.v7 (broadcastInDim S2080 ![] bcast_S_S2080),
    StableHlo.TRef.binary main_call15.v4 main_call15.v7 main_call15.v8 (cmpi .slt),
    StableHlo.TRef.nullary main_call15.c_3 (constantI S_ 32 0#32),
    StableHlo.TRef.binary main_call15.call0.v0 main_call15.c_3 main_call15.v9 (cmpi .slt),
    StableHlo.TRef.unary main_call15.v9 main_call15.v10 (broadcastInDim S2080 ![] bcast_S_S2080),
    StableHlo.TRef.binary main_call15.v8 main_call15.v10 main_call15.v11 (cmpi .ne),
    StableHlo.TRef.binary main_call15.v11 main_call15.v6 main_call15.v12 andi,
    StableHlo.TRef.unary main_call15.call0.v0 main_call15.v13 (broadcastInDim S2080 ![] bcast_S_S2080),
    StableHlo.TRef.binary main_call15.v4 main_call15.v13 main_call15.v14 addi,
    StableHlo.TRef.ternary main_call15.v12 main_call15.v14 main_call15.v4 main_call15.v15 select ]
theorem opsI1_sub : (opsI1 : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- 31 operations. -/
abbrev opsF1 : List (HloOp τ sig (Elt F)) :=
  [ StableHlo.nullary main_c_24 (constantI S_ 32 0#32),
    StableHlo.unary main_c_24 main_v67 (broadcastInDim S2080 ![] bcast_S_S2080 : (⟨S_, .i32⟩ : BufTy).Contents (Elt F) → (⟨S2080, .i32⟩ : BufTy).Contents (Elt F)),
    StableHlo.binary main_v64 main_v67 main_v68 (cmpi .slt : (⟨S2080, .i32⟩ : BufTy).Contents (Elt F) → (⟨S2080, .i32⟩ : BufTy).Contents (Elt F) → (⟨S2080, .i1⟩ : BufTy).Contents (Elt F)),
    StableHlo.nullary main_c_25 (constantI S_ 32 64#32),
    StableHlo.unary main_c_25 main_v69 (broadcastInDim S2080 ![] bcast_S_S2080 : (⟨S_, .i32⟩ : BufTy).Contents (Elt F) → (⟨S2080, .i32⟩ : BufTy).Contents (Elt F)),
    StableHlo.binary main_v64 main_v69 main_v70 (addi : (⟨S2080, .i32⟩ : BufTy).Contents (Elt F) → (⟨S2080, .i32⟩ : BufTy).Contents (Elt F) → (⟨S2080, .i32⟩ : BufTy).Contents (Elt F)),
    StableHlo.ternary main_v68 main_v70 main_v64 main_v71 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v71 main_v72 (broadcastInDim S2080x1 ![0] bcast_S2080_S2080x1_0 : (⟨S2080, .i32⟩ : BufTy).Contents (Elt F) → (⟨S2080x1, .i32⟩ : BufTy).Contents (Elt F)),
    StableHlo.binary main_v46 main_v72 main_v73 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.nullary main_c_26 (constantI S_ 32 0#32),
    StableHlo.unary main_c_26 main_v74 (broadcastInDim S2080 ![] bcast_S_S2080 : (⟨S_, .i32⟩ : BufTy).Contents (Elt F) → (⟨S2080, .i32⟩ : BufTy).Contents (Elt F)),
    StableHlo.binary main_v66 main_v74 main_v75 (cmpi .slt : (⟨S2080, .i32⟩ : BufTy).Contents (Elt F) → (⟨S2080, .i32⟩ : BufTy).Contents (Elt F) → (⟨S2080, .i1⟩ : BufTy).Contents (Elt F)),
    StableHlo.nullary main_c_27 (constantI S_ 32 64#32),
    StableHlo.unary main_c_27 main_v76 (broadcastInDim S2080 ![] bcast_S_S2080 : (⟨S_, .i32⟩ : BufTy).Contents (Elt F) → (⟨S2080, .i32⟩ : BufTy).Contents (Elt F)),
    StableHlo.binary main_v66 main_v76 main_v77 (addi : (⟨S2080, .i32⟩ : BufTy).Contents (Elt F) → (⟨S2080, .i32⟩ : BufTy).Contents (Elt F) → (⟨S2080, .i32⟩ : BufTy).Contents (Elt F)),
    StableHlo.ternary main_v75 main_v77 main_v66 main_v78 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v78 main_v79 (broadcastInDim S2080x1 ![0] bcast_S2080_S2080x1_0 : (⟨S2080, .i32⟩ : BufTy).Contents (Elt F) → (⟨S2080x1, .i32⟩ : BufTy).Contents (Elt F)),
    StableHlo.binary main_v46 main_v79 main_v80 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.binary main_v73 main_v80 main_v81 (mulf : (⟨S1024x2080, .f32⟩ : BufTy).Contents (Elt F) → (⟨S1024x2080, .f32⟩ : BufTy).Contents (Elt F) → (⟨S1024x2080, .f32⟩ : BufTy).Contents (Elt F)),
    StableHlo.unary main_v46 main_v82 (broadcastInDim S1024x64x1 ![0, 1] bcast_S1024x64_S1024x64x1_0_1 : (⟨S1024x64, .f32⟩ : BufTy).Contents (Elt F) → (⟨S1024x64x1, .f32⟩ : BufTy).Contents (Elt F)),
    StableHlo.unary main_v81 main_v83 (broadcastInDim S1024x1x2080 ![0, 2] bcast_S1024x2080_S1024x1x2080_0_2 : (⟨S1024x2080, .f32⟩ : BufTy).Contents (Elt F) → (⟨S1024x1x2080, .f32⟩ : BufTy).Contents (Elt F)),
    StableHlo.unary main_v82 main_v84 (broadcastInDim S1024x64x2080 ![0, 1, 2] bcast_S1024x64x1_S1024x64x2080_0_1_2 : (⟨S1024x64x1, .f32⟩ : BufTy).Contents (Elt F) → (⟨S1024x64x2080, .f32⟩ : BufTy).Contents (Elt F)),
    StableHlo.unary main_v83 main_v85 (broadcastInDim S1024x64x2080 ![0, 1, 2] bcast_S1024x1x2080_S1024x64x2080_0_1_2 : (⟨S1024x1x2080, .f32⟩ : BufTy).Contents (Elt F) → (⟨S1024x64x2080, .f32⟩ : BufTy).Contents (Elt F)),
    StableHlo.binary main_v84 main_v85 main_v86 (mulf : (⟨S1024x64x2080, .f32⟩ : BufTy).Contents (Elt F) → (⟨S1024x64x2080, .f32⟩ : BufTy).Contents (Elt F) → (⟨S1024x64x2080, .f32⟩ : BufTy).Contents (Elt F)),
    StableHlo.reshape main_v86 main_v87 rfl shapeCasts_S1024x64x2080_S1024x133120,
    StableHlo.nary ![main_v46, main_v81, main_v87] main_v88 (fun u => concatenate S1024x135264 1 [⟨S1024x64, u 0⟩, ⟨S1024x2080, u 1⟩, ⟨S1024x133120, u 2⟩] concatenates_S1024x64_S1024x2080_S1024x133120_S1024x135264_d1),
    StableHlo.unary main_arg3 main_v89 ((transpose S135264x64 [1, 0] · transposes_S64x135264_S135264x64_1_0) : (⟨S64x135264, .f32⟩ : BufTy).Contents (Elt F) → (⟨S135264x64, .f32⟩ : BufTy).Contents (Elt F)),
    StableHlo.binary main_v88 main_v89 main_v90 ((fun l r => Host.dotGeneral dot_S1024x135264_S135264x64_S1024x64_1_0_0_1_n_n none l r) : (⟨S1024x135264, .f32⟩ : BufTy).Contents (Elt F) → (⟨S135264x64, .f32⟩ : BufTy).Contents (Elt F) → (⟨S1024x64, .f32⟩ : BufTy).Contents (Elt F)),
    StableHlo.unary main_arg4 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S1024x64 ![0, 1] bcast_S1x64_S1024x64_0_1 : (⟨S1x64, .f32⟩ : BufTy).Contents (Elt F) → (⟨S1024x64, .f32⟩ : BufTy).Contents (Elt F)),
    StableHlo.binary main_v90 main_v92 main_v93 (addf : (⟨S1024x64, .f32⟩ : BufTy).Contents (Elt F) → (⟨S1024x64, .f32⟩ : BufTy).Contents (Elt F) → (⟨S1024x64, .f32⟩ : BufTy).Contents (Elt F)) ]
theorem opsF1_sub : (opsF1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.nary_bufs_sub .., StableHlo.unary_bufs_sub .., StableHlo.binary_bufs_sub .., StableHlo.unary_bufs_sub .., StableHlo.unary_bufs_sub .., StableHlo.binary_bufs_sub ..⟩

/-- 117 operations. -/
abbrev opsI2 : List (HloOp τ sig (Elt F)) :=
  [ StableHlo.nullary main_cst_28 (constant S_ .f32 0x3F800000#32),
    StableHlo.unary main_cst_28 main_v94 (broadcastInDim S64x64 ![] bcast_S_S64x64 : (⟨S_, .f32⟩ : BufTy).Contents (Elt F) → (⟨S64x64, .f32⟩ : BufTy).Contents (Elt F)),
    StableHlo.TRef.nullary main_call16.v0 (iotaInDim S64x64 32 0),
    StableHlo.TRef.nullary main_call16.c (constantI S_ 32 4294967295#32),
    StableHlo.TRef.unary main_call16.c main_call16.v1 (broadcastInDim S64x64 ![] bcast_S_S64x64),
    StableHlo.TRef.binary main_call16.v0 main_call16.v1 main_call16.v2 addi,
    StableHlo.TRef.nullary main_call16.v3 (iotaInDim S64x64 32 1),
    StableHlo.TRef.binary main_call16.v2 main_call16.v3 main_call16.v4 (cmpi .sge),
    StableHlo.TRef.nullary main_call16.cst (constant S_ .f32 0x00000000#32),
    StableHlo.TRef.unary main_call16.cst main_call16.v5 (broadcastInDim S64x64 ![] bcast_S_S64x64),
    StableHlo.TRef.ternary main_call16.v4 main_call16.v5 ((.of main_v94) : StableHlo.TRef sig ⟨S64x64, .f32⟩) main_call16.v6 select,
    StableHlo.nullary main_cst_29 (constant S_ .f32 0x00000000#32),
    StableHlo.unary main_cst_29 main_v96 (broadcastInDim S64x64 ![] bcast_S_S64x64 : (⟨S_, .f32⟩ : BufTy).Contents (Elt F) → (⟨S64x64, .f32⟩ : BufTy).Contents (Elt F)),
    StableHlo.binary main_v95 main_v96 main_v97 (cmpf .une : (⟨S64x64, .f32⟩ : BufTy).Contents (Elt F) → (⟨S64x64, .f32⟩ : BufTy).Contents (Elt F) → (⟨S64x64, .i1⟩ : BufTy).Contents (Elt F)),
    StableHlo.TRef.reshape ((.of main_v97) : StableHlo.TRef sig ⟨S64x64, .i1⟩) main_call17.v0 rfl shapeCasts_S64x64_S4096,
    StableHlo.TRef.unary main_call17.v0 main_call17.v1 (extui 32 · natLt_1_32),
    StableHlo.TRef.nullary main_call17.call0.c (constantI S_ 32 0#32),
    StableHlo.TRef.unary main_call17.call0.c main_call17.call0.v0 (broadcastInDim S_ ![] bcast_S_S_),
    StableHlo.TRef.binary (main_call17.v1 : StableHlo.TRef sig ⟨S4096, .i32⟩) main_call17.call0.v0 main_call17.call0.v1 (fun x v => Host.reduceWindow IntOp.addi ![4096] ![1] ![4095] ![0] x v reduceWindows_S4096_S4096_w4096s1p4095_0 h_S_),
    StableHlo.nullary main_c_30 (constantI S_ 32 0#32),
    StableHlo.unary main_c_30 main_v99 (broadcastInDim S2080 ![] bcast_S_S2080 : (⟨S_, .i32⟩ : BufTy).Contents (Elt F) → (⟨S2080, .i32⟩ : BufTy).Contents (Elt F)),
    StableHlo.nullary main_c_31 (constantI S_ 32 0#32),
    StableHlo.TRef.unary ((.of main_c_31) : StableHlo.TRef sig ⟨S_, .i32⟩) main_call18.v0 id,
    StableHlo.TRef.unary main_call18.v0 main_call18.v1 (broadcastInDim S4096 ![] bcast_S_S4096),
    StableHlo.TRef.binary main_call18.v1 ((.of main_v98) : StableHlo.TRef sig ⟨S4096, .i32⟩) main_call18.v2 maxsi,
    StableHlo.nullary main_c_32 (constantI S_ 32 0#32),
    StableHlo.unary main_c_32 main_v101 (broadcastInDim S4096 ![] bcast_S_S4096 : (⟨S_, .i32⟩ : BufTy).Contents (Elt F) → (⟨S4096, .i32⟩ : BufTy).Contents (Elt F)),
    StableHlo.binary main_v100 main_v101 main_v102 (cmpi .slt : (⟨S4096, .i32⟩ : BufTy).Contents (Elt F) → (⟨S4096, .i32⟩ : BufTy).Contents (Elt F) → (⟨S4096, .i1⟩ : BufTy).Contents (Elt F)),
    StableHlo.nullary main_c_33 (constantI S_ 32 2080#32),
    StableHlo.unary main_c_33 main_v103 (broadcastInDim S4096 ![] bcast_S_S4096 : (⟨S_, .i32⟩ : BufTy).Contents (Elt F) → (⟨S4096, .i32⟩ : BufTy).Contents (Elt F)),
    StableHlo.binary main_v100 main_v103 main_v104 (addi : (⟨S4096, .i32⟩ : BufTy).Contents (Elt F) → (⟨S4096, .i32⟩ : BufTy).Contents (Elt F) → (⟨S4096, .i32⟩ : BufTy).Contents (Elt F)),
    StableHlo.ternary main_v102 main_v104 main_v100 main_v105 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v105 main_v106 (broadcastInDim S4096x1 ![0] bcast_S4096_S4096x1_0 : (⟨S4096, .i32⟩ : BufTy).Contents (Elt F) → (⟨S4096x1, .i32⟩ : BufTy).Contents (Elt F)),
    StableHlo.nullary main_c_34 (constantI S_ 32 1#32),
    StableHlo.unary main_c_34 main_v107 (broadcastInDim S4096 ![] bcast_S_S4096 : (⟨S_, .i32⟩ : BufTy).Contents (Elt F) → (⟨S4096, .i32⟩ : BufTy).Contents (Elt F)),
    StableHlo.ternary main_v99 main_v106 main_v107 main_v108 ((fun x i u => Host.scatter scatter_S2080_S4096x1_S4096_n_0_0_1 IntOp.addi x i u) : (⟨S2080, .i32⟩ : BufTy).Contents (Elt F) → (⟨S4096x1, .i32⟩ : BufTy).Contents (Elt F) → (⟨S4096, .i32⟩ : BufTy).Contents (Elt F) → (⟨S2080, .i32⟩ : BufTy).Contents (Elt F)),
    StableHlo.TRef.nullary main_call19.call0.c (constantI S_ 32 0#32),
    StableHlo.TRef.unary main_call19.call0.c main_call19.call0.v0 (broadcastInDim S_ ![] bcast_S_S_),
    StableHlo.TRef.binary (((.of main_v108) : StableHlo.TRef sig ⟨S2080, .i32⟩) : StableHlo.TRef sig ⟨S2080, .i32⟩) main_call19.call0.v0 main_call19.call0.v1 (fun x v => Host.reduceWindow IntOp.addi ![2080] ![1] ![2079] ![0] x v reduceWindows_S2080_S2080_w2080s1p2079_0 h_S_),
    StableHlo.nullary main_c_35 (constantI S_ 32 64#32),
    StableHlo.TRef.unary ((.of main_c_35) : StableHlo.TRef sig ⟨S_, .i32⟩) main_call20.v0 (broadcastInDim S2080 ![] bcast_S_S2080),
    StableHlo.TRef.binary ((.of main_v109) : StableHlo.TRef sig ⟨S2080, .i32⟩) main_call20.v0 main_call20.v1 Host.divsi,
    StableHlo.TRef.unary ((.of main_v109) : StableHlo.TRef sig ⟨S2080, .i32⟩) main_call20.v2 signi,
    StableHlo.TRef.unary ((.of main_c_35) : StableHlo.TRef sig ⟨S_, .i32⟩) main_call20.v3 signi,
    StableHlo.TRef.unary main_call20.v3 main_call20.v4 (broadcastInDim S2080 ![] bcast_S_S2080),
    StableHlo.TRef.binary main_call20.v2 main_call20.v4 main_call20.v5 (cmpi .ne),
    StableHlo.TRef.unary ((.of main_c_35) : StableHlo.TRef sig ⟨S_, .i32⟩) main_call20.v6 (broadcastInDim S2080 ![] bcast_S_S2080),
    StableHlo.TRef.binary ((.of main_v109) : StableHlo.TRef sig ⟨S2080, .i32⟩) main_call20.v6 main_call20.v7 Host.remsi,
    StableHlo.TRef.nullary main_call20.c (constantI S_ 32 0#32),
    StableHlo.TRef.unary main_call20.c main_call20.v8 (broadcastInDim S2080 ![] bcast_S_S2080),
    StableHlo.TRef.binary main_call20.v7 main_call20.v8 main_call20.v9 (cmpi .ne),
    StableHlo.TRef.binary main_call20.v5 main_call20.v9 main_call20.v10 andi,
    StableHlo.TRef.nullary main_call20.c_0 (constantI S_ 32 1#32),
    StableHlo.TRef.unary main_call20.c_0 main_call20.v11 (broadcastInDim S2080 ![] bcast_S_S2080),
    StableHlo.TRef.binary main_call20.v1 main_call20.v11 main_call20.v12 subi,
    StableHlo.TRef.ternary (main_call20.v10 : StableHlo.TRef sig ⟨S2080, .i1⟩) (main_call20.v12 : StableHlo.TRef sig ⟨S2080, .i32⟩) (main_call20.v1 : StableHlo.TRef sig ⟨S2080, .i32⟩) main_call20.call0.v0 select,
    StableHlo.nullary main_c_36 (constantI S_ 32 64#32),
    StableHlo.TRef.unary ((.of main_c_36) : StableHlo.TRef sig ⟨S_, .i32⟩) main_call21.v0 id,
    StableHlo.TRef.nullary main_call21.c (constantI S_ 32 0#32),
    StableHlo.TRef.binary main_call21.v0 main_call21.c main_call21.v1 (cmpi .eq),
    StableHlo.TRef.nullary main_call21.c_0 (constantI S_ 32 1#32),
    StableHlo.TRef.ternary (main_call21.v1 : StableHlo.TRef sig ⟨S_, .i1⟩) (main_call21.c_0 : StableHlo.TRef sig ⟨S_, .i32⟩) (main_call21.v0 : StableHlo.TRef sig ⟨S_, .i32⟩) main_call21.call0.v0 select,
    StableHlo.TRef.unary main_call21.call0.v0 main_call21.v3 (broadcastInDim S2080 ![] bcast_S_S2080),
    StableHlo.TRef.binary ((.of main_v110) : StableHlo.TRef sig ⟨S2080, .i32⟩) main_call21.v3 main_call21.v4 Host.remsi,
    StableHlo.TRef.nullary main_call21.c_1 (constantI S_ 32 0#32),
    StableHlo.TRef.unary main_call21.c_1 main_call21.v5 (broadcastInDim S2080 ![] bcast_S_S2080),
    StableHlo.TRef.binary main_call21.v4 main_call21.v5 main_call21.v6 (cmpi .ne),
    StableHlo.TRef.nullary main_call21.c_2 (constantI S_ 32 0#32),
    StableHlo.TRef.unary main_call21.c_2 main_call21.v7 (broadcastInDim S2080 ![] bcast_S_S2080),
    StableHlo.TRef.binary main_call21.v4 main_call21.v7 main_call21.v8 (cmpi .slt),
    StableHlo.TRef.nullary main_call21.c_3 (constantI S_ 32 0#32),
    StableHlo.TRef.binary main_call21.call0.v0 main_call21.c_3 main_call21.v9 (cmpi .slt),
    StableHlo.TRef.unary main_call21.v9 main_call21.v10 (broadcastInDim S2080 ![] bcast_S_S2080),
    StableHlo.TRef.binary main_call21.v8 main_call21.v10 main_call21.v11 (cmpi .ne),
    StableHlo.TRef.binary main_call21.v11 main_call21.v6 main_call21.v12 andi,
    StableHlo.TRef.unary main_call21.call0.v0 main_call21.v13 (broadcastInDim S2080 ![] bcast_S_S2080),
    StableHlo.TRef.binary main_call21.v4 main_call21.v13 main_call21.v14 addi,
    StableHlo.TRef.ternary main_call21.v12 main_call21.v14 main_call21.v4 main_call21.v15 select,
    StableHlo.nullary main_c_37 (constantI S_ 32 1#32),
    StableHlo.TRef.unary ((.of main_c_37) : StableHlo.TRef sig ⟨S_, .i32⟩) main_call22.v0 (broadcastInDim S2080 ![] bcast_S_S2080),
    StableHlo.TRef.binary ((.of main_v109) : StableHlo.TRef sig ⟨S2080, .i32⟩) main_call22.v0 main_call22.v1 Host.divsi,
    StableHlo.TRef.unary ((.of main_v109) : StableHlo.TRef sig ⟨S2080, .i32⟩) main_call22.v2 signi,
    StableHlo.TRef.unary ((.of main_c_37) : StableHlo.TRef sig ⟨S_, .i32⟩) main_call22.v3 signi,
    StableHlo.TRef.unary main_call22.v3 main_call22.v4 (broadcastInDim S2080 ![] bcast_S_S2080),
    StableHlo.TRef.binary main_call22.v2 main_call22.v4 main_call22.v5 (cmpi .ne),
    StableHlo.TRef.unary ((.of main_c_37) : StableHlo.TRef sig ⟨S_, .i32⟩) main_call22.v6 (broadcastInDim S2080 ![] bcast_S_S2080),
    StableHlo.TRef.binary ((.of main_v109) : StableHlo.TRef sig ⟨S2080, .i32⟩) main_call22.v6 main_call22.v7 Host.remsi,
    StableHlo.TRef.nullary main_call22.c (constantI S_ 32 0#32),
    StableHlo.TRef.unary main_call22.c main_call22.v8 (broadcastInDim S2080 ![] bcast_S_S2080),
    StableHlo.TRef.binary main_call22.v7 main_call22.v8 main_call22.v9 (cmpi .ne),
    StableHlo.TRef.binary main_call22.v5 main_call22.v9 main_call22.v10 andi,
    StableHlo.TRef.nullary main_call22.c_0 (constantI S_ 32 1#32),
    StableHlo.TRef.unary main_call22.c_0 main_call22.v11 (broadcastInDim S2080 ![] bcast_S_S2080),
    StableHlo.TRef.binary main_call22.v1 main_call22.v11 main_call22.v12 subi,
    StableHlo.TRef.ternary (main_call22.v10 : StableHlo.TRef sig ⟨S2080, .i1⟩) (main_call22.v12 : StableHlo.TRef sig ⟨S2080, .i32⟩) (main_call22.v1 : StableHlo.TRef sig ⟨S2080, .i32⟩) main_call22.call0.v0 select,
    StableHlo.nullary main_c_38 (constantI S_ 32 64#32),
    StableHlo.TRef.unary ((.of main_c_38) : StableHlo.TRef sig ⟨S_, .i32⟩) main_call23.v0 id,
    StableHlo.TRef.nullary main_call23.c (constantI S_ 32 0#32),
    StableHlo.TRef.binary main_call23.v0 main_call23.c main_call23.v1 (cmpi .eq),
    StableHlo.TRef.nullary main_call23.c_0 (constantI S_ 32 1#32),
    StableHlo.TRef.ternary (main_call23.v1 : StableHlo.TRef sig ⟨S_, .i1⟩) (main_call23.c_0 : StableHlo.TRef sig ⟨S_, .i32⟩) (main_call23.v0 : StableHlo.TRef sig ⟨S_, .i32⟩) main_call23.call0.v0 select,
    StableHlo.TRef.unary main_call23.call0.v0 main_call23.v3 (broadcastInDim S2080 ![] bcast_S_S2080),
    StableHlo.TRef.binary ((.of main_v112) : StableHlo.TRef sig ⟨S2080, .i32⟩) main_call23.v3 main_call23.v4 Host.remsi,
    StableHlo.TRef.nullary main_call23.c_1 (constantI S_ 32 0#32),
    StableHlo.TRef.unary main_call23.c_1 main_call23.v5 (broadcastInDim S2080 ![] bcast_S_S2080),
    StableHlo.TRef.binary main_call23.v4 main_call23.v5 main_call23.v6 (cmpi .ne),
    StableHlo.TRef.nullary main_call23.c_2 (constantI S_ 32 0#32),
    StableHlo.TRef.unary main_call23.c_2 main_call23.v7 (broadcastInDim S2080 ![] bcast_S_S2080),
    StableHlo.TRef.binary main_call23.v4 main_call23.v7 main_call23.v8 (cmpi .slt),
    StableHlo.TRef.nullary main_call23.c_3 (constantI S_ 32 0#32),
    StableHlo.TRef.binary main_call23.call0.v0 main_call23.c_3 main_call23.v9 (cmpi .slt),
    StableHlo.TRef.unary main_call23.v9 main_call23.v10 (broadcastInDim S2080 ![] bcast_S_S2080),
    StableHlo.TRef.binary main_call23.v8 main_call23.v10 main_call23.v11 (cmpi .ne),
    StableHlo.TRef.binary main_call23.v11 main_call23.v6 main_call23.v12 andi,
    StableHlo.TRef.unary main_call23.call0.v0 main_call23.v13 (broadcastInDim S2080 ![] bcast_S_S2080),
    StableHlo.TRef.binary main_call23.v4 main_call23.v13 main_call23.v14 addi,
    StableHlo.TRef.ternary main_call23.v12 main_call23.v14 main_call23.v4 main_call23.v15 select ]
theorem opsI2_sub : (opsI2 : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

/-- 31 operations. -/
abbrev opsF2 : List (HloOp τ sig (Elt F)) :=
  [ StableHlo.nullary main_c_39 (constantI S_ 32 0#32),
    StableHlo.unary main_c_39 main_v114 (broadcastInDim S2080 ![] bcast_S_S2080 : (⟨S_, .i32⟩ : BufTy).Contents (Elt F) → (⟨S2080, .i32⟩ : BufTy).Contents (Elt F)),
    StableHlo.binary main_v111 main_v114 main_v115 (cmpi .slt : (⟨S2080, .i32⟩ : BufTy).Contents (Elt F) → (⟨S2080, .i32⟩ : BufTy).Contents (Elt F) → (⟨S2080, .i1⟩ : BufTy).Contents (Elt F)),
    StableHlo.nullary main_c_40 (constantI S_ 32 64#32),
    StableHlo.unary main_c_40 main_v116 (broadcastInDim S2080 ![] bcast_S_S2080 : (⟨S_, .i32⟩ : BufTy).Contents (Elt F) → (⟨S2080, .i32⟩ : BufTy).Contents (Elt F)),
    StableHlo.binary main_v111 main_v116 main_v117 (addi : (⟨S2080, .i32⟩ : BufTy).Contents (Elt F) → (⟨S2080, .i32⟩ : BufTy).Contents (Elt F) → (⟨S2080, .i32⟩ : BufTy).Contents (Elt F)),
    StableHlo.ternary main_v115 main_v117 main_v111 main_v118 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v118 main_v119 (broadcastInDim S2080x1 ![0] bcast_S2080_S2080x1_0 : (⟨S2080, .i32⟩ : BufTy).Contents (Elt F) → (⟨S2080x1, .i32⟩ : BufTy).Contents (Elt F)),
    StableHlo.binary main_v93 main_v119 main_v120 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.nullary main_c_41 (constantI S_ 32 0#32),
    StableHlo.unary main_c_41 main_v121 (broadcastInDim S2080 ![] bcast_S_S2080 : (⟨S_, .i32⟩ : BufTy).Contents (Elt F) → (⟨S2080, .i32⟩ : BufTy).Contents (Elt F)),
    StableHlo.binary main_v113 main_v121 main_v122 (cmpi .slt : (⟨S2080, .i32⟩ : BufTy).Contents (Elt F) → (⟨S2080, .i32⟩ : BufTy).Contents (Elt F) → (⟨S2080, .i1⟩ : BufTy).Contents (Elt F)),
    StableHlo.nullary main_c_42 (constantI S_ 32 64#32),
    StableHlo.unary main_c_42 main_v123 (broadcastInDim S2080 ![] bcast_S_S2080 : (⟨S_, .i32⟩ : BufTy).Contents (Elt F) → (⟨S2080, .i32⟩ : BufTy).Contents (Elt F)),
    StableHlo.binary main_v113 main_v123 main_v124 (addi : (⟨S2080, .i32⟩ : BufTy).Contents (Elt F) → (⟨S2080, .i32⟩ : BufTy).Contents (Elt F) → (⟨S2080, .i32⟩ : BufTy).Contents (Elt F)),
    StableHlo.ternary main_v122 main_v124 main_v113 main_v125 (select : (⟨S2080, .i1⟩ : BufTy).Contents (Elt F) → (⟨S2080, .i32⟩ : BufTy).Contents (Elt F) → (⟨S2080, .i32⟩ : BufTy).Contents (Elt F) → (⟨S2080, .i32⟩ : BufTy).Contents (Elt F)),
    StableHlo.unary main_v125 main_v126 (broadcastInDim S2080x1 ![0] bcast_S2080_S2080x1_0 : (⟨S2080, .i32⟩ : BufTy).Contents (Elt F) → (⟨S2080x1, .i32⟩ : BufTy).Contents (Elt F)),
    StableHlo.binary main_v93 main_v126 main_v127 ((fun x i => Host.gather gather_S1024x64_S2080x1_S1024x2080_0_1_n_n_1_1_10241 x i) : (⟨S1024x64, .f32⟩ : BufTy).Contents (Elt F) → (⟨S2080x1, .i32⟩ : BufTy).Contents (Elt F) → (⟨S1024x2080, .f32⟩ : BufTy).Contents (Elt F)),
    StableHlo.binary main_v120 main_v127 main_v128 (mulf : (⟨S1024x2080, .f32⟩ : BufTy).Contents (Elt F) → (⟨S1024x2080, .f32⟩ : BufTy).Contents (Elt F) → (⟨S1024x2080, .f32⟩ : BufTy).Contents (Elt F)),
    StableHlo.unary main_v93 main_v129 (broadcastInDim S1024x64x1 ![0, 1] bcast_S1024x64_S1024x64x1_0_1 : (⟨S1024x64, .f32⟩ : BufTy).Contents (Elt F) → (⟨S1024x64x1, .f32⟩ : BufTy).Contents (Elt F)),
    StableHlo.unary main_v128 main_v130 (broadcastInDim S1024x1x2080 ![0, 2] bcast_S1024x2080_S1024x1x2080_0_2 : (⟨S1024x2080, .f32⟩ : BufTy).Contents (Elt F) → (⟨S1024x1x2080, .f32⟩ : BufTy).Contents (Elt F)),
    StableHlo.unary main_v129 main_v131 (broadcastInDim S1024x64x2080 ![0, 1, 2] bcast_S1024x64x1_S1024x64x2080_0_1_2 : (⟨S1024x64x1, .f32⟩ : BufTy).Contents (Elt F) → (⟨S1024x64x2080, .f32⟩ : BufTy).Contents (Elt F)),
    StableHlo.unary main_v130 main_v132 (broadcastInDim S1024x64x2080 ![0, 1, 2] bcast_S1024x1x2080_S1024x64x2080_0_1_2 : (⟨S1024x1x2080, .f32⟩ : BufTy).Contents (Elt F) → (⟨S1024x64x2080, .f32⟩ : BufTy).Contents (Elt F)),
    StableHlo.binary main_v131 main_v132 main_v133 (mulf : (⟨S1024x64x2080, .f32⟩ : BufTy).Contents (Elt F) → (⟨S1024x64x2080, .f32⟩ : BufTy).Contents (Elt F) → (⟨S1024x64x2080, .f32⟩ : BufTy).Contents (Elt F)),
    StableHlo.reshape main_v133 main_v134 rfl shapeCasts_S1024x64x2080_S1024x133120,
    StableHlo.nary ![main_v93, main_v128, main_v134] main_v135 (fun u => concatenate S1024x135264 1 [⟨S1024x64, u 0⟩, ⟨S1024x2080, u 1⟩, ⟨S1024x133120, u 2⟩] concatenates_S1024x64_S1024x2080_S1024x133120_S1024x135264_d1),
    StableHlo.unary main_arg5 main_v136 ((transpose S135264x10 [1, 0] · transposes_S10x135264_S135264x10_1_0) : (⟨S10x135264, .f32⟩ : BufTy).Contents (Elt F) → (⟨S135264x10, .f32⟩ : BufTy).Contents (Elt F)),
    StableHlo.binary main_v135 main_v136 main_v137 ((fun l r => Host.dotGeneral dot_S1024x135264_S135264x10_S1024x10_1_0_0_1_n_n none l r) : (⟨S1024x135264, .f32⟩ : BufTy).Contents (Elt F) → (⟨S135264x10, .f32⟩ : BufTy).Contents (Elt F) → (⟨S1024x10, .f32⟩ : BufTy).Contents (Elt F)),
    StableHlo.unary main_arg6 main_v138 (broadcastInDim S1x10 ![1] bcast_S10_S1x10_1 : (⟨S10, .f32⟩ : BufTy).Contents (Elt F) → (⟨S1x10, .f32⟩ : BufTy).Contents (Elt F)),
    StableHlo.unary main_v138 main_v139 (broadcastInDim S1024x10 ![0, 1] bcast_S1x10_S1024x10_0_1 : (⟨S1x10, .f32⟩ : BufTy).Contents (Elt F) → (⟨S1024x10, .f32⟩ : BufTy).Contents (Elt F)),
    StableHlo.binary main_v137 main_v139 main_v140 (addf : (⟨S1024x10, .f32⟩ : BufTy).Contents (Elt F) → (⟨S1024x10, .f32⟩ : BufTy).Contents (Elt F) → (⟨S1024x10, .f32⟩ : BufTy).Contents (Elt F)) ]
theorem opsF2_sub : (opsF2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.nary_bufs_sub .., StableHlo.unary_bufs_sub .., StableHlo.binary_bufs_sub .., StableHlo.unary_bufs_sub .., StableHlo.unary_bufs_sub .., StableHlo.binary_bufs_sub ..⟩

end Cert.ReferenceIdeal.RefRun

end
-- ==== Proof.RefRun.lean ====
/-
  The reference program's run: @main is the straight line of its host operations (every called function's
  lines at its call), so every weakly fair execution terminates with each buffer at the fold of the
  operations' results over the launch contents.
-/
import proofs.«120368_j16587163697192_2_alg».proof.Proof.RefOps

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

set_option maxRecDepth 65536 in
set_option maxHeartbeats 4000000 in
/-- Window 0 of @main is its operations in order: the called functions unfolded at their calls, the
    sequencing reassociated. -/
theorem part0_eq (c : Dev nD) : main_part0 (F := F) c = seq opsP0 := by
  simp only [main_part0, fn_triu.body, fn_cumsum_0.body, fn_cumsum.body, fn_clip.body, fn_cumsum_2.body, fn_cumsum_1.body,
    fn_where.body, fn_floor_divide.body, fn_where_3.body, fn_remainder.body, seq, bind_assoc, pure_bind]
  rfl

set_option maxRecDepth 65536 in
set_option maxHeartbeats 4000000 in
theorem part1_eq (c : Dev nD) : main_part1 (F := F) c = seq opsP1 := by
  simp only [main_part1, fn_triu.body, fn_cumsum_0.body, fn_cumsum.body, fn_clip.body, fn_cumsum_2.body, fn_cumsum_1.body,
    fn_where.body, fn_floor_divide.body, fn_where_3.body, fn_remainder.body, seq, bind_assoc, pure_bind]
  rfl

set_option maxRecDepth 65536 in
set_option maxHeartbeats 4000000 in
theorem part2_eq (c : Dev nD) : main_part2 (F := F) c = seq opsP2 := by
  simp only [main_part2, fn_triu.body, fn_cumsum_0.body, fn_cumsum.body, fn_clip.body, fn_cumsum_2.body, fn_cumsum_1.body,
    fn_where.body, fn_floor_divide.body, fn_where_3.body, fn_remainder.body, seq, bind_assoc, pure_bind]
  rfl

set_option maxRecDepth 65536 in
theorem part3_eq (c : Dev nD) : main_part3 (F := F) c = seq opsP3 := by
  simp only [main_part3, seq, bind_assoc, pure_bind]

/-- All of @main's operations, window after window. -/
abbrev ops : List (HloOp τ sig (Elt F)) := opsP0 ++ (opsP1 ++ (opsP2 ++ opsP3))

theorem main_eq (c : Dev nD) : main (F := F) c = seq ops := by
  unfold main ops
  rw [seq_append, seq_append, seq_append, part0_eq, part1_eq, part2_eq, part3_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsP0_sub, List.forall_append.mpr ⟨opsP1_sub, List.forall_append.mpr ⟨opsP2_sub, opsP3_sub⟩⟩⟩

theorem opsP0_fresh : (opsP0 : List (HloOp τ sig (Elt F))).Forall fun op => op.fresh = ∅ := by
  simp only [List.Forall]; repeat' constructor
theorem opsP1_fresh : (opsP1 : List (HloOp τ sig (Elt F))).Forall fun op => op.fresh = ∅ := by
  simp only [List.Forall]; repeat' constructor
theorem opsP2_fresh : (opsP2 : List (HloOp τ sig (Elt F))).Forall fun op => op.fresh = ∅ := by
  simp only [List.Forall]; repeat' constructor
theorem opsP3_fresh : (opsP3 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp (List.forall_append.mpr ⟨opsP0_fresh, List.forall_append.mpr ⟨opsP1_fresh,
    List.forall_append.mpr ⟨opsP2_fresh, opsP3_fresh⟩⟩⟩)

/-- From any memory with zero counters every weakly fair execution of @main terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.IdxSame0.lean ====
/-
  The two vectors of column numbers (the index pairs of the upper triangle) that layer 0 gathers by are computed by the
  same integer host lines, from no argument, in the idealized kernel program and in the reference: the two programs
  leave the same vectors.
-/
import proofs.«120368_j16587163697192_2_alg».proof.Proof.Gen.KernelIdeal.Frame
import proofs.«120368_j16587163697192_2_alg».proof.Proof.RefRun
import Idealize.ShloMosaic.PureOps.Ideal

set_option maxRecDepth 65536
set_option maxHeartbeats 4000000

noncomputable section

namespace Cert.IdxSame

open Idealize.ShloMosaic Idealize.ShloMosaic.TcCoe Idealize.SL.Sem
open Idealize.ShloMosaic.StableHlo

theorem u0 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (U : Valuation Cert.ReferenceIdeal.τ Cert.ReferenceIdeal.sig (Elt Ideal)) :
    (Cert.KernelIdeal.Gen.W16 (F := Ideal) m ρ c (Proc.devRef .tc Cert.KernelIdeal.main_v17) : IVec Cert.KernelIdeal.S2080 32)
      = (after (Cert.ReferenceIdeal.RefRun.opsI0 (F := Ideal)) U (Proc.devRef .tc Cert.ReferenceIdeal.main_v17) : IVec Cert.ReferenceIdeal.S2080 32) := by
  dsimp only [Cert.KernelIdeal.Gen.W16, Cert.KernelIdeal.Gen.W15, Cert.KernelIdeal.Gen.W14, Cert.KernelIdeal.Gen.W13, Cert.KernelIdeal.Gen.W12, Cert.KernelIdeal.Gen.W11, Cert.KernelIdeal.Gen.W10, Cert.KernelIdeal.Gen.W9, Cert.KernelIdeal.Gen.W8, Cert.KernelIdeal.Gen.W7, Cert.KernelIdeal.Gen.W6, Cert.KernelIdeal.Gen.W5, Cert.KernelIdeal.Gen.W4, Cert.KernelIdeal.Gen.W3, Cert.KernelIdeal.Gen.W2, Cert.KernelIdeal.Gen.W1]
  after_results_simp
  rfl

theorem v0 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (U : Valuation Cert.ReferenceIdeal.τ Cert.ReferenceIdeal.sig (Elt Ideal)) :
    (Cert.KernelIdeal.Gen.W16 (F := Ideal) m ρ c (Proc.devRef .tc Cert.KernelIdeal.main_v19) : IVec Cert.KernelIdeal.S2080 32)
      = (after (Cert.ReferenceIdeal.RefRun.opsI0 (F := Ideal)) U (Proc.devRef .tc Cert.ReferenceIdeal.main_v19) : IVec Cert.ReferenceIdeal.S2080 32) := by
  dsimp only [Cert.KernelIdeal.Gen.W16, Cert.KernelIdeal.Gen.W15, Cert.KernelIdeal.Gen.W14, Cert.KernelIdeal.Gen.W13, Cert.KernelIdeal.Gen.W12, Cert.KernelIdeal.Gen.W11, Cert.KernelIdeal.Gen.W10, Cert.KernelIdeal.Gen.W9, Cert.KernelIdeal.Gen.W8, Cert.KernelIdeal.Gen.W7, Cert.KernelIdeal.Gen.W6, Cert.KernelIdeal.Gen.W5, Cert.KernelIdeal.Gen.W4, Cert.KernelIdeal.Gen.W3, Cert.KernelIdeal.Gen.W2, Cert.KernelIdeal.Gen.W1]
  after_results_simp
  rfl

end Cert.IdxSame

end
-- ==== Proof.IdxSame1.lean ====
/-
  The two vectors of column numbers (the index pairs of the upper triangle) that layer 1 gathers by are computed by the
  same integer host lines, from no argument, in the idealized kernel program and in the reference: the two programs
  leave the same vectors.
-/
import proofs.«120368_j16587163697192_2_alg».proof.Proof.Gen.KernelIdeal.Frame
import proofs.«120368_j16587163697192_2_alg».proof.Proof.RefRun
import Idealize.ShloMosaic.PureOps.Ideal

set_option maxRecDepth 65536
set_option maxHeartbeats 4000000

noncomputable section

namespace Cert.IdxSame

open Idealize.ShloMosaic Idealize.ShloMosaic.TcCoe Idealize.SL.Sem
open Idealize.ShloMosaic.StableHlo

theorem u1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (U : Valuation Cert.ReferenceIdeal.τ Cert.ReferenceIdeal.sig (Elt Ideal)) :
    (Cert.KernelIdeal.Gen.W34 (F := Ideal) m ρ c (Proc.devRef .tc Cert.KernelIdeal.main_v60) : IVec Cert.KernelIdeal.S2080 32)
      = (after (Cert.ReferenceIdeal.RefRun.opsI1 (F := Ideal)) U (Proc.devRef .tc Cert.ReferenceIdeal.main_v64) : IVec Cert.ReferenceIdeal.S2080 32) := by
  dsimp only [Cert.KernelIdeal.Gen.W34, Cert.KernelIdeal.Gen.W33, Cert.KernelIdeal.Gen.W32, Cert.KernelIdeal.Gen.W31, Cert.KernelIdeal.Gen.W30, Cert.KernelIdeal.Gen.W29, Cert.KernelIdeal.Gen.W28, Cert.KernelIdeal.Gen.W27, Cert.KernelIdeal.Gen.W26, Cert.KernelIdeal.Gen.W25, Cert.KernelIdeal.Gen.W24, Cert.KernelIdeal.Gen.W23, Cert.KernelIdeal.Gen.W22, Cert.KernelIdeal.Gen.W21, Cert.KernelIdeal.Gen.W20, Cert.KernelIdeal.Gen.W19]
  after_results_simp
  rfl

theorem v1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (U : Valuation Cert.ReferenceIdeal.τ Cert.ReferenceIdeal.sig (Elt Ideal)) :
    (Cert.KernelIdeal.Gen.W34 (F := Ideal) m ρ c (Proc.devRef .tc Cert.KernelIdeal.main_v62) : IVec Cert.KernelIdeal.S2080 32)
      = (after (Cert.ReferenceIdeal.RefRun.opsI1 (F := Ideal)) U (Proc.devRef .tc Cert.ReferenceIdeal.main_v66) : IVec Cert.ReferenceIdeal.S2080 32) := by
  dsimp only [Cert.KernelIdeal.Gen.W34, Cert.KernelIdeal.Gen.W33, Cert.KernelIdeal.Gen.W32, Cert.KernelIdeal.Gen.W31, Cert.KernelIdeal.Gen.W30, Cert.KernelIdeal.Gen.W29, Cert.KernelIdeal.Gen.W28, Cert.KernelIdeal.Gen.W27, Cert.KernelIdeal.Gen.W26, Cert.KernelIdeal.Gen.W25, Cert.KernelIdeal.Gen.W24, Cert.KernelIdeal.Gen.W23, Cert.KernelIdeal.Gen.W22, Cert.KernelIdeal.Gen.W21, Cert.KernelIdeal.Gen.W20, Cert.KernelIdeal.Gen.W19]
  after_results_simp
  rfl

end Cert.IdxSame

end
-- ==== Proof.IdxSame2.lean ====
/-
  The two vectors of column numbers (the index pairs of the upper triangle) that layer 2 gathers by are computed by the
  same integer host lines, from no argument, in the idealized kernel program and in the reference: the two programs
  leave the same vectors.
-/
import proofs.«120368_j16587163697192_2_alg».proof.Proof.Gen.KernelIdeal.Frame
import proofs.«120368_j16587163697192_2_alg».proof.Proof.RefRun
import Idealize.ShloMosaic.PureOps.Ideal

set_option maxRecDepth 65536
set_option maxHeartbeats 4000000

noncomputable section

namespace Cert.IdxSame

open Idealize.ShloMosaic Idealize.ShloMosaic.TcCoe Idealize.SL.Sem
open Idealize.ShloMosaic.StableHlo

theorem u2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (U : Valuation Cert.ReferenceIdeal.τ Cert.ReferenceIdeal.sig (Elt Ideal)) :
    (Cert.KernelIdeal.Gen.W52 (F := Ideal) m ρ c (Proc.devRef .tc Cert.KernelIdeal.main_v103) : IVec Cert.KernelIdeal.S2080 32)
      = (after (Cert.ReferenceIdeal.RefRun.opsI2 (F := Ideal)) U (Proc.devRef .tc Cert.ReferenceIdeal.main_v111) : IVec Cert.ReferenceIdeal.S2080 32) := by
  dsimp only [Cert.KernelIdeal.Gen.W52, Cert.KernelIdeal.Gen.W51, Cert.KernelIdeal.Gen.W50, Cert.KernelIdeal.Gen.W49, Cert.KernelIdeal.Gen.W48, Cert.KernelIdeal.Gen.W47, Cert.KernelIdeal.Gen.W46, Cert.KernelIdeal.Gen.W45, Cert.KernelIdeal.Gen.W44, Cert.KernelIdeal.Gen.W43, Cert.KernelIdeal.Gen.W42, Cert.KernelIdeal.Gen.W41, Cert.KernelIdeal.Gen.W40, Cert.KernelIdeal.Gen.W39, Cert.KernelIdeal.Gen.W38, Cert.KernelIdeal.Gen.W37]
  after_results_simp
  rfl

theorem v2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (U : Valuation Cert.ReferenceIdeal.τ Cert.ReferenceIdeal.sig (Elt Ideal)) :
    (Cert.KernelIdeal.Gen.W52 (F := Ideal) m ρ c (Proc.devRef .tc Cert.KernelIdeal.main_v105) : IVec Cert.KernelIdeal.S2080 32)
      = (after (Cert.ReferenceIdeal.RefRun.opsI2 (F := Ideal)) U (Proc.devRef .tc Cert.ReferenceIdeal.main_v113) : IVec Cert.ReferenceIdeal.S2080 32) := by
  dsimp only [Cert.KernelIdeal.Gen.W52, Cert.KernelIdeal.Gen.W51, Cert.KernelIdeal.Gen.W50, Cert.KernelIdeal.Gen.W49, Cert.KernelIdeal.Gen.W48, Cert.KernelIdeal.Gen.W47, Cert.KernelIdeal.Gen.W46, Cert.KernelIdeal.Gen.W45, Cert.KernelIdeal.Gen.W44, Cert.KernelIdeal.Gen.W43, Cert.KernelIdeal.Gen.W42, Cert.KernelIdeal.Gen.W41, Cert.KernelIdeal.Gen.W40, Cert.KernelIdeal.Gen.W39, Cert.KernelIdeal.Gen.W38, Cert.KernelIdeal.Gen.W37]
  after_results_simp
  rfl

end Cert.IdxSame

end
-- ==== Proof.RefSplit.lean ====
/-
  The reference program's host lines as six stretches in order — per layer the integer stretch that computes the two
  vectors of column numbers, then the float stretch that computes the layer — and the buffer contents after each.
-/
import proofs.«120368_j16587163697192_2_alg».proof.Proof.RefRun
import Idealize.ShloMosaic.PureOps.Ideal

set_option maxRecDepth 65536
set_option maxHeartbeats 4000000

noncomputable section

namespace Cert.ReferenceIdeal.RefChain

open Cert.ReferenceIdeal Cert.ReferenceIdeal.Gen Cert.ReferenceIdeal.RefRun
open Idealize.ShloMosaic Idealize.ShloMosaic.TcCoe Idealize.SL.Sem Idealize.ShloMosaic.StableHlo

/-- Two lines run one after the other: the contents after both are the second's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- @main's lines, window by window, are the six stretches in order. -/
theorem ops_split : (ops : List (HloOp τ sig (Elt Ideal))) = opsI0 ++ (opsF0 ++ (opsI1 ++ (opsF1 ++ (opsI2 ++ opsF2)))) := rfl

variable (U0 : Valuation τ sig (Elt Ideal))

/-- The contents after each stretch. -/
abbrev U1 : Valuation τ sig (Elt Ideal) := after opsI0 U0
abbrev U2 : Valuation τ sig (Elt Ideal) := after opsF0 (U1 U0)
abbrev U3 : Valuation τ sig (Elt Ideal) := after opsI1 (U2 U0)
abbrev U4 : Valuation τ sig (Elt Ideal) := after opsF1 (U3 U0)
abbrev U5 : Valuation τ sig (Elt Ideal) := after opsI2 (U4 U0)
abbrev U6 : Valuation τ sig (Elt Ideal) := after opsF2 (U5 U0)

theorem after_ops : after ops U0 = U6 U0 := by
  rw [ops_split, after_append, after_append, after_append, after_append, after_append]

end Cert.ReferenceIdeal.RefChain

end
-- ==== Proof.LibNaryThree.lean ====
/-
  A host line with three operands (a concatenation of three arrays), read after it has run.

  The line's result buffer holds the line's function of the three operands' contents, each read at its own buffer:
  the family of operands indexed by 0, 1, 2 is spelt out as three literal buffers, so that what each of them holds
  after the lines before can go on being rewritten, one buffer at a time.
-/
import Idealize.ShloMosaic.Lib.StableHlo.Run

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.LibNaryThreeSimp.lean ====
/-
  A host line with three operands, read after it has run, in the form a simplifier pass can use.

  The companion statement of `nary3_result`: the same equation with the result buffer's reference kept out of the
  simplifier's index, so that one pass over a long list of host lines rewrites a three-operand line (a concatenation
  of three arrays) like the one- and two-operand lines, and goes on into the three operands.
-/
import Idealize.ShloMosaic.Lib.StableHlo.Run
import proofs.«120368_j16587163697192_2_alg».proof.Proof.LibNaryThree

namespace Idealize.ShloMosaic.StableHlo

variable {τ : Topo} {sig : RefSig} {Val : EltTy → Type} {x a b y : Ref sig .tc}

/-- `nary ![x, a, b] y f` leaves `y` at `f` of the contents of `x`, `a`, `b`, in that order. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One simplifier pass over a list of host lines that may hold three-operand lines. -/
macro "after_results_simp3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

end Idealize.ShloMosaic.StableHlo
-- ==== Proof.LibHostLines.lean ====
/-
  Reading the operands of a host line that takes three operands.

  Such a line's value is a function of the family of its three operands, listed one after the other. The k-th member of
  a family listed that way is the k-th listed item; with these three equations a simplifier pass that has reached such a
  line goes on into each operand, reading what the lines before left in it. A concatenation's side condition mentions its list of pieces, which keeps a
  simplifier out of the list: the pieces are then compared one by one (`concat3_congr`).
-/
import proofs.«120368_j16587163697192_2_alg».proof.Proof.LibNaryThreeSimp

namespace Idealize.ShloMosaic.StableHlo

universe u

/-- The second of three listed items. -/
theorem cons3_one {α : Fin 3 → Sort u} (x : α 0) (p : ∀ i : Fin 2, α i.succ) : (Fin.cons x p : ∀ i, α i) 1 = p 0 := rfl
/-- The third of three listed items. -/
theorem cons3_two {α : Fin 3 → Sort u} (x : α 0) (p : ∀ i : Fin 2, α i.succ) : (Fin.cons x p : ∀ i, α i) 2 = p 1 := rfl
/-- The second of two listed items. -/
theorem cons2_one {α : Fin 2 → Sort u} (x : α 0) (p : ∀ i : Fin 1, α i.succ) : (Fin.cons x p : ∀ i, α i) 1 = p 0 := rfl

/-- A concatenation of three pieces whose pieces are equal one by one. -/
theorem concat3_congr {α : Type} {t : Shape} (a : Fin t.rank) {s0 s1 s2 : Shape} (x0 x0' : s0.Idx → α) (x1 x1' : s1.Idx → α)
    (x2 x2' : s2.Idx → α) (h : Shape.Concatenates [s0, s1, s2] t a) (e0 : x0 = x0') (e1 : x1 = x1') (e2 : x2 = x2') :
    concatenate t a [⟨s0, x0⟩, ⟨s1, x1⟩, ⟨s2, x2⟩] h = concatenate t a [⟨s0, x0'⟩, ⟨s1, x1'⟩, ⟨s2, x2'⟩] h := by
  subst e0 e1 e2; rfl

/-- One simplifier pass over a list of host lines that may hold three-operand lines, reading each operand of such a line. -/
macro "after_results_operands3" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne', Fin.cons_zero, cons3_one, cons3_two, cons2_one]))

end Idealize.ShloMosaic.StableHlo
-- ==== Proof.RefLayer.lean ====
/-
  One layer of the reference, as a function of its inputs.

  From the activations x (1024 rows of 64) and two columns u, v of 2080 column numbers (a number below zero counting
  from the end), the products s(r, j) = x(r, u_j) · x(r, v_j); from x and s the expanded features
  [ x | s | x ⊗ s ] of every row, 64 + 2080 + 64 · 2080 of them, the last stretch the products x(r, i) · s(r, j)
  with i major; and the layer itself: the expanded features times the transposed weights, plus the bias on every row.
-/
import proofs.«120368_j16587163697192_2_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem

/-- A column number below zero counts from the end: u ↦ if u < 0 then u + 64 else u, as a one-column table. -/
def wrap (u : IVec S2080 32) : IVec S2080x1 32 :=
  broadcastInDim S2080x1 ![0] bcast_S2080_S2080x1_0
    (select (cmpi .slt u (broadcastInDim S2080 ![] bcast_S_S2080 (constantI S_ 32 0#32)))
      (addi u (broadcastInDim S2080 ![] bcast_S_S2080 (constantI S_ 32 64#32))) u)

/-- The row-wise products of two gathered columns: entry (r, j) is x(r, u_j) · x(r, v_j). -/
def pairs (x : FVec Ideal S1024x64 .f32) (u v : IVec S2080 32) : FVec Ideal S1024x2080 .f32 :=
  mulf (Host.gather gather_S1024x64_S2080x1_S1024x2080_0_1_n_n_1_1_10241 x (wrap u))
    (Host.gather gather_S1024x64_S2080x1_S1024x2080_0_1_n_n_1_1_10241 x (wrap v))

/-- The products x(r, i) · s(r, j), laid out as rows of length 64 · 2080, i-major. -/
def cubes (x : FVec Ideal S1024x64 .f32) (s : FVec Ideal S1024x2080 .f32) : FVec Ideal S1024x133120 .f32 :=
  shapeCast S1024x133120
    (mulf (broadcastInDim S1024x64x2080 ![0, 1, 2] bcast_S1024x64x1_S1024x64x2080_0_1_2
            (broadcastInDim S1024x64x1 ![0, 1] bcast_S1024x64_S1024x64x1_0_1 x))
          (broadcastInDim S1024x64x2080 ![0, 1, 2] bcast_S1024x1x2080_S1024x64x2080_0_1_2
            (broadcastInDim S1024x1x2080 ![0, 2] bcast_S1024x2080_S1024x1x2080_0_2 s)))
    shapeCasts_S1024x64x2080_S1024x133120

/-- The expanded features [ x | s | x ⊗ s ] of every row. -/
def expand (x : FVec Ideal S1024x64 .f32) (s : FVec Ideal S1024x2080 .f32) : FVec Ideal S1024x135264 .f32 :=
  concatenate S1024x135264 1 [⟨S1024x64, x⟩, ⟨S1024x2080, s⟩, ⟨S1024x133120, cubes x s⟩]
    concatenates_S1024x64_S1024x2080_S1024x133120_S1024x135264_d1

/-- A dense layer with 64 output units over the expanded features. -/
def layer64 (x : FVec Ideal S1024x64 .f32) (s : FVec Ideal S1024x2080 .f32) (W : FVec Ideal S64x135264 .f32)
    (b : FVec Ideal S64 .f32) : FVec Ideal S1024x64 .f32 :=
  addf (Host.dotGeneral dot_S1024x135264_S135264x64_S1024x64_1_0_0_1_n_n none (expand x s)
          (transpose S135264x64 [1, 0] W transposes_S64x135264_S135264x64_1_0))
    (broadcastInDim S1024x64 ![0, 1] bcast_S1x64_S1024x64_0_1 (broadcastInDim S1x64 ![1] bcast_S64_S1x64_1 b))

/-- A dense layer with 10 output units over the expanded features. -/
def layer10 (x : FVec Ideal S1024x64 .f32) (s : FVec Ideal S1024x2080 .f32) (W : FVec Ideal S10x135264 .f32)
    (b : FVec Ideal S10 .f32) : FVec Ideal S1024x10 .f32 :=
  addf (Host.dotGeneral dot_S1024x135264_S135264x10_S1024x10_1_0_0_1_n_n none (expand x s)
          (transpose S135264x10 [1, 0] W transposes_S10x135264_S135264x10_1_0))
    (broadcastInDim S1024x10 ![0, 1] bcast_S1x10_S1024x10_0_1 (broadcastInDim S1x10 ![1] bcast_S10_S1x10_1 b))

/-- Every entry of the gathered products is a product of two entries of the activations. -/
theorem pairs_mul (x : FVec Ideal S1024x64 .f32) (u v : IVec S2080 32) (i : S1024x2080.Idx) :
    ∃ j k : S1024x64.Idx, pairs x u v i = x j * x k :=
  ⟨gather_S1024x64_S2080x1_S1024x2080_0_1_n_n_1_1_10241.operandIdx i (wrap u),
    gather_S1024x64_S2080x1_S1024x2080_0_1_n_n_1_1_10241.operandIdx i (wrap v), rfl⟩

end Cert.ReferenceIdeal.RefValue

end
-- ==== Proof.RefLayerF0.lean ====
/-
  Layer 0 of the reference read off its operations: after the layer's stretch of operations has run, the stretch's
  last buffer holds the layer of the activations it started from and of their gathered products, whatever the
  buffers held before. The operations are followed one by one; the three pieces of the concatenation are compared
  one at a time.
-/
import proofs.«120368_j16587163697192_2_alg».proof.Proof.RefRun
import proofs.«120368_j16587163697192_2_alg».proof.Proof.LibHostLines
import proofs.«120368_j16587163697192_2_alg».proof.Proof.RefLayer

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo

set_option maxRecDepth 65536 in
/-- Layer 0: 64 output units over the program's first argument. -/
theorem opsF0_read (U : Valuation τ sig (Elt Ideal)) :
    after (opsF0 (F := Ideal)) U (main_v46 : DevRef τ sig)
      = layer64 (U (main_arg0 : DevRef τ sig))
          (pairs (U (main_arg0 : DevRef τ sig)) (U (main_v17 : DevRef τ sig)) (U (main_v19 : DevRef τ sig)))
          (U (main_arg1 : DevRef τ sig)) (U (main_arg2 : DevRef τ sig)) := by
  unfold layer64 expand
  after_results_operands3
  refine congrArg₂ _ (congrArg₂ _ (concat3_congr _ _ _ _ _ _ _ _ ?_ ?_ ?_) rfl) rfl
  · after_results_operands3
    rfl
  · unfold pairs wrap
    after_results_operands3
    rfl
  · unfold cubes pairs wrap
    after_results_operands3
    rfl

end Cert.ReferenceIdeal.RefValue

end
-- ==== Proof.RefLayerF1.lean ====
/-
  Layer 1 of the reference read off its operations: after the layer's stretch of operations has run, the stretch's
  last buffer holds the layer of the activations it started from and of their gathered products, whatever the
  buffers held before. The operations are followed one by one; the three pieces of the concatenation are compared
  one at a time.
-/
import proofs.«120368_j16587163697192_2_alg».proof.Proof.RefRun
import proofs.«120368_j16587163697192_2_alg».proof.Proof.LibHostLines
import proofs.«120368_j16587163697192_2_alg».proof.Proof.RefLayer

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo

set_option maxRecDepth 65536 in
/-- Layer 1: 64 output units over layer 0's result. -/
theorem opsF1_read (U : Valuation τ sig (Elt Ideal)) :
    after (opsF1 (F := Ideal)) U (main_v93 : DevRef τ sig)
      = layer64 (U (main_v46 : DevRef τ sig))
          (pairs (U (main_v46 : DevRef τ sig)) (U (main_v64 : DevRef τ sig)) (U (main_v66 : DevRef τ sig)))
          (U (main_arg3 : DevRef τ sig)) (U (main_arg4 : DevRef τ sig)) := by
  unfold layer64 expand
  after_results_operands3
  refine congrArg₂ _ (congrArg₂ _ (concat3_congr _ _ _ _ _ _ _ _ ?_ ?_ ?_) rfl) rfl
  · after_results_operands3
    rfl
  · unfold pairs wrap
    after_results_operands3
    rfl
  · unfold cubes pairs wrap
    after_results_operands3
    rfl

end Cert.ReferenceIdeal.RefValue

end
-- ==== Proof.RefLayerF2.lean ====
/-
  Layer 2 of the reference read off its operations: after the layer's stretch of operations has run, the stretch's
  last buffer holds the layer of the activations it started from and of their gathered products, whatever the
  buffers held before. The operations are followed one by one; the three pieces of the concatenation are compared
  one at a time.
-/
import proofs.«120368_j16587163697192_2_alg».proof.Proof.RefRun
import proofs.«120368_j16587163697192_2_alg».proof.Proof.LibHostLines
import proofs.«120368_j16587163697192_2_alg».proof.Proof.RefLayer

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo

set_option maxRecDepth 65536 in
/-- Layer 2: 10 output units over layer 1's result. -/
theorem opsF2_read (U : Valuation τ sig (Elt Ideal)) :
    after (opsF2 (F := Ideal)) U (main_v140 : DevRef τ sig)
      = layer10 (U (main_v93 : DevRef τ sig))
          (pairs (U (main_v93 : DevRef τ sig)) (U (main_v111 : DevRef τ sig)) (U (main_v113 : DevRef τ sig)))
          (U (main_arg5 : DevRef τ sig)) (U (main_arg6 : DevRef τ sig)) := by
  unfold layer10 expand
  after_results_operands3
  refine congrArg₂ _ (congrArg₂ _ (concat3_congr _ _ _ _ _ _ _ _ ?_ ?_ ?_) rfl) rfl
  · after_results_operands3
    rfl
  · unfold pairs wrap
    after_results_operands3
    rfl
  · unfold cubes pairs wrap
    after_results_operands3
    rfl

end Cert.ReferenceIdeal.RefValue

end
-- ==== Proof.RefChain.lean ====
/-
  The reference program's result as three layers: its host lines are, in order, the integer stretch and the float
  stretch of layer 0, of layer 1 and of layer 2; no stretch writes an argument array, an integer stretch writes no
  float array, so each layer's float stretch finds the arguments as launched, the previous layer's result, and
  the two vectors of column numbers its integer stretch leaves.
-/
import proofs.«120368_j16587163697192_2_alg».proof.Proof.RefSplit
import proofs.«120368_j16587163697192_2_alg».proof.Proof.RefLayerF0
import proofs.«120368_j16587163697192_2_alg».proof.Proof.RefLayerF1
import proofs.«120368_j16587163697192_2_alg».proof.Proof.RefLayerF2

set_option maxRecDepth 65536
set_option maxHeartbeats 4000000

noncomputable section

namespace Cert.ReferenceIdeal.RefChain

open Cert.ReferenceIdeal Cert.ReferenceIdeal.Gen Cert.ReferenceIdeal.RefRun Cert.ReferenceIdeal.RefValue
open Idealize.ShloMosaic Idealize.ShloMosaic.TcCoe Idealize.SL.Sem Idealize.ShloMosaic.StableHlo

variable (U0 : Valuation τ sig (Elt Ideal))

theorem k1_arg0 : U1 U0 (main_arg0 : DevRef τ sig) = U0 (main_arg0 : DevRef τ sig) := by
  dsimp only [U1]
  after_results_simp
theorem k1_arg1 : U1 U0 (main_arg1 : DevRef τ sig) = U0 (main_arg1 : DevRef τ sig) := by
  dsimp only [U1]
  after_results_simp
theorem k1_arg2 : U1 U0 (main_arg2 : DevRef τ sig) = U0 (main_arg2 : DevRef τ sig) := by
  dsimp only [U1]
  after_results_simp
theorem k3_h : U3 U0 (main_v46 : DevRef τ sig) = U2 U0 (main_v46 : DevRef τ sig) := by
  dsimp only [U3]
  after_results_simp
theorem k3_arg3 : U3 U0 (main_arg3 : DevRef τ sig) = U0 (main_arg3 : DevRef τ sig) := by
  dsimp only [U3, U2, U1]
  after_results_simp
theorem k3_arg4 : U3 U0 (main_arg4 : DevRef τ sig) = U0 (main_arg4 : DevRef τ sig) := by
  dsimp only [U3, U2, U1]
  after_results_simp
theorem k5_h : U5 U0 (main_v93 : DevRef τ sig) = U4 U0 (main_v93 : DevRef τ sig) := by
  dsimp only [U5]
  after_results_simp
theorem k5_arg5 : U5 U0 (main_arg5 : DevRef τ sig) = U0 (main_arg5 : DevRef τ sig) := by
  dsimp only [U5, U4, U3, U2, U1]
  after_results_simp
theorem k5_arg6 : U5 U0 (main_arg6 : DevRef τ sig) = U0 (main_arg6 : DevRef τ sig) := by
  dsimp only [U5, U4, U3, U2, U1]
  after_results_simp

/-- The first layer's result. -/
def h1 : FVec Ideal S1024x64 .f32 :=
  layer64 (U0 (main_arg0 : DevRef τ sig)) (pairs (U0 (main_arg0 : DevRef τ sig)) (U1 U0 (main_v17 : DevRef τ sig)) (U1 U0 (main_v19 : DevRef τ sig)))
    (U0 (main_arg1 : DevRef τ sig)) (U0 (main_arg2 : DevRef τ sig))
/-- The second layer's result. -/
def h2 : FVec Ideal S1024x64 .f32 :=
  layer64 (h1 U0) (pairs (h1 U0) (U3 U0 (main_v64 : DevRef τ sig)) (U3 U0 (main_v66 : DevRef τ sig)))
    (U0 (main_arg3 : DevRef τ sig)) (U0 (main_arg4 : DevRef τ sig))

theorem U2_h : U2 U0 (main_v46 : DevRef τ sig) = h1 U0 := by
  show after opsF0 (U1 U0) (main_v46 : DevRef τ sig) = _
  rw [opsF0_read, k1_arg0, k1_arg1, k1_arg2]; rfl
theorem U4_h : U4 U0 (main_v93 : DevRef τ sig) = h2 U0 := by
  show after opsF1 (U3 U0) (main_v93 : DevRef τ sig) = _
  rw [opsF1_read, k3_h, U2_h, k3_arg3, k3_arg4]; rfl
/-- The reference's result: the third layer on the second's result. -/
theorem result_eq : after ops U0 (main_v140 : DevRef τ sig)
    = layer10 (h2 U0) (pairs (h2 U0) (U5 U0 (main_v111 : DevRef τ sig)) (U5 U0 (main_v113 : DevRef τ sig)))
        (U0 (main_arg5 : DevRef τ sig)) (U0 (main_arg6 : DevRef τ sig)) := by
  rw [after_ops]
  show after opsF2 (U5 U0) (main_v140 : DevRef τ sig) = _
  rw [opsF2_read, k5_h, U4_h, k5_arg5, k5_arg6]

end Cert.ReferenceIdeal.RefChain

end
-- ==== Proof.RefArgs.lean ====
/-
  No host line of the reference program writes an argument array: after all of them each argument is as launched.
-/
import proofs.«120368_j16587163697192_2_alg».proof.Proof.RefSplit

set_option maxRecDepth 65536
set_option maxHeartbeats 4000000

noncomputable section

namespace Cert.ReferenceIdeal.RefChain

open Cert.ReferenceIdeal Cert.ReferenceIdeal.Gen Cert.ReferenceIdeal.RefRun
open Idealize.ShloMosaic Idealize.ShloMosaic.TcCoe Idealize.SL.Sem Idealize.ShloMosaic.StableHlo

variable (U0 : Valuation τ sig (Elt Ideal))

theorem kept_arg0 : after ops U0 (main_arg0 : DevRef τ sig) = U0 (main_arg0 : DevRef τ sig) := by
  rw [after_ops]
  dsimp only [U6, U5, U4, U3, U2, U1]
  after_results_simp
theorem kept_arg1 : after ops U0 (main_arg1 : DevRef τ sig) = U0 (main_arg1 : DevRef τ sig) := by
  rw [after_ops]
  dsimp only [U6, U5, U4, U3, U2, U1]
  after_results_simp
theorem kept_arg2 : after ops U0 (main_arg2 : DevRef τ sig) = U0 (main_arg2 : DevRef τ sig) := by
  rw [after_ops]
  dsimp only [U6, U5, U4, U3, U2, U1]
  after_results_simp
theorem kept_arg3 : after ops U0 (main_arg3 : DevRef τ sig) = U0 (main_arg3 : DevRef τ sig) := by
  rw [after_ops]
  dsimp only [U6, U5, U4, U3, U2, U1]
  after_results_simp
theorem kept_arg4 : after ops U0 (main_arg4 : DevRef τ sig) = U0 (main_arg4 : DevRef τ sig) := by
  rw [after_ops]
  dsimp only [U6, U5, U4, U3, U2, U1]
  after_results_simp
theorem kept_arg5 : after ops U0 (main_arg5 : DevRef τ sig) = U0 (main_arg5 : DevRef τ sig) := by
  rw [after_ops]
  dsimp only [U6, U5, U4, U3, U2, U1]
  after_results_simp
theorem kept_arg6 : after ops U0 (main_arg6 : DevRef τ sig) = U0 (main_arg6 : DevRef τ sig) := by
  rw [after_ops]
  dsimp only [U6, U5, U4, U3, U2, U1]
  after_results_simp

end Cert.ReferenceIdeal.RefChain

end
-- ==== Proof.KernelHostIdx.lean ====
/-
  The weight pieces and the bias row of the idealized kernel program's host lines, read at an index: the linear piece
  of unit o at i is the weight matrix at (o, i), the quadratic piece at j is the matrix at (o, 64 + j), row q of the
  regrouped cubic piece at j is the matrix at (q / 64, 2144 + (q % 64)·2080 + j) (a change of float format is the
  identity on the extended reals), and the one-row bias at (0, o) is the bias vector at o.
-/
import proofs.«120368_j16587163697192_2_alg».proof.Proof.KernelHost
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.ValueIdx

/-! ### Rows of 64 units -/

theorem wlin64_apply (W : FVec Ideal S64x135264 .f32) (o : Fin 64) (i : Fin 64) :
    wlin64 W (ix2 o i) = W (ix2 o (⟨i.val, by omega⟩ : Fin 135264)) := by
  unfold wlin64
  refine extractStridedSlice_apply _ W _ (ix2 o i) (ix2 o (⟨i.val, by omega⟩ : Fin 135264)) fun a => ?_
  match a with
  | ⟨0, _⟩ => show o.val = 0 + o.val; omega
  | ⟨1, _⟩ => show i.val = 0 + i.val; omega

theorem wquad64_apply (W : FVec Ideal S64x135264 .f32) (o : Fin 64) (j : Fin 2080) :
    wquad64 W (ix2 o j) = W (ix2 o (⟨64 + j.val, by omega⟩ : Fin 135264)) := by
  unfold wquad64
  refine extractStridedSlice_apply _ W _ (ix2 o j) (ix2 o (⟨64 + j.val, by omega⟩ : Fin 135264)) fun a => ?_
  match a with
  | ⟨0, _⟩ => show o.val = 0 + o.val; omega
  | ⟨1, _⟩ => show 64 + j.val = 64 + j.val; rfl

theorem wcub64_apply (W : FVec Ideal S64x135264 .f32) (q : Fin 4096) (j : Fin 2080) :
    ∃ (hq : q.val / 64 < 64) (hk : 2144 + (q.val % 64) * 2080 + j.val < 135264),
      wcub64 W (ix2 q j) = W (ix2 (⟨q.val / 64, hq⟩ : Fin 64) (⟨2144 + (q.val % 64) * 2080 + j.val, hk⟩ : Fin 135264)) := by
  have hq : q.val / 64 < 64 := by have := q.isLt; omega
  have hm : q.val % 64 < 64 := Nat.mod_lt _ (by norm_num)
  have hk : 2144 + (q.val % 64) * 2080 + j.val < 135264 := by have := j.isLt; omega
  have hk' : (q.val % 64) * 2080 + j.val < 133120 := by have := j.isLt; omega
  refine ⟨hq, hk, ?_⟩
  unfold wcub64
  refine (shapeCast_apply _ _ (ix2 q j) (ix3 (⟨q.val / 64, hq⟩ : Fin 64) (⟨q.val % 64, hm⟩ : Fin 64) j) ?_).trans ?_
  · rw [Shape.rowMajor_val_three, Shape.rowMajor_val_two]
    show ((q.val / 64) * 64 + q.val % 64) * 2080 + j.val = q.val * 2080 + j.val
    omega
  show shapeCast S64x64x2080 (extractStridedSlice S64x133120 ![0, 2144] W slices_S64x135264_S64x133120_0_2144) shapeCasts_S64x133120_S64x64x2080
      (ix3 (⟨q.val / 64, hq⟩ : Fin 64) (⟨q.val % 64, hm⟩ : Fin 64) j) = _
  refine (shapeCast_apply _ _ (ix3 (⟨q.val / 64, hq⟩ : Fin 64) (⟨q.val % 64, hm⟩ : Fin 64) j)
    (ix2 (⟨q.val / 64, hq⟩ : Fin 64) (⟨(q.val % 64) * 2080 + j.val, hk'⟩ : Fin 133120)) ?_).trans ?_
  · rw [Shape.rowMajor_val_three, Shape.rowMajor_val_two]
    show (q.val / 64) * 133120 + ((q.val % 64) * 2080 + j.val) = ((q.val / 64) * 64 + q.val % 64) * 2080 + j.val
    omega
  refine extractStridedSlice_apply _ W _ _ (ix2 (⟨q.val / 64, hq⟩ : Fin 64) (⟨2144 + (q.val % 64) * 2080 + j.val, hk⟩ : Fin 135264)) fun a => ?_
  match a with
  | ⟨0, _⟩ => show q.val / 64 = 0 + q.val / 64; omega
  | ⟨1, _⟩ => show 2144 + (q.val % 64) * 2080 + j.val = 2144 + ((q.val % 64) * 2080 + j.val); omega

theorem brow64_apply (b : FVec Ideal S64 .f32) (o : Fin 64) : brow64 b (ix2 (0 : Fin 1) o) = b (ix1 o) := by
  unfold brow64
  refine shapeCast_apply _ _ (ix2 (0 : Fin 1) o) (ix1 o) ?_
  rw [Shape.rowMajor_val_one, Shape.rowMajor_val_two]
  show o.val = 0 * 64 + o.val
  omega

/-! ### Rows of 10 units -/

theorem wlin10_apply (W : FVec Ideal S10x135264 .f32) (o : Fin 10) (i : Fin 64) :
    wlin10 W (ix2 o i) = W (ix2 o (⟨i.val, by omega⟩ : Fin 135264)) := by
  unfold wlin10
  refine extractStridedSlice_apply _ W _ (ix2 o i) (ix2 o (⟨i.val, by omega⟩ : Fin 135264)) fun a => ?_
  match a with
  | ⟨0, _⟩ => show o.val = 0 + o.val; omega
  | ⟨1, _⟩ => show i.val = 0 + i.val; omega

theorem wquad10_apply (W : FVec Ideal S10x135264 .f32) (o : Fin 10) (j : Fin 2080) :
    wquad10 W (ix2 o j) = W (ix2 o (⟨64 + j.val, by omega⟩ : Fin 135264)) := by
  unfold wquad10
  refine extractStridedSlice_apply _ W _ (ix2 o j) (ix2 o (⟨64 + j.val, by omega⟩ : Fin 135264)) fun a => ?_
  match a with
  | ⟨0, _⟩ => show o.val = 0 + o.val; omega
  | ⟨1, _⟩ => show 64 + j.val = 64 + j.val; rfl

theorem wcub10_apply (W : FVec Ideal S10x135264 .f32) (q : Fin 640) (j : Fin 2080) :
    ∃ (hq : q.val / 64 < 10) (hk : 2144 + (q.val % 64) * 2080 + j.val < 135264),
      wcub10 W (ix2 q j) = W (ix2 (⟨q.val / 64, hq⟩ : Fin 10) (⟨2144 + (q.val % 64) * 2080 + j.val, hk⟩ : Fin 135264)) := by
  have hq : q.val / 64 < 10 := by have := q.isLt; omega
  have hm : q.val % 64 < 64 := Nat.mod_lt _ (by norm_num)
  have hk : 2144 + (q.val % 64) * 2080 + j.val < 135264 := by have := j.isLt; omega
  have hk' : (q.val % 64) * 2080 + j.val < 133120 := by have := j.isLt; omega
  refine ⟨hq, hk, ?_⟩
  unfold wcub10
  refine (shapeCast_apply _ _ (ix2 q j) (ix3 (⟨q.val / 64, hq⟩ : Fin 10) (⟨q.val % 64, hm⟩ : Fin 64) j) ?_).trans ?_
  · rw [Shape.rowMajor_val_three, Shape.rowMajor_val_two]
    show ((q.val / 64) * 64 + q.val % 64) * 2080 + j.val = q.val * 2080 + j.val
    omega
  show shapeCast S10x64x2080 (extractStridedSlice S10x133120 ![0, 2144] W slices_S10x135264_S10x133120_0_2144) shapeCasts_S10x133120_S10x64x2080
      (ix3 (⟨q.val / 64, hq⟩ : Fin 10) (⟨q.val % 64, hm⟩ : Fin 64) j) = _
  refine (shapeCast_apply _ _ (ix3 (⟨q.val / 64, hq⟩ : Fin 10) (⟨q.val % 64, hm⟩ : Fin 64) j)
    (ix2 (⟨q.val / 64, hq⟩ : Fin 10) (⟨(q.val % 64) * 2080 + j.val, hk'⟩ : Fin 133120)) ?_).trans ?_
  · rw [Shape.rowMajor_val_three, Shape.rowMajor_val_two]
    show (q.val / 64) * 133120 + ((q.val % 64) * 2080 + j.val) = ((q.val / 64) * 64 + q.val % 64) * 2080 + j.val
    omega
  refine extractStridedSlice_apply _ W _ _ (ix2 (⟨q.val / 64, hq⟩ : Fin 10) (⟨2144 + (q.val % 64) * 2080 + j.val, hk⟩ : Fin 135264)) fun a => ?_
  match a with
  | ⟨0, _⟩ => show q.val / 64 = 0 + q.val / 64; omega
  | ⟨1, _⟩ => show 2144 + (q.val % 64) * 2080 + j.val = 2144 + ((q.val % 64) * 2080 + j.val); omega

theorem brow10_apply (b : FVec Ideal S10 .f32) (o : Fin 10) : brow10 b (ix2 (0 : Fin 1) o) = b (ix1 o) := by
  unfold brow10
  refine shapeCast_apply _ _ (ix2 (0 : Fin 1) o) (ix1 o) ?_
  rw [Shape.rowMajor_val_one, Shape.rowMajor_val_two]
  show o.val = 0 * 10 + o.val
  omega

end Cert.KernelIdeal.Host

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.CubicAlgebra.lean ====
/-
  The tiled arrangement of one cubic-feature output unit equals the dense one, for real entries.

  The 135264 = 64 + 2080 + 64·2080 features fall into three stretches, so the dense inner product is a sum of
  three sums, the last a double sum over (i, j) with feature index 2144 + i·2080 + j and feature x_i · s_j.
  In the tiled cubic term the 0/1 factor keeps, of the O·64 rows q, exactly the rows q = o·64 + i, i < 64, and
  row o·64 + i holds the weights of the features x_i · s_j.  What remains is
  (Σ_j s_j · c_j) · x_i = Σ_j (x_i · s_j) · c_j, which holds for real entries (multiplication on [−∞, +∞] does
  not distribute over sums at the infinities): there both sides are the inclusion of the same real number.
-/
import proofs.«120368_j16587163697192_2_alg».proof.Proof.CubicSpec
import proofs.«120368_j16587163697192_2_alg».proof.Proof.LibERealSums

noncomputable section

namespace Cert.Cubic

/-- A sum over an initial stretch, a middle stretch and a final stretch. -/
theorem sum_split3 {M : Type} [AddCommMonoid M] (a b c n : ℕ) (h : n = a + b + c) (g : Fin n → M) :
    ∑ k, g k = (∑ i : Fin a, g ⟨i.val, by have := i.isLt; omega⟩)
      + (∑ j : Fin b, g ⟨a + j.val, by have := j.isLt; omega⟩)
      + ∑ l : Fin c, g ⟨a + b + l.val, by have := l.isLt; omega⟩ := by
  subst h
  rw [Fin.sum_univ_add, Fin.sum_univ_add]
  rfl

theorem mul_add_lt {m n : ℕ} (i : Fin m) (j : Fin n) : i.val * n + j.val < m * n := by
  have hi := i.isLt; have hj := j.isLt
  calc i.val * n + j.val < i.val * n + n := by omega
    _ = (i.val + 1) * n := by ring
    _ ≤ m * n := Nat.mul_le_mul_right n hi

/-- A sum over m·n consecutive indices as a double sum, row-major. -/
theorem sum_fin_mul {M : Type} [AddCommMonoid M] (m n : ℕ) (g : Fin (m * n) → M) :
    ∑ l, g l = ∑ i : Fin m, ∑ j : Fin n, g ⟨i.val * n + j.val, mul_add_lt i j⟩ := by
  rw [← Equiv.sum_comp finProdFinEquiv g, Fintype.sum_prod_type]
  refine Finset.sum_congr rfl fun i _ => Finset.sum_congr rfl fun j _ => ?_
  congr 1
  apply Fin.ext
  simp [finProdFinEquiv]
  ring

/-- Of the O·64 rows, the rows q with q / 64 = o are the 64 rows o·64 + i. -/
theorem block_select {M : Type} [AddCommMonoid M] (O : ℕ) (o : Fin O) (f : Fin (O * 64) → M) :
    ∑ q, (if q.val / 64 = o.val then f q else 0) = ∑ i : Fin 64, f ⟨o.val * 64 + i.val, mul_add_lt o i⟩ := by
  rw [sum_fin_mul O 64]
  rw [Finset.sum_eq_single o]
  · refine Finset.sum_congr rfl fun i _ => ?_
    have : (o.val * 64 + i.val) / 64 = o.val := by have := i.isLt; omega
    simp [this]
  · intro u _ hu
    refine Finset.sum_eq_zero fun i _ => ?_
    have h1 : (u.val * 64 + i.val) / 64 = u.val := by have := i.isLt; omega
    have h2 : u.val ≠ o.val := fun h => hu (Fin.ext h)
    simp [h1, h2]
  · intro h; exact absurd (Finset.mem_univ o) h

theorem feat_lin (x : Fin 64 → EReal) (s : Fin 2080 → EReal) (i : Fin 64) (h : i.val < 135264) :
    feat x s ⟨i.val, h⟩ = x i := by
  unfold feat
  rw [dif_pos (show (⟨i.val, h⟩ : Fin 135264).val < 64 from i.isLt)]

theorem feat_quad (x : Fin 64 → EReal) (s : Fin 2080 → EReal) (j : Fin 2080) (h : 64 + j.val < 135264) :
    feat x s ⟨64 + j.val, h⟩ = s j := by
  have hj := j.isLt
  unfold feat
  rw [dif_neg (show ¬ (⟨64 + j.val, h⟩ : Fin 135264).val < 64 by simp),
    dif_pos (show (⟨64 + j.val, h⟩ : Fin 135264).val < 2144 by simp; omega)]
  congr 1
  apply Fin.ext
  simp

theorem feat_cub (x : Fin 64 → EReal) (s : Fin 2080 → EReal) (i : Fin 64) (j : Fin 2080) (n : ℕ)
    (hn : n = 2144 + i.val * 2080 + j.val) (h : n < 135264) :
    feat x s ⟨n, h⟩ = x i * s j := by
  have hi := i.isLt
  have hj := j.isLt
  subst hn
  unfold feat
  rw [dif_neg (show ¬ (⟨2144 + i.val * 2080 + j.val, h⟩ : Fin 135264).val < 64 by simp; omega),
    dif_neg (show ¬ (⟨2144 + i.val * 2080 + j.val, h⟩ : Fin 135264).val < 2144 by simp; omega)]
  congr 1
  · congr 1
    apply Fin.ext
    simp
    omega
  · congr 1
    apply Fin.ext
    simp
    omega

/-- For real entries, (Σ_j s_j · c_j) · x = Σ_j (x · s_j) · c_j. -/
theorem sum_mul_real {n : ℕ} {x : EReal} {s c : Fin n → EReal} (hx : ∃ r : ℝ, x = (r : EReal))
    (hs : ∀ j, ∃ r : ℝ, s j = (r : EReal)) (hc : ∀ j, ∃ r : ℝ, c j = (r : EReal)) :
    (∑ j, s j * c j) * x = ∑ j, (x * s j) * c j := by
  obtain ⟨xr, rfl⟩ := hx
  choose sr hsr using hs
  choose cr hcr using hc
  simp only [hsr, hcr]
  rw [Cert.Attn.sum_coe_mul_coe]
  simp only [← EReal.coe_mul]
  rw [← Cert.Attn.coe_sum_univ]
  congr 1
  rw [Finset.sum_mul]
  exact Finset.sum_congr rfl fun j _ => by ring

/-- A product of two reals is real. -/
theorem mul_real {a c : EReal} (ha : ∃ r : ℝ, a = (r : EReal)) (hc : ∃ r : ℝ, c = (r : EReal)) :
    ∃ r : ℝ, a * c = (r : EReal) := by
  obtain ⟨p, rfl⟩ := ha
  obtain ⟨q, rfl⟩ := hc
  exact ⟨p * q, (EReal.coe_mul p q).symm⟩

/-- A finite sum of reals is real. -/
theorem sum_real {ι : Type} [Fintype ι] {f : ι → EReal} (hf : ∀ k, ∃ r : ℝ, f k = (r : EReal)) :
    ∃ r : ℝ, ∑ k, f k = (r : EReal) := by
  choose fr hfr using hf
  exact ⟨∑ k, fr k, by rw [Cert.Attn.coe_sum_univ]; exact Finset.sum_congr rfl fun k _ => hfr k⟩

/-- Every expanded feature of a real row is real. -/
theorem feat_real {x : Fin 64 → EReal} {s : Fin 2080 → EReal} (hx : ∀ i, ∃ r : ℝ, x i = (r : EReal))
    (hs : ∀ j, ∃ r : ℝ, s j = (r : EReal)) (k : Fin 135264) : ∃ r : ℝ, feat x s k = (r : EReal) := by
  unfold feat
  split_ifs with h h2
  · exact hx _
  · exact hs _
  · exact mul_real (hx _) (hs _)

theorem refRow_real {x : Fin 64 → EReal} {s : Fin 2080 → EReal} {w : Fin 135264 → EReal} {b : EReal}
    (hx : ∀ i, ∃ r : ℝ, x i = (r : EReal)) (hs : ∀ j, ∃ r : ℝ, s j = (r : EReal)) (hw : ∀ k, ∃ r : ℝ, w k = (r : EReal)) (hb : ∃ r : ℝ, b = (r : EReal)) :
    ∃ r : ℝ, refRow x s w b = (r : EReal) := by
  unfold refRow
  obtain ⟨S, hS⟩ := sum_real (fun k => mul_real (feat_real hx hs k) (hw k))
  obtain ⟨br, rfl⟩ := hb
  exact ⟨S + br, by rw [hS, EReal.coe_add]⟩

theorem kerRow_eq_refRow {O M2 : ℕ} (hM : M2 = O * 64) (o : Fin O)
    {x : Fin 64 → EReal} {s : Fin 2080 → EReal} (W : Fin O → Fin 135264 → EReal) {b : EReal}
    (wl : Fin 64 → EReal) (wq : Fin 2080 → EReal) (wc : Fin M2 → Fin 2080 → EReal)
    (hwl : ∀ i : Fin 64, wl i = W o ⟨i.val, by omega⟩)
    (hwq : ∀ j : Fin 2080, wq j = W o ⟨64 + j.val, by omega⟩)
    (hwc : ∀ (q : Fin M2) (j : Fin 2080), ∃ (hq : q.val / 64 < O) (hk : 2144 + (q.val % 64) * 2080 + j.val < 135264), wc q j = W ⟨q.val / 64, hq⟩ ⟨2144 + (q.val % 64) * 2080 + j.val, hk⟩)
    (hx : ∀ i, ∃ r : ℝ, x i = (r : EReal)) (hs : ∀ j, ∃ r : ℝ, s j = (r : EReal)) (hW : ∀ u k, ∃ r : ℝ, W u k = (r : EReal)) (hb : ∃ r : ℝ, b = (r : EReal)) :
    kerRow x s wl wq wc o.val b = refRow x s (W o) b := by
  subst hM
  unfold kerRow refRow
  refine congrArg (fun t => t + b) ?_
  rw [sum_split3 64 2080 (64 * 2080) 135264 (by norm_num) (fun k => feat x s k * W o k), sum_fin_mul 64 2080]
  refine congrArg₂ (fun t u => t + u) (congrArg₂ (fun t u => t + u) ?_ ?_) ?_
  · refine Finset.sum_congr rfl fun i _ => ?_
    beta_reduce
    rw [feat_lin, hwl]
  · refine Finset.sum_congr rfl fun j _ => ?_
    beta_reduce
    rw [feat_quad, hwq]
  · have step1 : ∀ q : Fin (O * 64),
        ((∑ j : Fin 2080, s j * wc q j) * x ⟨q.val % 64, Nat.mod_lt _ (by norm_num)⟩) * ind q.val o.val
          = if q.val / 64 = o.val then
              ((∑ j : Fin 2080, s j * wc q j) * x ⟨q.val % 64, Nat.mod_lt _ (by norm_num)⟩) else 0 := by
      intro q
      unfold ind
      split_ifs <;> simp
    rw [Finset.sum_congr rfl (fun q _ => step1 q),
      block_select O o (fun q => (∑ j : Fin 2080, s j * wc q j) * x ⟨q.val % 64, Nat.mod_lt _ (by norm_num)⟩)]
    refine Finset.sum_congr rfl fun i _ => ?_
    beta_reduce
    have hi := i.isLt
    have hxi : x ⟨(o.val * 64 + i.val) % 64, Nat.mod_lt _ (by norm_num)⟩ = x i := by
      congr 1
      apply Fin.ext
      dsimp only
      omega
    have hc : ∀ j, ∃ r : ℝ, wc ⟨o.val * 64 + i.val, mul_add_lt o i⟩ j = (r : EReal) := by
      intro j
      obtain ⟨hq, hk, e⟩ := hwc ⟨o.val * 64 + i.val, mul_add_lt o i⟩ j
      rw [e]
      exact hW _ _
    rw [hxi, sum_mul_real (hx i) hs hc]
    refine Finset.sum_congr rfl fun j _ => ?_
    have hj := j.isLt
    obtain ⟨hq, hk, e⟩ := hwc ⟨o.val * 64 + i.val, mul_add_lt o i⟩ j
    have e1 : (⟨(⟨o.val * 64 + i.val, mul_add_lt o i⟩ : Fin (O * 64)).val / 64, hq⟩ : Fin O) = o := by
      apply Fin.ext
      dsimp only
      omega
    have e2 : (⟨2144 + ((⟨o.val * 64 + i.val, mul_add_lt o i⟩ : Fin (O * 64)).val % 64) * 2080 + j.val, hk⟩ : Fin 135264)
        = ⟨64 + 2080 + (i.val * 2080 + j.val), by omega⟩ := by
      apply Fin.ext
      dsimp only
      omega
    rw [e, e1, e2, feat_cub x s i j _ (by dsimp only; omega)]

end Cert.Cubic

end
-- ==== Proof.KernelLayer.lean ====
/-
  Each region of the idealized kernel program computes the dense layer over the expanded features: its output
  function (the tiled arrangement on the weight pieces the host lines cut) equals, entry by entry, the inner product
  of the expanded feature row with the unit's weight row plus the bias, for real entries.
-/
import proofs.«120368_j16587163697192_2_alg».proof.Proof.KernelBlocks0
import proofs.«120368_j16587163697192_2_alg».proof.Proof.KernelBlocks1
import proofs.«120368_j16587163697192_2_alg».proof.Proof.KernelBlocks2
import proofs.«120368_j16587163697192_2_alg».proof.Proof.KernelHostIdx
import proofs.«120368_j16587163697192_2_alg».proof.Proof.CubicAlgebra

noncomputable section

namespace Cert.KernelIdeal.Layer

open Cert.KernelIdeal Cert.KernelIdeal.Host Idealize.ShloMosaic Idealize.ShloMosaic.ValueIdx

/-- Region 0's output function on the host lines' weight pieces is the dense layer over the expanded features, entry by
    entry, when the activations, the products, the weights and the bias are real. -/
theorem G0_apply (x : FVec Ideal S1024x64 .f32) (s : FVec Ideal S1024x2080 .f32) (W : FVec Ideal S64x135264 .f32) (b : FVec Ideal S64 .f32)
    (hx : ∀ i, ∃ r : ℝ, x i = (r : EReal)) (hs : ∀ i, ∃ r : ℝ, s i = (r : EReal)) (hW : ∀ i, ∃ r : ℝ, W i = (r : EReal))
    (hb : ∀ i, ∃ r : ℝ, b i = (r : EReal)) (r : Fin 1024) (o : Fin 64) :
    Cert.KernelIdeal.Blocks0.G x s (wlin64 W) (wquad64 W) (wcub64 W) (brow64 b) (ix2 r o)
      = Cert.Cubic.refRow (fun i => x (ix2 r i)) (fun j => s (ix2 r j)) (fun k => W (ix2 o k)) (b (ix1 o)) := by
  show Cert.Cubic.kerRow (M2 := 4096) (fun a => x (ix2 r a)) (fun a => s (ix2 r a)) (fun a => wlin64 W (ix2 o a)) (fun a => wquad64 W (ix2 o a))
      (fun q a => wcub64 W (ix2 q a)) o.val (brow64 b (ix2 (0 : Fin 1) o)) = _
  rw [brow64_apply]
  exact Cert.Cubic.kerRow_eq_refRow (O := 64) (M2 := 4096) rfl o (fun u k => W (ix2 u k)) _ _ _
    (fun i => wlin64_apply W o i) (fun j => wquad64_apply W o j) (fun q j => wcub64_apply W q j)
    (fun i => hx _) (fun j => hs _) (fun u k => hW _) (hb _)

/-- Region 1's output function on the host lines' weight pieces is the dense layer over the expanded features, entry by
    entry, when the activations, the products, the weights and the bias are real. -/
theorem G1_apply (x : FVec Ideal S1024x64 .f32) (s : FVec Ideal S1024x2080 .f32) (W : FVec Ideal S64x135264 .f32) (b : FVec Ideal S64 .f32)
    (hx : ∀ i, ∃ r : ℝ, x i = (r : EReal)) (hs : ∀ i, ∃ r : ℝ, s i = (r : EReal)) (hW : ∀ i, ∃ r : ℝ, W i = (r : EReal))
    (hb : ∀ i, ∃ r : ℝ, b i = (r : EReal)) (r : Fin 1024) (o : Fin 64) :
    Cert.KernelIdeal.Blocks1.G x s (wlin64 W) (wquad64 W) (wcub64 W) (brow64 b) (ix2 r o)
      = Cert.Cubic.refRow (fun i => x (ix2 r i)) (fun j => s (ix2 r j)) (fun k => W (ix2 o k)) (b (ix1 o)) := by
  show Cert.Cubic.kerRow (M2 := 4096) (fun a => x (ix2 r a)) (fun a => s (ix2 r a)) (fun a => wlin64 W (ix2 o a)) (fun a => wquad64 W (ix2 o a))
      (fun q a => wcub64 W (ix2 q a)) o.val (brow64 b (ix2 (0 : Fin 1) o)) = _
  rw [brow64_apply]
  exact Cert.Cubic.kerRow_eq_refRow (O := 64) (M2 := 4096) rfl o (fun u k => W (ix2 u k)) _ _ _
    (fun i => wlin64_apply W o i) (fun j => wquad64_apply W o j) (fun q j => wcub64_apply W q j)
    (fun i => hx _) (fun j => hs _) (fun u k => hW _) (hb _)

/-- Region 2's output function on the host lines' weight pieces is the dense layer over the expanded features, entry by
    entry, when the activations, the products, the weights and the bias are real. -/
theorem G2_apply (x : FVec Ideal S1024x64 .f32) (s : FVec Ideal S1024x2080 .f32) (W : FVec Ideal S10x135264 .f32) (b : FVec Ideal S10 .f32)
    (hx : ∀ i, ∃ r : ℝ, x i = (r : EReal)) (hs : ∀ i, ∃ r : ℝ, s i = (r : EReal)) (hW : ∀ i, ∃ r : ℝ, W i = (r : EReal))
    (hb : ∀ i, ∃ r : ℝ, b i = (r : EReal)) (r : Fin 1024) (o : Fin 10) :
    Cert.KernelIdeal.Blocks2.G x s (wlin10 W) (wquad10 W) (wcub10 W) (brow10 b) (ix2 r o)
      = Cert.Cubic.refRow (fun i => x (ix2 r i)) (fun j => s (ix2 r j)) (fun k => W (ix2 o k)) (b (ix1 o)) := by
  show Cert.Cubic.kerRow (M2 := 640) (fun a => x (ix2 r a)) (fun a => s (ix2 r a)) (fun a => wlin10 W (ix2 o a)) (fun a => wquad10 W (ix2 o a))
      (fun q a => wcub10 W (ix2 q a)) o.val (brow10 b (ix2 (0 : Fin 1) o)) = _
  rw [brow10_apply]
  exact Cert.Cubic.kerRow_eq_refRow (O := 10) (M2 := 640) rfl o (fun u k => W (ix2 u k)) _ _ _
    (fun i => wlin10_apply W o i) (fun j => wquad10_apply W o j) (fun q j => wcub10_apply W q j)
    (fun i => hx _) (fun j => hs _) (fun u k => hW _) (hb _)

end Cert.KernelIdeal.Layer

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.RefLayerApply.lean ====
/-
  A layer of the reference read at one entry.

  Entry (r, o) of a layer is the sum over the 135264 expanded features of row r of feature times weight, plus the bias
  of unit o: the product of the expanded features with the transposed weights is, entry by entry, that sum; the bias
  is repeated down the rows. The expanded features of row r are read stretch by stretch: the first 64 are the row's
  activations, the next 2080 its products, and position 2144 + q of the rest is the entry (r, q / 2080, q % 2080) of
  the three-axis array of the products x(r, i) · s(r, j), that is x(r, q / 2080) · s(r, q % 2080): a change of shape
  keeps the row-major position, and r · 133120 + q = (r · 64 + i) · 2080 + j when q = i · 2080 + j.
-/
import proofs.«120368_j16587163697192_2_alg».proof.Proof.RefLayer
import proofs.«120368_j16587163697192_2_alg».proof.Proof.CubicSpec
import proofs.«120368_j16587163697192_2_alg».proof.Proof.LibConcatRead
import proofs.«120368_j16587163697192_2_alg».proof.Proof.LibPlainDotGeneral
import proofs.«120368_j16587163697192_2_alg».proof.Proof.LibBiasRows
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The cubic stretch at row r, position i · 2080 + j: the product x(r, i) · s(r, j). -/
theorem cubes_apply (x : FVec Ideal S1024x64 .f32) (s : FVec Ideal S1024x2080 .f32) (r : Fin 1024) (i : Fin 64)
    (j : Fin 2080) (q : Fin 133120) (hq : q.val = i.val * 2080 + j.val) :
    cubes x s (ix2 r q) = x (ix2 r i) * s (ix2 r j) := by
  unfold cubes
  rw [shapeCast_apply _ shapeCasts_S1024x64x2080_S1024x133120 (ix2 r q) (ix3 r i j) (by
    rw [Shape.rowMajor_val_three, Shape.rowMajor_val_two]
    show (r.val * 64 + i.val) * 2080 + j.val = r.val * 133120 + q.val
    rw [hq]; ring)]
  rw [mulf_apply]
  congr 1
  · refine (broadcastInDim_apply _ bcast_S1024x64x1_S1024x64x2080_0_1_2 _ (ix3 r i j) (ix3 r i (0 : Fin 1)) (fun a => ?_)).trans
      (broadcastInDim_apply _ bcast_S1024x64_S1024x64x1_0_1 x (ix3 r i (0 : Fin 1)) (ix2 r i) (fun a => ?_))
    · match a with
      | ⟨0, _⟩ => rfl
      | ⟨1, _⟩ => rfl
      | ⟨2, _⟩ => rfl
    · match a with
      | ⟨0, _⟩ => rfl
      | ⟨1, _⟩ => rfl
  · refine (broadcastInDim_apply _ bcast_S1024x1x2080_S1024x64x2080_0_1_2 _ (ix3 r i j) (ix3 r (0 : Fin 1) j) (fun a => ?_)).trans
      (broadcastInDim_apply _ bcast_S1024x2080_S1024x1x2080_0_2 s (ix3 r (0 : Fin 1) j) (ix2 r j) (fun a => ?_))
    · match a with
      | ⟨0, _⟩ => rfl
      | ⟨1, _⟩ => rfl
      | ⟨2, _⟩ => rfl
    · match a with
      | ⟨0, _⟩ => rfl
      | ⟨1, _⟩ => rfl

/-- The expanded features of row r are the features of the row's activations and products. -/
theorem expand_apply (x : FVec Ideal S1024x64 .f32) (s : FVec Ideal S1024x2080 .f32) (r : Fin 1024) (k : Fin 135264) :
    expand x s (ix2 r k) = Cert.Cubic.feat (fun i => x (ix2 r i)) (fun j => s (ix2 r j)) k := by
  have hk := k.isLt
  unfold expand Cert.Cubic.feat
  split_ifs with h h2
  · exact concat3_cols_first x s (cubes x s) _ r ⟨k.val, h⟩ k rfl
  · exact concat3_cols_second x s (cubes x s) _ r ⟨k.val - 64, by omega⟩ k (by show k.val = 64 + (k.val - 64); omega)
  · rw [concat3_cols_third x s (cubes x s) _ r ⟨k.val - 2144, by omega⟩ k (by show k.val = 64 + 2080 + (k.val - 2144); omega),
      cubes_apply x s r ⟨(k.val - 2144) / 2080, by omega⟩ ⟨(k.val - 2144) % 2080, Nat.mod_lt _ (by norm_num)⟩ ⟨k.val - 2144, by omega⟩
        (by show k.val - 2144 = (k.val - 2144) / 2080 * 2080 + (k.val - 2144) % 2080; omega)]

/-- Entry (r, o) of the 64-unit layer is output unit o of the dense layer over row r's expanded features. -/
theorem layer64_apply (x : FVec Ideal S1024x64 .f32) (s : FVec Ideal S1024x2080 .f32) (W : FVec Ideal S64x135264 .f32)
    (b : FVec Ideal S64 .f32) (r : Fin 1024) (o : Fin 64) :
    layer64 x s W b (ix2 r o)
      = Cert.Cubic.refRow (fun i => x (ix2 r i)) (fun j => s (ix2 r j)) (fun k => W (ix2 o k)) (b (ix1 o)) := by
  have hdot : Host.dotGeneral dot_S1024x135264_S135264x64_S1024x64_1_0_0_1_n_n none (expand x s)
      (transpose S135264x64 [1, 0] W transposes_S64x135264_S135264x64_1_0) (ix2 r o)
        = ∑ c : Fin 135264, expand x s (ix2 r c) * transpose S135264x64 [1, 0] W transposes_S64x135264_S135264x64_1_0 (ix2 c o) :=
    dotGeneral_plain_apply _ none (expand x s) (transpose S135264x64 [1, 0] W transposes_S64x135264_S135264x64_1_0) r o
  unfold layer64 Cert.Cubic.refRow
  rw [addf_apply, hdot, bias_rows_apply b bcast_S64_S1x64_1 bcast_S1x64_S1024x64_0_1 r o]
  refine congrArg (fun t => t + b (ix1 o)) ?_
  refine Finset.sum_congr rfl fun c _ => ?_
  rw [expand_apply, transpose_ix2_apply]

/-- Entry (r, o) of the 10-unit layer is output unit o of the dense layer over row r's expanded features. -/
theorem layer10_apply (x : FVec Ideal S1024x64 .f32) (s : FVec Ideal S1024x2080 .f32) (W : FVec Ideal S10x135264 .f32)
    (b : FVec Ideal S10 .f32) (r : Fin 1024) (o : Fin 10) :
    layer10 x s W b (ix2 r o)
      = Cert.Cubic.refRow (fun i => x (ix2 r i)) (fun j => s (ix2 r j)) (fun k => W (ix2 o k)) (b (ix1 o)) := by
  have hdot : Host.dotGeneral dot_S1024x135264_S135264x10_S1024x10_1_0_0_1_n_n none (expand x s)
      (transpose S135264x10 [1, 0] W transposes_S10x135264_S135264x10_1_0) (ix2 r o)
        = ∑ c : Fin 135264, expand x s (ix2 r c) * transpose S135264x10 [1, 0] W transposes_S10x135264_S135264x10_1_0 (ix2 c o) :=
    dotGeneral_plain_apply _ none (expand x s) (transpose S135264x10 [1, 0] W transposes_S10x135264_S135264x10_1_0) r o
  unfold layer10 Cert.Cubic.refRow
  rw [addf_apply, hdot, bias_rows_apply b bcast_S10_S1x10_1 bcast_S1x10_S1024x10_0_1 r o]
  refine congrArg (fun t => t + b (ix1 o)) ?_
  refine Finset.sum_congr rfl fun c _ => ?_
  rw [expand_apply, transpose_ix2_apply]

end Cert.ReferenceIdeal.RefValue

end
-- ==== Proof.Agree.lean ====
/-
  One layer agrees: on real activations, weights and bias, a region's output function of the idealized kernel program on
  the weight pieces the host lines cut is the reference's dense layer over the expanded features — both are, entry by
  entry, the inner product of the expanded feature row with the unit's weight row plus the bias — and that array
  is real again, so the next layer may start from it. The pairwise products are one function of the activations and
  the two vectors of column numbers in both programs, each entry a product of two activations.
-/
import proofs.«120368_j16587163697192_2_alg».proof.Proof.KernelLayer
import proofs.«120368_j16587163697192_2_alg».proof.Proof.RefLayer
import proofs.«120368_j16587163697192_2_alg».proof.Proof.RefLayerApply

noncomputable section

namespace Cert.Agree

open Idealize.ShloMosaic Idealize.ShloMosaic.ValueIdx

/-- The two programs spell the pairwise products with the same operations. -/
theorem pairs_same (x : FVec Ideal Cert.KernelIdeal.S1024x64 .f32) (u v : IVec Cert.KernelIdeal.S2080 32) :
    Cert.KernelIdeal.Host.pairs x u v = Cert.ReferenceIdeal.RefValue.pairs x u v := rfl

/-- Products of real activations are real. -/
theorem pairs_real (x : FVec Ideal Cert.ReferenceIdeal.S1024x64 .f32) (u v : IVec Cert.ReferenceIdeal.S2080 32) (hx : ∀ i, ∃ r : ℝ, x i = (r : EReal)) :
    ∀ i, ∃ r : ℝ, Cert.ReferenceIdeal.RefValue.pairs x u v i = (r : EReal) := fun i => by
  obtain ⟨j, k, h⟩ := Cert.ReferenceIdeal.RefValue.pairs_mul x u v i
  obtain ⟨a, ha⟩ := hx j
  obtain ⟨b, hb⟩ := hx k
  exact ⟨a * b, by rw [h, ha, hb, EReal.coe_mul]⟩

/-- A layer of 64 units on real data is real. -/
theorem layer64_real (x : FVec Ideal Cert.ReferenceIdeal.S1024x64 .f32) (s : FVec Ideal Cert.ReferenceIdeal.S1024x2080 .f32) (W : FVec Ideal Cert.ReferenceIdeal.S64x135264 .f32)
    (b : FVec Ideal Cert.ReferenceIdeal.S64 .f32) (hx : ∀ i, ∃ r : ℝ, x i = (r : EReal)) (hs : ∀ i, ∃ r : ℝ, s i = (r : EReal))
    (hW : ∀ i, ∃ r : ℝ, W i = (r : EReal)) (hb : ∀ i, ∃ r : ℝ, b i = (r : EReal)) :
    ∀ i, ∃ r : ℝ, Cert.ReferenceIdeal.RefValue.layer64 x s W b i = (r : EReal) := fun i => by
  obtain ⟨r, o, rfl⟩ : ∃ (r : Fin 1024) (o : Fin 64), i = ix2 r o := ⟨i 0, i 1, eq_ix2 i⟩
  rw [Cert.ReferenceIdeal.RefValue.layer64_apply]
  exact Cert.Cubic.refRow_real (fun _ => hx _) (fun _ => hs _) (fun _ => hW _) (hb _)

/-- Regions 0 and 1 against the reference's layer of 64 units. -/
theorem agree0 (x : FVec Ideal Cert.KernelIdeal.S1024x64 .f32) (u v : IVec Cert.KernelIdeal.S2080 32) (W : FVec Ideal Cert.KernelIdeal.S64x135264 .f32) (b : FVec Ideal Cert.KernelIdeal.S64 .f32)
    (hx : ∀ i, ∃ r : ℝ, x i = (r : EReal)) (hW : ∀ i, ∃ r : ℝ, W i = (r : EReal)) (hb : ∀ i, ∃ r : ℝ, b i = (r : EReal)) :
    Cert.KernelIdeal.Blocks0.G x (Cert.KernelIdeal.Host.pairs x u v) (Cert.KernelIdeal.Host.wlin64 W) (Cert.KernelIdeal.Host.wquad64 W) (Cert.KernelIdeal.Host.wcub64 W) (Cert.KernelIdeal.Host.brow64 b)
      = Cert.ReferenceIdeal.RefValue.layer64 x (Cert.ReferenceIdeal.RefValue.pairs x u v) W b := by
  funext i
  obtain ⟨r, o, rfl⟩ : ∃ (r : Fin 1024) (o : Fin 64), i = ix2 r o := ⟨i 0, i 1, eq_ix2 i⟩
  rw [pairs_same]
  exact (Cert.KernelIdeal.Layer.G0_apply x _ W b hx (pairs_real x u v hx) hW hb r o).trans (Cert.ReferenceIdeal.RefValue.layer64_apply x _ W b r o).symm

theorem agree1 (x : FVec Ideal Cert.KernelIdeal.S1024x64 .f32) (u v : IVec Cert.KernelIdeal.S2080 32) (W : FVec Ideal Cert.KernelIdeal.S64x135264 .f32) (b : FVec Ideal Cert.KernelIdeal.S64 .f32)
    (hx : ∀ i, ∃ r : ℝ, x i = (r : EReal)) (hW : ∀ i, ∃ r : ℝ, W i = (r : EReal)) (hb : ∀ i, ∃ r : ℝ, b i = (r : EReal)) :
    Cert.KernelIdeal.Blocks1.G x (Cert.KernelIdeal.Host.pairs x u v) (Cert.KernelIdeal.Host.wlin64 W) (Cert.KernelIdeal.Host.wquad64 W) (Cert.KernelIdeal.Host.wcub64 W) (Cert.KernelIdeal.Host.brow64 b)
      = Cert.ReferenceIdeal.RefValue.layer64 x (Cert.ReferenceIdeal.RefValue.pairs x u v) W b := by
  funext i
  obtain ⟨r, o, rfl⟩ : ∃ (r : Fin 1024) (o : Fin 64), i = ix2 r o := ⟨i 0, i 1, eq_ix2 i⟩
  rw [pairs_same]
  exact (Cert.KernelIdeal.Layer.G1_apply x _ W b hx (pairs_real x u v hx) hW hb r o).trans (Cert.ReferenceIdeal.RefValue.layer64_apply x _ W b r o).symm

/-- Region 2 against the reference's layer of 10 units. -/
theorem agree2 (x : FVec Ideal Cert.KernelIdeal.S1024x64 .f32) (u v : IVec Cert.KernelIdeal.S2080 32) (W : FVec Ideal Cert.KernelIdeal.S10x135264 .f32) (b : FVec Ideal Cert.KernelIdeal.S10 .f32)
    (hx : ∀ i, ∃ r : ℝ, x i = (r : EReal)) (hW : ∀ i, ∃ r : ℝ, W i = (r : EReal)) (hb : ∀ i, ∃ r : ℝ, b i = (r : EReal)) :
    Cert.KernelIdeal.Blocks2.G x (Cert.KernelIdeal.Host.pairs x u v) (Cert.KernelIdeal.Host.wlin10 W) (Cert.KernelIdeal.Host.wquad10 W) (Cert.KernelIdeal.Host.wcub10 W) (Cert.KernelIdeal.Host.brow10 b)
      = Cert.ReferenceIdeal.RefValue.layer10 x (Cert.ReferenceIdeal.RefValue.pairs x u v) W b := by
  funext i
  obtain ⟨r, o, rfl⟩ : ∃ (r : Fin 1024) (o : Fin 10), i = ix2 r o := ⟨i 0, i 1, eq_ix2 i⟩
  rw [pairs_same]
  exact (Cert.KernelIdeal.Layer.G2_apply x _ W b hx (pairs_real x u v hx) hW hb r o).trans (Cert.ReferenceIdeal.RefValue.layer10_apply x _ W b r o).symm

end Cert.Agree

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.FiniteInputs.lean ====
/-
  Finite inputs are real numbers.

  The precondition compares, entry by entry, |a| = max(a, −a) with the float word of +∞, takes the conjunction of the
  comparison bits over each whole array, and the conjunction of the seven results. If that final bit is 1, each of
  the seven conjunctions is 1, so every comparison bit is 1, so every entry of every array is the image of a real
  number in the extended reals.
-/
import proofs.«120368_j16587163697192_2_alg».proof.Pre_finite_inputs
import proofs.«120368_j16587163697192_2_alg».proof.Proof.LibFiniteEntry
import Idealize.ShloMosaic.PureOps.Ideal
import Idealize.ShloMosaic.Lib.ReduceAll
import Idealize.ShloMosaic.Lib.ValueIdx

noncomputable section

namespace Cert.Finite

open Idealize.ShloMosaic

/-- The scalar shape has one index. -/
instance : Subsingleton (⟨0, ![]⟩ : Shape).Idx := ⟨fun _ _ => funext fun d => d.elim0⟩

/-- One array: if the conjunction over all entries of "|a| < +∞" is 1, every entry of `a` is a real number. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf a) (broadcastInDim s ![] hb (constant (F := Ideal) (⟨0, ![]⟩ : Shape) .f32 0x7F800000#32)))
          (constantI (⟨0, ![]⟩ : Shape) 1 1#1) hr hu ValueIdx.ix0 = 1#1) :
    ∀ i, ∃ r : ℝ, a i = (r : EReal) := by
  intro i
  have h1 := Host.reduce_andi_all _ _ hr hu ValueIdx.ix0 e i
  exact Ideal.real_of_abs_lt_inf (a i) h1

/-- The seven arrays: if the printed predicate is 1, every entry of every argument is a real number. -/
theorem real_of_pre [Cert.Pre_finite_inputs.Facts]
    (a0 : FVec Ideal Cert.Pre_finite_inputs.S1024x64 .f32) (a1 : FVec Ideal Cert.Pre_finite_inputs.S64x135264 .f32) (a2 : FVec Ideal Cert.Pre_finite_inputs.S64 .f32)
    (a3 : FVec Ideal Cert.Pre_finite_inputs.S64x135264 .f32) (a4 : FVec Ideal Cert.Pre_finite_inputs.S64 .f32)
    (a5 : FVec Ideal Cert.Pre_finite_inputs.S10x135264 .f32) (a6 : FVec Ideal Cert.Pre_finite_inputs.S10 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h0 := congrFun h ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6⟩

end Cert.Finite

end
-- ==== Proof.Bridge.lean ====
/-
  The two idealized programs end with equal results. Both compute three layers in a row; layer by layer the
  activations entering the layer agree and are real (the arguments by the precondition, a layer's result because a
  dense layer on real data is real), the two vectors of column numbers agree (the same integer host lines in both
  programs), the weights and the bias are the same real arguments, and on such data a region's output array is the
  reference's layer (the tiled arrangement against the expanded features: distributivity over the reals).
-/
import proofs.«120368_j16587163697192_2_alg».proof.Defs
import proofs.«120368_j16587163697192_2_alg».proof.Proof.Gen.Kernel
import proofs.«120368_j16587163697192_2_alg».proof.Proof.Gen.KernelIdeal
import proofs.«120368_j16587163697192_2_alg».proof.Proof.Gen.ReferenceIdeal
import proofs.«120368_j16587163697192_2_alg».proof.Proof.Gen.Pre_finite_inputs
import proofs.«120368_j16587163697192_2_alg».proof.Proof.KernelRun
import proofs.«120368_j16587163697192_2_alg».proof.Proof.KernelResult
import proofs.«120368_j16587163697192_2_alg».proof.Proof.IdxSame0
import proofs.«120368_j16587163697192_2_alg».proof.Proof.IdxSame1
import proofs.«120368_j16587163697192_2_alg».proof.Proof.IdxSame2
import proofs.«120368_j16587163697192_2_alg».proof.Proof.RefChain
import proofs.«120368_j16587163697192_2_alg».proof.Proof.RefArgs
import proofs.«120368_j16587163697192_2_alg».proof.Proof.Agree
import proofs.«120368_j16587163697192_2_alg».proof.Proof.FiniteInputs

set_option maxRecDepth 65536

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's result from launch contents that agree with the kernel's on real arguments is the kernel's. -/
theorem result_same (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    after (Cert.ReferenceIdeal.RefRun.ops (F := Ideal)) (launchContents m' c) (Cert.ReferenceIdeal.main_v140 : DevRef Cert.ReferenceIdeal.τ Cert.ReferenceIdeal.sig)
      = Cert.KernelIdeal.Gen.W54 (F := Ideal) m ρ c (Proc.devRef .tc Cert.KernelIdeal.main_v128) := by
  obtain ⟨f0, f1, f2, f3, f4, f5, f6⟩ := Cert.Finite.real_of_pre _ _ _ _ _ _ _ (hpre c)
  rw [Cert.ReferenceIdeal.RefChain.result_eq, Cert.KernelIdeal.Result.W54_out]
  -- the launch contents of the reference's arguments are the kernel's
  have e0 : launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := h0
  have e1 : launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := h1
  have e2 : launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := h2
  have e3 : launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := h3
  have e4 : launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := h4
  have e5 : launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) := h5
  have e6 : launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6) := h6
  -- layer 0
  have a1 : Cert.ReferenceIdeal.RefChain.h1 (launchContents m' c) = Cert.KernelIdeal.Result.h1 m ρ c := by
    unfold Cert.ReferenceIdeal.RefChain.h1 Cert.KernelIdeal.Result.h1
    rw [e0, e1, e2, Cert.IdxSame.u0 m ρ c (launchContents m' c), Cert.IdxSame.v0 m ρ c (launchContents m' c)]
    exact (Cert.Agree.agree0 _ _ _ _ _ f0 f1 f2).symm
  have r1 : ∀ i, ∃ r : ℝ, Cert.KernelIdeal.Result.h1 m ρ c i = (r : EReal) := by
    rw [← a1]; unfold Cert.ReferenceIdeal.RefChain.h1; rw [e0, e1, e2]
    exact Cert.Agree.layer64_real _ _ _ _ f0 (Cert.Agree.pairs_real _ _ _ f0) f1 f2
  -- layer 1
  have a2 : Cert.ReferenceIdeal.RefChain.h2 (launchContents m' c) = Cert.KernelIdeal.Result.h2 m ρ c := by
    unfold Cert.ReferenceIdeal.RefChain.h2 Cert.KernelIdeal.Result.h2
    rw [a1, e3, e4, Cert.IdxSame.u1 m ρ c (Cert.ReferenceIdeal.RefChain.U2 (launchContents m' c)), Cert.IdxSame.v1 m ρ c (Cert.ReferenceIdeal.RefChain.U2 (launchContents m' c))]
    exact (Cert.Agree.agree1 _ _ _ _ _ r1 f3 f4).symm
  have r2 : ∀ i, ∃ r : ℝ, Cert.KernelIdeal.Result.h2 m ρ c i = (r : EReal) := by
    rw [← a2]; unfold Cert.ReferenceIdeal.RefChain.h2; rw [a1, e3, e4]
    exact Cert.Agree.layer64_real _ _ _ _ r1 (Cert.Agree.pairs_real _ _ _ r1) f3 f4
  -- layer 2
  rw [a2, e5, e6]
  unfold Cert.KernelIdeal.Result.h3
  rw [Cert.IdxSame.u2 m ρ c (Cert.ReferenceIdeal.RefChain.U4 (launchContents m' c)), Cert.IdxSame.v2 m ρ c (Cert.ReferenceIdeal.RefChain.U4 (launchContents m' c))]
  exact (Cert.Agree.agree2 _ _ _ _ _ r2 f5 f6).symm

end Cert.Bridge

end
-- ==== Proof.lean ====
/-
  The certificate of a three-layer network of cubic-feature layers: each layer expands a row x of 64 activations to
  the 135264 features [ x | s | x ⊗ s ] (s the 2080 products x_i·x_j, i ≤ j) and applies a dense layer. The reference
  forms the expansion and multiplies by the whole weight matrix; the kernel never forms it: per layer one region
  computes x·Wlinᵀ + s·Wquadᵀ + Σ_q (s·Wcubᵀ)_q · x_{q mod 64} · [q div 64 = o] + b on row blocks of 256, the weight
  matrix cut into its linear, quadratic and regrouped cubic pieces by the host lines before the region.

  The three frames: the two kernel programs by their generated frame proofs; the reference, a straight line of host
  operations, by its run with the results dropped. The idealization rewrote nothing. The two idealized programs end
  with equal results on finite inputs: module Bridge.
-/
import proofs.«120368_j16587163697192_2_alg».proof.Defs
import proofs.«120368_j16587163697192_2_alg».proof.Proof.Gen.Kernel
import proofs.«120368_j16587163697192_2_alg».proof.Proof.Gen.Kernel.Frame
import proofs.«120368_j16587163697192_2_alg».proof.Proof.Gen.KernelIdeal
import proofs.«120368_j16587163697192_2_alg».proof.Proof.Gen.KernelIdeal.Frame
import proofs.«120368_j16587163697192_2_alg».proof.Proof.Gen.ReferenceIdeal
import proofs.«120368_j16587163697192_2_alg».proof.Proof.Gen.Pre_finite_inputs
import proofs.«120368_j16587163697192_2_alg».proof.Proof.Bridge

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference runs, and no host line writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefChain.kept_arg0 _), (h c Cert.ReferenceIdeal.main_arg1).trans (Cert.ReferenceIdeal.RefChain.kept_arg1 _),
     (h c Cert.ReferenceIdeal.main_arg2).trans (Cert.ReferenceIdeal.RefChain.kept_arg2 _), (h c Cert.ReferenceIdeal.main_arg3).trans (Cert.ReferenceIdeal.RefChain.kept_arg3 _),
     (h c Cert.ReferenceIdeal.main_arg4).trans (Cert.ReferenceIdeal.RefChain.kept_arg4 _), (h c Cert.ReferenceIdeal.main_arg5).trans (Cert.ReferenceIdeal.RefChain.kept_arg5 _),
     (h c Cert.ReferenceIdeal.main_arg6).trans (Cert.ReferenceIdeal.RefChain.kept_arg6 _)⟩)
    (Cert.ReferenceIdeal.RefRun.run_main (F := Ideal) m ρ)

theorem preserves : Cert.preserves_Kernel_KernelIdeal := trivial

/-- Both idealized programs run; the kernel's result array ends at the last region's output, the reference's at the
    third layer's, and these agree on finite inputs. -/
theorem algebraic : Cert.algebraic_KernelIdeal_ReferenceIdeal := by
  intro m ρ m' ρ' hpre hagree
  refine ⟨fun c => Cert.KernelIdeal.Gen.W54 (F := Ideal) m ρ c (Proc.devRef .tc Cert.KernelIdeal.main_v128), Cert.KernelIdeal.Run.run_main m ρ, ?_⟩
  refine (θ_run Cert.ReferenceIdeal.defs _ _).mono (fun r h c => ?_) (Cert.ReferenceIdeal.RefRun.run_main (F := Ideal) m' ρ')
  obtain ⟨h0, h1, h2, h3, h4, h5, h6⟩ := hagree c
  exact ⟨(h c Cert.ReferenceIdeal.main_v140).trans (Cert.Bridge.result_same m ρ m' c hpre h0 h1 h2 h3 h4 h5 h6),
    (h c Cert.ReferenceIdeal.main_arg0).trans (Cert.ReferenceIdeal.RefChain.kept_arg0 _), (h c Cert.ReferenceIdeal.main_arg1).trans (Cert.ReferenceIdeal.RefChain.kept_arg1 _),
    (h c Cert.ReferenceIdeal.main_arg2).trans (Cert.ReferenceIdeal.RefChain.kept_arg2 _), (h c Cert.ReferenceIdeal.main_arg3).trans (Cert.ReferenceIdeal.RefChain.kept_arg3 _),
    (h c Cert.ReferenceIdeal.main_arg4).trans (Cert.ReferenceIdeal.RefChain.kept_arg4 _), (h c Cert.ReferenceIdeal.main_arg5).trans (Cert.ReferenceIdeal.RefChain.kept_arg5 _),
    (h c Cert.ReferenceIdeal.main_arg6).trans (Cert.ReferenceIdeal.RefChain.kept_arg6 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
